-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x8 : Shape := ⟨2, ![1048576, 8]⟩
abbrev S1048576x2 : Shape := ⟨2, ![1048576, 2]⟩
abbrev S4x2x4 : Shape := ⟨3, ![4, 2, 4]⟩
abbrev S6x2x4 : Shape := ⟨3, ![6, 2, 4]⟩
abbrev S6x1x4 : Shape := ⟨3, ![6, 1, 4]⟩
abbrev S4x1x4 : Shape := ⟨3, ![4, 1, 4]⟩
abbrev S4x4x1 : Shape := ⟨3, ![4, 4, 1]⟩
abbrev S6x4x1 : Shape := ⟨3, ![6, 4, 1]⟩
abbrev S6x1x1 : Shape := ⟨3, ![6, 1, 1]⟩
abbrev S4x1x1 : Shape := ⟨3, ![4, 1, 1]⟩
abbrev S4x4 : Shape := ⟨2, ![4, 4]⟩
abbrev S4 : Shape := ⟨1, ![4]⟩
abbrev S8x64 : Shape := ⟨2, ![8, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S64x1 : Shape := ⟨2, ![64, 1]⟩
abbrev S1 : Shape := ⟨1, ![1]⟩
abbrev S_ : Shape := ⟨0, ![]⟩

class Facts : Prop where
  bcast_S_S1048576x8 : S_.BroadcastsInDim S1048576x8 (![] : Fin 0 → Fin S1048576x8.rank)
  reducesTo_S1048576x8_S_d0_1 : S1048576x8.ReducesTo [0, 1] S_
  h_S_ : 0 < S_.numel
  bcast_S_S1048576x2 : S_.BroadcastsInDim S1048576x2 (![] : Fin 0 → Fin S1048576x2.rank)
  reducesTo_S1048576x2_S_d0_1 : S1048576x2.ReducesTo [0, 1] S_
  bcast_S_S4x2x4 : S_.BroadcastsInDim S4x2x4 (![] : Fin 0 → Fin S4x2x4.rank)
  reducesTo_S4x2x4_S_d0_1_2 : S4x2x4.ReducesTo [0, 1, 2] S_
  bcast_S_S6x2x4 : S_.BroadcastsInDim S6x2x4 (![] : Fin 0 → Fin S6x2x4.rank)
  reducesTo_S6x2x4_S_d0_1_2 : S6x2x4.ReducesTo [0, 1, 2] S_
  bcast_S_S6x1x4 : S_.BroadcastsInDim S6x1x4 (![] : Fin 0 → Fin S6x1x4.rank)
  reducesTo_S6x1x4_S_d0_1_2 : S6x1x4.ReducesTo [0, 1, 2] S_
  bcast_S_S4x1x4 : S_.BroadcastsInDim S4x1x4 (![] : Fin 0 → Fin S4x1x4.rank)
  reducesTo_S4x1x4_S_d0_1_2 : S4x1x4.ReducesTo [0, 1, 2] S_
  bcast_S_S4x4x1 : S_.BroadcastsInDim S4x4x1 (![] : Fin 0 → Fin S4x4x1.rank)
  reducesTo_S4x4x1_S_d0_1_2 : S4x4x1.ReducesTo [0, 1, 2] S_
  bcast_S_S6x4x1 : S_.BroadcastsInDim S6x4x1 (![] : Fin 0 → Fin S6x4x1.rank)
  reducesTo_S6x4x1_S_d0_1_2 : S6x4x1.ReducesTo [0, 1, 2] S_
  bcast_S_S6x1x1 : S_.BroadcastsInDim S6x1x1 (![] : Fin 0 → Fin S6x1x1.rank)
  reducesTo_S6x1x1_S_d0_1_2 : S6x1x1.ReducesTo [0, 1, 2] S_
  bcast_S_S4x1x1 : S_.BroadcastsInDim S4x1x1 (![] : Fin 0 → Fin S4x1x1.rank)
  reducesTo_S4x1x1_S_d0_1_2 : S4x1x1.ReducesTo [0, 1, 2] S_
  bcast_S_S4x4 : S_.BroadcastsInDim S4x4 (![] : Fin 0 → Fin S4x4.rank)
  reducesTo_S4x4_S_d0_1 : S4x4.ReducesTo [0, 1] S_
  bcast_S_S4 : S_.BroadcastsInDim S4 (![] : Fin 0 → Fin S4.rank)
  reducesTo_S4_S_d0 : S4.ReducesTo [0] S_
  bcast_S_S8x64 : S_.BroadcastsInDim S8x64 (![] : Fin 0 → Fin S8x64.rank)
  reducesTo_S8x64_S_d0_1 : S8x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg21 : FVec F S64 .f32) (main_arg22 : FVec F S64x1 .f32) (main_arg23 : FVec F S1 .f32) (main_v98 : IVec S_ 1) (main_v101 : IVec S64x64 1) (main_c_39 : IVec S_ 1) : IVec S_ 1 :=
  let main_v102 : IVec S_ 1 := (fun x v => Host.reduce IntOp.andi x v reducesTo_S64x64_S_d0_1 h_S_) main_v101 main_c_39
  let main_v103 : IVec S_ 1 := andi main_v98 main_v102
  let main_v104 : FVec F S64 .f32 := Host.absf main_arg21
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x1 .f32 := Host.absf main_arg22
  let main_cst_42 : FVec F S_ .f32 := constant S_ .f32 0x7F800000#32
  let main_v110 : FVec F S64x1 .f32 := broadcastInDim S64x1 ![] bcast_S_S64x1 main_cst_42
  let main_v111 : IVec S64x1 1 := cmpf .olt main_v109 main_v110
  let main_c_43 : IVec S_ 1 := constantI S_ 1 1#1
  let main_v112 : IVec S_ 1 := (fun x v => Host.reduce IntOp.andi x v reducesTo_S64x1_S_d0_1 h_S_) main_v111 main_c_43
  let main_v113 : IVec S_ 1 := andi main_v108 main_v112
  let main_v114 : FVec F S1 .f32 := Host.absf main_arg23
  let main_cst_44 : FVec F S_ .f32 := constant S_ .f32 0x7F800000#32
  let main_v115 : FVec F S1 .f32 := broadcastInDim S1 ![] bcast_S_S1 main_cst_44
  let main_v116 : IVec S1 1 := cmpf .olt main_v114 main_v115
  let main_c_45 : IVec S_ 1 := constantI S_ 1 1#1
  let main_v117 : IVec S_ 1 := (fun x v => Host.reduce IntOp.andi x v reducesTo_S1_S_d0 h_S_) main_v116 main_c_45
  let main_v118 : IVec S_ 1 := andi main_v113 main_v117
  main_v118

def fn_part5 {F : FTy → Type} [FloatOps F] (main_arg18 : FVec F S2 .f32) (main_arg19 : FVec F S2 .f32) (main_arg20 : FVec F S64x64 .f32) (main_arg21 : FVec F S64 .f32) (main_arg22 : FVec F S64x1 .f32) (main_arg23 : FVec F S1 .f32) (main_v83 : IVec S_ 1) (main_v84 : FVec F S64x2 .f32) (main_cst_32 : FVec F S_ .f32) : IVec S_ 1 :=
  let main_v85 : FVec F S64x2 .f32 := broadcastInDim S64x2 ![] bcast_S_S64x2 main_cst_32
  let main_v86 : IVec S64x2 1 := cmpf .olt main_v84 main_v85
  let main_c_33 : IVec S_ 1 := constantI S_ 1 1#1
  let main_v87 : IVec S_ 1 := (fun x v => Host.reduce IntOp.andi x v reducesTo_S64x2_S_d0_1 h_S_) main_v86 main_c_33
  let main_v88 : IVec S_ 1 := andi main_v83 main_v87
  let main_v89 : FVec F S2 .f32 := Host.absf main_arg18
  let main_cst_34 : FVec F S_ .f32 := constant S_ .f32 0x7F800000#32
  let main_v90 : FVec F S2 .f32 := broadcastInDim S2 ![] bcast_S_S2 main_cst_34
  let main_v91 : IVec S2 1 := cmpf .olt main_v89 main_v90
  let main_c_35 : IVec S_ 1 := constantI S_ 1 1#1
  let main_v92 : IVec S_ 1 := (fun x v => Host.reduce IntOp.andi x v reducesTo_S2_S_d0 h_S_) main_v91 main_c_35
  let main_v93 : IVec S_ 1 := andi main_v88 main_v92
  let main_v94 : FVec F S2 .f32 := Host.absf main_arg19
  let main_cst_36 : FVec F S_ .f32 := constant S_ .f32 0x7F800000#32
  let main_v95 : FVec F S2 .f32 := broadcastInDim S2 ![] bcast_S_S2 main_cst_36
  let main_v96 : IVec S2 1 := cmpf .olt main_v94 main_v95
  let main_c_37 : IVec S_ 1 := constantI S_ 1 1#1
  let main_v97 : IVec S_ 1 := (fun x v => Host.reduce IntOp.andi x v reducesTo_S2_S_d0 h_S_) main_v96 main_c_37
  let main_v98 : IVec S_ 1 := andi main_v93 main_v97
  let main_v99 : FVec F S64x64 .f32 := Host.absf main_arg20
  let main_cst_38 : FVec F S_ .f32 := constant S_ .f32 0x7F800000#32
  let main_v100 : FVec F S64x64 .f32 := broadcastInDim S64x64 ![] bcast_S_S64x64 main_cst_38
  let main_v101 : IVec S64x64 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S64 .f32) (main_arg15 : FVec F S64x64 .f32) (main_arg16 : FVec F S64 .f32) (main_arg17 : FVec F S64x2 .f32) (main_arg18 : FVec F S2 .f32) (main_arg19 : FVec F S2 .f32) (main_arg20 : FVec F S64x64 .f32) (main_arg21 : FVec F S64 .f32) (main_arg22 : FVec F S64x1 .f32) (main_arg23 : FVec F S1 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg15
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x2 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S4x4 .f32) (main_arg12 : FVec F S4 .f32) (main_arg13 : FVec F S8x64 .f32) (main_arg14 : FVec F S64 .f32) (main_arg15 : FVec F S64x64 .f32) (main_arg16 : FVec F S64 .f32) (main_arg17 : FVec F S64x2 .f32) (main_arg18 : FVec F S2 .f32) (main_arg19 : FVec F S2 .f32) (main_arg20 : FVec F S64x64 .f32) (main_arg21 : FVec F S64 .f32) (main_arg22 : FVec F S64x1 .f32) (main_arg23 : FVec F S1 .f32) (main_v48 : IVec S_ 1) (main_v49 : FVec F S4x1x1 .f32) (main_v50 : FVec F S4x1x1 .f32) : IVec S_ 1 :=
  let main_v51 : IVec S4x1x1 1 := cmpf .olt main_v49 main_v50
  let main_c_19 : IVec S_ 1 := constantI S_ 1 1#1
  let main_v52 : IVec S_ 1 := (fun x v => Host.reduce IntOp.andi x v reducesTo_S4x1x1_S_d0_1_2 h_S_) main_v51 main_c_19
  let main_v53 : IVec S_ 1 := andi main_v48 main_v52
  let main_v54 : FVec F S4x4 .f32 := Host.absf main_arg11
  let main_cst_20 : FVec F S_ .f32 := constant S_ .f32 0x7F800000#32
  let main_v55 : FVec F S4x4 .f32 := broadcastInDim S4x4 ![] bcast_S_S4x4 main_cst_20
  let main_v56 : IVec S4x4 1 := cmpf .olt main_v54 main_v55
  let main_c_21 : IVec S_ 1 := constantI S_ 1 1#1
  let main_v57 : IVec S_ 1 := (fun x v => Host.reduce IntOp.andi x v reducesTo_S4x4_S_d0_1 h_S_) main_v56 main_c_21
  let main_v58 : IVec S_ 1 := andi main_v53 main_v57
  let main_v59 : FVec F S4 .f32 := Host.absf main_arg12
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  let main_v64 : FVec F S8x64 .f32 := Host.absf main_arg13
  let main_cst_24 : FVec F S_ .f32 := constant S_ .f32 0x7F800000#32
  let main_v65 : FVec F S8x64 .f32 := broadcastInDim S8x64 ![] bcast_S_S8x64 main_cst_24
  let main_v66 : IVec S8x64 1 := cmpf .olt main_v64 main_v65
  let main_c_25 : IVec S_ 1 := constantI S_ 1 1#1
  let main_v67 : IVec S_ 1 := (fun x v => Host.reduce IntOp.andi x v reducesTo_S8x64_S_d0_1 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S4x4x1 .f32) (main_arg8 : FVec F S6x4x1 .f32) (main_arg9 : FVec F S6x1x1 .f32) (main_arg10 : FVec F S4x1x1 .f32) (main_arg11 : FVec F S4x4 .f32) (main_arg12 : FVec F S4 .f32) (main_arg13 : FVec F S8x64 .f32) (main_arg14 : FVec F S64 .f32) (main_arg15 : FVec F S64x64 .f32) (main_arg16 : FVec F S64 .f32) (main_arg17 : FVec F S64x2 .f32) (main_arg18 : FVec F S2 .f32) (main_arg19 : FVec F S2 .f32) (main_arg20 : FVec F S64x64 .f32) (main_arg21 : FVec F S64 .f32) (main_arg22 : FVec F S64x1 .f32) (main_arg23 : FVec F S1 .f32) (main_v33 : IVec S_ 1) : IVec S_ 1 :=
  let main_v34 : FVec F S4x4x1 .f32 := Host.absf main_arg7
  let main_cst_12 : FVec F S_ .f32 := constant S_ .f32 0x7F800000#32
  let main_v35 : FVec F S4x4x1 .f32 := broadcastInDim S4x4x1 ![] bcast_S_S4x4x1 main_cst_12
  let main_v36 : IVec S4x4x1 1 := cmpf .olt main_v34 main_v35
  let main_c_13 : IVec S_ 1 := constantI S_ 1 1#1
  let main_v37 : IVec S_ 1 := (fun x v => Host.reduce IntOp.andi x v reducesTo_S4x4x1_S_d0_1_2 h_S_) main_v36 main_c_13
  let main_v38 : IVec S_ 1 := andi main_v33 main_v37
  let main_v39 : FVec F S6x4x1 .f32 := Host.absf main_arg8
  let main_cst_14 : FVec F S_ .f32 := constant S_ .f32 0x7F800000#32
  let main_v40 : FVec F S6x4x1 .f32 := broadcastInDim S6x4x1 ![] bcast_S_S6x4x1 main_cst_14
  let main_v41 : IVec S6x4x1 1 := cmpf .olt main_v39 main_v40
  let main_c_15 : IVec S_ 1 := constantI S_ 1 1#1
  let main_v42 : IVec S_ 1 := (fun x v => Host.reduce IntOp.andi x v reducesTo_S6x4x1_S_d0_1_2 h_S_) main_v41 main_c_15
  let main_v43 : IVec S_ 1 := andi main_v38 main_v42
  let main_v44 : FVec F S6x1x1 .f32 := Host.absf main_arg9
  let main_cst_16 : FVec F S_ .f32 := constant S_ .f32 0x7F800000#32
  let main_v45 : FVec F S6x1x1 .f32 := broadcastInDim S6x1x1 ![] bcast_S_S6x1x1 main_cst_16
  let main_v46 : IVec S6x1x1 1 := cmpf .olt main_v44 main_v45
  let main_c_17 : IVec S_ 1 := constantI S_ 1 1#1
  let main_v47 : IVec S_ 1 := (fun x v => Host.reduce IntOp.andi x v reducesTo_S6x1x1_S_d0_1_2 h_S_) main_v46 main_c_17
  let main_v48 : IVec S_ 1 := andi main_v43 main_v47
  let main_v49 : FVec F S4x1x1 .f32 := Host.absf main_arg10
  let main_cst_18 : FVec F S_ .f32 := constant S_ .f32 0x7F800000#32
  let main_v50 : FVec F S4x1x1 .f32 := broadcastInDim S4x1x1 ![] bcast_S_S4x1x1 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S6x2x4 .f32) (main_arg5 : FVec F S6x1x4 .f32) (main_arg6 : FVec F S4x1x4 .f32) (main_arg7 : FVec F S4x4x1 .f32) (main_arg8 : FVec F S6x4x1 .f32) (main_arg9 : FVec F S6x1x1 .f32) (main_arg10 : FVec F S4x1x1 .f32) (main_arg11 : FVec F S4x4 .f32) (main_arg12 : FVec F S4 .f32) (main_arg13 : FVec F S8x64 .f32) (main_arg14 : FVec F S64 .f32) (main_arg15 : FVec F S64x64 .f32) (main_arg16 : FVec F S64 .f32) (main_arg17 : FVec F S64x2 .f32) (main_arg18 : FVec F S2 .f32) (main_arg19 : FVec F S2 .f32) (main_arg20 : FVec F S64x64 .f32) (main_arg21 : FVec F S64 .f32) (main_arg22 : FVec F S64x1 .f32) (main_arg23 : FVec F S1 .f32) (main_v13 : IVec S_ 1) (main_v16 : IVec S4x2x4 1) : IVec S_ 1 :=
  let main_c_5 : IVec S_ 1 := constantI S_ 1 1#1
  let main_v17 : IVec S_ 1 := (fun x v => Host.reduce IntOp.andi x v reducesTo_S4x2x4_S_d0_1_2 h_S_) main_v16 main_c_5
  let main_v18 : IVec S_ 1 := andi main_v13 main_v17
  let main_v19 : FVec F S6x2x4 .f32 := Host.absf main_arg4
  let main_cst_6 : FVec F S_ .f32 := constant S_ .f32 0x7F800000#32
  let main_v20 : FVec F S6x2x4 .f32 := broadcastInDim S6x2x4 ![] bcast_S_S6x2x4 main_cst_6
  let main_v21 : IVec S6x2x4 1 := cmpf .olt main_v19 main_v20
  let main_c_7 : IVec S_ 1 := constantI S_ 1 1#1
  let main_v22 : IVec S_ 1 := (fun x v => Host.reduce IntOp.andi x v reducesTo_S6x2x4_S_d0_1_2 h_S_) main_v21 main_c_7
  let main_v23 : IVec S_ 1 := andi main_v18 main_v22
  let main_v24 : FVec F S6x1x4 .f32 := Host.absf main_arg5
  let main_cst_8 : FVec F S_ .f32 := constant S_ .f32 0x7F800000#32
  let main_v25 : FVec F S6x1x4 .f32 := broadcastInDim S6x1x4 ![] bcast_S_S6x1x4 main_cst_8
  let main_v26 : IVec S6x1x4 1 := cmpf .olt main_v24 main_v25
  let main_c_9 : IVec S_ 1 := constantI S_ 1 1#1
  let main_v27 : IVec S_ 1 := (fun x v => Host.reduce IntOp.andi x v reducesTo_S6x1x4_S_d0_1_2 h_S_) main_v26 main_c_9
  let main_v28 : IVec S_ 1 := andi main_v23 main_v27
  let main_v29 : FVec F S4x1x4 .f32 := Host.absf main_arg6
  let main_cst_10 : FVec F S_ .f32 := constant S_ .f32 0x7F800000#32
  let main_v30 : FVec F S4x1x4 .f32 := broadcastInDim S4x1x4 ![] bcast_S_S4x1x4 main_cst_10
  let main_v31 : IVec S4x1x4 1 := cmpf .olt main_v29 main_v30
  let main_c_11 : IVec S_ 1 := constantI S_ 1 1#1
  let main_v32 : IVec S_ 1 := (fun x v => Host.reduce IntOp.andi x v reducesTo_S4x1x4_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S1048576x8 .f32) (main_arg1 : FVec F S1048576x2 .f32) (main_arg2 : FVec F S1048576x2 .f32) (main_arg3 : FVec F S4x2x4 .f32) (main_arg4 : FVec F S6x2x4 .f32) (main_arg5 : FVec F S6x1x4 .f32) (main_arg6 : FVec F S4x1x4 .f32) (main_arg7 : FVec F S4x4x1 .f32) (main_arg8 : FVec F S6x4x1 .f32) (main_arg9 : FVec F S6x1x1 .f32) (main_arg10 : FVec F S4x1x1 .f32) (main_arg11 : FVec F S4x4 .f32) (main_arg12 : FVec F S4 .f32) (main_arg13 : FVec F S8x64 .f32) (main_arg14 : FVec F S64 .f32) (main_arg15 : FVec F S64x64 .f32) (main_arg16 : FVec F S64 .f32) (main_arg17 : FVec F S64x2 .f32) (main_arg18 : FVec F S2 .f32) (main_arg19 : FVec F S2 .f32) (main_arg20 : FVec F S64x64 .f32) (main_arg21 : FVec F S64 .f32) (main_arg22 : FVec F S64x1 .f32) (main_arg23 : FVec F S1 .f32) : IVec S_ 1 :=
  let main_v0 : FVec F S1048576x8 .f32 := Host.absf main_arg0
  let main_cst : FVec F S_ .f32 := constant S_ .f32 0x7F800000#32
  let main_v1 : FVec F S1048576x8 .f32 := broadcastInDim S1048576x8 ![] bcast_S_S1048576x8 main_cst
  let main_v2 : IVec S1048576x8 1 := cmpf .olt main_v0 main_v1
  let main_c : IVec S_ 1 := constantI S_ 1 1#1
  let main_v3 : IVec S_ 1 := (fun x v => Host.reduce IntOp.andi x v reducesTo_S1048576x8_S_d0_1 h_S_) main_v2 main_c
  let main_v4 : FVec F S1048576x2 .f32 := Host.absf main_arg1
  let main_cst_0 : FVec F S_ .f32 := constant S_ .f32 0x7F800000#32
  let main_v5 : FVec F S1048576x2 .f32 := broadcastInDim S1048576x2 ![] bcast_S_S1048576x2 main_cst_0
  let main_v6 : IVec S1048576x2 1 := cmpf .olt main_v4 main_v5
  let main_c_1 : IVec S_ 1 := constantI S_ 1 1#1
  let main_v7 : IVec S_ 1 := (fun x v => Host.reduce IntOp.andi x v reducesTo_S1048576x2_S_d0_1 h_S_) main_v6 main_c_1
  let main_v8 : IVec S_ 1 := andi main_v3 main_v7
  let main_v9 : FVec F S1048576x2 .f32 := Host.absf main_arg2
  let main_cst_2 : FVec F S_ .f32 := constant S_ .f32 0x7F800000#32
  let main_v10 : FVec F S1048576x2 .f32 := broadcastInDim S1048576x2 ![] bcast_S_S1048576x2 main_cst_2
  let main_v11 : IVec S1048576x2 1 := cmpf .olt main_v9 main_v10
  let main_c_3 : IVec S_ 1 := constantI S_ 1 1#1
  let main_v12 : IVec S_ 1 := (fun x v => Host.reduce IntOp.andi x v reducesTo_S1048576x2_S_d0_1 h_S_) main_v11 main_c_3
  let main_v13 : IVec S_ 1 := andi main_v8 main_v12
  let main_v14 : FVec F S4x2x4 .f32 := Host.absf main_arg3
  let main_cst_4 : FVec F S_ .f32 := constant S_ .f32 0x7F800000#32
  let main_v15 : FVec F S4x2x4 .f32 := broadcastInDim S4x2x4 ![] bcast_S_S4x2x4 main_cst_4
  let main_v16 : IVec S4x2x4 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S1048576x8 : Shape := ⟨2, ![1048576, 8]⟩
abbrev S1048576x2 : Shape := ⟨2, ![1048576, 2]⟩
abbrev S4x2x4 : Shape := ⟨3, ![4, 2, 4]⟩
abbrev S6x2x4 : Shape := ⟨3, ![6, 2, 4]⟩
abbrev S6x1x4 : Shape := ⟨3, ![6, 1, 4]⟩
abbrev S4x1x4 : Shape := ⟨3, ![4, 1, 4]⟩
abbrev S4x4x1 : Shape := ⟨3, ![4, 4, 1]⟩
abbrev S6x4x1 : Shape := ⟨3, ![6, 4, 1]⟩
abbrev S6x1x1 : Shape := ⟨3, ![6, 1, 1]⟩
abbrev S4x1x1 : Shape := ⟨3, ![4, 1, 1]⟩
abbrev S4x4 : Shape := ⟨2, ![4, 4]⟩
abbrev S4 : Shape := ⟨1, ![4]⟩
abbrev S8x64 : Shape := ⟨2, ![8, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S64x1 : Shape := ⟨2, ![64, 1]⟩
abbrev S1 : Shape := ⟨1, ![1]⟩
abbrev S1048576x1 : Shape := ⟨2, ![1048576, 1]⟩
abbrev S1048576 : Shape := ⟨1, ![1048576]⟩
abbrev S4096x8 : Shape := ⟨2, ![4096, 8]⟩
abbrev S4096x2 : Shape := ⟨2, ![4096, 2]⟩
abbrev S4096x1 : Shape := ⟨2, ![4096, 1]⟩
abbrev S4096 : Shape := ⟨1, ![4096]⟩
abbrev S1x2x4 : Shape := ⟨3, ![1, 2, 4]⟩
abbrev S2x4 : Shape := ⟨2, ![2, 4]⟩
abbrev S4096x4 : Shape := ⟨2, ![4096, 4]⟩
abbrev S1x1x4 : Shape := ⟨3, ![1, 1, 4]⟩
abbrev S1x4 : Shape := ⟨2, ![1, 4]⟩
abbrev S1x4x1 : Shape := ⟨3, ![1, 4, 1]⟩
abbrev S4x1 : Shape := ⟨2, ![4, 1]⟩
abbrev S1x1x1 : Shape := ⟨3, ![1, 1, 1]⟩
abbrev S1x1 : Shape := ⟨2, ![1, 1]⟩
abbrev S4096x64 : Shape := ⟨2, ![4096, 64]⟩
abbrev S1x64 : Shape := ⟨2, ![1, 64]⟩
abbrev S1x2 : Shape := ⟨2, ![1, 2]⟩

abbrev nBuf : Space → Nat
  | .hbm => 27
  | .vmem => 33
  | .smem => 0
  | _ => 0

abbrev bufTy : (tb : Table) → Fin (tcTables nBuf tb) → BufTy
  | .hbm, ⟨0, _⟩ => ⟨S1048576x8, .f32⟩
  | .hbm, ⟨1, _⟩ => ⟨S1048576x2, .f32⟩
  | .hbm, ⟨2, _⟩ => ⟨S1048576x2, .f32⟩
  | .hbm, ⟨3, _⟩ => ⟨S4x2x4, .f32⟩
  | .hbm, ⟨4, _⟩ => ⟨S6x2x4, .f32⟩
  | .hbm, ⟨5, _⟩ => ⟨S6x1x4, .f32⟩
  | .hbm, ⟨6, _⟩ => ⟨S4x1x4, .f32⟩
  | .hbm, ⟨7, _⟩ => ⟨S4x4x1, .f32⟩
  | .hbm, ⟨8, _⟩ => ⟨S6x4x1, .f32⟩
  | .hbm, ⟨9, _⟩ => ⟨S6x1x1, .f32⟩
  | .hbm, ⟨10, _⟩ => ⟨S4x1x1, .f32⟩
  | .hbm, ⟨11, _⟩ => ⟨S4x4, .f32⟩
  | .hbm, ⟨12, _⟩ => ⟨S4, .f32⟩
  | .hbm, ⟨13, _⟩ => ⟨S8x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x2, .f32⟩
  | .hbm, ⟨18, _⟩ => ⟨S2, .f32⟩
  | .hbm, ⟨19, _⟩ => ⟨S2, .f32⟩
  | .hbm, ⟨20, _⟩ => ⟨S64x64, .f32⟩
  | .hbm, ⟨21, _⟩ => ⟨S64, .f32⟩
  | .hbm, ⟨22, _⟩ => ⟨S64x1, .f32⟩
  | .hbm, ⟨23, _⟩ => ⟨S1, .f32⟩
  | .hbm, ⟨24, _⟩ => ⟨S1048576x2, .f32⟩
  | .hbm, ⟨25, _⟩ => ⟨S1048576x1, .f32⟩
  | .hbm, ⟨26, _⟩ => ⟨S1048576, .f32⟩
  | .local _ .vmem, ⟨0, _⟩ => ⟨S4096x8, .f32⟩
  | .local _ .vmem, ⟨1, _⟩ => ⟨S4096x8, .f32⟩
  | .local _ .vmem, ⟨2, _⟩ => ⟨S4096x2, .f32⟩
  | .local _ .vmem, ⟨3, _⟩ => ⟨S4096x2, .f32⟩
  | .local _ .vmem, ⟨4, _⟩ => ⟨S4096x2, .f32⟩
  | .local _ .vmem, ⟨5, _⟩ => ⟨S4096x2, .f32⟩
  | .local _ .vmem, ⟨6, _⟩ => ⟨S4x2x4, .f32⟩
  | .local _ .vmem, ⟨7, _⟩ => ⟨S6x2x4, .f32⟩
  | .local _ .vmem, ⟨8, _⟩ => ⟨S6x1x4, .f32⟩
  | .local _ .vmem, ⟨9, _⟩ => ⟨S4x1x4, .f32⟩
  | .local _ .vmem, ⟨10, _⟩ => ⟨S4x4x1, .f32⟩
  | .local _ .vmem, ⟨11, _⟩ => ⟨S6x4x1, .f32⟩
  | .local _ .vmem, ⟨12, _⟩ => ⟨S6x1x1, .f32⟩
  | .local _ .vmem, ⟨13, _⟩ => ⟨S4x1x1, .f32⟩
  | .local _ .vmem, ⟨14, _⟩ => ⟨S4x4, .f32⟩
  | .local _ .vmem, ⟨15, _⟩ => ⟨S4, .f32⟩
  | .local _ .vmem, ⟨16, _⟩ => ⟨S8x64, .f32⟩
  | .local _ .vmem, ⟨17, _⟩ => ⟨S64, .f32⟩
  | .local _ .vmem, ⟨18, _⟩ => ⟨S64x64, .f32⟩
  | .local _ .vmem, ⟨19, _⟩ => ⟨S64, .f32⟩
  | .local _ .vmem, ⟨20, _⟩ => ⟨S64x2, .f32⟩
  | .local _ .vmem, ⟨21, _⟩ => ⟨S2, .f32⟩
  | .local _ .vmem, ⟨22, _⟩ => ⟨S2, .f32⟩
  | .local _ .vmem, ⟨23, _⟩ => ⟨S64x64, .f32⟩
  | .local _ .vmem, ⟨24, _⟩ => ⟨S64, .f32⟩
  | .local _ .vmem, ⟨25, _⟩ => ⟨S64x1, .f32⟩
  | .local _ .vmem, ⟨26, _⟩ => ⟨S1, .f32⟩
  | .local _ .vmem, ⟨27, _⟩ => ⟨S4096x2, .f32⟩
  | .local _ .vmem, ⟨28, _⟩ => ⟨S4096x2, .f32⟩
  | .local _ .vmem, ⟨29, _⟩ => ⟨S4096x1, .f32⟩
  | .local _ .vmem, ⟨30, _⟩ => ⟨S4096x1, .f32⟩
  | .local _ .vmem, ⟨31, _⟩ => ⟨S4096, .f32⟩
  | .local _ .vmem, ⟨32, _⟩ => ⟨S4096, .f32⟩
  | _, _ => ⟨S1048576x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0_0 : Ref sig .tc := ⟨.hbm, 24, rfl⟩
abbrev main_v0_1 : Ref sig .tc := ⟨.hbm, 25, rfl⟩
abbrev main_v0_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg23_0 : Ref sig .tc := ⟨.vmem, 26, rfl⟩
abbrev cc0_stg24_0 : Ref sig .tc := ⟨.vmem, 27, rfl⟩
abbrev cc0_stg24_1 : Ref sig .tc := ⟨.vmem, 28, rfl⟩
abbrev cc0_stg25_0 : Ref sig .tc := ⟨.vmem, 29, rfl⟩
abbrev cc0_stg25_1 : Ref sig .tc := ⟨.vmem, 30, rfl⟩
abbrev cc0_stg26_0 : Ref sig .tc := ⟨.vmem, 31, rfl⟩
abbrev cc0_stg26_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem24_0 : DmaSem sig := 27
abbrev cc0_sem24_1 : DmaSem sig := 28
abbrev cc0_sem25_0 : DmaSem sig := 29
abbrev cc0_sem25_1 : DmaSem sig := 30
abbrev cc0_sem26_0 : DmaSem sig := 31
abbrev cc0_sem26_1 : DmaSem sig := 32

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x2x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x2x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x4x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6x4x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S6x1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64x2 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S64x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S64x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S4096x2 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S4096x1 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S4096 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

class Facts₀ : Prop where
  inb_S4096x8_S4096x8_0_0 : ∀ a, (![0, 0] : Fin 2 → Nat) a + S4096x8.size a ≤ S4096x8.size a
  h_S4096x8 : 0 < S4096x8.numel
  inb_S4096x2_S4096x2_0_0 : ∀ a, (![0, 0] : Fin 2 → Nat) a + S4096x2.size a ≤ S4096x2.size a
  h_S4096x2 : 0 < S4096x2.numel
  slices_S4096x8_o0_6_S4096x2 : S4096x8.Slices ![0, 6] S4096x2
  slices_S4096x8_o0_0_S4096x2 : S4096x8.Slices ![0, 0] S4096x2
  inb_S4x2x4_S4x2x4_0_0_0 : ∀ a, (![0, 0, 0] : Fin 3 → Nat) a + S4x2x4.size a ≤ S4x2x4.size a
  h_S4x2x4 : 0 < S4x2x4.numel
  inb_S6x2x4_S6x2x4_0_0_0 : ∀ a, (![0, 0, 0] : Fin 3 → Nat) a + S6x2x4.size a ≤ S6x2x4.size a
  h_S6x2x4 : 0 < S6x2x4.numel
  inb_S6x1x4_S6x1x4_0_0_0 : ∀ a, (![0, 0, 0] : Fin 3 → Nat) a + S6x1x4.size a ≤ S6x1x4.size a
  h_S6x1x4 : 0 < S6x1x4.numel
  inb_S4x1x4_S4x1x4_0_0_0 : ∀ a, (![0, 0, 0] : Fin 3 → Nat) a + S4x1x4.size a ≤ S4x1x4.size a
  h_S4x1x4 : 0 < S4x1x4.numel
  slices_S4x2x4_o0_0_0_S1x2x4 : S4x2x4.Slices ![0, 0, 0] S1x2x4
  shapeCasts_S1x2x4_S2x4 : S1x2x4.ShapeCasts S2x4
  bitsLt_bf16_f32 : FTy.bits .bf16 < FTy.bits .f32
  slices_S4x2x4_o1_0_0_S1x2x4 : S4x2x4.Slices ![1, 0, 0] S1x2x4
  slices_S4x2x4_o2_0_0_S1x2x4 : S4x2x4.Slices ![2, 0, 0] S1x2x4
  slices_S4x2x4_o3_0_0_S1x2x4 : S4x2x4.Slices ![3, 0, 0] S1x2x4
  slices_S6x2x4_o0_0_0_S1x2x4 : S6x2x4.Slices ![0, 0, 0] S1x2x4
  slices_S6x1x4_o0_0_0_S1x1x4 : S6x1x4.Slices ![0, 0, 0] S1x1x4
  shapeCasts_S1x1x4_S1x4 : S1x1x4.ShapeCasts S1x4
  broadcasts_S1x4_S4096x4 : S1x4.Broadcasts S4096x4
  slices_S6x2x4_o1_0_0_S1x2x4 : S6x2x4.Slices ![1, 0, 0] S1x2x4
  slices_S6x1x4_o1_0_0_S1x1x4 : S6x1x4.Slices ![1, 0, 0] S1x1x4
  slices_S6x2x4_o2_0_0_S1x2x4 : S6x2x4.Slices ![2, 0, 0] S1x2x4
  slices_S6x1x4_o2_0_0_S1x1x4 : S6x1x4.Slices ![2, 0, 0] S1x1x4
  slices_S6x2x4_o3_0_0_S1x2x4 : S6x2x4.Slices ![3, 0, 0] S1x2x4
  slices_S6x1x4_o3_0_0_S1x1x4 : S6x1x4.Slices ![3, 0, 0] S1x1x4
  slices_S6x2x4_o4_0_0_S1x2x4 : S6x2x4.Slices ![4, 0, 0] S1x2x4
  slices_S6x1x4_o4_0_0_S1x1x4 : S6x1x4.Slices ![4, 0, 0] S1x1x4
  slices_S6x2x4_o5_0_0_S1x2x4 : S6x2x4.Slices ![5, 0, 0] S1x2x4
  slices_S6x1x4_o5_0_0_S1x1x4 : S6x1x4.Slices ![5, 0, 0] S1x1x4
  slices_S4x1x4_o0_0_0_S1x1x4 : S4x1x4.Slices ![0, 0, 0] S1x1x4
  slices_S4x1x4_o1_0_0_S1x1x4 : S4x1x4.Slices ![1, 0, 0] S1x1x4
  slices_S4x1x4_o2_0_0_S1x1x4 : S4x1x4.Slices ![2, 0, 0] S1x1x4
  slices_S4x1x4_o3_0_0_S1x1x4 : S4x1x4.Slices ![3, 0, 0] S1x1x4
  inb_S4x4x1_S4x4x1_0_0_0 : ∀ a, (![0, 0, 0] : Fin 3 → Nat) a + S4x4x1.size a ≤ S4x4x1.size a
  h_S4x4x1 : 0 < S4x4x1.numel
  inb_S6x4x1_S6x4x1_0_0_0 : ∀ a, (![0, 0, 0] : Fin 3 → Nat) a + S6x4x1.size a ≤ S6x4x1.size a
  h_S6x4x1 : 0 < S6x4x1.numel
  inb_S6x1x1_S6x1x1_0_0_0 : ∀ a, (![0, 0, 0] : Fin 3 → Nat) a + S6x1x1.size a ≤ S6x1x1.size a
  h_S6x1x1 : 0 < S6x1x1.numel
  inb_S4x1x1_S4x1x1_0_0_0 : ∀ a, (![0, 0, 0] : Fin 3 → Nat) a + S4x1x1.size a ≤ S4x1x1.size a
  h_S4x1x1 : 0 < S4x1x1.numel
  slices_S4x4x1_o0_0_0_S1x4x1 : S4x4x1.Slices ![0, 0, 0] S1x4x1
  shapeCasts_S1x4x1_S4x1 : S1x4x1.ShapeCasts S4x1
  slices_S4x4x1_o1_0_0_S1x4x1 : S4x4x1.Slices ![1, 0, 0] S1x4x1
  slices_S4x4x1_o2_0_0_S1x4x1 : S4x4x1.Slices ![2, 0, 0] S1x4x1
  slices_S4x4x1_o3_0_0_S1x4x1 : S4x4x1.Slices ![3, 0, 0] S1x4x1
  slices_S6x4x1_o0_0_0_S1x4x1 : S6x4x1.Slices ![0, 0, 0] S1x4x1
  slices_S6x1x1_o0_0_0_S1x1x1 : S6x1x1.Slices ![0, 0, 0] S1x1x1
  shapeCasts_S1x1x1_S1x1 : S1x1x1.ShapeCasts S1x1
  broadcasts_S1x1_S4096x1 : S1x1.Broadcasts S4096x1
  slices_S6x4x1_o1_0_0_S1x4x1 : S6x4x1.Slices ![1, 0, 0] S1x4x1
  slices_S6x1x1_o1_0_0_S1x1x1 : S6x1x1.Slices ![1, 0, 0] S1x1x1
  slices_S6x4x1_o2_0_0_S1x4x1 : S6x4x1.Slices ![2, 0, 0] S1x4x1
  slices_S6x1x1_o2_0_0_S1x1x1 : S6x1x1.Slices ![2, 0, 0] S1x1x1
  slices_S6x4x1_o3_0_0_S1x4x1 : S6x4x1.Slices ![3, 0, 0] S1x4x1
  slices_S6x1x1_o3_0_0_S1x1x1 : S6x1x1.Slices ![3, 0, 0] S1x1x1
  slices_S6x4x1_o4_0_0_S1x4x1 : S6x4x1.Slices ![4, 0, 0] S1x4x1
  slices_S6x1x1_o4_0_0_S1x1x1 : S6x1x1.Slices ![4, 0, 0] S1x1x1
  slices_S6x4x1_o5_0_0_S1x4x1 : S6x4x1.Slices ![5, 0, 0] S1x4x1
  slices_S6x1x1_o5_0_0_S1x1x1 : S6x1x1.Slices ![5, 0, 0] S1x1x1
  slices_S4x1x1_o0_0_0_S1x1x1 : S4x1x1.Slices ![0, 0, 0] S1x1x1
  slices_S4x1x1_o1_0_0_S1x1x1 : S4x1x1.Slices ![1, 0, 0] S1x1x1
  slices_S4x1x1_o2_0_0_S1x1x1 : S4x1x1.Slices ![2, 0, 0] S1x1x1
  slices_S4x1x1_o3_0_0_S1x1x1 : S4x1x1.Slices ![3, 0, 0] S1x1x1
  concatenates_S4096x1_S4096x1_S4096x1_S4096x1_S4096x4_d1 : Shape.Concatenates [S4096x1, S4096x1, S4096x1, S4096x1] S4096x4 1
  inb_S4x4_S4x4_0_0 : ∀ a, (![0, 0] : Fin 2 → Nat) a + S4x4.size a ≤ S4x4.size a
  h_S4x4 : 0 < S4x4.numel
  inb_S4_S4_0 : ∀ a, (![0] : Fin 1 → Nat) a + S4.size a ≤ S4.size a
  h_S4 : 0 < S4.numel
  shapeCasts_S4_S1x4 : S4.ShapeCasts S1x4
  slices_S4096x8_o0_2_S4096x4 : S4096x8.Slices ![0, 2] S4096x4
  concatenates_S4096x4_S4096x4_S4096x8_d1 : Shape.Concatenates [S4096x4, S4096x4] S4096x8 1
  inb_S8x64_S8x64_0_0 : ∀ a, (![0, 0] : Fin 2 → Nat) a + S8x64.size a ≤ S8x64.size a
  h_S8x64 : 0 < S8x64.numel
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  inb_S64x64_S64x64_0_0 : ∀ a, (![0, 0] : Fin 2 → Nat) a + S64x64.size a ≤ S64x64.size a
  h_S64x64 : 0 < S64x64.numel
  inb_S64x2_S64x2_0_0 : ∀ a, (![0, 0] : Fin 2 → Nat) a + S64x2.size a ≤ S64x2.size a
  h_S64x2 : 0 < S64x2.numel
  inb_S2_S2_0 : ∀ a, (![0] : Fin 1 → Nat) a + S2.size a ≤ S2.size a
  h_S2 : 0 < S2.numel
  shapeCasts_S2_S1x2 : S2.ShapeCasts S1x2
  broadcasts_S1x2_S4096x2 : S1x2.Broadcasts S4096x2
  reduces_S4096x2_S4096 : S4096x2.Reduces [1] S4096
  inb_S4096_S4096_0 : ∀ a, (![0] : Fin 1 → Nat) a + S4096.size a ≤ S4096.size a
  h_S4096 : 0 < S4096.numel
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  inb_S4096x1_S4096x1_0_0 : ∀ a, (![0, 0] : Fin 2 → Nat) a + S4096x1.size a ≤ S4096x1.size a
  h_S4096x1 : 0 < S4096x1.numel
  dot_S4096x2_S2x4_S4096x4_1_0_0_1_n_n_wf : DotDims.WF S4096x2 S2x4 S4096x4 [1] [0] [0] [1] [] []
  dot_S4096x4_S4x1_S4096x1_1_0_0_1_n_n_wf : DotDims.WF S4096x4 S4x1 S4096x1 [1] [0] [0] [1] [] []
  dot_S4096x4_S4x4_S4096x4_1_0_0_1_n_n_wf : DotDims.WF S4096x4 S4x4 S4096x4 [1] [0] [0] [1] [] []
  dot_S4096x8_S8x64_S4096x64_1_0_0_1_n_n_wf : DotDims.WF S4096x8 S8x64 S4096x64 [1] [0] [0] [1] [] []
  dot_S4096x64_S64x64_S4096x64_1_0_0_1_n_n_wf : DotDims.WF S4096x64 S64x64 S4096x64 [1] [0] [0] [1] [] []
  dot_S4096x64_S64x2_S4096x2_1_0_0_1_n_n_wf : DotDims.WF S4096x64 S64x2 S4096x2 [1] [0] [0] [1] [] []
  dot_S4096x64_S64x1_S4096x1_1_0_0_1_n_n_wf : DotDims.WF S4096x64 S64x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x8.size a ≤ S1048576x8.size a
  hwx0_0 : ∀ i : grid0.Coords, EltTy.bits .f32 = 32 ∨ (Rect.block (s := S1048576x8) S4096x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x2.size a ≤ S1048576x2.size a
  hwx0_1 : ∀ i : grid0.Coords, EltTy.bits .f32 = 32 ∨ (Rect.block (s := S1048576x2) S4096x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x2.size a ≤ S1048576x2.size a
  hwx0_2 : ∀ i : grid0.Coords, EltTy.bits .f32 = 32 ∨ (Rect.block (s := S1048576x2) S4096x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x2x4.size a ≤ S4x2x4.size a
  hwx0_3 : ∀ i : grid0.Coords, EltTy.bits .f32 = 32 ∨ (Rect.block (s := S4x2x4) S4x2x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x2x4.size a ≤ S6x2x4.size a
  hwx0_4 : ∀ i : grid0.Coords, EltTy.bits .f32 = 32 ∨ (Rect.block (s := S6x2x4) S6x2x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6x1x4.size a ≤ S6x1x4.size a
  hwx0_5 : ∀ i : grid0.Coords, EltTy.bits .f32 = 32 ∨ (Rect.block (s := S6x1x4) S6x1x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x1x4.size a ≤ S4x1x4.size a
  hwx0_6 : ∀ i : grid0.Coords, EltTy.bits .f32 = 32 ∨ (Rect.block (s := S4x1x4) S4x1x4.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x4x1.size a ≤ S4x4x1.size a
  hwx0_7 : ∀ i : grid0.Coords, EltTy.bits .f32 = 32 ∨ (Rect.block (s := S4x4x1) S4x4x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S6x4x1.size a ≤ S6x4x1.size a
  hwx0_8 : ∀ i : grid0.Coords, EltTy.bits .f32 = 32 ∨ (Rect.block (s := S6x4x1) S6x4x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S6x1x1.size a ≤ S6x1x1.size a
  hwx0_9 : ∀ i : grid0.Coords, EltTy.bits .f32 = 32 ∨ (Rect.block (s := S6x1x1) S6x1x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S4x1x1.size a ≤ S4x1x1.size a
  hwx0_10 : ∀ i : grid0.Coords, EltTy.bits .f32 = 32 ∨ (Rect.block (s := S4x1x1) S4x1x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S4x4.size a ≤ S4x4.size a
  hwx0_11 : ∀ i : grid0.Coords, EltTy.bits .f32 = 32 ∨ (Rect.block (s := S4x4) S4x4.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S4.size a ≤ S4.size a
  hwx0_12 : ∀ i : grid0.Coords, EltTy.bits .f32 = 32 ∨ (Rect.block (s := S4) S4.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S8x64.size a ≤ S8x64.size a
  hwx0_13 : ∀ i : grid0.Coords, EltTy.bits .f32 = 32 ∨ (Rect.block (s := S8x64) S8x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64.size a ≤ S64.size a
  hwx0_14 : ∀ i : grid0.Coords, EltTy.bits .f32 = 32 ∨ (Rect.block (s := S64) S64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64x64.size a ≤ S64x64.size a
  hwx0_15 : ∀ i : grid0.Coords, EltTy.bits .f32 = 32 ∨ (Rect.block (s := S64x64) S64x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S64.size a ≤ S64.size a
  hwx0_16 : ∀ i : grid0.Coords, EltTy.bits .f32 = 32 ∨ (Rect.block (s := S64) S64.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S64x2.size a ≤ S64x2.size a
  hwx0_17 : ∀ i : grid0.Coords, EltTy.bits .f32 = 32 ∨ (Rect.block (s := S64x2) S64x2.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S2.size a ≤ S2.size a
  hwx0_18 : ∀ i : grid0.Coords, EltTy.bits .f32 = 32 ∨ (Rect.block (s := S2) S2.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S2.size a ≤ S2.size a
  hwx0_19 : ∀ i : grid0.Coords, EltTy.bits .f32 = 32 ∨ (Rect.block (s := S2) S2.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S64x64.size a ≤ S64x64.size a
  hwx0_20 : ∀ i : grid0.Coords, EltTy.bits .f32 = 32 ∨ (Rect.block (s := S64x64) S64x64.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S64.size a ≤ S64.size a
  hwx0_21 : ∀ i : grid0.Coords, EltTy.bits .f32 = 32 ∨ (Rect.block (s := S64) S64.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S64x1.size a ≤ S64x1.size a
  hwx0_22 : ∀ i : grid0.Coords, EltTy.bits .f32 = 32 ∨ (Rect.block (s := S64x1) S64x1.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1.size a ≤ S1.size a
  hwx0_23 : ∀ i : grid0.Coords, EltTy.bits .f32 = 32 ∨ (Rect.block (s := S1) S1.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S4096x2.size a ≤ S1048576x2.size a
  hwx0_24 : ∀ i : grid0.Coords, EltTy.bits .f32 = 32 ∨ (Rect.block (s := S1048576x2) S4096x2.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S4096x1.size a ≤ S1048576x1.size a
  hwx0_25 : ∀ i : grid0.Coords, EltTy.bits .f32 = 32 ∨ (Rect.block (s := S1048576x1) S4096x1.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S4096.size a ≤ S1048576.size a
  hwx0_26 : ∀ i : grid0.Coords, EltTy.bits .f32 = 32 ∨ (Rect.block (s := S1048576) S4096.size (cc0_transform_26 i) (hinb0_26 i)).WholeWords (EltTy.packing .f32)

variable [Facts₀]

def dot_S4096x2_S2x4_S4096x4_1_0_0_1_n_n : DotDims S4096x2 S2x4 S4096x4 where
  lhsContracting := [1]
  rhsContracting := [0]
  lhsNonContracting := [0]
  rhsNonContracting := [1]
  lhsBatch := []
  rhsBatch := []
  wf := dot_S4096x2_S2x4_S4096x4_1_0_0_1_n_n_wf
def dot_S4096x4_S4x1_S4096x1_1_0_0_1_n_n : DotDims S4096x4 S4x1 S4096x1 where
  lhsContracting := [1]
  rhsContracting := [0]
  lhsNonContracting := [0]
  rhsNonContracting := [1]
  lhsBatch := []
  rhsBatch := []
  wf := dot_S4096x4_S4x1_S4096x1_1_0_0_1_n_n_wf
def dot_S4096x4_S4x4_S4096x4_1_0_0_1_n_n : DotDims S4096x4 S4x4 S4096x4 where
  lhsContracting := [1]
  rhsContracting := [0]
  lhsNonContracting := [0]
  rhsNonContracting := [1]
  lhsBatch := []
  rhsBatch := []
  wf := dot_S4096x4_S4x4_S4096x4_1_0_0_1_n_n_wf
def dot_S4096x8_S8x64_S4096x64_1_0_0_1_n_n : DotDims S4096x8 S8x64 S4096x64 where
  lhsContracting := [1]
  rhsContracting := [0]
  lhsNonContracting := [0]
  rhsNonContracting := [1]
  lhsBatch := []
  rhsBatch := []
  wf := dot_S4096x8_S8x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x2_S4096x2_1_0_0_1_n_n : DotDims S4096x64 S64x2 S4096x2 where
  lhsContracting := [1]
  rhsContracting := [0]
  lhsNonContracting := [0]
  rhsNonContracting := [1]
  lhsBatch := []
  rhsBatch := []
  wf := dot_S4096x64_S64x2_S4096x2_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

abbrev win0_0 : Pipeline.Window sig grid0 :=
  Pipeline.Window.ofSpec (Memref.whole main_arg0) S4096x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x2x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S6x2x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S6x1x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x1x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x4x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S6x4x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S6x1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S4x1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S4x4.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S4.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S8x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S64x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S64x2.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S2.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S2.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S64x64.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S64.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg22) S64x1.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg23) S1.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v0_0) S4096x2.size cc0_transform_24 reads0_24 true false 2 stage0_24 sem0_24
    hrank0 hreads0_24 hinb0_24 nbuf0_24 (Memref.isWhole_whole _) hwx0_24 hstage0_24

abbrev win0_25 : Pipeline.Window sig grid0 :=
  Pipeline.Window.ofSpec (Memref.whole main_v0_1) S4096x1.size cc0_transform_25 reads0_25 true false 2 stage0_25 sem0_25
    hrank0 hreads0_25 hinb0_25 nbuf0_25 (Memref.isWhole_whole _) hwx0_25 hstage0_25

abbrev win0_26 : Pipeline.Window sig grid0 :=
  Pipeline.Window.ofSpec (Memref.whole main_v0_2) S4096.size cc0_transform_26 reads0_26 true false 2 stage0_26 sem0_26
    hrank0 hreads0_26 hinb0_26 nbuf0_26 (Memref.isWhole_whole _) hwx0_26 hstage0_26

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

class Facts : Prop extends Facts₀ where

variable [Facts]
-- ==== ReferenceIdeal.lean ====
abbrev S1048576x8 : Shape := ⟨2, ![1048576, 8]⟩
abbrev S1048576x2 : Shape := ⟨2, ![1048576, 2]⟩
abbrev S4x2x4 : Shape := ⟨3, ![4, 2, 4]⟩
abbrev S6x2x4 : Shape := ⟨3, ![6, 2, 4]⟩
abbrev S6x1x4 : Shape := ⟨3, ![6, 1, 4]⟩
abbrev S4x1x4 : Shape := ⟨3, ![4, 1, 4]⟩
abbrev S4x4x1 : Shape := ⟨3, ![4, 4, 1]⟩
abbrev S6x4x1 : Shape := ⟨3, ![6, 4, 1]⟩
abbrev S6x1x1 : Shape := ⟨3, ![6, 1, 1]⟩
abbrev S4x1x1 : Shape := ⟨3, ![4, 1, 1]⟩
abbrev S4x4 : Shape := ⟨2, ![4, 4]⟩
abbrev S4 : Shape := ⟨1, ![4]⟩
abbrev S8x64 : Shape := ⟨2, ![8, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S64x1 : Shape := ⟨2, ![64, 1]⟩
abbrev S1 : Shape := ⟨1, ![1]⟩
abbrev S6 : Shape := ⟨1, ![6]⟩
abbrev S1x1048576x2 : Shape := ⟨3, ![1, 1048576, 2]⟩
abbrev S4x1048576x2 : Shape := ⟨3, ![4, 1048576, 2]⟩
abbrev S4x1048576x4 : Shape := ⟨3, ![4, 1048576, 4]⟩
abbrev S_ : Shape := ⟨0, ![]⟩
abbrev S6x1 : Shape := ⟨2, ![6, 1]⟩
abbrev S6x1048576x2 : Shape := ⟨3, ![6, 1048576, 2]⟩
abbrev S6x1048576x4 : Shape := ⟨3, ![6, 1048576, 4]⟩
abbrev S4x1048576x1 : Shape := ⟨3, ![4, 1048576, 1]⟩
abbrev S6x1048576x1 : Shape := ⟨3, ![6, 1048576, 1]⟩
abbrev S4x1048576 : Shape := ⟨2, ![4, 1048576]⟩
abbrev S1048576x4 : Shape := ⟨2, ![1048576, 4]⟩
abbrev S1x4 : Shape := ⟨2, ![1, 4]⟩
abbrev S1048576x64 : Shape := ⟨2, ![1048576, 64]⟩
abbrev S1x64 : Shape := ⟨2, ![1, 64]⟩
abbrev S1x2 : Shape := ⟨2, ![1, 2]⟩
abbrev S1048576 : Shape := ⟨1, ![1048576]⟩
abbrev S1048576x1 : Shape := ⟨2, ![1048576, 1]⟩
abbrev S1x1 : Shape := ⟨2, ![1, 1]⟩

abbrev nBuf : Space → Nat
  | .hbm => 124
  | .vmem => 0
  | .smem => 0
  | _ => 0

abbrev bufTy : (tb : Table) → Fin (tcTables nBuf tb) → BufTy
  | .hbm, ⟨0, _⟩ => ⟨S1048576x8, .f32⟩
  | .hbm, ⟨1, _⟩ => ⟨S1048576x2, .f32⟩
  | .hbm, ⟨2, _⟩ => ⟨S1048576x2, .f32⟩
  | .hbm, ⟨3, _⟩ => ⟨S4x2x4, .f32⟩
  | .hbm, ⟨4, _⟩ => ⟨S6x2x4, .f32⟩
  | .hbm, ⟨5, _⟩ => ⟨S6x1x4, .f32⟩
  | .hbm, ⟨6, _⟩ => ⟨S4x1x4, .f32⟩
  | .hbm, ⟨7, _⟩ => ⟨S4x4x1, .f32⟩
  | .hbm, ⟨8, _⟩ => ⟨S6x4x1, .f32⟩
  | .hbm, ⟨9, _⟩ => ⟨S6x1x1, .f32⟩
  | .hbm, ⟨10, _⟩ => ⟨S4x1x1, .f32⟩
  | .hbm, ⟨11, _⟩ => ⟨S4x4, .f32⟩
  | .hbm, ⟨12, _⟩ => ⟨S4, .f32⟩
  | .hbm, ⟨13, _⟩ => ⟨S8x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x2, .f32⟩
  | .hbm, ⟨18, _⟩ => ⟨S2, .f32⟩
  | .hbm, ⟨19, _⟩ => ⟨S2, .f32⟩
  | .hbm, ⟨20, _⟩ => ⟨S64x64, .f32⟩
  | .hbm, ⟨21, _⟩ => ⟨S64, .f32⟩
  | .hbm, ⟨22, _⟩ => ⟨S64x1, .f32⟩
  | .hbm, ⟨23, _⟩ => ⟨S1, .f32⟩
  | .hbm, ⟨24, _⟩ => ⟨S6, .i32⟩
  | .hbm, ⟨25, _⟩ => ⟨S6, .i32⟩
  | .hbm, ⟨26, _⟩ => ⟨S1048576x2, .f32⟩
  | .hbm, ⟨27, _⟩ => ⟨S1048576x2, .f32⟩
  | .hbm, ⟨28, _⟩ => ⟨S1x1048576x2, .f32⟩
  | .hbm, ⟨29, _⟩ => ⟨S1x1048576x2, .f32⟩
  | .hbm, ⟨30, _⟩ => ⟨S1x1048576x2, .f32⟩
  | .hbm, ⟨31, _⟩ => ⟨S1x1048576x2, .f32⟩
  | .hbm, ⟨32, _⟩ => ⟨S4x1048576x2, .f32⟩
  | .hbm, ⟨33, _⟩ => ⟨S4x1048576x4, .f32⟩
  | .hbm, ⟨34, _⟩ => ⟨S_, .i32⟩
  | .hbm, ⟨35, _⟩ => ⟨S6, .i32⟩
  | .hbm, ⟨36, _⟩ => ⟨S6, .i1⟩
  | .hbm, ⟨37, _⟩ => ⟨S_, .i32⟩
  | .hbm, ⟨38, _⟩ => ⟨S6, .i32⟩
  | .hbm, ⟨39, _⟩ => ⟨S6, .i32⟩
  | .hbm, ⟨40, _⟩ => ⟨S6, .i32⟩
  | .hbm, ⟨41, _⟩ => ⟨S6x1, .i32⟩
  | .hbm, ⟨42, _⟩ => ⟨S6x1048576x2, .f32⟩
  | .hbm, ⟨43, _⟩ => ⟨S6x1048576x4, .f32⟩
  | .hbm, ⟨44, _⟩ => ⟨S6x1048576x4, .f32⟩
  | .hbm, ⟨45, _⟩ => ⟨S6x1048576x4, .f32⟩
  | .hbm, ⟨46, _⟩ => ⟨S_, .f32⟩
  | .hbm, ⟨47, _⟩ => ⟨S4x1048576x4, .f32⟩
  | .hbm, ⟨48, _⟩ => ⟨S6x1, .i32⟩
  | .hbm, ⟨49, _⟩ => ⟨S4x1048576x4, .f32⟩
  | .hbm, ⟨50, _⟩ => ⟨S4x1048576x4, .f32⟩
  | .hbm, ⟨51, _⟩ => ⟨S4x1048576x4, .f32⟩
  | .hbm, ⟨52, _⟩ => ⟨S4x1048576x4, .f32⟩
  | .hbm, ⟨53, _⟩ => ⟨S4x1048576x4, .f32⟩
  | .hbm, ⟨54, _⟩ => ⟨S4x1048576x1, .f32⟩
  | .hbm, ⟨55, _⟩ => ⟨S_, .i32⟩
  | .hbm, ⟨56, _⟩ => ⟨S6, .i32⟩
  | .hbm, ⟨57, _⟩ => ⟨S6, .i1⟩
  | .hbm, ⟨58, _⟩ => ⟨S_, .i32⟩
  | .hbm, ⟨59, _⟩ => ⟨S6, .i32⟩
  | .hbm, ⟨60, _⟩ => ⟨S6, .i32⟩
  | .hbm, ⟨61, _⟩ => ⟨S6, .i32⟩
  | .hbm, ⟨62, _⟩ => ⟨S6x1, .i32⟩
  | .hbm, ⟨63, _⟩ => ⟨S6x1048576x4, .f32⟩
  | .hbm, ⟨64, _⟩ => ⟨S6x1048576x1, .f32⟩
  | .hbm, ⟨65, _⟩ => ⟨S6x1048576x1, .f32⟩
  | .hbm, ⟨66, _⟩ => ⟨S6x1048576x1, .f32⟩
  | .hbm, ⟨67, _⟩ => ⟨S_, .f32⟩
  | .hbm, ⟨68, _⟩ => ⟨S4x1048576x1, .f32⟩
  | .hbm, ⟨69, _⟩ => ⟨S6x1, .i32⟩
  | .hbm, ⟨70, _⟩ => ⟨S4x1048576x1, .f32⟩
  | .hbm, ⟨71, _⟩ => ⟨S4x1048576x1, .f32⟩
  | .hbm, ⟨72, _⟩ => ⟨S4x1048576x1, .f32⟩
  | .hbm, ⟨73, _⟩ => ⟨S4x1048576x1, .f32⟩
  | .hbm, ⟨74, _⟩ => ⟨S4x1048576, .f32⟩
  | .hbm, ⟨75, _⟩ => ⟨S4x1048576, .f32⟩
  | .hbm, ⟨76, _⟩ => ⟨S1048576x4, .f32⟩
  | .hbm, ⟨77, _⟩ => ⟨S1048576x4, .f32⟩
  | .hbm, ⟨78, _⟩ => ⟨S1x4, .f32⟩
  | .hbm, ⟨79, _⟩ => ⟨S1048576x4, .f32⟩
  | .hbm, ⟨80, _⟩ => ⟨S1048576x4, .f32⟩
  | .hbm, ⟨81, _⟩ => ⟨S1048576x4, .f32⟩
  | .hbm, ⟨82, _⟩ => ⟨S1048576x4, .f32⟩
  | .hbm, ⟨83, _⟩ => ⟨S1048576x8, .f32⟩
  | .hbm, ⟨84, _⟩ => ⟨S1048576x64, .f32⟩
  | .hbm, ⟨85, _⟩ => ⟨S1x64, .f32⟩
  | .hbm, ⟨86, _⟩ => ⟨S1048576x64, .f32⟩
  | .hbm, ⟨87, _⟩ => ⟨S1048576x64, .f32⟩
  | .hbm, ⟨88, _⟩ => ⟨S1048576x64, .f32⟩
  | .hbm, ⟨89, _⟩ => ⟨S1048576x64, .f32⟩
  | .hbm, ⟨90, _⟩ => ⟨S1x64, .f32⟩
  | .hbm, ⟨91, _⟩ => ⟨S1048576x64, .f32⟩
  | .hbm, ⟨92, _⟩ => ⟨S1048576x64, .f32⟩
  | .hbm, ⟨93, _⟩ => ⟨S1048576x64, .f32⟩
  | .hbm, ⟨94, _⟩ => ⟨S1048576x2, .f32⟩
  | .hbm, ⟨95, _⟩ => ⟨S1x2, .f32⟩
  | .hbm, ⟨96, _⟩ => ⟨S1048576x2, .f32⟩
  | .hbm, ⟨97, _⟩ => ⟨S1048576x2, .f32⟩
  | .hbm, ⟨98, _⟩ => ⟨S2, .f32⟩
  | .hbm, ⟨99, _⟩ => ⟨S1048576x2, .f32⟩
  | .hbm, ⟨100, _⟩ => ⟨S1x2, .f32⟩
  | .hbm, ⟨101, _⟩ => ⟨S1048576x2, .f32⟩
  | .hbm, ⟨102, _⟩ => ⟨S1048576x2, .f32⟩
  | .hbm, ⟨103, _⟩ => ⟨S1048576x2, .f32⟩
  | .hbm, ⟨104, _⟩ => ⟨S_, .f32⟩
  | .hbm, ⟨105, _⟩ => ⟨S1048576x2, .f32⟩
  | .hbm, ⟨106, _⟩ => ⟨S1048576x2, .f32⟩
  | .hbm, ⟨107, _⟩ => ⟨S1x2, .f32⟩
  | .hbm, ⟨108, _⟩ => ⟨S1048576x2, .f32⟩
  | .hbm, ⟨109, _⟩ => ⟨S1048576x2, .f32⟩
  | .hbm, ⟨110, _⟩ => ⟨S_, .f32⟩
  | .hbm, ⟨111, _⟩ => ⟨S1048576x2, .f32⟩
  | .hbm, ⟨112, _⟩ => ⟨S1048576x2, .f32⟩
  | .hbm, ⟨113, _⟩ => ⟨S_, .f32⟩
  | .hbm, ⟨114, _⟩ => ⟨S1048576, .f32⟩
  | .hbm, ⟨115, _⟩ => ⟨S1048576x64, .f32⟩
  | .hbm, ⟨116, _⟩ => ⟨S1x64, .f32⟩
  | .hbm, ⟨117, _⟩ => ⟨S1048576x64, .f32⟩
  | .hbm, ⟨118, _⟩ => ⟨S1048576x64, .f32⟩
  | .hbm, ⟨119, _⟩ => ⟨S1048576x64, .f32⟩
  | .hbm, ⟨120, _⟩ => ⟨S1048576x1, .f32⟩
  | .hbm, ⟨121, _⟩ => ⟨S1x1, .f32⟩
  | .hbm, ⟨122, _⟩ => ⟨S1048576x1, .f32⟩
  | .hbm, ⟨123, _⟩ => ⟨S1048576x1, .f32⟩
  | _, _ => ⟨S1048576x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_c_0 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_c_1 : Ref sig .tc := ⟨.hbm, 34, rfl⟩
abbrev main_v8 : Ref sig .tc := ⟨.hbm, 35, rfl⟩
abbrev main_v9 : Ref sig .tc := ⟨.hbm, 36, rfl⟩
abbrev main_c_2 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_3 : Ref sig .tc := ⟨.hbm, 55, rfl⟩
abbrev main_v26 : Ref sig .tc := ⟨.hbm, 56, rfl⟩
abbrev main_v27 : Ref sig .tc := ⟨.hbm, 57, rfl⟩
abbrev main_c_4 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_5 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_6 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_7 : Ref sig .tc := ⟨.hbm, 110, rfl⟩
abbrev main_v77 : Ref sig .tc := ⟨.hbm, 111, rfl⟩
abbrev main_v78 : Ref sig .tc := ⟨.hbm, 112, rfl⟩
abbrev main_cst_8 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩

abbrev nD : Nat := 1
abbrev τ : Topo := Topo.v7x

variable {F : FTy → Type} [FloatOps F]

class Facts₀ : Prop where
  slices_S1048576x8_S1048576x2_0_6 : S1048576x8.Slices ![0, 6] S1048576x2
  slices_S1048576x8_S1048576x2_0_0 : S1048576x8.Slices ![0, 0] S1048576x2
  bcast_S1048576x2_S1x1048576x2_1_2 : S1048576x2.BroadcastsInDim S1x1048576x2 (![1, 2] : Fin 2 → Fin S1x1048576x2.rank)
  concatenates_S1x1048576x2_S1x1048576x2_S1x1048576x2_S1x1048576x2_S4x1048576x2_d0 : Shape.Concatenates [S1x1048576x2, S1x1048576x2, S1x1048576x2, S1x1048576x2] S4x1048576x2 0
  bcast_S_S6 : S_.BroadcastsInDim S6 (![] : Fin 0 → Fin S6.rank)
  bcast_S6_S6x1_0 : S6.BroadcastsInDim S6x1 (![0] : Fin 1 → Fin S6x1.rank)
  bcast_S6x1x4_S6x1048576x4_0_1_2 : S6x1x4.BroadcastsInDim S6x1048576x4 (![0, 1, 2] : Fin 3 → Fin S6x1048576x4.rank)
  bcast_S_S4x1048576x4 : S_.BroadcastsInDim S4x1048576x4 (![] : Fin 0 → Fin S4x1048576x4.rank)
  bcast_S4x1x4_S4x1048576x4_0_1_2 : S4x1x4.BroadcastsInDim S4x1048576x4 (![0, 1, 2] : Fin 3 → Fin S4x1048576x4.rank)
  bcast_S6x1x1_S6x1048576x1_0_1_2 : S6x1x1.BroadcastsInDim S6x1048576x1 (![0, 1, 2] : Fin 3 → Fin S6x1048576x1.rank)
  bcast_S_S4x1048576x1 : S_.BroadcastsInDim S4x1048576x1 (![] : Fin 0 → Fin S4x1048576x1.rank)
  bcast_S4x1x1_S4x1048576x1_0_1_2 : S4x1x1.BroadcastsInDim S4x1048576x1 (![0, 1, 2] : Fin 3 → Fin S4x1048576x1.rank)
  shapeCasts_S4x1048576x1_S4x1048576 : S4x1048576x1.ShapeCasts S4x1048576
  transposes_S4x1048576_S1048576x4_1_0 : S4x1048576.Transposes [1, 0] S1048576x4
  bcast_S4_S1x4_1 : S4.BroadcastsInDim S1x4 (![1] : Fin 1 → Fin S1x4.rank)
  bcast_S1x4_S1048576x4_0_1 : S1x4.BroadcastsInDim S1048576x4 (![0, 1] : Fin 2 → Fin S1048576x4.rank)
  slices_S1048576x8_S1048576x4_0_2 : S1048576x8.Slices ![0, 2] S1048576x4
  concatenates_S1048576x4_S1048576x4_S1048576x8_d1 : Shape.Concatenates [S1048576x4, S1048576x4] S1048576x8 1
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S2_S1x2_1 : S2.BroadcastsInDim S1x2 (![1] : Fin 1 → Fin S1x2.rank)
  bcast_S1x2_S1048576x2_0_1 : S1x2.BroadcastsInDim S1048576x2 (![0, 1] : Fin 2 → Fin S1048576x2.rank)
  bcast_S_S1048576x2 : S_.BroadcastsInDim S1048576x2 (![] : Fin 0 → Fin S1048576x2.rank)
  reducesTo_S1048576x2_S1048576_d1 : S1048576x2.ReducesTo [1] S1048576
  h_S_ : 0 < S_.numel
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  dot_S4x1048576x2_S4x2x4_S4x1048576x4_2_1_1_2_0_0_wf : DotDims.WF S4x1048576x2 S4x2x4 S4x1048576x4 [2] [1] [1] [2] [0] [0]
  gather_S4x1048576x2_S6x1_S6x1048576x2_12_0_n_n_0_1_110485762_wf : GatherDims.WF S4x1048576x2 S6x1 S6x1048576x2 [1, 2] [0] [] [0] [] 1 ![1, 1048576, 2]
  dot_S6x1048576x2_S6x2x4_S6x1048576x4_2_1_1_2_0_0_wf : DotDims.WF S6x1048576x2 S6x2x4 S6x1048576x4 [2] [1] [1] [2] [0] [0]
  scatter_S4x1048576x4_S6x1_S6x1048576x4_12_0_0_1_wf : ScatterDims.WF S4x1048576x4 S6x1 S6x1048576x4 [1, 2] [0] [0] 1
  dot_S4x1048576x4_S4x4x1_S4x1048576x1_2_1_1_2_0_0_wf : DotDims.WF S4x1048576x4 S4x4x1 S4x1048576x1 [2] [1] [1] [2] [0] [0]
  gather_S4x1048576x4_S6x1_S6x1048576x4_12_0_n_n_0_1_110485764_wf : GatherDims.WF S4x1048576x4 S6x1 S6x1048576x4 [1, 2] [0] [] [0] [] 1 ![1, 1048576, 4]
  dot_S6x1048576x4_S6x4x1_S6x1048576x1_2_1_1_2_0_0_wf : DotDims.WF S6x1048576x4 S6x4x1 S6x1048576x1 [2] [1] [1] [2] [0] [0]
  scatter_S4x1048576x1_S6x1_S6x1048576x1_12_0_0_1_wf : ScatterDims.WF S4x1048576x1 S6x1 S6x1048576x1 [1, 2] [0] [0] 1
  dot_S1048576x4_S4x4_S1048576x4_1_0_0_1_n_n_wf : DotDims.WF S1048576x4 S4x4 S1048576x4 [1] [0] [0] [1] [] []
  dot_S1048576x8_S8x64_S1048576x64_1_0_0_1_n_n_wf : DotDims.WF S1048576x8 S8x64 S1048576x64 [1] [0] [0] [1] [] []
  dot_S1048576x64_S64x64_S1048576x64_1_0_0_1_n_n_wf : DotDims.WF S1048576x64 S64x64 S1048576x64 [1] [0] [0] [1] [] []
  dot_S1048576x64_S64x2_S1048576x2_1_0_0_1_n_n_wf : DotDims.WF S1048576x64 S64x2 S1048576x2 [1] [0] [0] [1] [] []
  dot_S1048576x64_S64x1_S1048576x1_1_0_0_1_n_n_wf : DotDims.WF S1048576x64 S64x1 S1048576x1 [1] [0] [0] [1] [] []

variable [Facts₀]

def dot_S4x1048576x2_S4x2x4_S4x1048576x4_2_1_1_2_0_0 : DotDims S4x1048576x2 S4x2x4 S4x1048576x4 where
  lhsContracting := [2]
  rhsContracting := [1]
  lhsNonContracting := [1]
  rhsNonContracting := [2]
  lhsBatch := [0]
  rhsBatch := [0]
  wf := dot_S4x1048576x2_S4x2x4_S4x1048576x4_2_1_1_2_0_0_wf
def gather_S4x1048576x2_S6x1_S6x1048576x2_12_0_n_n_0_1_110485762 : GatherDims S4x1048576x2 S6x1 S6x1048576x2 where
  offsetDims := [1, 2]
  collapsedSliceDims := [0]
  operandBatchingDims := []
  startIndicesBatchingDims := []
  startIndexMap := [0]
  indexVectorDim := 1
  sliceSizes := ![1, 1048576, 2]
  wf := gather_S4x1048576x2_S6x1_S6x1048576x2_12_0_n_n_0_1_110485762_wf
def dot_S6x1048576x2_S6x2x4_S6x1048576x4_2_1_1_2_0_0 : DotDims S6x1048576x2 S6x2x4 S6x1048576x4 where
  lhsContracting := [2]
  rhsContracting := [1]
  lhsNonContracting := [1]
  rhsNonContracting := [2]
  lhsBatch := [0]
  rhsBatch := [0]
  wf := dot_S6x1048576x2_S6x2x4_S6x1048576x4_2_1_1_2_0_0_wf
def scatter_S4x1048576x4_S6x1_S6x1048576x4_12_0_0_1 : ScatterDims S4x1048576x4 S6x1 S6x1048576x4 where
  updateWindowDims := [1, 2]
  insertedWindowDims := [0]
  scatterDimsToOperandDims := [0]
  indexVectorDim := 1
  wf := scatter_S4x1048576x4_S6x1_S6x1048576x4_12_0_0_1_wf
def dot_S4x1048576x4_S4x4x1_S4x1048576x1_2_1_1_2_0_0 : DotDims S4x1048576x4 S4x4x1 S4x1048576x1 where
  lhsContracting := [2]
  rhsContracting := [1]
  lhsNonContracting := [1]
  rhsNonContracting := [2]
  lhsBatch := [0]
  rhsBatch := [0]
  wf := dot_S4x1048576x4_S4x4x1_S4x1048576x1_2_1_1_2_0_0_wf
def gather_S4x1048576x4_S6x1_S6x1048576x4_12_0_n_n_0_1_110485764 : GatherDims S4x1048576x4 S6x1 S6x1048576x4 where
  offsetDims := [1, 2]
  collapsedSliceDims := [0]
  operandBatchingDims := []
  startIndicesBatchingDims := []
  startIndexMap := [0]
  indexVectorDim := 1
  sliceSizes := ![1, 1048576, 4]
  wf := gather_S4x1048576x4_S6x1_S6x1048576x4_12_0_n_n_0_1_110485764_wf
def dot_S6x1048576x4_S6x4x1_S6x1048576x1_2_1_1_2_0_0 : DotDims S6x1048576x4 S6x4x1 S6x1048576x1 where
  lhsContracting := [2]
  rhsContracting := [1]
  lhsNonContracting := [1]
  rhsNonContracting := [2]
  lhsBatch := [0]
  rhsBatch := [0]
  wf := dot_S6x1048576x4_S6x4x1_S6x1048576x1_2_1_1_2_0_0_wf
def scatter_S4x1048576x1_S6x1_S6x1048576x1_12_0_0_1 : ScatterDims S4x1048576x1 S6x1 S6x1048576x1 where
  updateWindowDims := [1, 2]
  insertedWindowDims := [0]
  scatterDimsToOperandDims := [0]
  indexVectorDim := 1
  wf := scatter_S4x1048576x1_S6x1_S6x1048576x1_12_0_0_1_wf
def dot_S1048576x4_S4x4_S1048576x4_1_0_0_1_n_n : DotDims S1048576x4 S4x4 S1048576x4 where
  lhsContracting := [1]
  rhsContracting := [0]
  lhsNonContracting := [0]
  rhsNonContracting := [1]
  lhsBatch := []
  rhsBatch := []
  wf := dot_S1048576x4_S4x4_S1048576x4_1_0_0_1_n_n_wf
def dot_S1048576x8_S8x64_S1048576x64_1_0_0_1_n_n : DotDims S1048576x8 S8x64 S1048576x64 where
  lhsContracting := [1]
  rhsContracting := [0]
  lhsNonContracting := [0]
  rhsNonContracting := [1]
  lhsBatch := []
  rhsBatch := []
  wf := dot_S1048576x8_S8x64_S1048576x64_1_0_0_1_n_n_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x64_S64x2_S1048576x2_1_0_0_1_n_n : DotDims S1048576x64 S64x2 S1048576x2 where
  lhsContracting := [1]
  rhsContracting := [0]
  lhsNonContracting := [0]
  rhsNonContracting := [1]
  lhsBatch := []
  rhsBatch := []
  wf := dot_S1048576x64_S64x2_S1048576x2_1_0_0_1_n_n_wf
def dot_S1048576x64_S64x1_S1048576x1_1_0_0_1_n_n : DotDims S1048576x64 S64x1 S1048576x1 where
  lhsContracting := [1]
  rhsContracting := [0]
  lhsNonContracting := [0]
  rhsNonContracting := [1]
  lhsBatch := []
  rhsBatch := []
  wf := dot_S1048576x64_S64x1_S1048576x1_1_0_0_1_n_n_wf

class Facts : Prop extends Facts₀ where

variable [Facts]
-- ==== Proof.Spec.lean ====
/-
  THE SPECIFICATION: what both programs compute, row by row.

  A batch of B = 1048576 rows. Row b carries four graph nodes with two features each:
  node 0 = obs[b, 6:8], node 1 = t1[b, :], node 2 = t2[b, :], node 3 = obs[b, 0:2].
  The graph has six directed edges e with sources src = (0,0,0,1,1,2) and targets dst = (1,2,3,2,3,3).
  One message-passing layer maps node features h to, at node n,
      (sum over edges e into n of (h[src e] · W[e] + m_bias[e])) + h_bias[n] + h[n] · loop_w[n].
  Layer 1 (2 -> 4 features) is followed by tanh; layer 2 (4 -> 1) by tanh, giving four numbers per row.
  These pass through a 4 -> 4 dense layer with tanh, are joined with obs[b, 2:6] to eight features, and
  go through a shared 8 -> 64 tanh layer. The policy head is 64 -> 64 tanh then 64 -> 2 (the mean action); the
  value head is 64 -> 64 tanh then 64 -> 1. The log-probability of the mean action under a diagonal Gaussian
  with log-deviation log_std is the sum over the two action dimensions of
      -1/2 · (0 / exp log_std)^2 - log_std - c,   c the f32 word 0x3F6B3F8E (one half of log 2π, rounded),
  which does not depend on the row. Everything is on the extended reals, every operation exact.
-/
import Idealize.ShloMosaic.PureOps.Ideal
import Idealize.ShloMosaic.Lib.ValueIdx

noncomputable section

namespace Cert.Spec

open Idealize.ShloMosaic Idealize.ShloMosaic.ValueIdx

/-- The number of rows. -/
abbrev B : Nat := 1048576

/-- The twenty-one parameter arrays, in the order of the programs' parameters 3 … 23. -/
structure Weights (F : FTy → Type) where
  loop_w1 : FVec F ⟨3, ![4, 2, 4]⟩ .f32
  W1 : FVec F ⟨3, ![6, 2, 4]⟩ .f32
  m_bias1 : FVec F ⟨3, ![6, 1, 4]⟩ .f32
  h_bias1 : FVec F ⟨3, ![4, 1, 4]⟩ .f32
  loop_w2 : FVec F ⟨3, ![4, 4, 1]⟩ .f32
  W2 : FVec F ⟨3, ![6, 4, 1]⟩ .f32
  m_bias2 : FVec F ⟨3, ![6, 1, 1]⟩ .f32
  h_bias2 : FVec F ⟨3, ![4, 1, 1]⟩ .f32
  fe_w : FVec F ⟨2, ![4, 4]⟩ .f32
  fe_b : FVec F ⟨1, ![4]⟩ .f32
  common_w : FVec F ⟨2, ![8, 64]⟩ .f32
  common_b : FVec F ⟨1, ![64]⟩ .f32
  actor_w : FVec F ⟨2, ![64, 64]⟩ .f32
  actor_b : FVec F ⟨1, ![64]⟩ .f32
  action_w : FVec F ⟨2, ![64, 2]⟩ .f32
  action_b : FVec F ⟨1, ![2]⟩ .f32
  log_std : FVec F ⟨1, ![2]⟩ .f32
  critic_w : FVec F ⟨2, ![64, 64]⟩ .f32
  critic_b : FVec F ⟨1, ![64]⟩ .f32
  value_w : FVec F ⟨2, ![64, 1]⟩ .f32
  value_b : FVec F ⟨1, ![1]⟩ .f32

/-- The twenty-four argument arrays: the three batch arrays (parameters 0, 1, 2) and the parameter arrays. -/
structure Args (F : FTy → Type) where
  obs : FVec F ⟨2, ![1048576, 8]⟩ .f32
  t1 : FVec F ⟨2, ![1048576, 2]⟩ .f32
  t2 : FVec F ⟨2, ![1048576, 2]⟩ .f32
  W : Weights F

/-- The source node of each edge. -/
def src : Fin 6 → Fin 4 := ![0, 0, 0, 1, 1, 2]
/-- The target node of each edge. -/
def dst : Fin 6 → Fin 4 := ![1, 2, 3, 2, 3, 3]

/- One row: `u` is the row of obs (8 numbers), `p` and `q` the rows of t1 and t2 (2 numbers each). -/
variable (A : Weights Ideal) (u : Fin 8 → EReal) (p q : Fin 2 → EReal)

/-- Feature i of node n of the row. -/
def node (n : Fin 4) (i : Fin 2) : EReal :=
  match n with
  | 0 => u (⟨6 + i.val, by omega⟩ : Fin 8)
  | 1 => p i
  | 2 => q i
  | 3 => u (⟨i.val, by omega⟩ : Fin 8)

/-- Layer 1: the self-loop term of node n. -/
def loop1 (n : Fin 4) (c : Fin 4) : EReal := ∑ i : Fin 2, node u p q n i * A.loop_w1 (ix3 n i c)
/-- Layer 1: the message along edge e. -/
def msg1 (e : Fin 6) (c : Fin 4) : EReal :=
  (∑ i : Fin 2, node u p q (src e) i * A.W1 (ix3 e i c)) + A.m_bias1 (ix3 e 0 c)
/-- Layer 1: the messages arriving at node n, summed. -/
def agg1 (n : Fin 4) (c : Fin 4) : EReal := ∑ e : Fin 6, if dst e = n then msg1 A u p q e c else 0
/-- Layer 1 after tanh. -/
def x1 (n : Fin 4) (c : Fin 4) : EReal :=
  Ideal.tanh ((agg1 A u p q n c + A.h_bias1 (ix3 n 0 c)) + loop1 A u p q n c)

/-- Layer 2: the self-loop term of node n. -/
def loop2 (n : Fin 4) : EReal := ∑ k : Fin 4, x1 A u p q n k * A.loop_w2 (ix3 n k 0)
/-- Layer 2: the message along edge e. -/
def msg2 (e : Fin 6) : EReal :=
  (∑ k : Fin 4, x1 A u p q (src e) k * A.W2 (ix3 e k 0)) + A.m_bias2 (ix3 e 0 0)
/-- Layer 2: the messages arriving at node n, summed. -/
def agg2 (n : Fin 4) : EReal := ∑ e : Fin 6, if dst e = n then msg2 A u p q e else 0
/-- The graph output: layer 2 after tanh, one number per node. -/
def gout (n : Fin 4) : EReal :=
  Ideal.tanh ((agg2 A u p q n + A.h_bias2 (ix3 n 0 0)) + loop2 A u p q n)

/-- The graph latent: a dense 4 -> 4 layer with tanh. -/
def glat (j : Fin 4) : EReal :=
  Ideal.tanh ((∑ n : Fin 4, gout A u p q n * A.fe_w (ix2 n j)) + A.fe_b (ix1 j))
/-- The eight features: the graph latent, then entries 2 … 5 of the obs row. -/
def feat (k : Fin 8) : EReal :=
  if h : k.val < 4 then glat A u p q ⟨k.val, h⟩ else u (⟨k.val - 4 + 2, by omega⟩ : Fin 8)
/-- The shared 8 -> 64 layer with tanh. -/
def shared (j : Fin 64) : EReal :=
  Ideal.tanh ((∑ k : Fin 8, feat A u p q k * A.common_w (ix2 k j)) + A.common_b (ix1 j))
/-- The policy head's hidden layer. -/
def lpi (j : Fin 64) : EReal :=
  Ideal.tanh ((∑ k : Fin 64, shared A u p q k * A.actor_w (ix2 k j)) + A.actor_b (ix1 j))
/-- The mean action. -/
def mean (j : Fin 2) : EReal :=
  (∑ k : Fin 64, lpi A u p q k * A.action_w (ix2 k j)) + A.action_b (ix1 j)
/-- The value head's hidden layer. -/
def lvf (j : Fin 64) : EReal :=
  Ideal.tanh ((∑ k : Fin 64, shared A u p q k * A.critic_w (ix2 k j)) + A.critic_b (ix1 j))
/-- The value. -/
def value : EReal := (∑ k : Fin 64, lvf A u p q k * A.value_w (ix2 k 0)) + A.value_b (ix1 0)

/-- One action dimension's term of the log-probability, with the deviation from the mean d. -/
def perdimOf (d : EReal) (j : Fin 2) : EReal :=
  ((Ideal.ofBits .f32 0xBF000000#32
      * (Ideal.div d (Ideal.exp (A.log_std (ix1 j))) * Ideal.div d (Ideal.exp (A.log_std (ix1 j)))))
    - A.log_std (ix1 j)) - Ideal.ofBits .f32 0x3F6B3F8E#32
/-- The log-probability of the mean action: the deviation is zero. -/
def logp : EReal := ∑ j : Fin 2, perdimOf A 0 j

end Cert.Spec

namespace Cert.Spec

open Idealize.ShloMosaic Idealize.ShloMosaic.ValueIdx

/-- Row b of obs, of t1 and of t2. -/
def rowU (X : Args Ideal) (b : Fin B) : Fin 8 → EReal := fun k => X.obs (ix2 b k)
def rowP (X : Args Ideal) (b : Fin B) : Fin 2 → EReal := fun i => X.t1 (ix2 b i)
def rowQ (X : Args Ideal) (b : Fin B) : Fin 2 → EReal := fun i => X.t2 (ix2 b i)

/-- The first result: the mean actions, [B, 2]. -/
def Gact (X : Args Ideal) : (⟨2, ![1048576, 2]⟩ : Shape).Idx → EReal :=
  fun i => mean X.W (rowU X (i 0)) (rowP X (i 0)) (rowQ X (i 0)) (i 1)
/-- The second result: the values, [B, 1]. -/
def Gval (X : Args Ideal) : (⟨2, ![1048576, 1]⟩ : Shape).Idx → EReal :=
  fun i => value X.W (rowU X (i 0)) (rowP X (i 0)) (rowQ X (i 0))
/-- The third result: the log-probabilities, [B]: the same number in every row. -/
def Glogp (X : Args Ideal) : (⟨1, ![1048576]⟩ : Shape).Idx → EReal := fun _ => logp X.W

end Cert.Spec

end
-- ==== Proof.KernelArrays.lean ====
import proofs.«131937_j13331578487072_2_alg».proof.Proof.Gen.KernelIdeal.Value
import proofs.«131937_j13331578487072_2_alg».proof.Proof.Spec
import Idealize.ShloMosaic.Lib.Pipeline.Value
import Idealize.ShloMosaic.Lib.ValueIdx

noncomputable section

namespace Cert.KernelIdeal.Arrays

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The launch contents of the twenty-four argument arrays on device c. -/
def kargs (c : Dev nD) : Cert.Spec.Args Ideal where
  obs := m ((c : Thread nD τ).loc main_arg0)
  t1 := m ((c : Thread nD τ).loc main_arg1)
  t2 := m ((c : Thread nD τ).loc main_arg2)
  W := { loop_w1 := m ((c : Thread nD τ).loc main_arg3), W1 := m ((c : Thread nD τ).loc main_arg4)
       , m_bias1 := m ((c : Thread nD τ).loc main_arg5), h_bias1 := m ((c : Thread nD τ).loc main_arg6)
       , loop_w2 := m ((c : Thread nD τ).loc main_arg7), W2 := m ((c : Thread nD τ).loc main_arg8)
       , m_bias2 := m ((c : Thread nD τ).loc main_arg9), h_bias2 := m ((c : Thread nD τ).loc main_arg10)
       , fe_w := m ((c : Thread nD τ).loc main_arg11), fe_b := m ((c : Thread nD τ).loc main_arg12)
       , common_w := m ((c : Thread nD τ).loc main_arg13), common_b := m ((c : Thread nD τ).loc main_arg14)
       , actor_w := m ((c : Thread nD τ).loc main_arg15), actor_b := m ((c : Thread nD τ).loc main_arg16)
       , action_w := m ((c : Thread nD τ).loc main_arg17), action_b := m ((c : Thread nD τ).loc main_arg18)
       , log_std := m ((c : Thread nD τ).loc main_arg19)
       , critic_w := m ((c : Thread nD τ).loc main_arg20), critic_b := m ((c : Thread nD τ).loc main_arg21)
       , value_w := m ((c : Thread nD τ).loc main_arg22), value_b := m ((c : Thread nD τ).loc main_arg23) }

/-- The three batch windows and the three output windows move one block of 4096 rows per grid point;
    decided over the 256 points. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_24.index t (0 : Fin 2) = t.val ∧ win0_24.index t (1 : Fin 2) = 0
    ∧ win0_25.index t (0 : Fin 2) = t.val ∧ win0_25.index t (1 : Fin 2) = 0
    ∧ win0_26.index t (0 : Fin 1) = t.val :=
  (by decide +kernel : ∀ t : Fin grid0.N, _)

/-- A batch window's block at point t is rows 4096 t … 4096 t + 4095 of its array. -/
theorem iblk0_apply (c : Dev nD) (t : Fin cfg0.N) (r : Fin 4096) (k : Fin 8) (b : Fin 1048576)
    (hb : b.val = 4096 * t.val + r.val) :
    (iblk m c 0 t : Vec Ideal S4096x8 .f32) (ix2 r k) = (kargs m c).obs (ix2 b k) := by
  obtain ⟨e0, e1, -⟩ := idx_rows t
  unfold iblk
  rw [View.read_apply]
  show V m c main_arg0 _ = m (c.tc.loc main_arg0) _
  unfold V
  congr 1
  funext a
  apply Fin.ext
  match a with
  | ⟨0, _⟩ => show win0_0.index t 0 * 4096 + 1 * r.val = b.val; rw [e0, hb]; omega
  | ⟨1, _⟩ => show win0_0.index t 1 * 8 + 1 * k.val = k.val; rw [e1]; omega

theorem iblk1_apply (c : Dev nD) (t : Fin cfg0.N) (r : Fin 4096) (k : Fin 2) (b : Fin 1048576)
    (hb : b.val = 4096 * t.val + r.val) :
    (iblk m c 1 t : Vec Ideal S4096x2 .f32) (ix2 r k) = (kargs m c).t1 (ix2 b k) := by
  obtain ⟨-, -, e0, e1, -⟩ := idx_rows t
  unfold iblk
  rw [View.read_apply]
  show V m c main_arg1 _ = m (c.tc.loc main_arg1) _
  unfold V
  congr 1
  funext a
  apply Fin.ext
  match a with
  | ⟨0, _⟩ => show win0_1.index t 0 * 4096 + 1 * r.val = b.val; rw [e0, hb]; omega
  | ⟨1, _⟩ => show win0_1.index t 1 * 2 + 1 * k.val = k.val; rw [e1]; omega

theorem iblk2_apply (c : Dev nD) (t : Fin cfg0.N) (r : Fin 4096) (k : Fin 2) (b : Fin 1048576)
    (hb : b.val = 4096 * t.val + r.val) :
    (iblk m c 2 t : Vec Ideal S4096x2 .f32) (ix2 r k) = (kargs m c).t2 (ix2 b k) := by
  obtain ⟨-, -, -, -, e0, e1, -⟩ := idx_rows t
  unfold iblk
  rw [View.read_apply]
  show V m c main_arg2 _ = m (c.tc.loc main_arg2) _
  unfold V
  congr 1
  funext a
  apply Fin.ext
  match a with
  | ⟨0, _⟩ => show win0_2.index t 0 * 4096 + 1 * r.val = b.val; rw [e0, hb]; omega
  | ⟨1, _⟩ => show win0_2.index t 1 * 2 + 1 * k.val = k.val; rw [e1]; omega

/-- Parameter window 3 has one block, the whole array, at every grid point. -/
theorem iblk3_eq (c : Dev nD) (t : Fin cfg0.N) :
    (iblk m c 3 t : Vec Ideal S4x2x4 .f32) = m ((c : Thread nD τ).loc main_arg3) := by
  funext y
  unfold iblk
  rw [View.read_apply]
  show V m c main_arg3 _ = m (c.tc.loc main_arg3) _
  unfold V
  congr 1
  funext a
  apply Fin.ext
  match a with
  | ⟨0, _⟩ => show win0_3.index t 0 * 4 + 1 * (y 0).val = (y 0).val; rw [show win0_3.index t 0 = 0 from rfl]; omega
  | ⟨1, _⟩ => show win0_3.index t 1 * 2 + 1 * (y 1).val = (y 1).val; rw [show win0_3.index t 1 = 0 from rfl]; omega
  | ⟨2, _⟩ => show win0_3.index t 2 * 4 + 1 * (y 2).val = (y 2).val; rw [show win0_3.index t 2 = 0 from rfl]; omega

/-- Parameter window 4 has one block, the whole array, at every grid point. -/
theorem iblk4_eq (c : Dev nD) (t : Fin cfg0.N) :
    (iblk m c 4 t : Vec Ideal S6x2x4 .f32) = m ((c : Thread nD τ).loc main_arg4) := by
  funext y
  unfold iblk
  rw [View.read_apply]
  show V m c main_arg4 _ = m (c.tc.loc main_arg4) _
  unfold V
  congr 1
  funext a
  apply Fin.ext
  match a with
  | ⟨0, _⟩ => show win0_4.index t 0 * 6 + 1 * (y 0).val = (y 0).val; rw [show win0_4.index t 0 = 0 from rfl]; omega
  | ⟨1, _⟩ => show win0_4.index t 1 * 2 + 1 * (y 1).val = (y 1).val; rw [show win0_4.index t 1 = 0 from rfl]; omega
  | ⟨2, _⟩ => show win0_4.index t 2 * 4 + 1 * (y 2).val = (y 2).val; rw [show win0_4.index t 2 = 0 from rfl]; omega

/-- Parameter window 5 has one block, the whole array, at every grid point. -/
theorem iblk5_eq (c : Dev nD) (t : Fin cfg0.N) :
    (iblk m c 5 t : Vec Ideal S6x1x4 .f32) = m ((c : Thread nD τ).loc main_arg5) := by
  funext y
  unfold iblk
  rw [View.read_apply]
  show V m c main_arg5 _ = m (c.tc.loc main_arg5) _
  unfold V
  congr 1
  funext a
  apply Fin.ext
  match a with
  | ⟨0, _⟩ => show win0_5.index t 0 * 6 + 1 * (y 0).val = (y 0).val; rw [show win0_5.index t 0 = 0 from rfl]; omega
  | ⟨1, _⟩ => show win0_5.index t 1 * 1 + 1 * (y 1).val = (y 1).val; rw [show win0_5.index t 1 = 0 from rfl]; omega
  | ⟨2, _⟩ => show win0_5.index t 2 * 4 + 1 * (y 2).val = (y 2).val; rw [show win0_5.index t 2 = 0 from rfl]; omega

/-- Parameter window 6 has one block, the whole array, at every grid point. -/
theorem iblk6_eq (c : Dev nD) (t : Fin cfg0.N) :
    (iblk m c 6 t : Vec Ideal S4x1x4 .f32) = m ((c : Thread nD τ).loc main_arg6) := by
  funext y
  unfold iblk
  rw [View.read_apply]
  show V m c main_arg6 _ = m (c.tc.loc main_arg6) _
  unfold V
  congr 1
  funext a
  apply Fin.ext
  match a with
  | ⟨0, _⟩ => show win0_6.index t 0 * 4 + 1 * (y 0).val = (y 0).val; rw [show win0_6.index t 0 = 0 from rfl]; omega
  | ⟨1, _⟩ => show win0_6.index t 1 * 1 + 1 * (y 1).val = (y 1).val; rw [show win0_6.index t 1 = 0 from rfl]; omega
  | ⟨2, _⟩ => show win0_6.index t 2 * 4 + 1 * (y 2).val = (y 2).val; rw [show win0_6.index t 2 = 0 from rfl]; omega

/-- Parameter window 7 has one block, the whole array, at every grid point. -/
theorem iblk7_eq (c : Dev nD) (t : Fin cfg0.N) :
    (iblk m c 7 t : Vec Ideal S4x4x1 .f32) = m ((c : Thread nD τ).loc main_arg7) := by
  funext y
  unfold iblk
  rw [View.read_apply]
  show V m c main_arg7 _ = m (c.tc.loc main_arg7) _
  unfold V
  congr 1
  funext a
  apply Fin.ext
  match a with
  | ⟨0, _⟩ => show win0_7.index t 0 * 4 + 1 * (y 0).val = (y 0).val; rw [show win0_7.index t 0 = 0 from rfl]; omega
  | ⟨1, _⟩ => show win0_7.index t 1 * 4 + 1 * (y 1).val = (y 1).val; rw [show win0_7.index t 1 = 0 from rfl]; omega
  | ⟨2, _⟩ => show win0_7.index t 2 * 1 + 1 * (y 2).val = (y 2).val; rw [show win0_7.index t 2 = 0 from rfl]; omega

/-- Parameter window 8 has one block, the whole array, at every grid point. -/
theorem iblk8_eq (c : Dev nD) (t : Fin cfg0.N) :
    (iblk m c 8 t : Vec Ideal S6x4x1 .f32) = m ((c : Thread nD τ).loc main_arg8) := by
  funext y
  unfold iblk
  rw [View.read_apply]
  show V m c main_arg8 _ = m (c.tc.loc main_arg8) _
  unfold V
  congr 1
  funext a
  apply Fin.ext
  match a with
  | ⟨0, _⟩ => show win0_8.index t 0 * 6 + 1 * (y 0).val = (y 0).val; rw [show win0_8.index t 0 = 0 from rfl]; omega
  | ⟨1, _⟩ => show win0_8.index t 1 * 4 + 1 * (y 1).val = (y 1).val; rw [show win0_8.index t 1 = 0 from rfl]; omega
  | ⟨2, _⟩ => show win0_8.index t 2 * 1 + 1 * (y 2).val = (y 2).val; rw [show win0_8.index t 2 = 0 from rfl]; omega

/-- Parameter window 9 has one block, the whole array, at every grid point. -/
theorem iblk9_eq (c : Dev nD) (t : Fin cfg0.N) :
    (iblk m c 9 t : Vec Ideal S6x1x1 .f32) = m ((c : Thread nD τ).loc main_arg9) := by
  funext y
  unfold iblk
  rw [View.read_apply]
  show V m c main_arg9 _ = m (c.tc.loc main_arg9) _
  unfold V
  congr 1
  funext a
  apply Fin.ext
  match a with
  | ⟨0, _⟩ => show win0_9.index t 0 * 6 + 1 * (y 0).val = (y 0).val; rw [show win0_9.index t 0 = 0 from rfl]; omega
  | ⟨1, _⟩ => show win0_9.index t 1 * 1 + 1 * (y 1).val = (y 1).val; rw [show win0_9.index t 1 = 0 from rfl]; omega
  | ⟨2, _⟩ => show win0_9.index t 2 * 1 + 1 * (y 2).val = (y 2).val; rw [show win0_9.index t 2 = 0 from rfl]; omega

/-- Parameter window 10 has one block, the whole array, at every grid point. -/
theorem iblk10_eq (c : Dev nD) (t : Fin cfg0.N) :
    (iblk m c 10 t : Vec Ideal S4x1x1 .f32) = m ((c : Thread nD τ).loc main_arg10) := by
  funext y
  unfold iblk
  rw [View.read_apply]
  show V m c main_arg10 _ = m (c.tc.loc main_arg10) _
  unfold V
  congr 1
  funext a
  apply Fin.ext
  match a with
  | ⟨0, _⟩ => show win0_10.index t 0 * 4 + 1 * (y 0).val = (y 0).val; rw [show win0_10.index t 0 = 0 from rfl]; omega
  | ⟨1, _⟩ => show win0_10.index t 1 * 1 + 1 * (y 1).val = (y 1).val; rw [show win0_10.index t 1 = 0 from rfl]; omega
  | ⟨2, _⟩ => show win0_10.index t 2 * 1 + 1 * (y 2).val = (y 2).val; rw [show win0_10.index t 2 = 0 from rfl]; omega

/-- Parameter window 11 has one block, the whole array, at every grid point. -/
theorem iblk11_eq (c : Dev nD) (t : Fin cfg0.N) :
    (iblk m c 11 t : Vec Ideal S4x4 .f32) = m ((c : Thread nD τ).loc main_arg11) := by
  funext y
  unfold iblk
  rw [View.read_apply]
  show V m c main_arg11 _ = m (c.tc.loc main_arg11) _
  unfold V
  congr 1
  funext a
  apply Fin.ext
  match a with
  | ⟨0, _⟩ => show win0_11.index t 0 * 4 + 1 * (y 0).val = (y 0).val; rw [show win0_11.index t 0 = 0 from rfl]; omega
  | ⟨1, _⟩ => show win0_11.index t 1 * 4 + 1 * (y 1).val = (y 1).val; rw [show win0_11.index t 1 = 0 from rfl]; omega

/-- Parameter window 12 has one block, the whole array, at every grid point. -/
theorem iblk12_eq (c : Dev nD) (t : Fin cfg0.N) :
    (iblk m c 12 t : Vec Ideal S4 .f32) = m ((c : Thread nD τ).loc main_arg12) := by
  funext y
  unfold iblk
  rw [View.read_apply]
  show V m c main_arg12 _ = m (c.tc.loc main_arg12) _
  unfold V
  congr 1
  funext a
  apply Fin.ext
  match a with
  | ⟨0, _⟩ => show win0_12.index t 0 * 4 + 1 * (y 0).val = (y 0).val; rw [show win0_12.index t 0 = 0 from rfl]; omega

/-- Parameter window 13 has one block, the whole array, at every grid point. -/
theorem iblk13_eq (c : Dev nD) (t : Fin cfg0.N) :
    (iblk m c 13 t : Vec Ideal S8x64 .f32) = m ((c : Thread nD τ).loc main_arg13) := by
  funext y
  unfold iblk
  rw [View.read_apply]
  show V m c main_arg13 _ = m (c.tc.loc main_arg13) _
  unfold V
  congr 1
  funext a
  apply Fin.ext
  match a with
  | ⟨0, _⟩ => show win0_13.index t 0 * 8 + 1 * (y 0).val = (y 0).val; rw [show win0_13.index t 0 = 0 from rfl]; omega
  | ⟨1, _⟩ => show win0_13.index t 1 * 64 + 1 * (y 1).val = (y 1).val; rw [show win0_13.index t 1 = 0 from rfl]; omega

/-- Parameter window 14 has one block, the whole array, at every grid point. -/
theorem iblk14_eq (c : Dev nD) (t : Fin cfg0.N) :
    (iblk m c 14 t : Vec Ideal S64 .f32) = m ((c : Thread nD τ).loc main_arg14) := by
  funext y
  unfold iblk
  rw [View.read_apply]
  show V m c main_arg14 _ = m (c.tc.loc main_arg14) _
  unfold V
  congr 1
  funext a
  apply Fin.ext
  match a with
  | ⟨0, _⟩ => show win0_14.index t 0 * 64 + 1 * (y 0).val = (y 0).val; rw [show win0_14.index t 0 = 0 from rfl]; omega

/-- Parameter window 15 has one block, the whole array, at every grid point. -/
theorem iblk15_eq (c : Dev nD) (t : Fin cfg0.N) :
    (iblk m c 15 t : Vec Ideal S64x64 .f32) = m ((c : Thread nD τ).loc main_arg15) := by
  funext y
  unfold iblk
  rw [View.read_apply]
  show V m c main_arg15 _ = m (c.tc.loc main_arg15) _
  unfold V
  congr 1
  funext a
  apply Fin.ext
  match a with
  | ⟨0, _⟩ => show win0_15.index t 0 * 64 + 1 * (y 0).val = (y 0).val; rw [show win0_15.index t 0 = 0 from rfl]; omega
  | ⟨1, _⟩ => show win0_15.index t 1 * 64 + 1 * (y 1).val = (y 1).val; rw [show win0_15.index t 1 = 0 from rfl]; omega

/-- Parameter window 16 has one block, the whole array, at every grid point. -/
theorem iblk16_eq (c : Dev nD) (t : Fin cfg0.N) :
    (iblk m c 16 t : Vec Ideal S64 .f32) = m ((c : Thread nD τ).loc main_arg16) := by
  funext y
  unfold iblk
  rw [View.read_apply]
  show V m c main_arg16 _ = m (c.tc.loc main_arg16) _
  unfold V
  congr 1
  funext a
  apply Fin.ext
  match a with
  | ⟨0, _⟩ => show win0_16.index t 0 * 64 + 1 * (y 0).val = (y 0).val; rw [show win0_16.index t 0 = 0 from rfl]; omega

/-- Parameter window 17 has one block, the whole array, at every grid point. -/
theorem iblk17_eq (c : Dev nD) (t : Fin cfg0.N) :
    (iblk m c 17 t : Vec Ideal S64x2 .f32) = m ((c : Thread nD τ).loc main_arg17) := by
  funext y
  unfold iblk
  rw [View.read_apply]
  show V m c main_arg17 _ = m (c.tc.loc main_arg17) _
  unfold V
  congr 1
  funext a
  apply Fin.ext
  match a with
  | ⟨0, _⟩ => show win0_17.index t 0 * 64 + 1 * (y 0).val = (y 0).val; rw [show win0_17.index t 0 = 0 from rfl]; omega
  | ⟨1, _⟩ => show win0_17.index t 1 * 2 + 1 * (y 1).val = (y 1).val; rw [show win0_17.index t 1 = 0 from rfl]; omega

/-- Parameter window 18 has one block, the whole array, at every grid point. -/
theorem iblk18_eq (c : Dev nD) (t : Fin cfg0.N) :
    (iblk m c 18 t : Vec Ideal S2 .f32) = m ((c : Thread nD τ).loc main_arg18) := by
  funext y
  unfold iblk
  rw [View.read_apply]
  show V m c main_arg18 _ = m (c.tc.loc main_arg18) _
  unfold V
  congr 1
  funext a
  apply Fin.ext
  match a with
  | ⟨0, _⟩ => show win0_18.index t 0 * 2 + 1 * (y 0).val = (y 0).val; rw [show win0_18.index t 0 = 0 from rfl]; omega

/-- Parameter window 19 has one block, the whole array, at every grid point. -/
theorem iblk19_eq (c : Dev nD) (t : Fin cfg0.N) :
    (iblk m c 19 t : Vec Ideal S2 .f32) = m ((c : Thread nD τ).loc main_arg19) := by
  funext y
  unfold iblk
  rw [View.read_apply]
  show V m c main_arg19 _ = m (c.tc.loc main_arg19) _
  unfold V
  congr 1
  funext a
  apply Fin.ext
  match a with
  | ⟨0, _⟩ => show win0_19.index t 0 * 2 + 1 * (y 0).val = (y 0).val; rw [show win0_19.index t 0 = 0 from rfl]; omega

/-- Parameter window 20 has one block, the whole array, at every grid point. -/
theorem iblk20_eq (c : Dev nD) (t : Fin cfg0.N) :
    (iblk m c 20 t : Vec Ideal S64x64 .f32) = m ((c : Thread nD τ).loc main_arg20) := by
  funext y
  unfold iblk
  rw [View.read_apply]
  show V m c main_arg20 _ = m (c.tc.loc main_arg20) _
  unfold V
  congr 1
  funext a
  apply Fin.ext
  match a with
  | ⟨0, _⟩ => show win0_20.index t 0 * 64 + 1 * (y 0).val = (y 0).val; rw [show win0_20.index t 0 = 0 from rfl]; omega
  | ⟨1, _⟩ => show win0_20.index t 1 * 64 + 1 * (y 1).val = (y 1).val; rw [show win0_20.index t 1 = 0 from rfl]; omega

/-- Parameter window 21 has one block, the whole array, at every grid point. -/
theorem iblk21_eq (c : Dev nD) (t : Fin cfg0.N) :
    (iblk m c 21 t : Vec Ideal S64 .f32) = m ((c : Thread nD τ).loc main_arg21) := by
  funext y
  unfold iblk
  rw [View.read_apply]
  show V m c main_arg21 _ = m (c.tc.loc main_arg21) _
  unfold V
  congr 1
  funext a
  apply Fin.ext
  match a with
  | ⟨0, _⟩ => show win0_21.index t 0 * 64 + 1 * (y 0).val = (y 0).val; rw [show win0_21.index t 0 = 0 from rfl]; omega

/-- Parameter window 22 has one block, the whole array, at every grid point. -/
theorem iblk22_eq (c : Dev nD) (t : Fin cfg0.N) :
    (iblk m c 22 t : Vec Ideal S64x1 .f32) = m ((c : Thread nD τ).loc main_arg22) := by
  funext y
  unfold iblk
  rw [View.read_apply]
  show V m c main_arg22 _ = m (c.tc.loc main_arg22) _
  unfold V
  congr 1
  funext a
  apply Fin.ext
  match a with
  | ⟨0, _⟩ => show win0_22.index t 0 * 64 + 1 * (y 0).val = (y 0).val; rw [show win0_22.index t 0 = 0 from rfl]; omega
  | ⟨1, _⟩ => show win0_22.index t 1 * 1 + 1 * (y 1).val = (y 1).val; rw [show win0_22.index t 1 = 0 from rfl]; omega

/-- Parameter window 23 has one block, the whole array, at every grid point. -/
theorem iblk23_eq (c : Dev nD) (t : Fin cfg0.N) :
    (iblk m c 23 t : Vec Ideal S1 .f32) = m ((c : Thread nD τ).loc main_arg23) := by
  funext y
  unfold iblk
  rw [View.read_apply]
  show V m c main_arg23 _ = m (c.tc.loc main_arg23) _
  unfold V
  congr 1
  funext a
  apply Fin.ext
  match a with
  | ⟨0, _⟩ => show win0_23.index t 0 * 1 + 1 * (y 0).val = (y 0).val; rw [show win0_23.index t 0 = 0 from rfl]; omega

end Cert.KernelIdeal.Arrays

end
-- ==== Proof.LibPlainDot.lean ====
/-
  A PLAIN MATRIX PRODUCT READ AT AN INDEX.

  A product of an `M × K` by a `K × N` matrix with no batch axis (left operand contracted on its last axis, right
  operand on its first) has one contraction axis of extent `K`. At the exact instance both the matrix unit's product into
  a zero accumulator and the host's `dot_general` are, at the output index `(p, q)`, the plain sum over `k` of the left
  operand at `(p, k)` times the right operand at `(k, q)`.
-/
import Idealize.ShloMosaic.PureOps
import Idealize.ShloMosaic.PureOps.Ideal.Laws
import Idealize.ShloMosaic.Lib.ValueIdx

namespace Idealize.PlainDot

open Idealize.ShloMosaic Idealize.ShloMosaic.ValueIdx

/-- Dimension numbers with the plain fields are `DotDims.plain` (whatever proof of their conditions they carry). -/
theorem eq_plain {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain M K N := by
  obtain ⟨lc, rc, ln, rn, lb, rb, wf⟩ := d
  dsimp only at h1 h2 h3 h4 h5 h6
  subst h1 h2 h3 h4 h5 h6
  rfl

/-- THE CONTRACTION AS A PLAIN SUM: over the one contraction axis of a plain product, the sum of the products of the
    operands at the dot's operand indices for output `(p, q)` is the sum over `k : Fin K` of `l (p, k) * r (k, q)`. -/
theorem plain_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- THE MATRIX UNIT'S PRODUCT INTO A ZERO ACCUMULATOR, read at `(p, q)`. -/
theorem matmul_zero_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    matmul d prec l r (constant (⟨2, ![M, N]⟩ : Shape) .f32 0x00000000#32) (ix2 p q)
      = ∑ k : Fin K, l (ix2 p k) * r (ix2 k q) := by
  subst hd
  show FloatOps.matmul _ prec l r _ _ = _
  rw [Ideal.matmul_constant_zero_apply]
  exact plain_sum l r p q

/-- THE HOST'S `dot_general`, read at `(p, q)`. -/
theorem dotGeneral_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Idealize.PlainDot
-- ==== Proof.RowLib.lean ====
/-
  READING THE BODY'S OPERATIONS AT ONE ROW.

  Small facts about layout operations at literal ranks, each stated at an index given by its coordinates:
  a slab `[o, 0, 0]` of extent one cut from a `[E, K, N]` array and viewed as a `[K, N]` matrix reads the array at
  `(o, i, c)`; a product into a zero accumulator whose right operand is such a slab is the plain sum over the
  contracted coordinate; a bias row cut in the same way, or a vector viewed as one row, broadcast down the rows
  reads its entry at the column; four one-column blocks laid side by side read the block of the column; a lane
  sum over two columns is the sum of the two entries.
-/
import Idealize.ShloMosaic.PureOps
import Idealize.ShloMosaic.PureOps.Ideal.Laws
import Idealize.ShloMosaic.Lib.ValueIdx
import Idealize.ShloMosaic.Lib.ValueLayout
import Idealize.ShloMosaic.Lib.Pipeline.Value
import proofs.«131937_j13331578487072_2_alg».proof.Proof.LibPlainDot

noncomputable section

namespace Cert.KernelIdeal.Row

open Idealize.ShloMosaic Idealize.ShloMosaic.ValueIdx

section Layout
variable {α : Type}

/-- A slab of extent one cut along axis 0 at `o` reads, at `(u, i, c)`, the source at `(e, i, c)` with `e = o`. -/
theorem slab_apply {n0 n1 n2 : Nat} (o : Nat) (X : (⟨3, ![n0, n1, n2]⟩ : Shape).Idx → α)
    (h : (⟨3, ![n0, n1, n2]⟩ : Shape).Slices ![o, 0, 0] ⟨3, ![1, n1, n2]⟩)
    (u : Fin 1) (i : Fin n1) (c : Fin n2) (e : Fin n0) (he : e.val = o) :
    extractStridedSlice ⟨3, ![1, n1, n2]⟩ ![o, 0, 0] X h (ix3 u i c) = X (ix3 e i c) :=
  extractStridedSlice_apply _ _ _ _ _ (fun ax => by
    match ax with
    | ⟨0, _⟩ =>
      show e.val = o + u.val
      have := u.isLt
      omega
    | ⟨1, _⟩ => exact (Nat.zero_add _).symm
    | ⟨2, _⟩ => exact (Nat.zero_add _).symm)

/-- The slab viewed as a matrix reads, at `(i, c)`, the source at `(e, i, c)`. -/
theorem slabMat_apply {n0 n1 n2 : Nat} (o : Nat) (X : (⟨3, ![n0, n1, n2]⟩ : Shape).Idx → α)
    (h : (⟨3, ![n0, n1, n2]⟩ : Shape).Slices ![o, 0, 0] ⟨3, ![1, n1, n2]⟩)
    (hc : (⟨3, ![1, n1, n2]⟩ : Shape).ShapeCasts ⟨2, ![n1, n2]⟩)
    (i : Fin n1) (c : Fin n2) (e : Fin n0) (he : e.val = o) :
    shapeCast ⟨2, ![n1, n2]⟩ (extractStridedSlice ⟨3, ![1, n1, n2]⟩ ![o, 0, 0] X h) hc (ix2 i c) = X (ix3 e i c) :=
  (shapeCast_1ab_ab_apply _ hc i c).trans (slab_apply o X h 0 i c e he)

/-- A bias row cut from a `[E, 1, N]` array and broadcast down `M` rows reads, at `(r, c)`, the array at `(e, 0, c)`. -/
theorem slabRow_apply {n0 n2 M : Nat} (o : Nat) (X : (⟨3, ![n0, 1, n2]⟩ : Shape).Idx → α)
    (h : (⟨3, ![n0, 1, n2]⟩ : Shape).Slices ![o, 0, 0] ⟨3, ![1, 1, n2]⟩)
    (hc : (⟨3, ![1, 1, n2]⟩ : Shape).ShapeCasts ⟨2, ![1, n2]⟩)
    (hb : (⟨2, ![1, n2]⟩ : Shape).Broadcasts ⟨2, ![M, n2]⟩)
    (r : Fin M) (c : Fin n2) (e : Fin n0) (he : e.val = o) :
    broadcastTo ⟨2, ![M, n2]⟩ (shapeCast ⟨2, ![1, n2]⟩ (extractStridedSlice ⟨3, ![1, 1, n2]⟩ ![o, 0, 0] X h) hc) hb (ix2 r c)
      = X (ix3 e 0 c) :=
  (broadcastTo_1b_ab_apply _ hb r c).trans (slabMat_apply o X h hc 0 c e he)

/-- A vector viewed as one row and broadcast down `M` rows reads, at `(r, c)`, its entry `c`. -/
theorem vecRow_apply {n M : Nat} (X : (⟨1, ![n]⟩ : Shape).Idx → α)
    (hc : (⟨1, ![n]⟩ : Shape).ShapeCasts ⟨2, ![1, n]⟩)
    (hb : (⟨2, ![1, n]⟩ : Shape).Broadcasts ⟨2, ![M, n]⟩) (r : Fin M) (c : Fin n) :
    broadcastTo ⟨2, ![M, n]⟩ (shapeCast ⟨2, ![1, n]⟩ X hc) hb (ix2 r c) = X (ix1 c) :=
  (broadcastTo_1b_ab_apply _ hb r c).trans (shapeCast_a_1a_apply X hc 0 c)

/-- Four one-column blocks side by side: column 0 is the first block. -/
theorem cat4_col0 {M : Nat} (y0 y1 y2 y3 : (⟨2, ![M, 1]⟩ : Shape).Idx → α)
    (h : Shape.Concatenates [(⟨2, ![M, 1]⟩ : Shape), ⟨2, ![M, 1]⟩, ⟨2, ![M, 1]⟩, ⟨2, ![M, 1]⟩] ⟨2, ![M, 4]⟩ 1) (r : Fin M) :
    concatenate ⟨2, ![M, 4]⟩ 1 [⟨⟨2, ![M, 1]⟩, y0⟩, ⟨⟨2, ![M, 1]⟩, y1⟩, ⟨⟨2, ![M, 1]⟩, y2⟩, ⟨⟨2, ![M, 1]⟩, y3⟩] h (ix2 r 0)
      = y0 (ix2 r 0) :=
  congrArg y0 (funext fun b => Fin.ext (by match b with | ⟨0, _⟩ => rfl | ⟨1, _⟩ => rfl))

/-- Column 1 is the second block. -/
theorem cat4_col1 {M : Nat} (y0 y1 y2 y3 : (⟨2, ![M, 1]⟩ : Shape).Idx → α)
    (h : Shape.Concatenates [(⟨2, ![M, 1]⟩ : Shape), ⟨2, ![M, 1]⟩, ⟨2, ![M, 1]⟩, ⟨2, ![M, 1]⟩] ⟨2, ![M, 4]⟩ 1) (r : Fin M) :
    concatenate ⟨2, ![M, 4]⟩ 1 [⟨⟨2, ![M, 1]⟩, y0⟩, ⟨⟨2, ![M, 1]⟩, y1⟩, ⟨⟨2, ![M, 1]⟩, y2⟩, ⟨⟨2, ![M, 1]⟩, y3⟩] h (ix2 r 1)
      = y1 (ix2 r 0) :=
  congrArg y1 (funext fun b => Fin.ext (by match b with | ⟨0, _⟩ => rfl | ⟨1, _⟩ => rfl))

/-- Column 2 is the third block. -/
theorem cat4_col2 {M : Nat} (y0 y1 y2 y3 : (⟨2, ![M, 1]⟩ : Shape).Idx → α)
    (h : Shape.Concatenates [(⟨2, ![M, 1]⟩ : Shape), ⟨2, ![M, 1]⟩, ⟨2, ![M, 1]⟩, ⟨2, ![M, 1]⟩] ⟨2, ![M, 4]⟩ 1) (r : Fin M) :
    concatenate ⟨2, ![M, 4]⟩ 1 [⟨⟨2, ![M, 1]⟩, y0⟩, ⟨⟨2, ![M, 1]⟩, y1⟩, ⟨⟨2, ![M, 1]⟩, y2⟩, ⟨⟨2, ![M, 1]⟩, y3⟩] h (ix2 r 2)
      = y2 (ix2 r 0) :=
  congrArg y2 (funext fun b => Fin.ext (by match b with | ⟨0, _⟩ => rfl | ⟨1, _⟩ => rfl))

/-- Column 3 is the fourth block. -/
theorem cat4_col3 {M : Nat} (y0 y1 y2 y3 : (⟨2, ![M, 1]⟩ : Shape).Idx → α)
    (h : Shape.Concatenates [(⟨2, ![M, 1]⟩ : Shape), ⟨2, ![M, 1]⟩, ⟨2, ![M, 1]⟩, ⟨2, ![M, 1]⟩] ⟨2, ![M, 4]⟩ 1) (r : Fin M) :
    concatenate ⟨2, ![M, 4]⟩ 1 [⟨⟨2, ![M, 1]⟩, y0⟩, ⟨⟨2, ![M, 1]⟩, y1⟩, ⟨⟨2, ![M, 1]⟩, y2⟩, ⟨⟨2, ![M, 1]⟩, y3⟩] h (ix2 r 3)
      = y3 (ix2 r 0) :=
  congrArg y3 (funext fun b => Fin.ext (by match b with | ⟨0, _⟩ => rfl | ⟨1, _⟩ => rfl))

end Layout

/-- The hyperbolic tangent of a vector, at an index. -/
theorem tanh_apply {s : Shape} {φ : FTy} (x : FVec Ideal s φ) (i : s.Idx) : tanh x i = Ideal.tanh (x i) := rfl

/-- The exponential of a vector, at an index. -/
theorem exp_apply {s : Shape} {φ : FTy} (x : FVec Ideal s φ) (i : s.Idx) : exp x i = Ideal.exp (x i) := rfl

/-- Two four-column blocks side by side: a column below four is the first block's. -/
theorem cat2_left {M : Nat} {α : Type} (y0 y1 : (⟨2, ![M, 4]⟩ : Shape).Idx → α)
    (h : Shape.Concatenates [(⟨2, ![M, 4]⟩ : Shape), ⟨2, ![M, 4]⟩] ⟨2, ![M, 8]⟩ 1) (r : Fin M) (k : Fin 8) (hk : k.val < 4) :
    concatenate ⟨2, ![M, 8]⟩ 1 [⟨⟨2, ![M, 4]⟩, y0⟩, ⟨⟨2, ![M, 4]⟩, y1⟩] h (ix2 r k) = y0 (ix2 r ⟨k.val, hk⟩) :=
  concatenate_pair_apply_left 1 y0 y1 h (ix2 r k) rfl (ix2 r ⟨k.val, hk⟩)
    (fun b => by match b with | ⟨0, _⟩ => rfl | ⟨1, _⟩ => rfl)

/-- A column from four on is the second block's, four less. -/
theorem cat2_right {M : Nat} {α : Type} (y0 y1 : (⟨2, ![M, 4]⟩ : Shape).Idx → α)
    (h : Shape.Concatenates [(⟨2, ![M, 4]⟩ : Shape), ⟨2, ![M, 4]⟩] ⟨2, ![M, 8]⟩ 1) (r : Fin M) (k : Fin 8) (hk : ¬ k.val < 4) :
    concatenate ⟨2, ![M, 8]⟩ 1 [⟨⟨2, ![M, 4]⟩, y0⟩, ⟨⟨2, ![M, 4]⟩, y1⟩] h (ix2 r k)
      = y1 (ix2 r ⟨k.val - 4, by have := k.isLt; omega⟩) :=
  concatenate_pair_apply_right 1 y0 y1 h (ix2 r k) rfl rfl (ix2 r ⟨k.val - 4, by have := k.isLt; omega⟩)
    (fun b hb => by
      match b with
      | ⟨0, _⟩ => rfl
      | ⟨1, _⟩ => exact absurd rfl hb)
    (by show k.val - 4 + 4 = k.val; omega)

/-- A product into the zero accumulator whose right operand is the slab `o` of a `[E, K, N]` array viewed as a
    matrix (both operands passed through a format change, the identity on exact values): at `(r, c)` the sum over `i` of the left
    operand at `(r, i)` times the array at `(e, i, c)`. -/
theorem mmSlab_apply {M K N E : Nat} (d : DotDims ⟨2, ![M, K]⟩ ⟨2, ![K, N]⟩ ⟨2, ![M, N]⟩)
    (hd : d = DotDims.plain M K N) (a : FVec Ideal ⟨2, ![M, K]⟩ .f32) (W : FVec Ideal ⟨3, ![E, K, N]⟩ .f32) (o : Nat)
    (hs : (⟨3, ![E, K, N]⟩ : Shape).Slices ![o, 0, 0] ⟨3, ![1, K, N]⟩)
    (hc : (⟨3, ![1, K, N]⟩ : Shape).ShapeCasts ⟨2, ![K, N]⟩)
    (hb : FTy.bits .bf16 < FTy.bits .f32) (e : Fin E) (he : e.val = o) (r : Fin M) (c : Fin N) :
    matmul d none (truncf .bf16 a hb)
        (truncf .bf16 (shapeCast ⟨2, ![K, N]⟩ (extractStridedSlice ⟨3, ![1, K, N]⟩ ![o, 0, 0] W hs) hc) hb)
        (constant (⟨2, ![M, N]⟩ : Shape) .f32 0x00000000#32) (ix2 r c)
      = ∑ i : Fin K, a (ix2 r i) * W (ix3 e i c) := by
  refine (Idealize.PlainDot.matmul_zero_apply d hd none _ _ r c).trans ?_
  refine Finset.sum_congr rfl fun i _ => ?_
  rw [truncf_apply, truncf_apply, slabMat_apply o W hs hc i c e he]

/-- A product into the zero accumulator of two matrices (each passed through a format change): the plain sum. -/
theorem mm_apply {M K N : Nat} (d : DotDims ⟨2, ![M, K]⟩ ⟨2, ![K, N]⟩ ⟨2, ![M, N]⟩)
    (hd : d = DotDims.plain M K N) (a : FVec Ideal ⟨2, ![M, K]⟩ .f32) (W : FVec Ideal ⟨2, ![K, N]⟩ .f32)
    (hb : FTy.bits .bf16 < FTy.bits .f32) (r : Fin M) (c : Fin N) :
    matmul d none (truncf .bf16 a hb) (truncf .bf16 W hb) (constant (⟨2, ![M, N]⟩ : Shape) .f32 0x00000000#32) (ix2 r c)
      = ∑ i : Fin K, a (ix2 r i) * W (ix2 i c) := by
  refine (Idealize.PlainDot.matmul_zero_apply d hd none _ _ r c).trans ?_
  refine Finset.sum_congr rfl fun i _ => ?_
  rw [truncf_apply, truncf_apply]

/-- A lane sum over two columns is the sum of the two entries of the row. -/
theorem laneSum2_apply {M : Nat} (src : FVec Ideal ⟨2, ![M, 2]⟩ .f32)
    (h : Shape.Reduces ⟨2, ![M, 2]⟩ [1] ⟨1, ![M]⟩) (hφ : FKind.Formats .f32)
    (hacc : (0x00000000#32 : BitVec 32) = FKind.add.neutral .f32 hφ) (r : Fin M) :
    multiReduction .add [1] ⟨1, ![M]⟩ src 0x00000000#32 h hφ hacc (ix1 r) = src (ix2 r 0) + src (ix2 r 1) := by
  refine (Ideal.multiReduction_add_single src 0x00000000#32 h hφ hacc (ix1 r)).trans ?_
  show ∑ k : Fin 2, src (h.lift (ix1 r) k) = _
  rw [Fin.sum_univ_two]
  have e0 : h.lift (ix1 r) (0 : Fin 2) = ix2 r 0 :=
    funext fun b => Fin.ext (by match b with | ⟨0, _⟩ => rfl | ⟨1, _⟩ => rfl)
  have e1 : h.lift (ix1 r) (1 : Fin 2) = ix2 r 1 :=
    funext fun b => Fin.ext (by match b with | ⟨0, _⟩ => rfl | ⟨1, _⟩ => rfl)
  rw [e0, e1]

end Cert.KernelIdeal.Row

end
-- ==== Proof.RowLayer1.lean ====
/-
  THE FIRST MESSAGE-PASSING LAYER AT ONE ROW.

  Row `r` of the three batch blocks gives the four nodes' features. Each self-loop product is the specification's
  `loop1`, each edge's product plus its bias row is `msg1`, the accumulators start at zero, and a node's sum of
  incoming messages plus its bias plus its self-loop term, under tanh, is `x1` of that node.
-/
import proofs.«131937_j13331578487072_2_alg».proof.Proof.Gen.KernelIdeal.Skeleton
import proofs.«131937_j13331578487072_2_alg».proof.Proof.Spec
import proofs.«131937_j13331578487072_2_alg».proof.Proof.RowLib

noncomputable section

namespace Cert.KernelIdeal.Row

open Cert.KernelIdeal Cert.KernelIdeal.Gen Idealize.ShloMosaic Idealize.ShloMosaic.ValueIdx

/-- Row `r` of the obs block. -/
abbrev uRow (x0 : Vec Ideal S4096x8 .f32) (r : Fin 4096) : Fin 8 → EReal := fun k => x0 (ix2 r k)
/-- Row `r` of a two-column block. -/
abbrev pRow (x : Vec Ideal S4096x2 .f32) (r : Fin 4096) : Fin 2 → EReal := fun i => x (ix2 r i)

section Agg
variable (A : Spec.Weights Ideal) (u : Fin 8 → EReal) (p q : Fin 2 → EReal)

theorem dst_0 : Spec.dst 0 = 1 := rfl
theorem dst_1 : Spec.dst 1 = 2 := rfl
theorem dst_2 : Spec.dst 2 = 3 := rfl
theorem dst_3 : Spec.dst 3 = 2 := rfl
theorem dst_4 : Spec.dst 4 = 3 := rfl
theorem dst_5 : Spec.dst 5 = 3 := rfl

/-- No edge enters node 0. -/
theorem agg1_n0 (c : Fin 4) : Spec.agg1 A u p q 0 c = 0 := by
  unfold Spec.agg1
  rw [Fin.sum_univ_six, dst_0, dst_1, dst_2, dst_3, dst_4, dst_5]
  simp
/-- Edge 0 enters node 1. -/
theorem agg1_n1 (c : Fin 4) : Spec.agg1 A u p q 1 c = Spec.msg1 A u p q 0 c := by
  unfold Spec.agg1
  rw [Fin.sum_univ_six, dst_0, dst_1, dst_2, dst_3, dst_4, dst_5]
  simp
/-- Edges 1 and 3 enter node 2. -/
theorem agg1_n2 (c : Fin 4) : Spec.agg1 A u p q 2 c = Spec.msg1 A u p q 1 c + Spec.msg1 A u p q 3 c := by
  unfold Spec.agg1
  rw [Fin.sum_univ_six, dst_0, dst_1, dst_2, dst_3, dst_4, dst_5]
  simp
/-- Edges 2, 4 and 5 enter node 3. -/
theorem agg1_n3 (c : Fin 4) :
    Spec.agg1 A u p q 3 c = Spec.msg1 A u p q 2 c + Spec.msg1 A u p q 4 c + Spec.msg1 A u p q 5 c := by
  unfold Spec.agg1
  rw [Fin.sum_univ_six, dst_0, dst_1, dst_2, dst_3, dst_4, dst_5]
  simp

end Agg

section Layer1
variable (A : Spec.Weights Ideal) (x0 : Vec Ideal S4096x8 .f32) (x1 x2 : Vec Ideal S4096x2 .f32) (r : Fin 4096)

/-- Node 0 is columns 6, 7 of the obs row. -/
theorem node0_row (i : Fin 2) : k0_pay3 x0 (ix2 r i) = Spec.node (uRow x0 r) (pRow x1 r) (pRow x2 r) 0 i := by
  unfold k0_pay3
  exact slice2_axis1_apply 6 x0 _ r i ⟨6 + i.val, by omega⟩ rfl

/-- Node 3 is columns 0, 1 of the obs row. -/
theorem node3_row (hs : S4096x8.Slices ![0, 0] S4096x2) (i : Fin 2) :
    extractStridedSlice S4096x2 ![0, 0] x0 hs (ix2 r i) = Spec.node (uRow x0 r) (pRow x1 r) (pRow x2 r) 3 i :=
  slice2_axis1_apply 0 x0 hs r i ⟨i.val, by omega⟩ (Nat.zero_add _).symm

/-- A self-loop product of layer 1. -/
theorem loop1_of (a : FVec Ideal S4096x2 .f32) (n : Fin 4) (o : Nat) (ho : n.val = o)
    (ha : ∀ i, a (ix2 r i) = Spec.node (uRow x0 r) (pRow x1 r) (pRow x2 r) n i)
    (hs : S4x2x4.Slices ![o, 0, 0] S1x2x4) (hc : S1x2x4.ShapeCasts S2x4) (hb : FTy.bits .bf16 < FTy.bits .f32) (c : Fin 4) :
    matmul dot_S4096x2_S2x4_S4096x4_1_0_0_1_n_n none (truncf .bf16 a hb)
        (truncf .bf16 (shapeCast S2x4 (extractStridedSlice S1x2x4 ![o, 0, 0] A.loop_w1 hs) hc) hb)
        (constant (F := Ideal) S4096x4 .f32 0x00000000#32) (ix2 r c)
      = Spec.loop1 A (uRow x0 r) (pRow x1 r) (pRow x2 r) n c := by
  unfold Spec.loop1
  refine (mmSlab_apply _ (Idealize.PlainDot.eq_plain _ rfl rfl rfl rfl rfl rfl) a A.loop_w1 o hs hc hb n ho r c).trans ?_
  exact Finset.sum_congr rfl fun i _ => by rw [ha i]

/-- An edge's message of layer 1. -/
theorem msg1_of (a : FVec Ideal S4096x2 .f32) (e : Fin 6) (o : Nat) (ho : e.val = o)
    (ha : ∀ i, a (ix2 r i) = Spec.node (uRow x0 r) (pRow x1 r) (pRow x2 r) (Spec.src e) i)
    (hs : S6x2x4.Slices ![o, 0, 0] S1x2x4) (hc : S1x2x4.ShapeCasts S2x4) (hb : FTy.bits .bf16 < FTy.bits .f32)
    (hs' : S6x1x4.Slices ![o, 0, 0] S1x1x4) (hc' : S1x1x4.ShapeCasts S1x4) (hb' : S1x4.Broadcasts S4096x4) (c : Fin 4) :
    addf (matmul dot_S4096x2_S2x4_S4096x4_1_0_0_1_n_n none (truncf .bf16 a hb)
          (truncf .bf16 (shapeCast S2x4 (extractStridedSlice S1x2x4 ![o, 0, 0] A.W1 hs) hc) hb)
          (constant (F := Ideal) S4096x4 .f32 0x00000000#32))
        (broadcastTo S4096x4 (shapeCast S1x4 (extractStridedSlice S1x1x4 ![o, 0, 0] A.m_bias1 hs') hc') hb') (ix2 r c)
      = Spec.msg1 A (uRow x0 r) (pRow x1 r) (pRow x2 r) e c := by
  unfold Spec.msg1
  rw [addf_apply]
  refine congrArg₂ (· + ·) ?_ (slabRow_apply o A.m_bias1 hs' hc' hb' r c e ho)
  refine (mmSlab_apply _ (Idealize.PlainDot.eq_plain _ rfl rfl rfl rfl rfl rfl) a A.W1 o hs hc hb e ho r c).trans ?_
  exact Finset.sum_congr rfl fun i _ => by rw [ha i]

theorem pay4_row (c : Fin 4) :
    k0_pay4 x0 A.loop_w1 (ix2 r c) = Spec.loop1 A (uRow x0 r) (pRow x1 r) (pRow x2 r) 0 c := by
  unfold k0_pay4
  exact loop1_of A x0 x1 x2 r (k0_pay3 x0) 0 0 rfl (node0_row x0 x1 x2 r) _ _ _ c

theorem pay5_row (c : Fin 4) :
    k0_pay5 x1 A.loop_w1 (ix2 r c) = Spec.loop1 A (uRow x0 r) (pRow x1 r) (pRow x2 r) 1 c := by
  unfold k0_pay5
  exact loop1_of A x0 x1 x2 r x1 1 1 rfl (fun _ => rfl) _ _ _ c

theorem pay6_row (c : Fin 4) :
    k0_pay6 x2 A.loop_w1 (ix2 r c) = Spec.loop1 A (uRow x0 r) (pRow x1 r) (pRow x2 r) 2 c := by
  unfold k0_pay6
  exact loop1_of A x0 x1 x2 r x2 2 2 rfl (fun _ => rfl) _ _ _ c

theorem pay7_row (c : Fin 4) :
    k0_pay7 x0 A.loop_w1 (ix2 r c) = Spec.loop1 A (uRow x0 r) (pRow x1 r) (pRow x2 r) 3 c := by
  unfold k0_pay7
  exact loop1_of A x0 x1 x2 r _ 3 3 rfl (node3_row x0 x1 x2 r _) _ _ _ c

theorem pay10_row (c : Fin 4) :
    k0_pay10 (k0_pay8 x0 A.W1) (k0_pay9 A.m_bias1) (ix2 r c) = Spec.msg1 A (uRow x0 r) (pRow x1 r) (pRow x2 r) 0 c := by
  unfold k0_pay10 k0_pay8 k0_pay9
  exact msg1_of A x0 x1 x2 r (k0_pay3 x0) 0 0 rfl (node0_row x0 x1 x2 r) _ _ _ _ _ _ c

theorem pay11_row (c : Fin 4) :
    k0_pay11 (k0_pay3 x0) A.W1 A.m_bias1 (ix2 r c) = Spec.msg1 A (uRow x0 r) (pRow x1 r) (pRow x2 r) 1 c := by
  unfold k0_pay11
  exact msg1_of A x0 x1 x2 r (k0_pay3 x0) 1 1 rfl (node0_row x0 x1 x2 r) _ _ _ _ _ _ c

theorem pay12_row (c : Fin 4) :
    k0_pay12 (k0_pay3 x0) A.W1 A.m_bias1 (ix2 r c) = Spec.msg1 A (uRow x0 r) (pRow x1 r) (pRow x2 r) 2 c := by
  unfold k0_pay12
  exact msg1_of A x0 x1 x2 r (k0_pay3 x0) 2 2 rfl (node0_row x0 x1 x2 r) _ _ _ _ _ _ c

theorem pay13_row (c : Fin 4) :
    k0_pay13 x1 A.W1 A.m_bias1 (ix2 r c) = Spec.msg1 A (uRow x0 r) (pRow x1 r) (pRow x2 r) 3 c := by
  unfold k0_pay13
  exact msg1_of A x0 x1 x2 r x1 3 3 rfl (fun _ => rfl) _ _ _ _ _ _ c

theorem pay14_row (c : Fin 4) :
    k0_pay14 x1 A.W1 A.m_bias1 (ix2 r c) = Spec.msg1 A (uRow x0 r) (pRow x1 r) (pRow x2 r) 4 c := by
  unfold k0_pay14
  exact msg1_of A x0 x1 x2 r x1 4 4 rfl (fun _ => rfl) _ _ _ _ _ _ c

theorem pay15_row (c : Fin 4) :
    k0_pay15 x2 A.W1 A.m_bias1 (ix2 r c) = Spec.msg1 A (uRow x0 r) (pRow x1 r) (pRow x2 r) 5 c := by
  unfold k0_pay15
  exact msg1_of A x0 x1 x2 r x2 5 5 rfl (fun _ => rfl) _ _ _ _ _ _ c

/-- The accumulators start at zero. -/
theorem pay16_row (c : Fin 4) : k0_pay16 (F := Ideal) (ix2 r c) = 0 := Ideal.ofBits_zero_f32
theorem pay17_row (c : Fin 4) : k0_pay17 (F := Ideal) (ix2 r c) = 0 := Ideal.ofBits_zero_f32
theorem pay18_row (c : Fin 4) : k0_pay18 (F := Ideal) (ix2 r c) = 0 := Ideal.ofBits_zero_f32
theorem pay19_row (c : Fin 4) : k0_pay19 (F := Ideal) (ix2 r c) = 0 := Ideal.ofBits_zero_f32

/-- Node 0 after layer 1. -/
theorem pay20_row (v13 v83 : FVec Ideal S4096x4 .f32) (c : Fin 4)
    (h13 : v13 (ix2 r c) = Spec.loop1 A (uRow x0 r) (pRow x1 r) (pRow x2 r) 0 c) (h83 : v83 (ix2 r c) = 0) :
    k0_pay20 A.h_bias1 v13 v83 (ix2 r c) = Spec.x1 A (uRow x0 r) (pRow x1 r) (pRow x2 r) 0 c := by
  unfold k0_pay20 Spec.x1
  rw [agg1_n0]
  show Ideal.tanh ((v83 (ix2 r c) + _) + v13 (ix2 r c)) = _
  rw [h83, h13, slabRow_apply 0 A.h_bias1 _ _ _ r c 0 rfl]

/-- Node 1 after layer 1. -/
theorem pay21_row (v18 v37 v84 : FVec Ideal S4096x4 .f32) (c : Fin 4)
    (h18 : v18 (ix2 r c) = Spec.loop1 A (uRow x0 r) (pRow x1 r) (pRow x2 r) 1 c)
    (h37 : v37 (ix2 r c) = Spec.msg1 A (uRow x0 r) (pRow x1 r) (pRow x2 r) 0 c) (h84 : v84 (ix2 r c) = 0) :
    k0_pay21 A.h_bias1 v18 v37 v84 (ix2 r c) = Spec.x1 A (uRow x0 r) (pRow x1 r) (pRow x2 r) 1 c := by
  unfold k0_pay21 Spec.x1
  rw [agg1_n1]
  show Ideal.tanh (((v84 (ix2 r c) + v37 (ix2 r c)) + _) + v18 (ix2 r c)) = _
  rw [h84, h37, h18, zero_add, slabRow_apply 1 A.h_bias1 _ _ _ r c 1 rfl]

/-- Node 2 after layer 1. -/
theorem pay22_row (v23 v46 v64 v85 : FVec Ideal S4096x4 .f32) (c : Fin 4)
    (h23 : v23 (ix2 r c) = Spec.loop1 A (uRow x0 r) (pRow x1 r) (pRow x2 r) 2 c)
    (h46 : v46 (ix2 r c) = Spec.msg1 A (uRow x0 r) (pRow x1 r) (pRow x2 r) 1 c)
    (h64 : v64 (ix2 r c) = Spec.msg1 A (uRow x0 r) (pRow x1 r) (pRow x2 r) 3 c) (h85 : v85 (ix2 r c) = 0) :
    k0_pay22 A.h_bias1 v23 v46 v64 v85 (ix2 r c) = Spec.x1 A (uRow x0 r) (pRow x1 r) (pRow x2 r) 2 c := by
  unfold k0_pay22 Spec.x1
  rw [agg1_n2]
  show Ideal.tanh ((((v85 (ix2 r c) + v46 (ix2 r c)) + v64 (ix2 r c)) + _) + v23 (ix2 r c)) = _
  rw [h85, h46, h64, h23, zero_add, slabRow_apply 2 A.h_bias1 _ _ _ r c 2 rfl]

/-- Node 3 after layer 1. -/
theorem pay23_row (v28 v55 v73 v82 v86 : FVec Ideal S4096x4 .f32) (c : Fin 4)
    (h28 : v28 (ix2 r c) = Spec.loop1 A (uRow x0 r) (pRow x1 r) (pRow x2 r) 3 c)
    (h55 : v55 (ix2 r c) = Spec.msg1 A (uRow x0 r) (pRow x1 r) (pRow x2 r) 2 c)
    (h73 : v73 (ix2 r c) = Spec.msg1 A (uRow x0 r) (pRow x1 r) (pRow x2 r) 4 c)
    (h82 : v82 (ix2 r c) = Spec.msg1 A (uRow x0 r) (pRow x1 r) (pRow x2 r) 5 c) (h86 : v86 (ix2 r c) = 0) :
    k0_pay23 A.h_bias1 v28 v55 v73 v82 v86 (ix2 r c) = Spec.x1 A (uRow x0 r) (pRow x1 r) (pRow x2 r) 3 c := by
  unfold k0_pay23 Spec.x1
  rw [agg1_n3]
  show Ideal.tanh (((((v86 (ix2 r c) + v55 (ix2 r c)) + v73 (ix2 r c)) + v82 (ix2 r c)) + _) + v28 (ix2 r c)) = _
  rw [h86, h55, h73, h82, h28, zero_add, slabRow_apply 3 A.h_bias1 _ _ _ r c 3 rfl]

end Layer1

end Cert.KernelIdeal.Row

end
-- ==== Proof.RowLayer2.lean ====
/-
  THE SECOND MESSAGE-PASSING LAYER, THE GRAPH LATENT AND THE SHARED LAYER AT ONE ROW.

  With each node's row after layer 1 known to be the specification's `x1`, each self-loop product of layer 2 is
  `loop2`, each edge's product plus its bias is `msg2`; a node's incoming messages plus its bias plus its self-loop
  term, under tanh, is `gout`; the four columns laid side by side and multiplied by the dense matrix give the graph
  latent before its bias; with the bias, tanh, and columns 2 … 5 of the obs row appended, the shared layer follows.
-/
import proofs.«131937_j13331578487072_2_alg».proof.Proof.RowLayer1

noncomputable section

namespace Cert.KernelIdeal.Row

open Cert.KernelIdeal Cert.KernelIdeal.Gen Idealize.ShloMosaic Idealize.ShloMosaic.ValueIdx

section Agg2
variable (A : Spec.Weights Ideal) (u : Fin 8 → EReal) (p q : Fin 2 → EReal)

/-- No edge enters node 0. -/
theorem agg2_n0 : Spec.agg2 A u p q 0 = 0 := by
  unfold Spec.agg2
  rw [Fin.sum_univ_six, dst_0, dst_1, dst_2, dst_3, dst_4, dst_5]
  simp
/-- Edge 0 enters node 1. -/
theorem agg2_n1 : Spec.agg2 A u p q 1 = Spec.msg2 A u p q 0 := by
  unfold Spec.agg2
  rw [Fin.sum_univ_six, dst_0, dst_1, dst_2, dst_3, dst_4, dst_5]
  simp
/-- Edges 1 and 3 enter node 2. -/
theorem agg2_n2 : Spec.agg2 A u p q 2 = Spec.msg2 A u p q 1 + Spec.msg2 A u p q 3 := by
  unfold Spec.agg2
  rw [Fin.sum_univ_six, dst_0, dst_1, dst_2, dst_3, dst_4, dst_5]
  simp
/-- Edges 2, 4 and 5 enter node 3. -/
theorem agg2_n3 : Spec.agg2 A u p q 3 = Spec.msg2 A u p q 2 + Spec.msg2 A u p q 4 + Spec.msg2 A u p q 5 := by
  unfold Spec.agg2
  rw [Fin.sum_univ_six, dst_0, dst_1, dst_2, dst_3, dst_4, dst_5]
  simp

end Agg2

section Layer2
variable (A : Spec.Weights Ideal) (x0 : Vec Ideal S4096x8 .f32) (x1 x2 : Vec Ideal S4096x2 .f32) (r : Fin 4096)

/-- A self-loop product of layer 2. -/
theorem loop2_of (a : FVec Ideal S4096x4 .f32) (n : Fin 4) (o : Nat) (ho : n.val = o)
    (ha : ∀ k, a (ix2 r k) = Spec.x1 A (uRow x0 r) (pRow x1 r) (pRow x2 r) n k)
    (hs : S4x4x1.Slices ![o, 0, 0] S1x4x1) (hc : S1x4x1.ShapeCasts S4x1) (hb : FTy.bits .bf16 < FTy.bits .f32) :
    matmul dot_S4096x4_S4x1_S4096x1_1_0_0_1_n_n none (truncf .bf16 a hb)
        (truncf .bf16 (shapeCast S4x1 (extractStridedSlice S1x4x1 ![o, 0, 0] A.loop_w2 hs) hc) hb)
        (constant (F := Ideal) S4096x1 .f32 0x00000000#32) (ix2 r 0)
      = Spec.loop2 A (uRow x0 r) (pRow x1 r) (pRow x2 r) n := by
  unfold Spec.loop2
  refine (mmSlab_apply _ (Idealize.PlainDot.eq_plain _ rfl rfl rfl rfl rfl rfl) a A.loop_w2 o hs hc hb n ho r 0).trans ?_
  exact Finset.sum_congr rfl fun k _ => by rw [ha k]

/-- An edge's message of layer 2. -/
theorem msg2_of (a : FVec Ideal S4096x4 .f32) (e : Fin 6) (o : Nat) (ho : e.val = o)
    (ha : ∀ k, a (ix2 r k) = Spec.x1 A (uRow x0 r) (pRow x1 r) (pRow x2 r) (Spec.src e) k)
    (hs : S6x4x1.Slices ![o, 0, 0] S1x4x1) (hc : S1x4x1.ShapeCasts S4x1) (hb : FTy.bits .bf16 < FTy.bits .f32)
    (hs' : S6x1x1.Slices ![o, 0, 0] S1x1x1) (hc' : S1x1x1.ShapeCasts S1x1) (hb' : S1x1.Broadcasts S4096x1) :
    addf (matmul dot_S4096x4_S4x1_S4096x1_1_0_0_1_n_n none (truncf .bf16 a hb)
          (truncf .bf16 (shapeCast S4x1 (extractStridedSlice S1x4x1 ![o, 0, 0] A.W2 hs) hc) hb)
          (constant (F := Ideal) S4096x1 .f32 0x00000000#32))
        (broadcastTo S4096x1 (shapeCast S1x1 (extractStridedSlice S1x1x1 ![o, 0, 0] A.m_bias2 hs') hc') hb') (ix2 r 0)
      = Spec.msg2 A (uRow x0 r) (pRow x1 r) (pRow x2 r) e := by
  unfold Spec.msg2
  rw [addf_apply]
  refine congrArg₂ (· + ·) ?_ (slabRow_apply o A.m_bias2 hs' hc' hb' r 0 e ho)
  refine (mmSlab_apply _ (Idealize.PlainDot.eq_plain _ rfl rfl rfl rfl rfl rfl) a A.W2 o hs hc hb e ho r 0).trans ?_
  exact Finset.sum_congr rfl fun k _ => by rw [ha k]

theorem pay24_row (v13 v83 : FVec Ideal S4096x4 .f32)
    (h20 : ∀ k, k0_pay20 A.h_bias1 v13 v83 (ix2 r k) = Spec.x1 A (uRow x0 r) (pRow x1 r) (pRow x2 r) 0 k) :
    k0_pay24 A.h_bias1 v13 v83 A.loop_w2 (ix2 r 0) = Spec.loop2 A (uRow x0 r) (pRow x1 r) (pRow x2 r) 0 := by
  unfold k0_pay24
  exact loop2_of A x0 x1 x2 r _ 0 0 rfl h20 _ _ _

theorem pay25_row (v18 v37 v84 : FVec Ideal S4096x4 .f32)
    (h21 : ∀ k, k0_pay21 A.h_bias1 v18 v37 v84 (ix2 r k) = Spec.x1 A (uRow x0 r) (pRow x1 r) (pRow x2 r) 1 k) :
    k0_pay25 A.h_bias1 v18 v37 v84 A.loop_w2 (ix2 r 0) = Spec.loop2 A (uRow x0 r) (pRow x1 r) (pRow x2 r) 1 := by
  unfold k0_pay25
  exact loop2_of A x0 x1 x2 r _ 1 1 rfl h21 _ _ _

theorem pay27_row (v110 : FVec Ideal S4096x4 .f32)
    (h110 : ∀ k, v110 (ix2 r k) = Spec.x1 A (uRow x0 r) (pRow x1 r) (pRow x2 r) 2 k) :
    k0_pay27 v110 (k0_pay26 A.loop_w2) (ix2 r 0) = Spec.loop2 A (uRow x0 r) (pRow x1 r) (pRow x2 r) 2 := by
  unfold k0_pay27 k0_pay26
  exact loop2_of A x0 x1 x2 r v110 2 2 rfl h110 _ _ _

theorem pay28_row (v116 : FVec Ideal S4096x4 .f32)
    (h116 : ∀ k, v116 (ix2 r k) = Spec.x1 A (uRow x0 r) (pRow x1 r) (pRow x2 r) 3 k) :
    k0_pay28 v116 A.loop_w2 (ix2 r 0) = Spec.loop2 A (uRow x0 r) (pRow x1 r) (pRow x2 r) 3 := by
  unfold k0_pay28
  exact loop2_of A x0 x1 x2 r v116 3 3 rfl h116 _ _ _

theorem pay29_row (v98 : FVec Ideal S4096x4 .f32)
    (h98 : ∀ k, v98 (ix2 r k) = Spec.x1 A (uRow x0 r) (pRow x1 r) (pRow x2 r) 0 k) :
    k0_pay29 v98 A.W2 A.m_bias2 (ix2 r 0) = Spec.msg2 A (uRow x0 r) (pRow x1 r) (pRow x2 r) 0 := by
  unfold k0_pay29
  exact msg2_of A x0 x1 x2 r v98 0 0 rfl h98 _ _ _ _ _ _

theorem pay30_row (v98 : FVec Ideal S4096x4 .f32)
    (h98 : ∀ k, v98 (ix2 r k) = Spec.x1 A (uRow x0 r) (pRow x1 r) (pRow x2 r) 0 k) :
    k0_pay30 v98 A.W2 A.m_bias2 (ix2 r 0) = Spec.msg2 A (uRow x0 r) (pRow x1 r) (pRow x2 r) 1 := by
  unfold k0_pay30
  exact msg2_of A x0 x1 x2 r v98 1 1 rfl h98 _ _ _ _ _ _

theorem pay31_row (v98 : FVec Ideal S4096x4 .f32)
    (h98 : ∀ k, v98 (ix2 r k) = Spec.x1 A (uRow x0 r) (pRow x1 r) (pRow x2 r) 0 k) :
    k0_pay31 v98 A.W2 A.m_bias2 (ix2 r 0) = Spec.msg2 A (uRow x0 r) (pRow x1 r) (pRow x2 r) 2 := by
  unfold k0_pay31
  exact msg2_of A x0 x1 x2 r v98 2 2 rfl h98 _ _ _ _ _ _

theorem pay32_row (v104 : FVec Ideal S4096x4 .f32)
    (h104 : ∀ k, v104 (ix2 r k) = Spec.x1 A (uRow x0 r) (pRow x1 r) (pRow x2 r) 1 k) :
    k0_pay32 v104 A.W2 A.m_bias2 (ix2 r 0) = Spec.msg2 A (uRow x0 r) (pRow x1 r) (pRow x2 r) 3 := by
  unfold k0_pay32
  exact msg2_of A x0 x1 x2 r v104 3 3 rfl h104 _ _ _ _ _ _

theorem pay33_row (v104 : FVec Ideal S4096x4 .f32)
    (h104 : ∀ k, v104 (ix2 r k) = Spec.x1 A (uRow x0 r) (pRow x1 r) (pRow x2 r) 1 k) :
    k0_pay33 v104 A.W2 A.m_bias2 (ix2 r 0) = Spec.msg2 A (uRow x0 r) (pRow x1 r) (pRow x2 r) 4 := by
  unfold k0_pay33
  exact msg2_of A x0 x1 x2 r v104 4 4 rfl h104 _ _ _ _ _ _

/-- The graph output's four columns times the dense matrix: the graph latent before its bias and tanh. -/
theorem pay34_row (v110 : FVec Ideal S4096x4 .f32) (v125 v130 v135 v140 v149 v158 v167 v176 v185 : FVec Ideal S4096x1 .f32)
    (h110 : ∀ k, v110 (ix2 r k) = Spec.x1 A (uRow x0 r) (pRow x1 r) (pRow x2 r) 2 k)
    (h125 : v125 (ix2 r 0) = Spec.loop2 A (uRow x0 r) (pRow x1 r) (pRow x2 r) 0)
    (h130 : v130 (ix2 r 0) = Spec.loop2 A (uRow x0 r) (pRow x1 r) (pRow x2 r) 1)
    (h135 : v135 (ix2 r 0) = Spec.loop2 A (uRow x0 r) (pRow x1 r) (pRow x2 r) 2)
    (h140 : v140 (ix2 r 0) = Spec.loop2 A (uRow x0 r) (pRow x1 r) (pRow x2 r) 3)
    (h149 : v149 (ix2 r 0) = Spec.msg2 A (uRow x0 r) (pRow x1 r) (pRow x2 r) 0)
    (h158 : v158 (ix2 r 0) = Spec.msg2 A (uRow x0 r) (pRow x1 r) (pRow x2 r) 1)
    (h167 : v167 (ix2 r 0) = Spec.msg2 A (uRow x0 r) (pRow x1 r) (pRow x2 r) 2)
    (h176 : v176 (ix2 r 0) = Spec.msg2 A (uRow x0 r) (pRow x1 r) (pRow x2 r) 3)
    (h185 : v185 (ix2 r 0) = Spec.msg2 A (uRow x0 r) (pRow x1 r) (pRow x2 r) 4) (j : Fin 4) :
    k0_pay34 v110 A.W2 A.m_bias2 A.h_bias2 v125 v130 v135 v140 v149 v158 v167 v176 v185 A.fe_w (ix2 r j)
      = ∑ n : Fin 4, Spec.gout A (uRow x0 r) (pRow x1 r) (pRow x2 r) n * A.fe_w (ix2 n j) := by
  unfold k0_pay34
  refine (mm_apply _ (Idealize.PlainDot.eq_plain _ rfl rfl rfl rfl rfl rfl) _ A.fe_w _ r j).trans ?_
  refine Finset.sum_congr rfl fun n _ => congrArg (· * A.fe_w (ix2 n j)) ?_
  have z : (Ideal.ofBits .f32 0x00000000#32 : EReal) = 0 := Ideal.ofBits_zero_f32
  match n with
  | ⟨0, _⟩ =>
    refine (cat4_col0 _ _ _ _ _ r).trans ?_
    show Ideal.tanh _ = Spec.gout A (uRow x0 r) (pRow x1 r) (pRow x2 r) 0
    unfold Spec.gout
    rw [agg2_n0]
    exact congrArg Ideal.tanh (congrArg₂ (· + ·)
      (congrArg₂ (· + ·) z (slabRow_apply 0 A.h_bias2 _ _ _ r 0 0 rfl)) h125)
  | ⟨1, _⟩ =>
    refine (cat4_col1 _ _ _ _ _ r).trans ?_
    show Ideal.tanh _ = Spec.gout A (uRow x0 r) (pRow x1 r) (pRow x2 r) 1
    unfold Spec.gout
    rw [agg2_n1]
    exact congrArg Ideal.tanh (congrArg₂ (· + ·)
      (congrArg₂ (· + ·) ((congrArg₂ (· + ·) z h149).trans (zero_add _)) (slabRow_apply 1 A.h_bias2 _ _ _ r 0 1 rfl)) h130)
  | ⟨2, _⟩ =>
    refine (cat4_col2 _ _ _ _ _ r).trans ?_
    show Ideal.tanh _ = Spec.gout A (uRow x0 r) (pRow x1 r) (pRow x2 r) 2
    unfold Spec.gout
    rw [agg2_n2]
    exact congrArg Ideal.tanh (congrArg₂ (· + ·)
      (congrArg₂ (· + ·) (congrArg₂ (· + ·) ((congrArg₂ (· + ·) z h158).trans (zero_add _)) h176)
        (slabRow_apply 2 A.h_bias2 _ _ _ r 0 2 rfl)) h135)
  | ⟨3, _⟩ =>
    refine (cat4_col3 _ _ _ _ _ r).trans ?_
    show Ideal.tanh _ = Spec.gout A (uRow x0 r) (pRow x1 r) (pRow x2 r) 3
    unfold Spec.gout
    rw [agg2_n3]
    exact congrArg Ideal.tanh (congrArg₂ (· + ·)
      (congrArg₂ (· + ·)
        (congrArg₂ (· + ·) (congrArg₂ (· + ·) ((congrArg₂ (· + ·) z h167).trans (zero_add _)) h185)
          (msg2_of A x0 x1 x2 r v110 5 5 rfl h110 _ _ _ _ _ _))
        (slabRow_apply 3 A.h_bias2 _ _ _ r 0 3 rfl)) h140)

/-- The shared layer. -/
theorem pay36_row (v234 v236 : FVec Ideal S4096x4 .f32)
    (h234 : ∀ j, v234 (ix2 r j)
      = ∑ n : Fin 4, Spec.gout A (uRow x0 r) (pRow x1 r) (pRow x2 r) n * A.fe_w (ix2 n j))
    (h236 : ∀ j, v236 (ix2 r j) = A.fe_b (ix1 j)) (c : Fin 64) :
    k0_pay36 x0 v234 v236 A.common_w A.common_b (ix2 r c) = Spec.shared A (uRow x0 r) (pRow x1 r) (pRow x2 r) c := by
  unfold k0_pay36 Spec.shared
  show Ideal.tanh (_ + _) = _
  refine congrArg Ideal.tanh (congrArg₂ (· + ·) ?_ (vecRow_apply A.common_b _ _ r c))
  refine (mm_apply _ (Idealize.PlainDot.eq_plain _ rfl rfl rfl rfl rfl rfl) _ A.common_w _ r c).trans ?_
  refine Finset.sum_congr rfl fun k _ => congrArg (· * A.common_w (ix2 k c)) ?_
  unfold Spec.feat
  by_cases hk : k.val < 4
  · rw [dif_pos hk]
    refine (cat2_left _ _ _ r k hk).trans ?_
    show Ideal.tanh (v234 (ix2 r ⟨k.val, hk⟩) + v236 (ix2 r ⟨k.val, hk⟩)) = _
    rw [h234, h236]
    rfl
  · rw [dif_neg hk]
    refine (cat2_right _ _ _ r k hk).trans ?_
    exact slice2_axis1_apply 2 x0 _ r _ _ (by show k.val - 4 + 2 = 2 + (k.val - 4); omega)

theorem pay35_row (j : Fin 4) : k0_pay35 A.fe_b (ix2 r j) = A.fe_b (ix1 j) := by
  unfold k0_pay35
  exact vecRow_apply A.fe_b _ _ r j

end Layer2

end Cert.KernelIdeal.Row

end
-- ==== Proof.KernelRow.lean ====
/-
  THE KERNEL'S THREE OUTPUT BLOCKS AT ONE ROW.

  The body leaves one whole-block piece in each output buffer. Read at row `r`, the first block is the
  specification's mean action of that row, the second its value, the third the log-probability, which does not
  depend on the row: the policy and value heads are two dense layers over the shared layer, and the log-probability
  is the lane sum of the two action dimensions' terms at deviation zero.
-/
import proofs.«131937_j13331578487072_2_alg».proof.Proof.Gen.KernelIdeal.Frame
import proofs.«131937_j13331578487072_2_alg».proof.Proof.RowLayer2

noncomputable section

namespace Cert.KernelIdeal.Row

open Cert.KernelIdeal Cert.KernelIdeal.Gen Idealize.ShloMosaic Idealize.ShloMosaic.ValueIdx

/-- The twenty-one parameter blocks as the specification's parameter record (a parameter's block is the whole array). -/
@[reducible] def wOf (x3 : Vec Ideal S4x2x4 .f32) (x4 : Vec Ideal S6x2x4 .f32) (x5 : Vec Ideal S6x1x4 .f32) (x6 : Vec Ideal S4x1x4 .f32) (x7 : Vec Ideal S4x4x1 .f32) (x8 : Vec Ideal S6x4x1 .f32) (x9 : Vec Ideal S6x1x1 .f32) (x10 : Vec Ideal S4x1x1 .f32) (x11 : Vec Ideal S4x4 .f32) (x12 : Vec Ideal S4 .f32) (x13 : Vec Ideal S8x64 .f32) (x14 : Vec Ideal S64 .f32) (x15 : Vec Ideal S64x64 .f32) (x16 : Vec Ideal S64 .f32) (x17 : Vec Ideal S64x2 .f32) (x18 : Vec Ideal S2 .f32) (x19 : Vec Ideal S2 .f32) (x20 : Vec Ideal S64x64 .f32) (x21 : Vec Ideal S64 .f32) (x22 : Vec Ideal S64x1 .f32) (x23 : Vec Ideal S1 .f32) : Cert.Spec.Weights Ideal :=
  { loop_w1 := x3, W1 := x4, m_bias1 := x5, h_bias1 := x6, loop_w2 := x7, W2 := x8, m_bias2 := x9, h_bias2 := x10,
    fe_w := x11, fe_b := x12, common_w := x13, common_b := x14, actor_w := x15, actor_b := x16, action_w := x17,
    action_b := x18, log_std := x19, critic_w := x20, critic_b := x21, value_w := x22, value_b := x23 }

section Heads
variable (A : Spec.Weights Ideal) (x0 : Vec Ideal S4096x8 .f32) (x1 x2 : Vec Ideal S4096x2 .f32) (r : Fin 4096)

/-- The shared layer of the row, through both message-passing layers. -/
theorem shared_row (c : Fin 64) :
    k0_pay36 x0
        (k0_pay34
          (k0_pay22 A.h_bias1 (k0_pay6 x2 A.loop_w1) (k0_pay11 (k0_pay3 x0) A.W1 A.m_bias1) (k0_pay13 x1 A.W1 A.m_bias1) (k0_pay18 (F := Ideal)))
          A.W2 A.m_bias2 A.h_bias2
          (k0_pay24 A.h_bias1 (k0_pay4 x0 A.loop_w1) (k0_pay16 (F := Ideal)) A.loop_w2)
          (k0_pay25 A.h_bias1 (k0_pay5 x1 A.loop_w1) (k0_pay10 (k0_pay8 x0 A.W1) (k0_pay9 A.m_bias1)) (k0_pay17 (F := Ideal)) A.loop_w2)
          (k0_pay27 (k0_pay22 A.h_bias1 (k0_pay6 x2 A.loop_w1) (k0_pay11 (k0_pay3 x0) A.W1 A.m_bias1) (k0_pay13 x1 A.W1 A.m_bias1) (k0_pay18 (F := Ideal))) (k0_pay26 A.loop_w2))
          (k0_pay28 (k0_pay23 A.h_bias1 (k0_pay7 x0 A.loop_w1) (k0_pay12 (k0_pay3 x0) A.W1 A.m_bias1) (k0_pay14 x1 A.W1 A.m_bias1) (k0_pay15 x2 A.W1 A.m_bias1) (k0_pay19 (F := Ideal))) A.loop_w2)
          (k0_pay29 (k0_pay20 A.h_bias1 (k0_pay4 x0 A.loop_w1) (k0_pay16 (F := Ideal))) A.W2 A.m_bias2)
          (k0_pay30 (k0_pay20 A.h_bias1 (k0_pay4 x0 A.loop_w1) (k0_pay16 (F := Ideal))) A.W2 A.m_bias2)
          (k0_pay31 (k0_pay20 A.h_bias1 (k0_pay4 x0 A.loop_w1) (k0_pay16 (F := Ideal))) A.W2 A.m_bias2)
          (k0_pay32 (k0_pay21 A.h_bias1 (k0_pay5 x1 A.loop_w1) (k0_pay10 (k0_pay8 x0 A.W1) (k0_pay9 A.m_bias1)) (k0_pay17 (F := Ideal))) A.W2 A.m_bias2)
          (k0_pay33 (k0_pay21 A.h_bias1 (k0_pay5 x1 A.loop_w1) (k0_pay10 (k0_pay8 x0 A.W1) (k0_pay9 A.m_bias1)) (k0_pay17 (F := Ideal))) A.W2 A.m_bias2)
          A.fe_w)
        (k0_pay35 A.fe_b) A.common_w A.common_b (ix2 r c)
      = Spec.shared A (uRow x0 r) (pRow x1 r) (pRow x2 r) c := by
  have hn0 : ∀ k, k0_pay20 A.h_bias1 (k0_pay4 x0 A.loop_w1) (k0_pay16 (F := Ideal)) (ix2 r k)
      = Spec.x1 A (uRow x0 r) (pRow x1 r) (pRow x2 r) 0 k :=
    fun k => pay20_row A x0 x1 x2 r _ _ k (pay4_row A x0 x1 x2 r k) (pay16_row r k)
  have hn1 : ∀ k, k0_pay21 A.h_bias1 (k0_pay5 x1 A.loop_w1) (k0_pay10 (k0_pay8 x0 A.W1) (k0_pay9 A.m_bias1)) (k0_pay17 (F := Ideal)) (ix2 r k)
      = Spec.x1 A (uRow x0 r) (pRow x1 r) (pRow x2 r) 1 k :=
    fun k => pay21_row A x0 x1 x2 r _ _ _ k (pay5_row A x0 x1 x2 r k) (pay10_row A x0 x1 x2 r k) (pay17_row r k)
  have hn2 : ∀ k, k0_pay22 A.h_bias1 (k0_pay6 x2 A.loop_w1) (k0_pay11 (k0_pay3 x0) A.W1 A.m_bias1) (k0_pay13 x1 A.W1 A.m_bias1) (k0_pay18 (F := Ideal)) (ix2 r k)
      = Spec.x1 A (uRow x0 r) (pRow x1 r) (pRow x2 r) 2 k :=
    fun k => pay22_row A x0 x1 x2 r _ _ _ _ k (pay6_row A x0 x1 x2 r k) (pay11_row A x0 x1 x2 r k) (pay13_row A x0 x1 x2 r k)
      (pay18_row r k)
  have hn3 : ∀ k, k0_pay23 A.h_bias1 (k0_pay7 x0 A.loop_w1) (k0_pay12 (k0_pay3 x0) A.W1 A.m_bias1) (k0_pay14 x1 A.W1 A.m_bias1) (k0_pay15 x2 A.W1 A.m_bias1) (k0_pay19 (F := Ideal)) (ix2 r k)
      = Spec.x1 A (uRow x0 r) (pRow x1 r) (pRow x2 r) 3 k :=
    fun k => pay23_row A x0 x1 x2 r _ _ _ _ _ k (pay7_row A x0 x1 x2 r k) (pay12_row A x0 x1 x2 r k) (pay14_row A x0 x1 x2 r k)
      (pay15_row A x0 x1 x2 r k) (pay19_row r k)
  exact pay36_row A x0 x1 x2 r _ _
    (fun j => pay34_row A x0 x1 x2 r _ _ _ _ _ _ _ _ _ _ hn2
      (pay24_row A x0 x1 x2 r _ _ hn0) (pay25_row A x0 x1 x2 r _ _ _ hn1) (pay27_row A x0 x1 x2 r _ hn2)
      (pay28_row A x0 x1 x2 r _ hn3) (pay29_row A x0 x1 x2 r _ hn0) (pay30_row A x0 x1 x2 r _ hn0)
      (pay31_row A x0 x1 x2 r _ hn0) (pay32_row A x0 x1 x2 r _ hn1) (pay33_row A x0 x1 x2 r _ hn1) j)
    (fun j => pay35_row A r j) c

/-- The policy head: the mean action. -/
theorem pay37_row (v234 v236 : FVec Ideal S4096x4 .f32)
    (h36 : ∀ k, k0_pay36 x0 v234 v236 A.common_w A.common_b (ix2 r k) = Spec.shared A (uRow x0 r) (pRow x1 r) (pRow x2 r) k) (j : Fin 2) :
    k0_pay37 x0 v234 v236 A.common_w A.common_b A.actor_w A.actor_b A.action_w A.action_b (ix2 r j)
      = Spec.mean A (uRow x0 r) (pRow x1 r) (pRow x2 r) j := by
  unfold k0_pay37 Spec.mean
  show (_ + _ : EReal) = _
  refine congrArg₂ (· + ·) ?_ (vecRow_apply A.action_b _ _ r j)
  refine (mm_apply _ (Idealize.PlainDot.eq_plain _ rfl rfl rfl rfl rfl rfl) _ A.action_w _ r j).trans ?_
  refine Finset.sum_congr rfl fun k _ => congrArg (· * A.action_w (ix2 k j)) ?_
  unfold Spec.lpi
  show Ideal.tanh (_ + _) = _
  refine congrArg Ideal.tanh (congrArg₂ (· + ·) ?_ (vecRow_apply A.actor_b _ _ r k))
  refine (mm_apply _ (Idealize.PlainDot.eq_plain _ rfl rfl rfl rfl rfl rfl) _ A.actor_w _ r k).trans ?_
  exact Finset.sum_congr rfl fun i _ => by rw [h36 i]

/-- The value head. -/
theorem pay2_row (v249 : FVec Ideal S4096x64 .f32)
    (h249 : ∀ k, v249 (ix2 r k) = Spec.shared A (uRow x0 r) (pRow x1 r) (pRow x2 r) k) :
    k0_pay2 v249 A.critic_w A.critic_b A.value_w A.value_b (ix2 r 0) = Spec.value A (uRow x0 r) (pRow x1 r) (pRow x2 r) := by
  unfold k0_pay2 Spec.value
  show (_ + _ : EReal) = _
  refine congrArg₂ (· + ·) ?_ (vecRow_apply A.value_b _ _ r 0)
  refine (mm_apply _ (Idealize.PlainDot.eq_plain _ rfl rfl rfl rfl rfl rfl) _ A.value_w _ r 0).trans ?_
  refine Finset.sum_congr rfl fun k _ => congrArg (· * A.value_w (ix2 k 0)) ?_
  unfold Spec.lvf
  show Ideal.tanh (_ + _) = _
  refine congrArg Ideal.tanh (congrArg₂ (· + ·) ?_ (vecRow_apply A.critic_b _ _ r k))
  refine (mm_apply _ (Idealize.PlainDot.eq_plain _ rfl rfl rfl rfl rfl rfl) _ A.critic_w _ r k).trans ?_
  exact Finset.sum_congr rfl fun i _ => by rw [h249 i]

/-- The squared scaled deviation's term: the deviation is the zero splat. -/
theorem pay38_row (j : Fin 2) :
    k0_pay38 A.log_std (ix2 r j)
      = Ideal.ofBits .f32 0xBF000000#32
          * (Ideal.div 0 (Ideal.exp (A.log_std (ix1 j))) * Ideal.div 0 (Ideal.exp (A.log_std (ix1 j)))) := by
  unfold k0_pay38
  show Ideal.ofBits .f32 0xBF000000#32
      * (Ideal.div (Ideal.ofBits .f32 0x00000000#32) _ * Ideal.div (Ideal.ofBits .f32 0x00000000#32) _) = _
  have hd := congrArg₂ Ideal.div Ideal.ofBits_zero_f32
    (vecRow_apply (exp (F := Ideal) A.log_std) Facts₀.shapeCasts_S2_S1x2 Facts₀.broadcasts_S1x2_S4096x2 r j)
  exact congrArg (Ideal.ofBits .f32 0xBF000000#32 * ·) (congrArg₂ (· * ·) hd hd)

/-- The log-deviation broadcast down the rows. -/
theorem pay39_row (j : Fin 2) : k0_pay39 A.log_std (ix2 r j) = A.log_std (ix1 j) := by
  unfold k0_pay39
  exact vecRow_apply A.log_std _ _ r j

/-- The log-probability: the lane sum of the two action dimensions' terms. -/
theorem pay1_row (v276 v278 : FVec Ideal S4096x2 .f32)
    (h276 : ∀ j, v276 (ix2 r j) = Ideal.ofBits .f32 0xBF000000#32
      * (Ideal.div 0 (Ideal.exp (A.log_std (ix1 j))) * Ideal.div 0 (Ideal.exp (A.log_std (ix1 j)))))
    (h278 : ∀ j, v278 (ix2 r j) = A.log_std (ix1 j)) :
    k0_pay1 v276 v278 (ix1 r) = Spec.logp A := by
  unfold k0_pay1
  refine (laneSum2_apply _ _ _ _ r).trans ?_
  unfold Spec.logp
  rw [Fin.sum_univ_two]
  unfold Spec.perdimOf
  show ((v276 (ix2 r 0) - v278 (ix2 r 0)) - Ideal.ofBits .f32 0x3F6B3F8E#32)
      + ((v276 (ix2 r 1) - v278 (ix2 r 1)) - Ideal.ofBits .f32 0x3F6B3F8E#32) = _
  rw [h276, h276, h278, h278]

end Heads

/-- The whole-block rectangles' offsets are zero. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- THE FIRST OUTPUT BLOCK at `(r, j)`: the mean action of the row. -/
theorem out24_apply (x0 : Vec Ideal S4096x8 .f32) (x1 : Vec Ideal S4096x2 .f32) (x2 : Vec Ideal S4096x2 .f32) (x3 : Vec Ideal S4x2x4 .f32) (x4 : Vec Ideal S6x2x4 .f32) (x5 : Vec Ideal S6x1x4 .f32) (x6 : Vec Ideal S4x1x4 .f32) (x7 : Vec Ideal S4x4x1 .f32) (x8 : Vec Ideal S6x4x1 .f32) (x9 : Vec Ideal S6x1x1 .f32) (x10 : Vec Ideal S4x1x1 .f32) (x11 : Vec Ideal S4x4 .f32) (x12 : Vec Ideal S4 .f32) (x13 : Vec Ideal S8x64 .f32) (x14 : Vec Ideal S64 .f32) (x15 : Vec Ideal S64x64 .f32) (x16 : Vec Ideal S64 .f32) (x17 : Vec Ideal S64x2 .f32) (x18 : Vec Ideal S2 .f32) (x19 : Vec Ideal S2 .f32) (x20 : Vec Ideal S64x64 .f32) (x21 : Vec Ideal S64 .f32) (x22 : Vec Ideal S64x1 .f32) (x23 : Vec Ideal S1 .f32) (r : Fin 4096) (j : Fin 2) :
    out0_24 (F := Ideal) x0 x1 x2 x3 x4 x5 x6 x7 x8 x9 x10 x11 x12 x13 x14 x15 x16 x17 x18 x19 x20 x21 x22 x23 (ix2 r j)
      = Cert.Spec.mean (wOf x3 x4 x5 x6 x7 x8 x9 x10 x11 x12 x13 x14 x15 x16 x17 x18 x19 x20 x21 x22 x23) (fun k => x0 (ix2 r k)) (fun i => x1 (ix2 r i)) (fun i => x2 (ix2 r i)) j := by
  unfold out0_24
  rw [View.canon_unit_zero hz2]
  simp only [View.ld_unit_zero (S := S4096x8) hz2,
    View.ld_unit_zero (S := S4096x2) hz2,
    View.ld_unit_zero (S := S4x4) hz2,
    View.ld_unit_zero (S := S8x64) hz2,
    View.ld_unit_zero (S := S64x64) hz2,
    View.ld_unit_zero (S := S64x2) hz2,
    View.ld_unit_zero (S := S64x1) hz2,
    View.ld_unit_zero (S := S4x2x4) hz3,
    View.ld_unit_zero (S := S6x2x4) hz3,
    View.ld_unit_zero (S := S6x1x4) hz3,
    View.ld_unit_zero (S := S4x1x4) hz3,
    View.ld_unit_zero (S := S4x4x1) hz3,
    View.ld_unit_zero (S := S6x4x1) hz3,
    View.ld_unit_zero (S := S6x1x1) hz3,
    View.ld_unit_zero (S := S4x1x1) hz3,
    View.ld_unit_zero (S := S4) hz1,
    View.ld_unit_zero (S := S64) hz1,
    View.ld_unit_zero (S := S2) hz1,
    View.ld_unit_zero (S := S1) hz1]
  exact pay37_row (wOf x3 x4 x5 x6 x7 x8 x9 x10 x11 x12 x13 x14 x15 x16 x17 x18 x19 x20 x21 x22 x23) x0 x1 x2 r _ _ (fun k => shared_row (wOf x3 x4 x5 x6 x7 x8 x9 x10 x11 x12 x13 x14 x15 x16 x17 x18 x19 x20 x21 x22 x23) x0 x1 x2 r k) j

/-- THE SECOND OUTPUT BLOCK at `(r, 0)`: the value of the row. -/
theorem out25_apply (x0 : Vec Ideal S4096x8 .f32) (x1 : Vec Ideal S4096x2 .f32) (x2 : Vec Ideal S4096x2 .f32) (x3 : Vec Ideal S4x2x4 .f32) (x4 : Vec Ideal S6x2x4 .f32) (x5 : Vec Ideal S6x1x4 .f32) (x6 : Vec Ideal S4x1x4 .f32) (x7 : Vec Ideal S4x4x1 .f32) (x8 : Vec Ideal S6x4x1 .f32) (x9 : Vec Ideal S6x1x1 .f32) (x10 : Vec Ideal S4x1x1 .f32) (x11 : Vec Ideal S4x4 .f32) (x12 : Vec Ideal S4 .f32) (x13 : Vec Ideal S8x64 .f32) (x14 : Vec Ideal S64 .f32) (x15 : Vec Ideal S64x64 .f32) (x16 : Vec Ideal S64 .f32) (x17 : Vec Ideal S64x2 .f32) (x18 : Vec Ideal S2 .f32) (x19 : Vec Ideal S2 .f32) (x20 : Vec Ideal S64x64 .f32) (x21 : Vec Ideal S64 .f32) (x22 : Vec Ideal S64x1 .f32) (x23 : Vec Ideal S1 .f32) (r : Fin 4096) (z : Fin 1) :
    out0_25 (F := Ideal) x0 x1 x2 x3 x4 x5 x6 x7 x8 x9 x10 x11 x12 x13 x14 x15 x16 x17 x18 x19 x20 x21 x22 x23 (ix2 r z)
      = Cert.Spec.value (wOf x3 x4 x5 x6 x7 x8 x9 x10 x11 x12 x13 x14 x15 x16 x17 x18 x19 x20 x21 x22 x23) (fun k => x0 (ix2 r k)) (fun i => x1 (ix2 r i)) (fun i => x2 (ix2 r i)) := by
  obtain rfl : z = 0 := Subsingleton.elim _ _
  unfold out0_25
  rw [View.canon_unit_zero hz2]
  simp only [View.ld_unit_zero (S := S4096x8) hz2,
    View.ld_unit_zero (S := S4096x2) hz2,
    View.ld_unit_zero (S := S4x4) hz2,
    View.ld_unit_zero (S := S8x64) hz2,
    View.ld_unit_zero (S := S64x64) hz2,
    View.ld_unit_zero (S := S64x2) hz2,
    View.ld_unit_zero (S := S64x1) hz2,
    View.ld_unit_zero (S := S4x2x4) hz3,
    View.ld_unit_zero (S := S6x2x4) hz3,
    View.ld_unit_zero (S := S6x1x4) hz3,
    View.ld_unit_zero (S := S4x1x4) hz3,
    View.ld_unit_zero (S := S4x4x1) hz3,
    View.ld_unit_zero (S := S6x4x1) hz3,
    View.ld_unit_zero (S := S6x1x1) hz3,
    View.ld_unit_zero (S := S4x1x1) hz3,
    View.ld_unit_zero (S := S4) hz1,
    View.ld_unit_zero (S := S64) hz1,
    View.ld_unit_zero (S := S2) hz1,
    View.ld_unit_zero (S := S1) hz1]
  exact pay2_row (wOf x3 x4 x5 x6 x7 x8 x9 x10 x11 x12 x13 x14 x15 x16 x17 x18 x19 x20 x21 x22 x23) x0 x1 x2 r _ (fun k => shared_row (wOf x3 x4 x5 x6 x7 x8 x9 x10 x11 x12 x13 x14 x15 x16 x17 x18 x19 x20 x21 x22 x23) x0 x1 x2 r k)

/-- THE THIRD OUTPUT BLOCK at `r`: the log-probability, the same in every row. -/
theorem out26_apply (x0 : Vec Ideal S4096x8 .f32) (x1 : Vec Ideal S4096x2 .f32) (x2 : Vec Ideal S4096x2 .f32) (x3 : Vec Ideal S4x2x4 .f32) (x4 : Vec Ideal S6x2x4 .f32) (x5 : Vec Ideal S6x1x4 .f32) (x6 : Vec Ideal S4x1x4 .f32) (x7 : Vec Ideal S4x4x1 .f32) (x8 : Vec Ideal S6x4x1 .f32) (x9 : Vec Ideal S6x1x1 .f32) (x10 : Vec Ideal S4x1x1 .f32) (x11 : Vec Ideal S4x4 .f32) (x12 : Vec Ideal S4 .f32) (x13 : Vec Ideal S8x64 .f32) (x14 : Vec Ideal S64 .f32) (x15 : Vec Ideal S64x64 .f32) (x16 : Vec Ideal S64 .f32) (x17 : Vec Ideal S64x2 .f32) (x18 : Vec Ideal S2 .f32) (x19 : Vec Ideal S2 .f32) (x20 : Vec Ideal S64x64 .f32) (x21 : Vec Ideal S64 .f32) (x22 : Vec Ideal S64x1 .f32) (x23 : Vec Ideal S1 .f32) (r : Fin 4096) :
    out0_26 (F := Ideal) x0 x1 x2 x3 x4 x5 x6 x7 x8 x9 x10 x11 x12 x13 x14 x15 x16 x17 x18 x19 x20 x21 x22 x23 (ix1 r) = Cert.Spec.logp (wOf x3 x4 x5 x6 x7 x8 x9 x10 x11 x12 x13 x14 x15 x16 x17 x18 x19 x20 x21 x22 x23) := by
  unfold out0_26
  rw [View.canon_unit_zero hz1]
  simp only [View.ld_unit_zero (S := S2) hz1]
  exact pay1_row (wOf x3 x4 x5 x6 x7 x8 x9 x10 x11 x12 x13 x14 x15 x16 x17 x18 x19 x20 x21 x22 x23) r _ _ (fun j => pay38_row (wOf x3 x4 x5 x6 x7 x8 x9 x10 x11 x12 x13 x14 x15 x16 x17 x18 x19 x20 x21 x22 x23) r j) (fun j => pay39_row (wOf x3 x4 x5 x6 x7 x8 x9 x10 x11 x12 x13 x14 x15 x16 x17 x18 x19 x20 x21 x22 x23) r j)

end Cert.KernelIdeal.Row

end
-- ==== Proof.KernelFinal.lean ====
/-
  THE KERNEL'S THREE RESULT ARRAYS ARE THE SPECIFICATION'S.

  Grid point t works on rows 4096 t … 4096 t + 4095: its blocks of the three batch arrays are those rows, its blocks of
  the parameter arrays are the whole arrays. What it writes back to each result is therefore the block of the
  specification's array at those rows, and the 256 blocks cover each result array.
-/
import proofs.«131937_j13331578487072_2_alg».proof.Proof.KernelArrays
import proofs.«131937_j13331578487072_2_alg».proof.Proof.KernelRow

noncomputable section

namespace Cert.KernelIdeal.Arrays

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The blocks of one grid point, as the specification's row data -/

open Cert.KernelIdeal.Row in
/-- The parameter blocks at any grid point are the parameter arrays. -/
theorem wOf_iblk (c : Dev nD) (t : Fin cfg0.N) : wOf (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) = (kargs m c).W := by
  rw [iblk3_eq, iblk4_eq, iblk5_eq, iblk6_eq, iblk7_eq, iblk8_eq, iblk9_eq, iblk10_eq, iblk11_eq, iblk12_eq, iblk13_eq, iblk14_eq, iblk15_eq, iblk16_eq, iblk17_eq, iblk18_eq, iblk19_eq, iblk20_eq, iblk21_eq, iblk22_eq, iblk23_eq]
  rfl

/-- Row r of point t's blocks is row 4096 t + r of the batch arrays. -/
theorem rows_iblk (c : Dev nD) (t : Fin cfg0.N) (r : Fin 4096) (b : Fin 1048576) (hb : b.val = 4096 * t.val + r.val) :
    (fun k => (iblk m c 0 t : Vec Ideal S4096x8 .f32) (ix2 r k)) = Cert.Spec.rowU (kargs m c) b
    ∧ (fun i => (iblk m c 1 t : Vec Ideal S4096x2 .f32) (ix2 r i)) = Cert.Spec.rowP (kargs m c) b
    ∧ (fun i => (iblk m c 2 t : Vec Ideal S4096x2 .f32) (ix2 r i)) = Cert.Spec.rowQ (kargs m c) b :=
  ⟨funext fun k => iblk0_apply m c t r k b hb, funext fun i => iblk1_apply m c t r i b hb,
    funext fun i => iblk2_apply m c t r i b hb⟩

/-! ## What each grid point writes back is a block of the specification -/

open Cert.KernelIdeal.Row in
theorem block24 (c : Dev nD) (t : Fin cfg0.N) (r : Fin 4096) (j : Fin 2) (i : S1048576x2.Idx)
    (hi0 : (i 0).val = 4096 * t.val + r.val) (hi1 : i 1 = j) :
    out0_24 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (ix2 r j) = Cert.Spec.Gact (kargs m c) i := by
  obtain ⟨hu, hp, hq⟩ := rows_iblk m c t r (i 0) hi0
  rw [out24_apply, wOf_iblk, hu, hp, hq, ← hi1]
  rfl

open Cert.KernelIdeal.Row in
theorem block25 (c : Dev nD) (t : Fin cfg0.N) (r : Fin 4096) (z : Fin 1) (i : S1048576x1.Idx)
    (hi0 : (i 0).val = 4096 * t.val + r.val) :
    out0_25 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (ix2 r z) = Cert.Spec.Gval (kargs m c) i := by
  obtain ⟨hu, hp, hq⟩ := rows_iblk m c t r (i 0) hi0
  rw [out25_apply, wOf_iblk, hu, hp, hq]
  rfl

open Cert.KernelIdeal.Row in
theorem block26 (c : Dev nD) (t : Fin cfg0.N) (r : Fin 4096) (i : S1048576.Idx) :
    out0_26 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (ix1 r) = Cert.Spec.Glogp (kargs m c) i := by
  rw [out26_apply, wOf_iblk]
  rfl

theorem flushed24_eq (c : Dev nD) (t : Fin cfg0.N) :
    (dats m 0 c).flushed 24 t = ((cfg0.win 24).blk t).view.read (Elt Ideal) (Cert.Spec.Gact (kargs m c)) := by
  rw [Cert.KernelIdeal.Value.flushed24]
  obtain ⟨-, -, -, -, -, -, e0, e1, -⟩ := idx_rows t
  funext y
  have hy : (y : S4096x2.Idx) = ix2 (y 0) (y 1) := eq_ix2 (n0 := 4096) (n1 := 2) y
  refine (congrArg (out0_24 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) hy).trans ?_
  refine block24 m c t (y 0) (y 1) (((cfg0.win 24).blk t).view.emb y) ?_ ?_
  · show win0_24.index t 0 * 4096 + 1 * (y 0).val = _
    rw [e0]; omega
  · refine Fin.ext ?_
    show win0_24.index t 1 * 2 + 1 * (y 1).val = (y 1).val
    rw [e1]; omega

theorem flushed25_eq (c : Dev nD) (t : Fin cfg0.N) :
    (dats m 0 c).flushed 25 t = ((cfg0.win 25).blk t).view.read (Elt Ideal) (Cert.Spec.Gval (kargs m c)) := by
  rw [Cert.KernelIdeal.Value.flushed25]
  obtain ⟨-, -, -, -, -, -, -, -, e0, e1, -⟩ := idx_rows t
  funext y
  have hy : (y : S4096x1.Idx) = ix2 (y 0) (y 1) := eq_ix2 (n0 := 4096) (n1 := 1) y
  refine (congrArg (out0_25 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) hy).trans ?_
  refine block25 m c t (y 0) (y 1) (((cfg0.win 25).blk t).view.emb y) ?_
  show win0_25.index t 0 * 4096 + 1 * (y 0).val = _
  rw [e0]; omega

theorem flushed26_eq (c : Dev nD) (t : Fin cfg0.N) :
    (dats m 0 c).flushed 26 t = ((cfg0.win 26).blk t).view.read (Elt Ideal) (Cert.Spec.Glogp (kargs m c)) := by
  rw [Cert.KernelIdeal.Value.flushed26]
  funext y
  have hy : (y : S4096.Idx) = ix1 (y 0) := eq_ix1 (n := 4096) y
  refine (congrArg (out0_26 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) hy).trans ?_
  exact block26 m c t (y 0) (((cfg0.win 26).blk t).view.emb y)

/-! ## The 256 blocks cover each result array -/

theorem cover24 (i : S1048576x2.Idx) :
    ∃ t : Fin cfg0.N, (cfg0.win 24).flush t = true ∧ i ∈ ((cfg0.win 24).blk t).view.set := by
  have hN : grid0.N = 256 := N_0
  have h0 : (i 0).val < 1048576 := (i 0).isLt
  have h1 : (i 1).val < 2 := (i 1).isLt
  let t : Fin cfg0.N := ⟨(i 0).val / 4096, by show _ < grid0.N; rw [hN]; omega⟩
  obtain ⟨-, -, -, -, -, -, e0, e1, -⟩ := idx_rows t
  have ht : t.val = (i 0).val / 4096 := rfl
  refine ⟨t, flush0_24 t, ?_⟩
  show i ∈ ((View.whole main_v0_0).slice (win0_24.rect t)).set
  rw [View.set_slice_whole, Rect.mem_set_unit]
  intro a
  match a with
  | ⟨0, _⟩ => show win0_24.index t 0 * 4096 ≤ (i 0).val ∧ (i 0).val < win0_24.index t 0 * 4096 + 4096
              rw [e0, ht]; omega
  | ⟨1, _⟩ => show win0_24.index t 1 * 2 ≤ (i 1).val ∧ (i 1).val < win0_24.index t 1 * 2 + 2
              rw [e1]; omega

theorem cover25 (i : S1048576x1.Idx) :
    ∃ t : Fin cfg0.N, (cfg0.win 25).flush t = true ∧ i ∈ ((cfg0.win 25).blk t).view.set := by
  have hN : grid0.N = 256 := N_0
  have h0 : (i 0).val < 1048576 := (i 0).isLt
  have h1 : (i 1).val < 1 := (i 1).isLt
  let t : Fin cfg0.N := ⟨(i 0).val / 4096, by show _ < grid0.N; rw [hN]; omega⟩
  obtain ⟨-, -, -, -, -, -, -, -, e0, e1, -⟩ := idx_rows t
  have ht : t.val = (i 0).val / 4096 := rfl
  refine ⟨t, flush0_25 t, ?_⟩
  show i ∈ ((View.whole main_v0_1).slice (win0_25.rect t)).set
  rw [View.set_slice_whole, Rect.mem_set_unit]
  intro a
  match a with
  | ⟨0, _⟩ => show win0_25.index t 0 * 4096 ≤ (i 0).val ∧ (i 0).val < win0_25.index t 0 * 4096 + 4096
              rw [e0, ht]; omega
  | ⟨1, _⟩ => show win0_25.index t 1 * 1 ≤ (i 1).val ∧ (i 1).val < win0_25.index t 1 * 1 + 1
              rw [e1]; omega

theorem cover26 (i : S1048576.Idx) :
    ∃ t : Fin cfg0.N, (cfg0.win 26).flush t = true ∧ i ∈ ((cfg0.win 26).blk t).view.set := by
  have hN : grid0.N = 256 := N_0
  have h0 : (i 0).val < 1048576 := (i 0).isLt
  let t : Fin cfg0.N := ⟨(i 0).val / 4096, by show _ < grid0.N; rw [hN]; omega⟩
  obtain ⟨-, -, -, -, -, -, -, -, -, -, e0⟩ := idx_rows t
  have ht : t.val = (i 0).val / 4096 := rfl
  refine ⟨t, flush0_26 t, ?_⟩
  show i ∈ ((View.whole main_v0_2).slice (win0_26.rect t)).set
  rw [View.set_slice_whole, Rect.mem_set_unit]
  intro a
  match a with
  | ⟨0, _⟩ => show win0_26.index t 0 * 4096 ≤ (i 0).val ∧ (i 0).val < win0_26.index t 0 * 4096 + 4096
              rw [e0, ht]; omega

/-! ## The result arrays after the run -/

theorem final24 (c : Dev nD) : (dats m 0 c).arrAt 24 cfg0.N = Cert.Spec.Gact (kargs m c) :=
  (dats m 0 c).arrAt_eq_of_cover 24 (Cert.Spec.Gact (kargs m c)) (fun t _ => flushed24_eq m c t) cover24

theorem final25 (c : Dev nD) : (dats m 0 c).arrAt 25 cfg0.N = Cert.Spec.Gval (kargs m c) :=
  (dats m 0 c).arrAt_eq_of_cover 25 (Cert.Spec.Gval (kargs m c)) (fun t _ => flushed25_eq m c t) cover25

theorem final26 (c : Dev nD) : (dats m 0 c).arrAt 26 cfg0.N = Cert.Spec.Glogp (kargs m c) :=
  (dats m 0 c).arrAt_eq_of_cover 26 (Cert.Spec.Glogp (kargs m c)) (fun t _ => flushed26_eq m c t) cover26

/-! ## The run, read -/

/-- Every weakly fair execution of the kernel's program ends with the three result arrays at the specification's
    arrays of the launch contents of the arguments, the arguments unchanged. -/
theorem run : θ_run defs (onTc (τ := τ) (main (F := Ideal))) ⟨m, fun _ => 0, ρ⟩ fun r => ∀ c : Dev nD,
      r.2.mem ((c : Thread nD τ).loc main_v0_0) = Cert.Spec.Gact (kargs m c)
      ∧ r.2.mem ((c : Thread nD τ).loc main_v0_1) = Cert.Spec.Gval (kargs m c)
      ∧ r.2.mem ((c : Thread nD τ).loc main_v0_2) = Cert.Spec.Glogp (kargs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23) :=
  (θ_run defs _ _).mono (fun r h c => ⟨(h c).1.trans (final24 m c), (h c).2.1.trans (final25 m c),
      (h c).2.2.1.trans (final26 m c), (h c).2.2.2⟩)
    (Cert.KernelIdeal.Value.run_blocks m ρ)

end Cert.KernelIdeal.Arrays

end
-- ==== Proof.RefStages.lean ====
/-
  The reference program's values, stage by stage.

  For every buffer that @main writes, the function of the twenty-four argument arrays that the
  buffer holds once @main has run: the operation that writes it, applied to the stages of its
  operands. An argument buffer is the matching field of the argument structure. Nothing here is
  evaluated: every stage is a closed term over the arguments.
-/
import proofs.«131937_j13331578487072_2_alg».proof.Proof.Gen.ReferenceIdeal
import proofs.«131937_j13331578487072_2_alg».proof.Proof.Spec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages, in program order -/

def res_main_c (X : Cert.Spec.Args F) : IVec S6 32 :=
  fun i => lit0 (S6.rowMajor i)
def res_main_c_0 (X : Cert.Spec.Args F) : IVec S6 32 :=
  fun i => lit1 (S6.rowMajor i)
def res_main_v0 (X : Cert.Spec.Args F) : FVec F S1048576x2 .f32 :=
  extractStridedSlice S1048576x2 ![0, 6] X.obs slices_S1048576x8_S1048576x2_0_6
def res_main_v1 (X : Cert.Spec.Args F) : FVec F S1048576x2 .f32 :=
  extractStridedSlice S1048576x2 ![0, 0] X.obs slices_S1048576x8_S1048576x2_0_0
def res_main_v2 (X : Cert.Spec.Args F) : FVec F S1x1048576x2 .f32 :=
  broadcastInDim S1x1048576x2 ![1, 2] bcast_S1048576x2_S1x1048576x2_1_2 (res_main_v0 X)
def res_main_v3 (X : Cert.Spec.Args F) : FVec F S1x1048576x2 .f32 :=
  broadcastInDim S1x1048576x2 ![1, 2] bcast_S1048576x2_S1x1048576x2_1_2 X.t1
def res_main_v4 (X : Cert.Spec.Args F) : FVec F S1x1048576x2 .f32 :=
  broadcastInDim S1x1048576x2 ![1, 2] bcast_S1048576x2_S1x1048576x2_1_2 X.t2
def res_main_v5 (X : Cert.Spec.Args F) : FVec F S1x1048576x2 .f32 :=
  broadcastInDim S1x1048576x2 ![1, 2] bcast_S1048576x2_S1x1048576x2_1_2 (res_main_v1 X)
def res_main_v6 (X : Cert.Spec.Args F) : FVec F S4x1048576x2 .f32 :=
  concatenate S4x1048576x2 0 [⟨S1x1048576x2, (res_main_v2 X)⟩, ⟨S1x1048576x2, (res_main_v3 X)⟩, ⟨S1x1048576x2, (res_main_v4 X)⟩, ⟨S1x1048576x2, (res_main_v5 X)⟩] concatenates_S1x1048576x2_S1x1048576x2_S1x1048576x2_S1x1048576x2_S4x1048576x2_d0
def res_main_v7 (X : Cert.Spec.Args F) : FVec F S4x1048576x4 .f32 :=
  Host.dotGeneral dot_S4x1048576x2_S4x2x4_S4x1048576x4_2_1_1_2_0_0 none (res_main_v6 X) X.W.loop_w1
def res_main_c_1 (X : Cert.Spec.Args F) : IVec S_ 32 :=
  constantI S_ 32 0#32
def res_main_v8 (X : Cert.Spec.Args F) : IVec S6 32 :=
  broadcastInDim S6 ![] bcast_S_S6 (res_main_c_1 X)
def res_main_v9 (X : Cert.Spec.Args F) : IVec S6 1 :=
  cmpi .slt (res_main_c X) (res_main_v8 X)
def res_main_c_2 (X : Cert.Spec.Args F) : IVec S_ 32 :=
  constantI S_ 32 4#32
def res_main_v10 (X : Cert.Spec.Args F) : IVec S6 32 :=
  broadcastInDim S6 ![] bcast_S_S6 (res_main_c_2 X)
def res_main_v11 (X : Cert.Spec.Args F) : IVec S6 32 :=
  addi (res_main_c X) (res_main_v10 X)
def res_main_v12 (X : Cert.Spec.Args F) : IVec S6 32 :=
  select (res_main_v9 X) (res_main_v11 X) (res_main_c X)
def res_main_v13 (X : Cert.Spec.Args F) : IVec S6x1 32 :=
  broadcastInDim S6x1 ![0] bcast_S6_S6x1_0 (res_main_v12 X)
def res_main_v14 (X : Cert.Spec.Args F) : FVec F S6x1048576x2 .f32 :=
  Host.gather gather_S4x1048576x2_S6x1_S6x1048576x2_12_0_n_n_0_1_110485762 (res_main_v6 X) (res_main_v13 X)
def res_main_v15 (X : Cert.Spec.Args F) : FVec F S6x1048576x4 .f32 :=
  Host.dotGeneral dot_S6x1048576x2_S6x2x4_S6x1048576x4_2_1_1_2_0_0 none (res_main_v14 X) X.W.W1
def res_main_v16 (X : Cert.Spec.Args F) : FVec F S6x1048576x4 .f32 :=
  broadcastInDim S6x1048576x4 ![0, 1, 2] bcast_S6x1x4_S6x1048576x4_0_1_2 X.W.m_bias1
def res_main_v17 (X : Cert.Spec.Args F) : FVec F S6x1048576x4 .f32 :=
  addf (res_main_v15 X) (res_main_v16 X)
def res_main_cst (X : Cert.Spec.Args F) : FVec F S_ .f32 :=
  constant S_ .f32 0x00000000#32
def res_main_v18 (X : Cert.Spec.Args F) : FVec F S4x1048576x4 .f32 :=
  broadcastInDim S4x1048576x4 ![] bcast_S_S4x1048576x4 (res_main_cst X)
def res_main_v19 (X : Cert.Spec.Args F) : IVec S6x1 32 :=
  broadcastInDim S6x1 ![0] bcast_S6_S6x1_0 (res_main_c_0 X)
def res_main_v20 (X : Cert.Spec.Args F) : FVec F S4x1048576x4 .f32 :=
  Host.scatterAdd scatter_S4x1048576x4_S6x1_S6x1048576x4_12_0_0_1 (res_main_v18 X) (res_main_v19 X) (res_main_v17 X)
def res_main_v21 (X : Cert.Spec.Args F) : FVec F S4x1048576x4 .f32 :=
  broadcastInDim S4x1048576x4 ![0, 1, 2] bcast_S4x1x4_S4x1048576x4_0_1_2 X.W.h_bias1
def res_main_v22 (X : Cert.Spec.Args F) : FVec F S4x1048576x4 .f32 :=
  addf (res_main_v20 X) (res_main_v21 X)
def res_main_v23 (X : Cert.Spec.Args F) : FVec F S4x1048576x4 .f32 :=
  addf (res_main_v22 X) (res_main_v7 X)
def res_main_v24 (X : Cert.Spec.Args F) : FVec F S4x1048576x4 .f32 :=
  Host.tanh (res_main_v23 X)
def res_main_v25 (X : Cert.Spec.Args F) : FVec F S4x1048576x1 .f32 :=
  Host.dotGeneral dot_S4x1048576x4_S4x4x1_S4x1048576x1_2_1_1_2_0_0 none (res_main_v24 X) X.W.loop_w2
def res_main_c_3 (X : Cert.Spec.Args F) : IVec S_ 32 :=
  constantI S_ 32 0#32
def res_main_v26 (X : Cert.Spec.Args F) : IVec S6 32 :=
  broadcastInDim S6 ![] bcast_S_S6 (res_main_c_3 X)
def res_main_v27 (X : Cert.Spec.Args F) : IVec S6 1 :=
  cmpi .slt (res_main_c X) (res_main_v26 X)
def res_main_c_4 (X : Cert.Spec.Args F) : IVec S_ 32 :=
  constantI S_ 32 4#32
def res_main_v28 (X : Cert.Spec.Args F) : IVec S6 32 :=
  broadcastInDim S6 ![] bcast_S_S6 (res_main_c_4 X)
def res_main_v29 (X : Cert.Spec.Args F) : IVec S6 32 :=
  addi (res_main_c X) (res_main_v28 X)
def res_main_v30 (X : Cert.Spec.Args F) : IVec S6 32 :=
  select (res_main_v27 X) (res_main_v29 X) (res_main_c X)
def res_main_v31 (X : Cert.Spec.Args F) : IVec S6x1 32 :=
  broadcastInDim S6x1 ![0] bcast_S6_S6x1_0 (res_main_v30 X)
def res_main_v32 (X : Cert.Spec.Args F) : FVec F S6x1048576x4 .f32 :=
  Host.gather gather_S4x1048576x4_S6x1_S6x1048576x4_12_0_n_n_0_1_110485764 (res_main_v24 X) (res_main_v31 X)
def res_main_v33 (X : Cert.Spec.Args F) : FVec F S6x1048576x1 .f32 :=
  Host.dotGeneral dot_S6x1048576x4_S6x4x1_S6x1048576x1_2_1_1_2_0_0 none (res_main_v32 X) X.W.W2
def res_main_v34 (X : Cert.Spec.Args F) : FVec F S6x1048576x1 .f32 :=
  broadcastInDim S6x1048576x1 ![0, 1, 2] bcast_S6x1x1_S6x1048576x1_0_1_2 X.W.m_bias2
def res_main_v35 (X : Cert.Spec.Args F) : FVec F S6x1048576x1 .f32 :=
  addf (res_main_v33 X) (res_main_v34 X)
def res_main_cst_5 (X : Cert.Spec.Args F) : FVec F S_ .f32 :=
  constant S_ .f32 0x00000000#32
def res_main_v36 (X : Cert.Spec.Args F) : FVec F S4x1048576x1 .f32 :=
  broadcastInDim S4x1048576x1 ![] bcast_S_S4x1048576x1 (res_main_cst_5 X)
def res_main_v37 (X : Cert.Spec.Args F) : IVec S6x1 32 :=
  broadcastInDim S6x1 ![0] bcast_S6_S6x1_0 (res_main_c_0 X)
def res_main_v38 (X : Cert.Spec.Args F) : FVec F S4x1048576x1 .f32 :=
  Host.scatterAdd scatter_S4x1048576x1_S6x1_S6x1048576x1_12_0_0_1 (res_main_v36 X) (res_main_v37 X) (res_main_v35 X)
def res_main_v39 (X : Cert.Spec.Args F) : FVec F S4x1048576x1 .f32 :=
  broadcastInDim S4x1048576x1 ![0, 1, 2] bcast_S4x1x1_S4x1048576x1_0_1_2 X.W.h_bias2
def res_main_v40 (X : Cert.Spec.Args F) : FVec F S4x1048576x1 .f32 :=
  addf (res_main_v38 X) (res_main_v39 X)
def res_main_v41 (X : Cert.Spec.Args F) : FVec F S4x1048576x1 .f32 :=
  addf (res_main_v40 X) (res_main_v25 X)
def res_main_v42 (X : Cert.Spec.Args F) : FVec F S4x1048576 .f32 :=
  shapeCast S4x1048576 (res_main_v41 X) shapeCasts_S4x1048576x1_S4x1048576
def res_main_v43 (X : Cert.Spec.Args F) : FVec F S4x1048576 .f32 :=
  Host.tanh (res_main_v42 X)
def res_main_v44 (X : Cert.Spec.Args F) : FVec F S1048576x4 .f32 :=
  transpose S1048576x4 [1, 0] (res_main_v43 X) transposes_S4x1048576_S1048576x4_1_0
def res_main_v45 (X : Cert.Spec.Args F) : FVec F S1048576x4 .f32 :=
  Host.dotGeneral dot_S1048576x4_S4x4_S1048576x4_1_0_0_1_n_n none (res_main_v44 X) X.W.fe_w
def res_main_v46 (X : Cert.Spec.Args F) : FVec F S1x4 .f32 :=
  broadcastInDim S1x4 ![1] bcast_S4_S1x4_1 X.W.fe_b
def res_main_v47 (X : Cert.Spec.Args F) : FVec F S1048576x4 .f32 :=
  broadcastInDim S1048576x4 ![0, 1] bcast_S1x4_S1048576x4_0_1 (res_main_v46 X)
def res_main_v48 (X : Cert.Spec.Args F) : FVec F S1048576x4 .f32 :=
  addf (res_main_v45 X) (res_main_v47 X)
def res_main_v49 (X : Cert.Spec.Args F) : FVec F S1048576x4 .f32 :=
  Host.tanh (res_main_v48 X)
def res_main_v50 (X : Cert.Spec.Args F) : FVec F S1048576x4 .f32 :=
  extractStridedSlice S1048576x4 ![0, 2] X.obs slices_S1048576x8_S1048576x4_0_2
def res_main_v51 (X : Cert.Spec.Args F) : FVec F S1048576x8 .f32 :=
  concatenate S1048576x8 1 [⟨S1048576x4, (res_main_v49 X)⟩, ⟨S1048576x4, (res_main_v50 X)⟩] concatenates_S1048576x4_S1048576x4_S1048576x8_d1
def res_main_v52 (X : Cert.Spec.Args F) : FVec F S1048576x64 .f32 :=
  Host.dotGeneral dot_S1048576x8_S8x64_S1048576x64_1_0_0_1_n_n none (res_main_v51 X) X.W.common_w
def res_main_v53 (X : Cert.Spec.Args F) : FVec F S1x64 .f32 :=
  broadcastInDim S1x64 ![1] bcast_S64_S1x64_1 X.W.common_b
def res_main_v54 (X : Cert.Spec.Args F) : FVec F S1048576x64 .f32 :=
  broadcastInDim S1048576x64 ![0, 1] bcast_S1x64_S1048576x64_0_1 (res_main_v53 X)
def res_main_v55 (X : Cert.Spec.Args F) : FVec F S1048576x64 .f32 :=
  addf (res_main_v52 X) (res_main_v54 X)
def res_main_v56 (X : Cert.Spec.Args F) : FVec F S1048576x64 .f32 :=
  Host.tanh (res_main_v55 X)
def res_main_v57 (X : Cert.Spec.Args F) : FVec F S1048576x64 .f32 :=
  Host.dotGeneral dot_S1048576x64_S64x64_S1048576x64_1_0_0_1_n_n none (res_main_v56 X) X.W.actor_w
def res_main_v58 (X : Cert.Spec.Args F) : FVec F S1x64 .f32 :=
  broadcastInDim S1x64 ![1] bcast_S64_S1x64_1 X.W.actor_b
def res_main_v59 (X : Cert.Spec.Args F) : FVec F S1048576x64 .f32 :=
  broadcastInDim S1048576x64 ![0, 1] bcast_S1x64_S1048576x64_0_1 (res_main_v58 X)
def res_main_v60 (X : Cert.Spec.Args F) : FVec F S1048576x64 .f32 :=
  addf (res_main_v57 X) (res_main_v59 X)
def res_main_v61 (X : Cert.Spec.Args F) : FVec F S1048576x64 .f32 :=
  Host.tanh (res_main_v60 X)
def res_main_v62 (X : Cert.Spec.Args F) : FVec F S1048576x2 .f32 :=
  Host.dotGeneral dot_S1048576x64_S64x2_S1048576x2_1_0_0_1_n_n none (res_main_v61 X) X.W.action_w
def res_main_v63 (X : Cert.Spec.Args F) : FVec F S1x2 .f32 :=
  broadcastInDim S1x2 ![1] bcast_S2_S1x2_1 X.W.action_b
def res_main_v64 (X : Cert.Spec.Args F) : FVec F S1048576x2 .f32 :=
  broadcastInDim S1048576x2 ![0, 1] bcast_S1x2_S1048576x2_0_1 (res_main_v63 X)
def res_main_v65 (X : Cert.Spec.Args F) : FVec F S1048576x2 .f32 :=
  addf (res_main_v62 X) (res_main_v64 X)
def res_main_v66 (X : Cert.Spec.Args F) : FVec F S2 .f32 :=
  Host.exp X.W.log_std
def res_main_v67 (X : Cert.Spec.Args F) : FVec F S1048576x2 .f32 :=
  subf (res_main_v65 X) (res_main_v65 X)
def res_main_v68 (X : Cert.Spec.Args F) : FVec F S1x2 .f32 :=
  broadcastInDim S1x2 ![1] bcast_S2_S1x2_1 (res_main_v66 X)
def res_main_v69 (X : Cert.Spec.Args F) : FVec F S1048576x2 .f32 :=
  broadcastInDim S1048576x2 ![0, 1] bcast_S1x2_S1048576x2_0_1 (res_main_v68 X)
def res_main_v70 (X : Cert.Spec.Args F) : FVec F S1048576x2 .f32 :=
  Host.divf (res_main_v67 X) (res_main_v69 X)
def res_main_v71 (X : Cert.Spec.Args F) : FVec F S1048576x2 .f32 :=
  mulf (res_main_v70 X) (res_main_v70 X)
def res_main_cst_6 (X : Cert.Spec.Args F) : FVec F S_ .f32 :=
  constant S_ .f32 0xBF000000#32
def res_main_v72 (X : Cert.Spec.Args F) : FVec F S1048576x2 .f32 :=
  broadcastInDim S1048576x2 ![] bcast_S_S1048576x2 (res_main_cst_6 X)
def res_main_v73 (X : Cert.Spec.Args F) : FVec F S1048576x2 .f32 :=
  mulf (res_main_v72 X) (res_main_v71 X)
def res_main_v74 (X : Cert.Spec.Args F) : FVec F S1x2 .f32 :=
  broadcastInDim S1x2 ![1] bcast_S2_S1x2_1 X.W.log_std
def res_main_v75 (X : Cert.Spec.Args F) : FVec F S1048576x2 .f32 :=
  broadcastInDim S1048576x2 ![0, 1] bcast_S1x2_S1048576x2_0_1 (res_main_v74 X)
def res_main_v76 (X : Cert.Spec.Args F) : FVec F S1048576x2 .f32 :=
  subf (res_main_v73 X) (res_main_v75 X)
def res_main_cst_7 (X : Cert.Spec.Args F) : FVec F S_ .f32 :=
  constant S_ .f32 0x3F6B3F8E#32
def res_main_v77 (X : Cert.Spec.Args F) : FVec F S1048576x2 .f32 :=
  broadcastInDim S1048576x2 ![] bcast_S_S1048576x2 (res_main_cst_7 X)
def res_main_v78 (X : Cert.Spec.Args F) : FVec F S1048576x2 .f32 :=
  subf (res_main_v76 X) (res_main_v77 X)
def res_main_cst_8 (X : Cert.Spec.Args F) : FVec F S_ .f32 :=
  constant S_ .f32 0x00000000#32
def res_main_v79 (X : Cert.Spec.Args F) : FVec F S1048576 .f32 :=
  Host.reduceAdd (res_main_v78 X) (res_main_cst_8 X) reducesTo_S1048576x2_S1048576_d1 h_S_
def res_main_v80 (X : Cert.Spec.Args F) : FVec F S1048576x64 .f32 :=
  Host.dotGeneral dot_S1048576x64_S64x64_S1048576x64_1_0_0_1_n_n none (res_main_v56 X) X.W.critic_w
def res_main_v81 (X : Cert.Spec.Args F) : FVec F S1x64 .f32 :=
  broadcastInDim S1x64 ![1] bcast_S64_S1x64_1 X.W.critic_b
def res_main_v82 (X : Cert.Spec.Args F) : FVec F S1048576x64 .f32 :=
  broadcastInDim S1048576x64 ![0, 1] bcast_S1x64_S1048576x64_0_1 (res_main_v81 X)
def res_main_v83 (X : Cert.Spec.Args F) : FVec F S1048576x64 .f32 :=
  addf (res_main_v80 X) (res_main_v82 X)
def res_main_v84 (X : Cert.Spec.Args F) : FVec F S1048576x64 .f32 :=
  Host.tanh (res_main_v83 X)
def res_main_v85 (X : Cert.Spec.Args F) : FVec F S1048576x1 .f32 :=
  Host.dotGeneral dot_S1048576x64_S64x1_S1048576x1_1_0_0_1_n_n none (res_main_v84 X) X.W.value_w
def res_main_v86 (X : Cert.Spec.Args F) : FVec F S1x1 .f32 :=
  broadcastInDim S1x1 ![1] bcast_S1_S1x1_1 X.W.value_b
def res_main_v87 (X : Cert.Spec.Args F) : FVec F S1048576x1 .f32 :=
  broadcastInDim S1048576x1 ![0, 1] bcast_S1x1_S1048576x1_0_1 (res_main_v86 X)
def res_main_v88 (X : Cert.Spec.Args F) : FVec F S1048576x1 .f32 :=
  addf (res_main_v85 X) (res_main_v87 X)

/-! ## The arguments at launch -/

/-- The launch contents of the twenty-four argument buffers on device c's TensorCore. -/
def argsOf (m : (ℓ : Loc nD τ sig) → Buf (Elt F) ℓ) (c : Dev nD) : Cert.Spec.Args F where
  obs := m ((c.tc : Thread nD τ).loc main_arg0)
  t1 := m ((c.tc : Thread nD τ).loc main_arg1)
  t2 := m ((c.tc : Thread nD τ).loc main_arg2)
  W :=
    { loop_w1 := m ((c.tc : Thread nD τ).loc main_arg3)
      W1 := m ((c.tc : Thread nD τ).loc main_arg4)
      m_bias1 := m ((c.tc : Thread nD τ).loc main_arg5)
      h_bias1 := m ((c.tc : Thread nD τ).loc main_arg6)
      loop_w2 := m ((c.tc : Thread nD τ).loc main_arg7)
      W2 := m ((c.tc : Thread nD τ).loc main_arg8)
      m_bias2 := m ((c.tc : Thread nD τ).loc main_arg9)
      h_bias2 := m ((c.tc : Thread nD τ).loc main_arg10)
      fe_w := m ((c.tc : Thread nD τ).loc main_arg11)
      fe_b := m ((c.tc : Thread nD τ).loc main_arg12)
      common_w := m ((c.tc : Thread nD τ).loc main_arg13)
      common_b := m ((c.tc : Thread nD τ).loc main_arg14)
      actor_w := m ((c.tc : Thread nD τ).loc main_arg15)
      actor_b := m ((c.tc : Thread nD τ).loc main_arg16)
      action_w := m ((c.tc : Thread nD τ).loc main_arg17)
      action_b := m ((c.tc : Thread nD τ).loc main_arg18)
      log_std := m ((c.tc : Thread nD τ).loc main_arg19)
      critic_w := m ((c.tc : Thread nD τ).loc main_arg20)
      critic_b := m ((c.tc : Thread nD τ).loc main_arg21)
      value_w := m ((c.tc : Thread nD τ).loc main_arg22)
      value_b := m ((c.tc : Thread nD τ).loc main_arg23) }

end Cert.ReferenceIdeal.RefRun

end
-- ==== Proof.RefRun.lean ====
/-
  The reference program's run.

  @main is a straight line of one hundred array operations, each writing a buffer of its own from
  buffers written earlier or from the argument buffers. Reading the line from the launch contents,
  one operation at a time: after the first k operations every buffer written so far holds its stage
  (the function of the arguments that the stage definitions name) and every argument buffer holds
  what it held at launch. A buffer is written once, so an operation leaves every stage already
  reached as it was. At the end of the line the three result buffers hold their stages and the
  arguments are unchanged; every weakly fair execution of @main terminates in such a state.
-/
import proofs.«131937_j13331578487072_2_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## General facts about a line of operations -/

/-- Two lines read one after the other are their concatenation read as one. -/
theorem after_app {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-- An operation that writes the one buffer y leaves any other buffer as it was. -/
theorem result_keep {τ : Topo} {sig : RefSig} {Val : EltTy → Type} (op : HloOp τ sig Val) (V : Valuation τ sig Val)
    (y : Ref sig .tc) (hw : op.writes = {Proc.devRef .tc y}) {r : Ref sig .tc} (h : r ≠ y) :
    op.result V (Proc.devRef .tc r) = V (Proc.devRef .tc r) :=
  HloOp.result_of_not_mem _ _ (by rw [hw, Finset.mem_singleton]; exact devRef_ne_of_ne h)

/-- An operation that writes one buffer outside a list A leaves the buffers of A as they were. -/
theorem result_keep_list {τ : Topo} {sig : RefSig} {Val : EltTy → Type} (op : HloOp τ sig Val) (V V0 : Valuation τ sig Val)
    (A : List (Ref sig .tc)) (y : Ref sig .tc) (hw : op.writes = {Proc.devRef .tc y}) (hy : y ∉ A)
    (H : ∀ r ∈ A, V (Proc.devRef .tc r) = V0 (Proc.devRef .tc r)) :
    ∀ r ∈ A, op.result V (Proc.devRef .tc r) = V0 (Proc.devRef .tc r) :=
  fun r hr => (result_keep op V y hw (fun e => hy (e ▸ hr))).trans (H r hr)

/-! ## The operations -/

/-- The twenty-four argument buffers. -/
abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23]

/-- Operation 1: it writes main_c. -/
abbrev op1 : HloOp τ sig (Elt F) :=
  StableHlo.nullary main_c (fun i => lit0 (S6.rowMajor i))
/-- Operation 2: it writes main_c_0. -/
abbrev op2 : HloOp τ sig (Elt F) :=
  StableHlo.nullary main_c_0 (fun i => lit1 (S6.rowMajor i))
/-- Operation 3: it writes main_v0. -/
abbrev op3 : HloOp τ sig (Elt F) :=
  StableHlo.unary main_arg0 main_v0 ((extractStridedSlice S1048576x2 ![0, 6] · slices_S1048576x8_S1048576x2_0_6) : (⟨S1048576x8, .f32⟩ : BufTy).Contents (Elt F) → (⟨S1048576x2, .f32⟩ : BufTy).Contents (Elt F))
/-- Operation 4: it writes main_v1. -/
abbrev op4 : HloOp τ sig (Elt F) :=
  StableHlo.unary main_arg0 main_v1 ((extractStridedSlice S1048576x2 ![0, 0] · slices_S1048576x8_S1048576x2_0_0) : (⟨S1048576x8, .f32⟩ : BufTy).Contents (Elt F) → (⟨S1048576x2, .f32⟩ : BufTy).Contents (Elt F))
/-- Operation 5: it writes main_v2. -/
abbrev op5 : HloOp τ sig (Elt F) :=
  StableHlo.unary main_v0 main_v2 (broadcastInDim S1x1048576x2 ![1, 2] bcast_S1048576x2_S1x1048576x2_1_2 : (⟨S1048576x2, .f32⟩ : BufTy).Contents (Elt F) → (⟨S1x1048576x2, .f32⟩ : BufTy).Contents (Elt F))
/-- Operation 6: it writes main_v3. -/
abbrev op6 : HloOp τ sig (Elt F) :=
  StableHlo.unary main_arg1 main_v3 (broadcastInDim S1x1048576x2 ![1, 2] bcast_S1048576x2_S1x1048576x2_1_2 : (⟨S1048576x2, .f32⟩ : BufTy).Contents (Elt F) → (⟨S1x1048576x2, .f32⟩ : BufTy).Contents (Elt F))
/-- Operation 7: it writes main_v4. -/
abbrev op7 : HloOp τ sig (Elt F) :=
  StableHlo.unary main_arg2 main_v4 (broadcastInDim S1x1048576x2 ![1, 2] bcast_S1048576x2_S1x1048576x2_1_2 : (⟨S1048576x2, .f32⟩ : BufTy).Contents (Elt F) → (⟨S1x1048576x2, .f32⟩ : BufTy).Contents (Elt F))
/-- Operation 8: it writes main_v5. -/
abbrev op8 : HloOp τ sig (Elt F) :=
  StableHlo.unary main_v1 main_v5 (broadcastInDim S1x1048576x2 ![1, 2] bcast_S1048576x2_S1x1048576x2_1_2 : (⟨S1048576x2, .f32⟩ : BufTy).Contents (Elt F) → (⟨S1x1048576x2, .f32⟩ : BufTy).Contents (Elt F))
/-- Operation 9: it writes main_v6. -/
abbrev op9 : HloOp τ sig (Elt F) :=
  StableHlo.nary ![main_v2, main_v3, main_v4, main_v5] main_v6 (fun u => concatenate S4x1048576x2 0 [⟨S1x1048576x2, u 0⟩, ⟨S1x1048576x2, u 1⟩, ⟨S1x1048576x2, u 2⟩, ⟨S1x1048576x2, u 3⟩] concatenates_S1x1048576x2_S1x1048576x2_S1x1048576x2_S1x1048576x2_S4x1048576x2_d0)
/-- Operation 10: it writes main_v7. -/
abbrev op10 : HloOp τ sig (Elt F) :=
  StableHlo.binary main_v6 main_arg3 main_v7 ((fun l r => Host.dotGeneral dot_S4x1048576x2_S4x2x4_S4x1048576x4_2_1_1_2_0_0 none l r) : (⟨S4x1048576x2, .f32⟩ : BufTy).Contents (Elt F) → (⟨S4x2x4, .f32⟩ : BufTy).Contents (Elt F) → (⟨S4x1048576x4, .f32⟩ : BufTy).Contents (Elt F))
/-- Operation 11: it writes main_c_1. -/
abbrev op11 : HloOp τ sig (Elt F) :=
  StableHlo.nullary main_c_1 (constantI S_ 32 0#32)
/-- Operation 12: it writes main_v8. -/
abbrev op12 : HloOp τ sig (Elt F) :=
  StableHlo.unary main_c_1 main_v8 (broadcastInDim S6 ![] bcast_S_S6 : (⟨S_, .i32⟩ : BufTy).Contents (Elt F) → (⟨S6, .i32⟩ : BufTy).Contents (Elt F))
/-- Operation 13: it writes main_v9. -/
abbrev op13 : HloOp τ sig (Elt F) :=
  StableHlo.binary main_c main_v8 main_v9 (cmpi .slt : (⟨S6, .i32⟩ : BufTy).Contents (Elt F) → (⟨S6, .i32⟩ : BufTy).Contents (Elt F) → (⟨S6, .i1⟩ : BufTy).Contents (Elt F))
/-- Operation 14: it writes main_c_2. -/
abbrev op14 : HloOp τ sig (Elt F) :=
  StableHlo.nullary main_c_2 (constantI S_ 32 4#32)
/-- Operation 15: it writes main_v10. -/
abbrev op15 : HloOp τ sig (Elt F) :=
  StableHlo.unary main_c_2 main_v10 (broadcastInDim S6 ![] bcast_S_S6 : (⟨S_, .i32⟩ : BufTy).Contents (Elt F) → (⟨S6, .i32⟩ : BufTy).Contents (Elt F))
/-- Operation 16: it writes main_v11. -/
abbrev op16 : HloOp τ sig (Elt F) :=
  StableHlo.binary main_c main_v10 main_v11 (addi : (⟨S6, .i32⟩ : BufTy).Contents (Elt F) → (⟨S6, .i32⟩ : BufTy).Contents (Elt F) → (⟨S6, .i32⟩ : BufTy).Contents (Elt F))
/-- Operation 17: it writes main_v12. -/
abbrev op17 : HloOp τ sig (Elt F) :=
  StableHlo.ternary main_v9 main_v11 main_c main_v12 (select : (⟨S6, .i1⟩ : BufTy).Contents (Elt F) → (⟨S6, .i32⟩ : BufTy).Contents (Elt F) → (⟨S6, .i32⟩ : BufTy).Contents (Elt F) → (⟨S6, .i32⟩ : BufTy).Contents (Elt F))
/-- Operation 18: it writes main_v13. -/
abbrev op18 : HloOp τ sig (Elt F) :=
  StableHlo.unary main_v12 main_v13 (broadcastInDim S6x1 ![0] bcast_S6_S6x1_0 : (⟨S6, .i32⟩ : BufTy).Contents (Elt F) → (⟨S6x1, .i32⟩ : BufTy).Contents (Elt F))
/-- Operation 19: it writes main_v14. -/
abbrev op19 : HloOp τ sig (Elt F) :=
  StableHlo.binary main_v6 main_v13 main_v14 ((fun x i => Host.gather gather_S4x1048576x2_S6x1_S6x1048576x2_12_0_n_n_0_1_110485762 x i) : (⟨S4x1048576x2, .f32⟩ : BufTy).Contents (Elt F) → (⟨S6x1, .i32⟩ : BufTy).Contents (Elt F) → (⟨S6x1048576x2, .f32⟩ : BufTy).Contents (Elt F))
/-- Operation 20: it writes main_v15. -/
abbrev op20 : HloOp τ sig (Elt F) :=
  StableHlo.binary main_v14 main_arg4 main_v15 ((fun l r => Host.dotGeneral dot_S6x1048576x2_S6x2x4_S6x1048576x4_2_1_1_2_0_0 none l r) : (⟨S6x1048576x2, .f32⟩ : BufTy).Contents (Elt F) → (⟨S6x2x4, .f32⟩ : BufTy).Contents (Elt F) → (⟨S6x1048576x4, .f32⟩ : BufTy).Contents (Elt F))
/-- Operation 21: it writes main_v16. -/
abbrev op21 : HloOp τ sig (Elt F) :=
  StableHlo.unary main_arg5 main_v16 (broadcastInDim S6x1048576x4 ![0, 1, 2] bcast_S6x1x4_S6x1048576x4_0_1_2 : (⟨S6x1x4, .f32⟩ : BufTy).Contents (Elt F) → (⟨S6x1048576x4, .f32⟩ : BufTy).Contents (Elt F))
/-- Operation 22: it writes main_v17. -/
abbrev op22 : HloOp τ sig (Elt F) :=
  StableHlo.binary main_v15 main_v16 main_v17 (addf : (⟨S6x1048576x4, .f32⟩ : BufTy).Contents (Elt F) → (⟨S6x1048576x4, .f32⟩ : BufTy).Contents (Elt F) → (⟨S6x1048576x4, .f32⟩ : BufTy).Contents (Elt F))
/-- Operation 23: it writes main_cst. -/
abbrev op23 : HloOp τ sig (Elt F) :=
  StableHlo.nullary main_cst (constant S_ .f32 0x00000000#32)
/-- Operation 24: it writes main_v18. -/
abbrev op24 : HloOp τ sig (Elt F) :=
  StableHlo.unary main_cst main_v18 (broadcastInDim S4x1048576x4 ![] bcast_S_S4x1048576x4 : (⟨S_, .f32⟩ : BufTy).Contents (Elt F) → (⟨S4x1048576x4, .f32⟩ : BufTy).Contents (Elt F))
/-- Operation 25: it writes main_v19. -/
abbrev op25 : HloOp τ sig (Elt F) :=
  StableHlo.unary main_c_0 main_v19 (broadcastInDim S6x1 ![0] bcast_S6_S6x1_0 : (⟨S6, .i32⟩ : BufTy).Contents (Elt F) → (⟨S6x1, .i32⟩ : BufTy).Contents (Elt F))
/-- Operation 26: it writes main_v20. -/
abbrev op26 : HloOp τ sig (Elt F) :=
  StableHlo.ternary main_v18 main_v19 main_v17 main_v20 ((fun x i u => Host.scatterAdd scatter_S4x1048576x4_S6x1_S6x1048576x4_12_0_0_1 x i u) : (⟨S4x1048576x4, .f32⟩ : BufTy).Contents (Elt F) → (⟨S6x1, .i32⟩ : BufTy).Contents (Elt F) → (⟨S6x1048576x4, .f32⟩ : BufTy).Contents (Elt F) → (⟨S4x1048576x4, .f32⟩ : BufTy).Contents (Elt F))
/-- Operation 27: it writes main_v21. -/
abbrev op27 : HloOp τ sig (Elt F) :=
  StableHlo.unary main_arg6 main_v21 (broadcastInDim S4x1048576x4 ![0, 1, 2] bcast_S4x1x4_S4x1048576x4_0_1_2 : (⟨S4x1x4, .f32⟩ : BufTy).Contents (Elt F) → (⟨S4x1048576x4, .f32⟩ : BufTy).Contents (Elt F))
/-- Operation 28: it writes main_v22. -/
abbrev op28 : HloOp τ sig (Elt F) :=
  StableHlo.binary main_v20 main_v21 main_v22 (addf : (⟨S4x1048576x4, .f32⟩ : BufTy).Contents (Elt F) → (⟨S4x1048576x4, .f32⟩ : BufTy).Contents (Elt F) → (⟨S4x1048576x4, .f32⟩ : BufTy).Contents (Elt F))
/-- Operation 29: it writes main_v23. -/
abbrev op29 : HloOp τ sig (Elt F) :=
  StableHlo.binary main_v22 main_v7 main_v23 (addf : (⟨S4x1048576x4, .f32⟩ : BufTy).Contents (Elt F) → (⟨S4x1048576x4, .f32⟩ : BufTy).Contents (Elt F) → (⟨S4x1048576x4, .f32⟩ : BufTy).Contents (Elt F))
/-- Operation 30: it writes main_v24. -/
abbrev op30 : HloOp τ sig (Elt F) :=
  StableHlo.unary main_v23 main_v24 (Host.tanh : (⟨S4x1048576x4, .f32⟩ : BufTy).Contents (Elt F) → (⟨S4x1048576x4, .f32⟩ : BufTy).Contents (Elt F))
/-- Operation 31: it writes main_v25. -/
abbrev op31 : HloOp τ sig (Elt F) :=
  StableHlo.binary main_v24 main_arg7 main_v25 ((fun l r => Host.dotGeneral dot_S4x1048576x4_S4x4x1_S4x1048576x1_2_1_1_2_0_0 none l r) : (⟨S4x1048576x4, .f32⟩ : BufTy).Contents (Elt F) → (⟨S4x4x1, .f32⟩ : BufTy).Contents (Elt F) → (⟨S4x1048576x1, .f32⟩ : BufTy).Contents (Elt F))
/-- Operation 32: it writes main_c_3. -/
abbrev op32 : HloOp τ sig (Elt F) :=
  StableHlo.nullary main_c_3 (constantI S_ 32 0#32)
/-- Operation 33: it writes main_v26. -/
abbrev op33 : HloOp τ sig (Elt F) :=
  StableHlo.unary main_c_3 main_v26 (broadcastInDim S6 ![] bcast_S_S6 : (⟨S_, .i32⟩ : BufTy).Contents (Elt F) → (⟨S6, .i32⟩ : BufTy).Contents (Elt F))
/-- Operation 34: it writes main_v27. -/
abbrev op34 : HloOp τ sig (Elt F) :=
  StableHlo.binary main_c main_v26 main_v27 (cmpi .slt : (⟨S6, .i32⟩ : BufTy).Contents (Elt F) → (⟨S6, .i32⟩ : BufTy).Contents (Elt F) → (⟨S6, .i1⟩ : BufTy).Contents (Elt F))
/-- Operation 35: it writes main_c_4. -/
abbrev op35 : HloOp τ sig (Elt F) :=
  StableHlo.nullary main_c_4 (constantI S_ 32 4#32)
/-- Operation 36: it writes main_v28. -/
abbrev op36 : HloOp τ sig (Elt F) :=
  StableHlo.unary main_c_4 main_v28 (broadcastInDim S6 ![] bcast_S_S6 : (⟨S_, .i32⟩ : BufTy).Contents (Elt F) → (⟨S6, .i32⟩ : BufTy).Contents (Elt F))
/-- Operation 37: it writes main_v29. -/
abbrev op37 : HloOp τ sig (Elt F) :=
  StableHlo.binary main_c main_v28 main_v29 (addi : (⟨S6, .i32⟩ : BufTy).Contents (Elt F) → (⟨S6, .i32⟩ : BufTy).Contents (Elt F) → (⟨S6, .i32⟩ : BufTy).Contents (Elt F))
/-- Operation 38: it writes main_v30. -/
abbrev op38 : HloOp τ sig (Elt F) :=
  StableHlo.ternary main_v27 main_v29 main_c main_v30 (select : (⟨S6, .i1⟩ : BufTy).Contents (Elt F) → (⟨S6, .i32⟩ : BufTy).Contents (Elt F) → (⟨S6, .i32⟩ : BufTy).Contents (Elt F) → (⟨S6, .i32⟩ : BufTy).Contents (Elt F))
/-- Operation 39: it writes main_v31. -/
abbrev op39 : HloOp τ sig (Elt F) :=
  StableHlo.unary main_v30 main_v31 (broadcastInDim S6x1 ![0] bcast_S6_S6x1_0 : (⟨S6, .i32⟩ : BufTy).Contents (Elt F) → (⟨S6x1, .i32⟩ : BufTy).Contents (Elt F))
/-- Operation 40: it writes main_v32. -/
abbrev op40 : HloOp τ sig (Elt F) :=
  StableHlo.binary main_v24 main_v31 main_v32 ((fun x i => Host.gather gather_S4x1048576x4_S6x1_S6x1048576x4_12_0_n_n_0_1_110485764 x i) : (⟨S4x1048576x4, .f32⟩ : BufTy).Contents (Elt F) → (⟨S6x1, .i32⟩ : BufTy).Contents (Elt F) → (⟨S6x1048576x4, .f32⟩ : BufTy).Contents (Elt F))
/-- Operation 41: it writes main_v33. -/
abbrev op41 : HloOp τ sig (Elt F) :=
  StableHlo.binary main_v32 main_arg8 main_v33 ((fun l r => Host.dotGeneral dot_S6x1048576x4_S6x4x1_S6x1048576x1_2_1_1_2_0_0 none l r) : (⟨S6x1048576x4, .f32⟩ : BufTy).Contents (Elt F) → (⟨S6x4x1, .f32⟩ : BufTy).Contents (Elt F) → (⟨S6x1048576x1, .f32⟩ : BufTy).Contents (Elt F))
/-- Operation 42: it writes main_v34. -/
abbrev op42 : HloOp τ sig (Elt F) :=
  StableHlo.unary main_arg9 main_v34 (broadcastInDim S6x1048576x1 ![0, 1, 2] bcast_S6x1x1_S6x1048576x1_0_1_2 : (⟨S6x1x1, .f32⟩ : BufTy).Contents (Elt F) → (⟨S6x1048576x1, .f32⟩ : BufTy).Contents (Elt F))
/-- Operation 43: it writes main_v35. -/
abbrev op43 : HloOp τ sig (Elt F) :=
  StableHlo.binary main_v33 main_v34 main_v35 (addf : (⟨S6x1048576x1, .f32⟩ : BufTy).Contents (Elt F) → (⟨S6x1048576x1, .f32⟩ : BufTy).Contents (Elt F) → (⟨S6x1048576x1, .f32⟩ : BufTy).Contents (Elt F))
/-- Operation 44: it writes main_cst_5. -/
abbrev op44 : HloOp τ sig (Elt F) :=
  StableHlo.nullary main_cst_5 (constant S_ .f32 0x00000000#32)
/-- Operation 45: it writes main_v36. -/
abbrev op45 : HloOp τ sig (Elt F) :=
  StableHlo.unary main_cst_5 main_v36 (broadcastInDim S4x1048576x1 ![] bcast_S_S4x1048576x1 : (⟨S_, .f32⟩ : BufTy).Contents (Elt F) → (⟨S4x1048576x1, .f32⟩ : BufTy).Contents (Elt F))
/-- Operation 46: it writes main_v37. -/
abbrev op46 : HloOp τ sig (Elt F) :=
  StableHlo.unary main_c_0 main_v37 (broadcastInDim S6x1 ![0] bcast_S6_S6x1_0 : (⟨S6, .i32⟩ : BufTy).Contents (Elt F) → (⟨S6x1, .i32⟩ : BufTy).Contents (Elt F))
/-- Operation 47: it writes main_v38. -/
abbrev op47 : HloOp τ sig (Elt F) :=
  StableHlo.ternary main_v36 main_v37 main_v35 main_v38 ((fun x i u => Host.scatterAdd scatter_S4x1048576x1_S6x1_S6x1048576x1_12_0_0_1 x i u) : (⟨S4x1048576x1, .f32⟩ : BufTy).Contents (Elt F) → (⟨S6x1, .i32⟩ : BufTy).Contents (Elt F) → (⟨S6x1048576x1, .f32⟩ : BufTy).Contents (Elt F) → (⟨S4x1048576x1, .f32⟩ : BufTy).Contents (Elt F))
/-- Operation 48: it writes main_v39. -/
abbrev op48 : HloOp τ sig (Elt F) :=
  StableHlo.unary main_arg10 main_v39 (broadcastInDim S4x1048576x1 ![0, 1, 2] bcast_S4x1x1_S4x1048576x1_0_1_2 : (⟨S4x1x1, .f32⟩ : BufTy).Contents (Elt F) → (⟨S4x1048576x1, .f32⟩ : BufTy).Contents (Elt F))
/-- Operation 49: it writes main_v40. -/
abbrev op49 : HloOp τ sig (Elt F) :=
  StableHlo.binary main_v38 main_v39 main_v40 (addf : (⟨S4x1048576x1, .f32⟩ : BufTy).Contents (Elt F) → (⟨S4x1048576x1, .f32⟩ : BufTy).Contents (Elt F) → (⟨S4x1048576x1, .f32⟩ : BufTy).Contents (Elt F))
/-- Operation 50: it writes main_v41. -/
abbrev op50 : HloOp τ sig (Elt F) :=
  StableHlo.binary main_v40 main_v25 main_v41 (addf : (⟨S4x1048576x1, .f32⟩ : BufTy).Contents (Elt F) → (⟨S4x1048576x1, .f32⟩ : BufTy).Contents (Elt F) → (⟨S4x1048576x1, .f32⟩ : BufTy).Contents (Elt F))
/-- Operation 51: it writes main_v42. -/
abbrev op51 : HloOp τ sig (Elt F) :=
  StableHlo.reshape main_v41 main_v42 rfl shapeCasts_S4x1048576x1_S4x1048576
/-- Operation 52: it writes main_v43. -/
abbrev op52 : HloOp τ sig (Elt F) :=
  StableHlo.unary main_v42 main_v43 (Host.tanh : (⟨S4x1048576, .f32⟩ : BufTy).Contents (Elt F) → (⟨S4x1048576, .f32⟩ : BufTy).Contents (Elt F))
/-- Operation 53: it writes main_v44. -/
abbrev op53 : HloOp τ sig (Elt F) :=
  StableHlo.unary main_v43 main_v44 ((transpose S1048576x4 [1, 0] · transposes_S4x1048576_S1048576x4_1_0) : (⟨S4x1048576, .f32⟩ : BufTy).Contents (Elt F) → (⟨S1048576x4, .f32⟩ : BufTy).Contents (Elt F))
/-- Operation 54: it writes main_v45. -/
abbrev op54 : HloOp τ sig (Elt F) :=
  StableHlo.binary main_v44 main_arg11 main_v45 ((fun l r => Host.dotGeneral dot_S1048576x4_S4x4_S1048576x4_1_0_0_1_n_n none l r) : (⟨S1048576x4, .f32⟩ : BufTy).Contents (Elt F) → (⟨S4x4, .f32⟩ : BufTy).Contents (Elt F) → (⟨S1048576x4, .f32⟩ : BufTy).Contents (Elt F))
/-- Operation 55: it writes main_v46. -/
abbrev op55 : HloOp τ sig (Elt F) :=
  StableHlo.unary main_arg12 main_v46 (broadcastInDim S1x4 ![1] bcast_S4_S1x4_1 : (⟨S4, .f32⟩ : BufTy).Contents (Elt F) → (⟨S1x4, .f32⟩ : BufTy).Contents (Elt F))
/-- Operation 56: it writes main_v47. -/
abbrev op56 : HloOp τ sig (Elt F) :=
  StableHlo.unary main_v46 main_v47 (broadcastInDim S1048576x4 ![0, 1] bcast_S1x4_S1048576x4_0_1 : (⟨S1x4, .f32⟩ : BufTy).Contents (Elt F) → (⟨S1048576x4, .f32⟩ : BufTy).Contents (Elt F))
/-- Operation 57: it writes main_v48. -/
abbrev op57 : HloOp τ sig (Elt F) :=
  StableHlo.binary main_v45 main_v47 main_v48 (addf : (⟨S1048576x4, .f32⟩ : BufTy).Contents (Elt F) → (⟨S1048576x4, .f32⟩ : BufTy).Contents (Elt F) → (⟨S1048576x4, .f32⟩ : BufTy).Contents (Elt F))
/-- Operation 58: it writes main_v49. -/
abbrev op58 : HloOp τ sig (Elt F) :=
  StableHlo.unary main_v48 main_v49 (Host.tanh : (⟨S1048576x4, .f32⟩ : BufTy).Contents (Elt F) → (⟨S1048576x4, .f32⟩ : BufTy).Contents (Elt F))
/-- Operation 59: it writes main_v50. -/
abbrev op59 : HloOp τ sig (Elt F) :=
  StableHlo.unary main_arg0 main_v50 ((extractStridedSlice S1048576x4 ![0, 2] · slices_S1048576x8_S1048576x4_0_2) : (⟨S1048576x8, .f32⟩ : BufTy).Contents (Elt F) → (⟨S1048576x4, .f32⟩ : BufTy).Contents (Elt F))
/-- Operation 60: it writes main_v51. -/
abbrev op60 : HloOp τ sig (Elt F) :=
  StableHlo.binary main_v49 main_v50 main_v51 ((fun a b => concatenate S1048576x8 1 [⟨S1048576x4, a⟩, ⟨S1048576x4, b⟩] concatenates_S1048576x4_S1048576x4_S1048576x8_d1) : (⟨S1048576x4, .f32⟩ : BufTy).Contents (Elt F) → (⟨S1048576x4, .f32⟩ : BufTy).Contents (Elt F) → (⟨S1048576x8, .f32⟩ : BufTy).Contents (Elt F))
/-- Operation 61: it writes main_v52. -/
abbrev op61 : HloOp τ sig (Elt F) :=
  StableHlo.binary main_v51 main_arg13 main_v52 ((fun l r => Host.dotGeneral dot_S1048576x8_S8x64_S1048576x64_1_0_0_1_n_n none l r) : (⟨S1048576x8, .f32⟩ : BufTy).Contents (Elt F) → (⟨S8x64, .f32⟩ : BufTy).Contents (Elt F) → (⟨S1048576x64, .f32⟩ : BufTy).Contents (Elt F))
/-- Operation 62: it writes main_v53. -/
abbrev op62 : HloOp τ sig (Elt F) :=
  StableHlo.unary main_arg14 main_v53 (broadcastInDim S1x64 ![1] bcast_S64_S1x64_1 : (⟨S64, .f32⟩ : BufTy).Contents (Elt F) → (⟨S1x64, .f32⟩ : BufTy).Contents (Elt F))
/-- Operation 63: it writes main_v54. -/
abbrev op63 : HloOp τ sig (Elt F) :=
  StableHlo.unary main_v53 main_v54 (broadcastInDim S1048576x64 ![0, 1] bcast_S1x64_S1048576x64_0_1 : (⟨S1x64, .f32⟩ : BufTy).Contents (Elt F) → (⟨S1048576x64, .f32⟩ : BufTy).Contents (Elt F))
/-- Operation 64: it writes main_v55. -/
abbrev op64 : HloOp τ sig (Elt F) :=
  StableHlo.binary main_v52 main_v54 main_v55 (addf : (⟨S1048576x64, .f32⟩ : BufTy).Contents (Elt F) → (⟨S1048576x64, .f32⟩ : BufTy).Contents (Elt F) → (⟨S1048576x64, .f32⟩ : BufTy).Contents (Elt F))
/-- Operation 65: it writes main_v56. -/
abbrev op65 : HloOp τ sig (Elt F) :=
  StableHlo.unary main_v55 main_v56 (Host.tanh : (⟨S1048576x64, .f32⟩ : BufTy).Contents (Elt F) → (⟨S1048576x64, .f32⟩ : BufTy).Contents (Elt F))
/-- Operation 66: it writes main_v57. -/
abbrev op66 : HloOp τ sig (Elt F) :=
  StableHlo.binary main_v56 main_arg15 main_v57 ((fun l r => Host.dotGeneral dot_S1048576x64_S64x64_S1048576x64_1_0_0_1_n_n none l r) : (⟨S1048576x64, .f32⟩ : BufTy).Contents (Elt F) → (⟨S64x64, .f32⟩ : BufTy).Contents (Elt F) → (⟨S1048576x64, .f32⟩ : BufTy).Contents (Elt F))
/-- Operation 67: it writes main_v58. -/
abbrev op67 : HloOp τ sig (Elt F) :=
  StableHlo.unary main_arg16 main_v58 (broadcastInDim S1x64 ![1] bcast_S64_S1x64_1 : (⟨S64, .f32⟩ : BufTy).Contents (Elt F) → (⟨S1x64, .f32⟩ : BufTy).Contents (Elt F))
/-- Operation 68: it writes main_v59. -/
abbrev op68 : HloOp τ sig (Elt F) :=
  StableHlo.unary main_v58 main_v59 (broadcastInDim S1048576x64 ![0, 1] bcast_S1x64_S1048576x64_0_1 : (⟨S1x64, .f32⟩ : BufTy).Contents (Elt F) → (⟨S1048576x64, .f32⟩ : BufTy).Contents (Elt F))
/-- Operation 69: it writes main_v60. -/
abbrev op69 : HloOp τ sig (Elt F) :=
  StableHlo.binary main_v57 main_v59 main_v60 (addf : (⟨S1048576x64, .f32⟩ : BufTy).Contents (Elt F) → (⟨S1048576x64, .f32⟩ : BufTy).Contents (Elt F) → (⟨S1048576x64, .f32⟩ : BufTy).Contents (Elt F))
/-- Operation 70: it writes main_v61. -/
abbrev op70 : HloOp τ sig (Elt F) :=
  StableHlo.unary main_v60 main_v61 (Host.tanh : (⟨S1048576x64, .f32⟩ : BufTy).Contents (Elt F) → (⟨S1048576x64, .f32⟩ : BufTy).Contents (Elt F))
/-- Operation 71: it writes main_v62. -/
abbrev op71 : HloOp τ sig (Elt F) :=
  StableHlo.binary main_v61 main_arg17 main_v62 ((fun l r => Host.dotGeneral dot_S1048576x64_S64x2_S1048576x2_1_0_0_1_n_n none l r) : (⟨S1048576x64, .f32⟩ : BufTy).Contents (Elt F) → (⟨S64x2, .f32⟩ : BufTy).Contents (Elt F) → (⟨S1048576x2, .f32⟩ : BufTy).Contents (Elt F))
/-- Operation 72: it writes main_v63. -/
abbrev op72 : HloOp τ sig (Elt F) :=
  StableHlo.unary main_arg18 main_v63 (broadcastInDim S1x2 ![1] bcast_S2_S1x2_1 : (⟨S2, .f32⟩ : BufTy).Contents (Elt F) → (⟨S1x2, .f32⟩ : BufTy).Contents (Elt F))
/-- Operation 73: it writes main_v64. -/
abbrev op73 : HloOp τ sig (Elt F) :=
  StableHlo.unary main_v63 main_v64 (broadcastInDim S1048576x2 ![0, 1] bcast_S1x2_S1048576x2_0_1 : (⟨S1x2, .f32⟩ : BufTy).Contents (Elt F) → (⟨S1048576x2, .f32⟩ : BufTy).Contents (Elt F))
/-- Operation 74: it writes main_v65. -/
abbrev op74 : HloOp τ sig (Elt F) :=
  StableHlo.binary main_v62 main_v64 main_v65 (addf : (⟨S1048576x2, .f32⟩ : BufTy).Contents (Elt F) → (⟨S1048576x2, .f32⟩ : BufTy).Contents (Elt F) → (⟨S1048576x2, .f32⟩ : BufTy).Contents (Elt F))
/-- Operation 75: it writes main_v66. -/
abbrev op75 : HloOp τ sig (Elt F) :=
  StableHlo.unary main_arg19 main_v66 (Host.exp : (⟨S2, .f32⟩ : BufTy).Contents (Elt F) → (⟨S2, .f32⟩ : BufTy).Contents (Elt F))
/-- Operation 76: it writes main_v67. -/
abbrev op76 : HloOp τ sig (Elt F) :=
  StableHlo.binary main_v65 main_v65 main_v67 (subf : (⟨S1048576x2, .f32⟩ : BufTy).Contents (Elt F) → (⟨S1048576x2, .f32⟩ : BufTy).Contents (Elt F) → (⟨S1048576x2, .f32⟩ : BufTy).Contents (Elt F))
/-- Operation 77: it writes main_v68. -/
abbrev op77 : HloOp τ sig (Elt F) :=
  StableHlo.unary main_v66 main_v68 (broadcastInDim S1x2 ![1] bcast_S2_S1x2_1 : (⟨S2, .f32⟩ : BufTy).Contents (Elt F) → (⟨S1x2, .f32⟩ : BufTy).Contents (Elt F))
/-- Operation 78: it writes main_v69. -/
abbrev op78 : HloOp τ sig (Elt F) :=
  StableHlo.unary main_v68 main_v69 (broadcastInDim S1048576x2 ![0, 1] bcast_S1x2_S1048576x2_0_1 : (⟨S1x2, .f32⟩ : BufTy).Contents (Elt F) → (⟨S1048576x2, .f32⟩ : BufTy).Contents (Elt F))
/-- Operation 79: it writes main_v70. -/
abbrev op79 : HloOp τ sig (Elt F) :=
  StableHlo.binary main_v67 main_v69 main_v70 (Host.divf : (⟨S1048576x2, .f32⟩ : BufTy).Contents (Elt F) → (⟨S1048576x2, .f32⟩ : BufTy).Contents (Elt F) → (⟨S1048576x2, .f32⟩ : BufTy).Contents (Elt F))
/-- Operation 80: it writes main_v71. -/
abbrev op80 : HloOp τ sig (Elt F) :=
  StableHlo.binary main_v70 main_v70 main_v71 (mulf : (⟨S1048576x2, .f32⟩ : BufTy).Contents (Elt F) → (⟨S1048576x2, .f32⟩ : BufTy).Contents (Elt F) → (⟨S1048576x2, .f32⟩ : BufTy).Contents (Elt F))
/-- Operation 81: it writes main_cst_6. -/
abbrev op81 : HloOp τ sig (Elt F) :=
  StableHlo.nullary main_cst_6 (constant S_ .f32 0xBF000000#32)
/-- Operation 82: it writes main_v72. -/
abbrev op82 : HloOp τ sig (Elt F) :=
  StableHlo.unary main_cst_6 main_v72 (broadcastInDim S1048576x2 ![] bcast_S_S1048576x2 : (⟨S_, .f32⟩ : BufTy).Contents (Elt F) → (⟨S1048576x2, .f32⟩ : BufTy).Contents (Elt F))
/-- Operation 83: it writes main_v73. -/
abbrev op83 : HloOp τ sig (Elt F) :=
  StableHlo.binary main_v72 main_v71 main_v73 (mulf : (⟨S1048576x2, .f32⟩ : BufTy).Contents (Elt F) → (⟨S1048576x2, .f32⟩ : BufTy).Contents (Elt F) → (⟨S1048576x2, .f32⟩ : BufTy).Contents (Elt F))
/-- Operation 84: it writes main_v74. -/
abbrev op84 : HloOp τ sig (Elt F) :=
  StableHlo.unary main_arg19 main_v74 (broadcastInDim S1x2 ![1] bcast_S2_S1x2_1 : (⟨S2, .f32⟩ : BufTy).Contents (Elt F) → (⟨S1x2, .f32⟩ : BufTy).Contents (Elt F))
/-- Operation 85: it writes main_v75. -/
abbrev op85 : HloOp τ sig (Elt F) :=
  StableHlo.unary main_v74 main_v75 (broadcastInDim S1048576x2 ![0, 1] bcast_S1x2_S1048576x2_0_1 : (⟨S1x2, .f32⟩ : BufTy).Contents (Elt F) → (⟨S1048576x2, .f32⟩ : BufTy).Contents (Elt F))
/-- Operation 86: it writes main_v76. -/
abbrev op86 : HloOp τ sig (Elt F) :=
  StableHlo.binary main_v73 main_v75 main_v76 (subf : (⟨S1048576x2, .f32⟩ : BufTy).Contents (Elt F) → (⟨S1048576x2, .f32⟩ : BufTy).Contents (Elt F) → (⟨S1048576x2, .f32⟩ : BufTy).Contents (Elt F))
/-- Operation 87: it writes main_cst_7. -/
abbrev op87 : HloOp τ sig (Elt F) :=
  StableHlo.nullary main_cst_7 (constant S_ .f32 0x3F6B3F8E#32)
/-- Operation 88: it writes main_v77. -/
abbrev op88 : HloOp τ sig (Elt F) :=
  StableHlo.unary main_cst_7 main_v77 (broadcastInDim S1048576x2 ![] bcast_S_S1048576x2 : (⟨S_, .f32⟩ : BufTy).Contents (Elt F) → (⟨S1048576x2, .f32⟩ : BufTy).Contents (Elt F))
/-- Operation 89: it writes main_v78. -/
abbrev op89 : HloOp τ sig (Elt F) :=
  StableHlo.binary main_v76 main_v77 main_v78 (subf : (⟨S1048576x2, .f32⟩ : BufTy).Contents (Elt F) → (⟨S1048576x2, .f32⟩ : BufTy).Contents (Elt F) → (⟨S1048576x2, .f32⟩ : BufTy).Contents (Elt F))
/-- Operation 90: it writes main_cst_8. -/
abbrev op90 : HloOp τ sig (Elt F) :=
  StableHlo.nullary main_cst_8 (constant S_ .f32 0x00000000#32)
/-- Operation 91: it writes main_v79. -/
abbrev op91 : HloOp τ sig (Elt F) :=
  StableHlo.binary main_v78 main_cst_8 main_v79 ((fun x v => Host.reduceAdd x v reducesTo_S1048576x2_S1048576_d1 h_S_) : (⟨S1048576x2, .f32⟩ : BufTy).Contents (Elt F) → (⟨S_, .f32⟩ : BufTy).Contents (Elt F) → (⟨S1048576, .f32⟩ : BufTy).Contents (Elt F))
/-- Operation 92: it writes main_v80. -/
abbrev op92 : HloOp τ sig (Elt F) :=
  StableHlo.binary main_v56 main_arg20 main_v80 ((fun l r => Host.dotGeneral dot_S1048576x64_S64x64_S1048576x64_1_0_0_1_n_n none l r) : (⟨S1048576x64, .f32⟩ : BufTy).Contents (Elt F) → (⟨S64x64, .f32⟩ : BufTy).Contents (Elt F) → (⟨S1048576x64, .f32⟩ : BufTy).Contents (Elt F))
/-- Operation 93: it writes main_v81. -/
abbrev op93 : HloOp τ sig (Elt F) :=
  StableHlo.unary main_arg21 main_v81 (broadcastInDim S1x64 ![1] bcast_S64_S1x64_1 : (⟨S64, .f32⟩ : BufTy).Contents (Elt F) → (⟨S1x64, .f32⟩ : BufTy).Contents (Elt F))
/-- Operation 94: it writes main_v82. -/
abbrev op94 : HloOp τ sig (Elt F) :=
  StableHlo.unary main_v81 main_v82 (broadcastInDim S1048576x64 ![0, 1] bcast_S1x64_S1048576x64_0_1 : (⟨S1x64, .f32⟩ : BufTy).Contents (Elt F) → (⟨S1048576x64, .f32⟩ : BufTy).Contents (Elt F))
/-- Operation 95: it writes main_v83. -/
abbrev op95 : HloOp τ sig (Elt F) :=
  StableHlo.binary main_v80 main_v82 main_v83 (addf : (⟨S1048576x64, .f32⟩ : BufTy).Contents (Elt F) → (⟨S1048576x64, .f32⟩ : BufTy).Contents (Elt F) → (⟨S1048576x64, .f32⟩ : BufTy).Contents (Elt F))
/-- Operation 96: it writes main_v84. -/
abbrev op96 : HloOp τ sig (Elt F) :=
  StableHlo.unary main_v83 main_v84 (Host.tanh : (⟨S1048576x64, .f32⟩ : BufTy).Contents (Elt F) → (⟨S1048576x64, .f32⟩ : BufTy).Contents (Elt F))
/-- Operation 97: it writes main_v85. -/
abbrev op97 : HloOp τ sig (Elt F) :=
  StableHlo.binary main_v84 main_arg22 main_v85 ((fun l r => Host.dotGeneral dot_S1048576x64_S64x1_S1048576x1_1_0_0_1_n_n none l r) : (⟨S1048576x64, .f32⟩ : BufTy).Contents (Elt F) → (⟨S64x1, .f32⟩ : BufTy).Contents (Elt F) → (⟨S1048576x1, .f32⟩ : BufTy).Contents (Elt F))
/-- Operation 98: it writes main_v86. -/
abbrev op98 : HloOp τ sig (Elt F) :=
  StableHlo.unary main_arg23 main_v86 (broadcastInDim S1x1 ![1] bcast_S1_S1x1_1 : (⟨S1, .f32⟩ : BufTy).Contents (Elt F) → (⟨S1x1, .f32⟩ : BufTy).Contents (Elt F))
/-- Operation 99: it writes main_v87. -/
abbrev op99 : HloOp τ sig (Elt F) :=
  StableHlo.unary main_v86 main_v87 (broadcastInDim S1048576x1 ![0, 1] bcast_S1x1_S1048576x1_0_1 : (⟨S1x1, .f32⟩ : BufTy).Contents (Elt F) → (⟨S1048576x1, .f32⟩ : BufTy).Contents (Elt F))
/-- Operation 100: it writes main_v88. -/
abbrev op100 : HloOp τ sig (Elt F) :=
  StableHlo.binary main_v85 main_v87 main_v88 (addf : (⟨S1048576x1, .f32⟩ : BufTy).Contents (Elt F) → (⟨S1048576x1, .f32⟩ : BufTy).Contents (Elt F) → (⟨S1048576x1, .f32⟩ : BufTy).Contents (Elt F))

/-- The operations of the first window of @main. -/
abbrev ops0 : List (HloOp τ sig (Elt F)) :=
  [op1, op2, op3, op4, op5, op6, op7, op8, op9, op10, op11, op12, op13, op14, op15, op16, op17, op18, op19, op20, op21, op22, op23, op24, op25, op26, op27, op28, op29, op30, op31, op32, op33, op34, op35, op36, op37, op38, op39, op40, op41, op42, op43, op44, op45, op46, op47, op48, op49, op50, op51, op52, op53, op54, op55, op56, op57, op58, op59, op60]
/-- The operations of the second window of @main. -/
abbrev ops1 : List (HloOp τ sig (Elt F)) :=
  [op61, op62, op63, op64, op65, op66, op67, op68, op69, op70, op71, op72, op73, op74, op75, op76, op77, op78, op79, op80, op81, op82, op83, op84, op85, op86, op87, op88, op89, op90, op91, op92, op93, op94, op95, op96, op97, op98, op99, op100]
/-- @main's operations, in order. -/
abbrev ops : List (HloOp τ sig (Elt F)) := ops0 ++ ops1

/-! ## The contents after each operation -/

/-- The buffers' contents before the first operation. -/
def val0 (V0 : Valuation τ sig (Elt F)) : Valuation τ sig (Elt F) := V0
/-- The buffers' contents after the first 1 operations. -/
def val1 (V0 : Valuation τ sig (Elt F)) : Valuation τ sig (Elt F) := (op1 (F := F)).result (val0 V0)
/-- The buffers' contents after the first 2 operations. -/
def val2 (V0 : Valuation τ sig (Elt F)) : Valuation τ sig (Elt F) := (op2 (F := F)).result (val1 V0)
/-- The buffers' contents after the first 3 operations. -/
def val3 (V0 : Valuation τ sig (Elt F)) : Valuation τ sig (Elt F) := (op3 (F := F)).result (val2 V0)
/-- The buffers' contents after the first 4 operations. -/
def val4 (V0 : Valuation τ sig (Elt F)) : Valuation τ sig (Elt F) := (op4 (F := F)).result (val3 V0)
/-- The buffers' contents after the first 5 operations. -/
def val5 (V0 : Valuation τ sig (Elt F)) : Valuation τ sig (Elt F) := (op5 (F := F)).result (val4 V0)
/-- The buffers' contents after the first 6 operations. -/
def val6 (V0 : Valuation τ sig (Elt F)) : Valuation τ sig (Elt F) := (op6 (F := F)).result (val5 V0)
/-- The buffers' contents after the first 7 operations. -/
def val7 (V0 : Valuation τ sig (Elt F)) : Valuation τ sig (Elt F) := (op7 (F := F)).result (val6 V0)
/-- The buffers' contents after the first 8 operations. -/
def val8 (V0 : Valuation τ sig (Elt F)) : Valuation τ sig (Elt F) := (op8 (F := F)).result (val7 V0)
/-- The buffers' contents after the first 9 operations. -/
def val9 (V0 : Valuation τ sig (Elt F)) : Valuation τ sig (Elt F) := (op9 (F := F)).result (val8 V0)
/-- The buffers' contents after the first 10 operations. -/
def val10 (V0 : Valuation τ sig (Elt F)) : Valuation τ sig (Elt F) := (op10 (F := F)).result (val9 V0)
/-- The buffers' contents after the first 11 operations. -/
def val11 (V0 : Valuation τ sig (Elt F)) : Valuation τ sig (Elt F) := (op11 (F := F)).result (val10 V0)
/-- The buffers' contents after the first 12 operations. -/
def val12 (V0 : Valuation τ sig (Elt F)) : Valuation τ sig (Elt F) := (op12 (F := F)).result (val11 V0)
/-- The buffers' contents after the first 13 operations. -/
def val13 (V0 : Valuation τ sig (Elt F)) : Valuation τ sig (Elt F) := (op13 (F := F)).result (val12 V0)
/-- The buffers' contents after the first 14 operations. -/
def val14 (V0 : Valuation τ sig (Elt F)) : Valuation τ sig (Elt F) := (op14 (F := F)).result (val13 V0)
/-- The buffers' contents after the first 15 operations. -/
def val15 (V0 : Valuation τ sig (Elt F)) : Valuation τ sig (Elt F) := (op15 (F := F)).result (val14 V0)
/-- The buffers' contents after the first 16 operations. -/
def val16 (V0 : Valuation τ sig (Elt F)) : Valuation τ sig (Elt F) := (op16 (F := F)).result (val15 V0)
/-- The buffers' contents after the first 17 operations. -/
def val17 (V0 : Valuation τ sig (Elt F)) : Valuation τ sig (Elt F) := (op17 (F := F)).result (val16 V0)
/-- The buffers' contents after the first 18 operations. -/
def val18 (V0 : Valuation τ sig (Elt F)) : Valuation τ sig (Elt F) := (op18 (F := F)).result (val17 V0)
/-- The buffers' contents after the first 19 operations. -/
def val19 (V0 : Valuation τ sig (Elt F)) : Valuation τ sig (Elt F) := (op19 (F := F)).result (val18 V0)
/-- The buffers' contents after the first 20 operations. -/
def val20 (V0 : Valuation τ sig (Elt F)) : Valuation τ sig (Elt F) := (op20 (F := F)).result (val19 V0)
/-- The buffers' contents after the first 21 operations. -/
def val21 (V0 : Valuation τ sig (Elt F)) : Valuation τ sig (Elt F) := (op21 (F := F)).result (val20 V0)
/-- The buffers' contents after the first 22 operations. -/
def val22 (V0 : Valuation τ sig (Elt F)) : Valuation τ sig (Elt F) := (op22 (F := F)).result (val21 V0)
/-- The buffers' contents after the first 23 operations. -/
def val23 (V0 : Valuation τ sig (Elt F)) : Valuation τ sig (Elt F) := (op23 (F := F)).result (val22 V0)
/-- The buffers' contents after the first 24 operations. -/
def val24 (V0 : Valuation τ sig (Elt F)) : Valuation τ sig (Elt F) := (op24 (F := F)).result (val23 V0)
/-- The buffers' contents after the first 25 operations. -/
def val25 (V0 : Valuation τ sig (Elt F)) : Valuation τ sig (Elt F) := (op25 (F := F)).result (val24 V0)
/-- The buffers' contents after the first 26 operations. -/
def val26 (V0 : Valuation τ sig (Elt F)) : Valuation τ sig (Elt F) := (op26 (F := F)).result (val25 V0)
/-- The buffers' contents after the first 27 operations. -/
def val27 (V0 : Valuation τ sig (Elt F)) : Valuation τ sig (Elt F) := (op27 (F := F)).result (val26 V0)
/-- The buffers' contents after the first 28 operations. -/
def val28 (V0 : Valuation τ sig (Elt F)) : Valuation τ sig (Elt F) := (op28 (F := F)).result (val27 V0)
/-- The buffers' contents after the first 29 operations. -/
def val29 (V0 : Valuation τ sig (Elt F)) : Valuation τ sig (Elt F) := (op29 (F := F)).result (val28 V0)
/-- The buffers' contents after the first 30 operations. -/
def val30 (V0 : Valuation τ sig (Elt F)) : Valuation τ sig (Elt F) := (op30 (F := F)).result (val29 V0)
/-- The buffers' contents after the first 31 operations. -/
def val31 (V0 : Valuation τ sig (Elt F)) : Valuation τ sig (Elt F) := (op31 (F := F)).result (val30 V0)
/-- The buffers' contents after the first 32 operations. -/
def val32 (V0 : Valuation τ sig (Elt F)) : Valuation τ sig (Elt F) := (op32 (F := F)).result (val31 V0)
/-- The buffers' contents after the first 33 operations. -/
def val33 (V0 : Valuation τ sig (Elt F)) : Valuation τ sig (Elt F) := (op33 (F := F)).result (val32 V0)
/-- The buffers' contents after the first 34 operations. -/
def val34 (V0 : Valuation τ sig (Elt F)) : Valuation τ sig (Elt F) := (op34 (F := F)).result (val33 V0)
/-- The buffers' contents after the first 35 operations. -/
def val35 (V0 : Valuation τ sig (Elt F)) : Valuation τ sig (Elt F) := (op35 (F := F)).result (val34 V0)
/-- The buffers' contents after the first 36 operations. -/
def val36 (V0 : Valuation τ sig (Elt F)) : Valuation τ sig (Elt F) := (op36 (F := F)).result (val35 V0)
/-- The buffers' contents after the first 37 operations. -/
def val37 (V0 : Valuation τ sig (Elt F)) : Valuation τ sig (Elt F) := (op37 (F := F)).result (val36 V0)
/-- The buffers' contents after the first 38 operations. -/
def val38 (V0 : Valuation τ sig (Elt F)) : Valuation τ sig (Elt F) := (op38 (F := F)).result (val37 V0)
/-- The buffers' contents after the first 39 operations. -/
def val39 (V0 : Valuation τ sig (Elt F)) : Valuation τ sig (Elt F) := (op39 (F := F)).result (val38 V0)
/-- The buffers' contents after the first 40 operations. -/
def val40 (V0 : Valuation τ sig (Elt F)) : Valuation τ sig (Elt F) := (op40 (F := F)).result (val39 V0)
/-- The buffers' contents after the first 41 operations. -/
def val41 (V0 : Valuation τ sig (Elt F)) : Valuation τ sig (Elt F) := (op41 (F := F)).result (val40 V0)
/-- The buffers' contents after the first 42 operations. -/
def val42 (V0 : Valuation τ sig (Elt F)) : Valuation τ sig (Elt F) := (op42 (F := F)).result (val41 V0)
/-- The buffers' contents after the first 43 operations. -/
def val43 (V0 : Valuation τ sig (Elt F)) : Valuation τ sig (Elt F) := (op43 (F := F)).result (val42 V0)
/-- The buffers' contents after the first 44 operations. -/
def val44 (V0 : Valuation τ sig (Elt F)) : Valuation τ sig (Elt F) := (op44 (F := F)).result (val43 V0)
/-- The buffers' contents after the first 45 operations. -/
def val45 (V0 : Valuation τ sig (Elt F)) : Valuation τ sig (Elt F) := (op45 (F := F)).result (val44 V0)
/-- The buffers' contents after the first 46 operations. -/
def val46 (V0 : Valuation τ sig (Elt F)) : Valuation τ sig (Elt F) := (op46 (F := F)).result (val45 V0)
/-- The buffers' contents after the first 47 operations. -/
def val47 (V0 : Valuation τ sig (Elt F)) : Valuation τ sig (Elt F) := (op47 (F := F)).result (val46 V0)
/-- The buffers' contents after the first 48 operations. -/
def val48 (V0 : Valuation τ sig (Elt F)) : Valuation τ sig (Elt F) := (op48 (F := F)).result (val47 V0)
/-- The buffers' contents after the first 49 operations. -/
def val49 (V0 : Valuation τ sig (Elt F)) : Valuation τ sig (Elt F) := (op49 (F := F)).result (val48 V0)
/-- The buffers' contents after the first 50 operations. -/
def val50 (V0 : Valuation τ sig (Elt F)) : Valuation τ sig (Elt F) := (op50 (F := F)).result (val49 V0)
/-- The buffers' contents after the first 51 operations. -/
def val51 (V0 : Valuation τ sig (Elt F)) : Valuation τ sig (Elt F) := (op51 (F := F)).result (val50 V0)
/-- The buffers' contents after the first 52 operations. -/
def val52 (V0 : Valuation τ sig (Elt F)) : Valuation τ sig (Elt F) := (op52 (F := F)).result (val51 V0)
/-- The buffers' contents after the first 53 operations. -/
def val53 (V0 : Valuation τ sig (Elt F)) : Valuation τ sig (Elt F) := (op53 (F := F)).result (val52 V0)
/-- The buffers' contents after the first 54 operations. -/
def val54 (V0 : Valuation τ sig (Elt F)) : Valuation τ sig (Elt F) := (op54 (F := F)).result (val53 V0)
/-- The buffers' contents after the first 55 operations. -/
def val55 (V0 : Valuation τ sig (Elt F)) : Valuation τ sig (Elt F) := (op55 (F := F)).result (val54 V0)
/-- The buffers' contents after the first 56 operations. -/
def val56 (V0 : Valuation τ sig (Elt F)) : Valuation τ sig (Elt F) := (op56 (F := F)).result (val55 V0)
/-- The buffers' contents after the first 57 operations. -/
def val57 (V0 : Valuation τ sig (Elt F)) : Valuation τ sig (Elt F) := (op57 (F := F)).result (val56 V0)
/-- The buffers' contents after the first 58 operations. -/
def val58 (V0 : Valuation τ sig (Elt F)) : Valuation τ sig (Elt F) := (op58 (F := F)).result (val57 V0)
/-- The buffers' contents after the first 59 operations. -/
def val59 (V0 : Valuation τ sig (Elt F)) : Valuation τ sig (Elt F) := (op59 (F := F)).result (val58 V0)
/-- The buffers' contents after the first 60 operations. -/
def val60 (V0 : Valuation τ sig (Elt F)) : Valuation τ sig (Elt F) := (op60 (F := F)).result (val59 V0)
/-- The buffers' contents after the first 61 operations. -/
def val61 (V0 : Valuation τ sig (Elt F)) : Valuation τ sig (Elt F) := (op61 (F := F)).result (val60 V0)
/-- The buffers' contents after the first 62 operations. -/
def val62 (V0 : Valuation τ sig (Elt F)) : Valuation τ sig (Elt F) := (op62 (F := F)).result (val61 V0)
/-- The buffers' contents after the first 63 operations. -/
def val63 (V0 : Valuation τ sig (Elt F)) : Valuation τ sig (Elt F) := (op63 (F := F)).result (val62 V0)
/-- The buffers' contents after the first 64 operations. -/
def val64 (V0 : Valuation τ sig (Elt F)) : Valuation τ sig (Elt F) := (op64 (F := F)).result (val63 V0)
/-- The buffers' contents after the first 65 operations. -/
def val65 (V0 : Valuation τ sig (Elt F)) : Valuation τ sig (Elt F) := (op65 (F := F)).result (val64 V0)
/-- The buffers' contents after the first 66 operations. -/
def val66 (V0 : Valuation τ sig (Elt F)) : Valuation τ sig (Elt F) := (op66 (F := F)).result (val65 V0)
/-- The buffers' contents after the first 67 operations. -/
def val67 (V0 : Valuation τ sig (Elt F)) : Valuation τ sig (Elt F) := (op67 (F := F)).result (val66 V0)
/-- The buffers' contents after the first 68 operations. -/
def val68 (V0 : Valuation τ sig (Elt F)) : Valuation τ sig (Elt F) := (op68 (F := F)).result (val67 V0)
/-- The buffers' contents after the first 69 operations. -/
def val69 (V0 : Valuation τ sig (Elt F)) : Valuation τ sig (Elt F) := (op69 (F := F)).result (val68 V0)
/-- The buffers' contents after the first 70 operations. -/
def val70 (V0 : Valuation τ sig (Elt F)) : Valuation τ sig (Elt F) := (op70 (F := F)).result (val69 V0)
/-- The buffers' contents after the first 71 operations. -/
def val71 (V0 : Valuation τ sig (Elt F)) : Valuation τ sig (Elt F) := (op71 (F := F)).result (val70 V0)
/-- The buffers' contents after the first 72 operations. -/
def val72 (V0 : Valuation τ sig (Elt F)) : Valuation τ sig (Elt F) := (op72 (F := F)).result (val71 V0)
/-- The buffers' contents after the first 73 operations. -/
def val73 (V0 : Valuation τ sig (Elt F)) : Valuation τ sig (Elt F) := (op73 (F := F)).result (val72 V0)
/-- The buffers' contents after the first 74 operations. -/
def val74 (V0 : Valuation τ sig (Elt F)) : Valuation τ sig (Elt F) := (op74 (F := F)).result (val73 V0)
/-- The buffers' contents after the first 75 operations. -/
def val75 (V0 : Valuation τ sig (Elt F)) : Valuation τ sig (Elt F) := (op75 (F := F)).result (val74 V0)
/-- The buffers' contents after the first 76 operations. -/
def val76 (V0 : Valuation τ sig (Elt F)) : Valuation τ sig (Elt F) := (op76 (F := F)).result (val75 V0)
/-- The buffers' contents after the first 77 operations. -/
def val77 (V0 : Valuation τ sig (Elt F)) : Valuation τ sig (Elt F) := (op77 (F := F)).result (val76 V0)
/-- The buffers' contents after the first 78 operations. -/
def val78 (V0 : Valuation τ sig (Elt F)) : Valuation τ sig (Elt F) := (op78 (F := F)).result (val77 V0)
/-- The buffers' contents after the first 79 operations. -/
def val79 (V0 : Valuation τ sig (Elt F)) : Valuation τ sig (Elt F) := (op79 (F := F)).result (val78 V0)
/-- The buffers' contents after the first 80 operations. -/
def val80 (V0 : Valuation τ sig (Elt F)) : Valuation τ sig (Elt F) := (op80 (F := F)).result (val79 V0)
/-- The buffers' contents after the first 81 operations. -/
def val81 (V0 : Valuation τ sig (Elt F)) : Valuation τ sig (Elt F) := (op81 (F := F)).result (val80 V0)
/-- The buffers' contents after the first 82 operations. -/
def val82 (V0 : Valuation τ sig (Elt F)) : Valuation τ sig (Elt F) := (op82 (F := F)).result (val81 V0)
/-- The buffers' contents after the first 83 operations. -/
def val83 (V0 : Valuation τ sig (Elt F)) : Valuation τ sig (Elt F) := (op83 (F := F)).result (val82 V0)
/-- The buffers' contents after the first 84 operations. -/
def val84 (V0 : Valuation τ sig (Elt F)) : Valuation τ sig (Elt F) := (op84 (F := F)).result (val83 V0)
/-- The buffers' contents after the first 85 operations. -/
def val85 (V0 : Valuation τ sig (Elt F)) : Valuation τ sig (Elt F) := (op85 (F := F)).result (val84 V0)
/-- The buffers' contents after the first 86 operations. -/
def val86 (V0 : Valuation τ sig (Elt F)) : Valuation τ sig (Elt F) := (op86 (F := F)).result (val85 V0)
/-- The buffers' contents after the first 87 operations. -/
def val87 (V0 : Valuation τ sig (Elt F)) : Valuation τ sig (Elt F) := (op87 (F := F)).result (val86 V0)
/-- The buffers' contents after the first 88 operations. -/
def val88 (V0 : Valuation τ sig (Elt F)) : Valuation τ sig (Elt F) := (op88 (F := F)).result (val87 V0)
/-- The buffers' contents after the first 89 operations. -/
def val89 (V0 : Valuation τ sig (Elt F)) : Valuation τ sig (Elt F) := (op89 (F := F)).result (val88 V0)
/-- The buffers' contents after the first 90 operations. -/
def val90 (V0 : Valuation τ sig (Elt F)) : Valuation τ sig (Elt F) := (op90 (F := F)).result (val89 V0)
/-- The buffers' contents after the first 91 operations. -/
def val91 (V0 : Valuation τ sig (Elt F)) : Valuation τ sig (Elt F) := (op91 (F := F)).result (val90 V0)
/-- The buffers' contents after the first 92 operations. -/
def val92 (V0 : Valuation τ sig (Elt F)) : Valuation τ sig (Elt F) := (op92 (F := F)).result (val91 V0)
/-- The buffers' contents after the first 93 operations. -/
def val93 (V0 : Valuation τ sig (Elt F)) : Valuation τ sig (Elt F) := (op93 (F := F)).result (val92 V0)
/-- The buffers' contents after the first 94 operations. -/
def val94 (V0 : Valuation τ sig (Elt F)) : Valuation τ sig (Elt F) := (op94 (F := F)).result (val93 V0)
/-- The buffers' contents after the first 95 operations. -/
def val95 (V0 : Valuation τ sig (Elt F)) : Valuation τ sig (Elt F) := (op95 (F := F)).result (val94 V0)
/-- The buffers' contents after the first 96 operations. -/
def val96 (V0 : Valuation τ sig (Elt F)) : Valuation τ sig (Elt F) := (op96 (F := F)).result (val95 V0)
/-- The buffers' contents after the first 97 operations. -/
def val97 (V0 : Valuation τ sig (Elt F)) : Valuation τ sig (Elt F) := (op97 (F := F)).result (val96 V0)
/-- The buffers' contents after the first 98 operations. -/
def val98 (V0 : Valuation τ sig (Elt F)) : Valuation τ sig (Elt F) := (op98 (F := F)).result (val97 V0)
/-- The buffers' contents after the first 99 operations. -/
def val99 (V0 : Valuation τ sig (Elt F)) : Valuation τ sig (Elt F) := (op99 (F := F)).result (val98 V0)
/-- The buffers' contents after the first 100 operations. -/
def val100 (V0 : Valuation τ sig (Elt F)) : Valuation τ sig (Elt F) := (op100 (F := F)).result (val99 V0)

/-! ## The arguments are never written -/

theorem val0_args (V0 : Valuation τ sig (Elt F)) : ∀ r ∈ argRefs, val0 V0 (Proc.devRef .tc r) = V0 (Proc.devRef .tc r) := fun _ _ => rfl
theorem val1_args (V0 : Valuation τ sig (Elt F)) : ∀ r ∈ argRefs, val1 V0 (Proc.devRef .tc r) = V0 (Proc.devRef .tc r) :=
  result_keep_list (op1 (F := F)) (val0 V0) V0 argRefs main_c rfl (by decide) (val0_args V0)
theorem val2_args (V0 : Valuation τ sig (Elt F)) : ∀ r ∈ argRefs, val2 V0 (Proc.devRef .tc r) = V0 (Proc.devRef .tc r) :=
  result_keep_list (op2 (F := F)) (val1 V0) V0 argRefs main_c_0 rfl (by decide) (val1_args V0)
theorem val3_args (V0 : Valuation τ sig (Elt F)) : ∀ r ∈ argRefs, val3 V0 (Proc.devRef .tc r) = V0 (Proc.devRef .tc r) :=
  result_keep_list (op3 (F := F)) (val2 V0) V0 argRefs main_v0 rfl (by decide) (val2_args V0)
theorem val4_args (V0 : Valuation τ sig (Elt F)) : ∀ r ∈ argRefs, val4 V0 (Proc.devRef .tc r) = V0 (Proc.devRef .tc r) :=
  result_keep_list (op4 (F := F)) (val3 V0) V0 argRefs main_v1 rfl (by decide) (val3_args V0)
theorem val5_args (V0 : Valuation τ sig (Elt F)) : ∀ r ∈ argRefs, val5 V0 (Proc.devRef .tc r) = V0 (Proc.devRef .tc r) :=
  result_keep_list (op5 (F := F)) (val4 V0) V0 argRefs main_v2 rfl (by decide) (val4_args V0)
theorem val6_args (V0 : Valuation τ sig (Elt F)) : ∀ r ∈ argRefs, val6 V0 (Proc.devRef .tc r) = V0 (Proc.devRef .tc r) :=
  result_keep_list (op6 (F := F)) (val5 V0) V0 argRefs main_v3 rfl (by decide) (val5_args V0)
theorem val7_args (V0 : Valuation τ sig (Elt F)) : ∀ r ∈ argRefs, val7 V0 (Proc.devRef .tc r) = V0 (Proc.devRef .tc r) :=
  result_keep_list (op7 (F := F)) (val6 V0) V0 argRefs main_v4 rfl (by decide) (val6_args V0)
theorem val8_args (V0 : Valuation τ sig (Elt F)) : ∀ r ∈ argRefs, val8 V0 (Proc.devRef .tc r) = V0 (Proc.devRef .tc r) :=
  result_keep_list (op8 (F := F)) (val7 V0) V0 argRefs main_v5 rfl (by decide) (val7_args V0)
theorem val9_args (V0 : Valuation τ sig (Elt F)) : ∀ r ∈ argRefs, val9 V0 (Proc.devRef .tc r) = V0 (Proc.devRef .tc r) :=
  result_keep_list (op9 (F := F)) (val8 V0) V0 argRefs main_v6 rfl (by decide) (val8_args V0)
theorem val10_args (V0 : Valuation τ sig (Elt F)) : ∀ r ∈ argRefs, val10 V0 (Proc.devRef .tc r) = V0 (Proc.devRef .tc r) :=
  result_keep_list (op10 (F := F)) (val9 V0) V0 argRefs main_v7 rfl (by decide) (val9_args V0)
theorem val11_args (V0 : Valuation τ sig (Elt F)) : ∀ r ∈ argRefs, val11 V0 (Proc.devRef .tc r) = V0 (Proc.devRef .tc r) :=
  result_keep_list (op11 (F := F)) (val10 V0) V0 argRefs main_c_1 rfl (by decide) (val10_args V0)
theorem val12_args (V0 : Valuation τ sig (Elt F)) : ∀ r ∈ argRefs, val12 V0 (Proc.devRef .tc r) = V0 (Proc.devRef .tc r) :=
  result_keep_list (op12 (F := F)) (val11 V0) V0 argRefs main_v8 rfl (by decide) (val11_args V0)
theorem val13_args (V0 : Valuation τ sig (Elt F)) : ∀ r ∈ argRefs, val13 V0 (Proc.devRef .tc r) = V0 (Proc.devRef .tc r) :=
  result_keep_list (op13 (F := F)) (val12 V0) V0 argRefs main_v9 rfl (by decide) (val12_args V0)
theorem val14_args (V0 : Valuation τ sig (Elt F)) : ∀ r ∈ argRefs, val14 V0 (Proc.devRef .tc r) = V0 (Proc.devRef .tc r) :=
  result_keep_list (op14 (F := F)) (val13 V0) V0 argRefs main_c_2 rfl (by decide) (val13_args V0)
theorem val15_args (V0 : Valuation τ sig (Elt F)) : ∀ r ∈ argRefs, val15 V0 (Proc.devRef .tc r) = V0 (Proc.devRef .tc r) :=
  result_keep_list (op15 (F := F)) (val14 V0) V0 argRefs main_v10 rfl (by decide) (val14_args V0)
theorem val16_args (V0 : Valuation τ sig (Elt F)) : ∀ r ∈ argRefs, val16 V0 (Proc.devRef .tc r) = V0 (Proc.devRef .tc r) :=
  result_keep_list (op16 (F := F)) (val15 V0) V0 argRefs main_v11 rfl (by decide) (val15_args V0)
theorem val17_args (V0 : Valuation τ sig (Elt F)) : ∀ r ∈ argRefs, val17 V0 (Proc.devRef .tc r) = V0 (Proc.devRef .tc r) :=
  result_keep_list (op17 (F := F)) (val16 V0) V0 argRefs main_v12 rfl (by decide) (val16_args V0)
theorem val18_args (V0 : Valuation τ sig (Elt F)) : ∀ r ∈ argRefs, val18 V0 (Proc.devRef .tc r) = V0 (Proc.devRef .tc r) :=
  result_keep_list (op18 (F := F)) (val17 V0) V0 argRefs main_v13 rfl (by decide) (val17_args V0)
theorem val19_args (V0 : Valuation τ sig (Elt F)) : ∀ r ∈ argRefs, val19 V0 (Proc.devRef .tc r) = V0 (Proc.devRef .tc r) :=
  result_keep_list (op19 (F := F)) (val18 V0) V0 argRefs main_v14 rfl (by decide) (val18_args V0)
theorem val20_args (V0 : Valuation τ sig (Elt F)) : ∀ r ∈ argRefs, val20 V0 (Proc.devRef .tc r) = V0 (Proc.devRef .tc r) :=
  result_keep_list (op20 (F := F)) (val19 V0) V0 argRefs main_v15 rfl (by decide) (val19_args V0)
theorem val21_args (V0 : Valuation τ sig (Elt F)) : ∀ r ∈ argRefs, val21 V0 (Proc.devRef .tc r) = V0 (Proc.devRef .tc r) :=
  result_keep_list (op21 (F := F)) (val20 V0) V0 argRefs main_v16 rfl (by decide) (val20_args V0)
theorem val22_args (V0 : Valuation τ sig (Elt F)) : ∀ r ∈ argRefs, val22 V0 (Proc.devRef .tc r) = V0 (Proc.devRef .tc r) :=
  result_keep_list (op22 (F := F)) (val21 V0) V0 argRefs main_v17 rfl (by decide) (val21_args V0)
theorem val23_args (V0 : Valuation τ sig (Elt F)) : ∀ r ∈ argRefs, val23 V0 (Proc.devRef .tc r) = V0 (Proc.devRef .tc r) :=
  result_keep_list (op23 (F := F)) (val22 V0) V0 argRefs main_cst rfl (by decide) (val22_args V0)
theorem val24_args (V0 : Valuation τ sig (Elt F)) : ∀ r ∈ argRefs, val24 V0 (Proc.devRef .tc r) = V0 (Proc.devRef .tc r) :=
  result_keep_list (op24 (F := F)) (val23 V0) V0 argRefs main_v18 rfl (by decide) (val23_args V0)
theorem val25_args (V0 : Valuation τ sig (Elt F)) : ∀ r ∈ argRefs, val25 V0 (Proc.devRef .tc r) = V0 (Proc.devRef .tc r) :=
  result_keep_list (op25 (F := F)) (val24 V0) V0 argRefs main_v19 rfl (by decide) (val24_args V0)
theorem val26_args (V0 : Valuation τ sig (Elt F)) : ∀ r ∈ argRefs, val26 V0 (Proc.devRef .tc r) = V0 (Proc.devRef .tc r) :=
  result_keep_list (op26 (F := F)) (val25 V0) V0 argRefs main_v20 rfl (by decide) (val25_args V0)
theorem val27_args (V0 : Valuation τ sig (Elt F)) : ∀ r ∈ argRefs, val27 V0 (Proc.devRef .tc r) = V0 (Proc.devRef .tc r) :=
  result_keep_list (op27 (F := F)) (val26 V0) V0 argRefs main_v21 rfl (by decide) (val26_args V0)
theorem val28_args (V0 : Valuation τ sig (Elt F)) : ∀ r ∈ argRefs, val28 V0 (Proc.devRef .tc r) = V0 (Proc.devRef .tc r) :=
  result_keep_list (op28 (F := F)) (val27 V0) V0 argRefs main_v22 rfl (by decide) (val27_args V0)
theorem val29_args (V0 : Valuation τ sig (Elt F)) : ∀ r ∈ argRefs, val29 V0 (Proc.devRef .tc r) = V0 (Proc.devRef .tc r) :=
  result_keep_list (op29 (F := F)) (val28 V0) V0 argRefs main_v23 rfl (by decide) (val28_args V0)
theorem val30_args (V0 : Valuation τ sig (Elt F)) : ∀ r ∈ argRefs, val30 V0 (Proc.devRef .tc r) = V0 (Proc.devRef .tc r) :=
  result_keep_list (op30 (F := F)) (val29 V0) V0 argRefs main_v24 rfl (by decide) (val29_args V0)
theorem val31_args (V0 : Valuation τ sig (Elt F)) : ∀ r ∈ argRefs, val31 V0 (Proc.devRef .tc r) = V0 (Proc.devRef .tc r) :=
  result_keep_list (op31 (F := F)) (val30 V0) V0 argRefs main_v25 rfl (by decide) (val30_args V0)
theorem val32_args (V0 : Valuation τ sig (Elt F)) : ∀ r ∈ argRefs, val32 V0 (Proc.devRef .tc r) = V0 (Proc.devRef .tc r) :=
  result_keep_list (op32 (F := F)) (val31 V0) V0 argRefs main_c_3 rfl (by decide) (val31_args V0)
theorem val33_args (V0 : Valuation τ sig (Elt F)) : ∀ r ∈ argRefs, val33 V0 (Proc.devRef .tc r) = V0 (Proc.devRef .tc r) :=
  result_keep_list (op33 (F := F)) (val32 V0) V0 argRefs main_v26 rfl (by decide) (val32_args V0)
theorem val34_args (V0 : Valuation τ sig (Elt F)) : ∀ r ∈ argRefs, val34 V0 (Proc.devRef .tc r) = V0 (Proc.devRef .tc r) :=
  result_keep_list (op34 (F := F)) (val33 V0) V0 argRefs main_v27 rfl (by decide) (val33_args V0)
theorem val35_args (V0 : Valuation τ sig (Elt F)) : ∀ r ∈ argRefs, val35 V0 (Proc.devRef .tc r) = V0 (Proc.devRef .tc r) :=
  result_keep_list (op35 (F := F)) (val34 V0) V0 argRefs main_c_4 rfl (by decide) (val34_args V0)
theorem val36_args (V0 : Valuation τ sig (Elt F)) : ∀ r ∈ argRefs, val36 V0 (Proc.devRef .tc r) = V0 (Proc.devRef .tc r) :=
  result_keep_list (op36 (F := F)) (val35 V0) V0 argRefs main_v28 rfl (by decide) (val35_args V0)
theorem val37_args (V0 : Valuation τ sig (Elt F)) : ∀ r ∈ argRefs, val37 V0 (Proc.devRef .tc r) = V0 (Proc.devRef .tc r) :=
  result_keep_list (op37 (F := F)) (val36 V0) V0 argRefs main_v29 rfl (by decide) (val36_args V0)
theorem val38_args (V0 : Valuation τ sig (Elt F)) : ∀ r ∈ argRefs, val38 V0 (Proc.devRef .tc r) = V0 (Proc.devRef .tc r) :=
  result_keep_list (op38 (F := F)) (val37 V0) V0 argRefs main_v30 rfl (by decide) (val37_args V0)
theorem val39_args (V0 : Valuation τ sig (Elt F)) : ∀ r ∈ argRefs, val39 V0 (Proc.devRef .tc r) = V0 (Proc.devRef .tc r) :=
  result_keep_list (op39 (F := F)) (val38 V0) V0 argRefs main_v31 rfl (by decide) (val38_args V0)
theorem val40_args (V0 : Valuation τ sig (Elt F)) : ∀ r ∈ argRefs, val40 V0 (Proc.devRef .tc r) = V0 (Proc.devRef .tc r) :=
  result_keep_list (op40 (F := F)) (val39 V0) V0 argRefs main_v32 rfl (by decide) (val39_args V0)
theorem val41_args (V0 : Valuation τ sig (Elt F)) : ∀ r ∈ argRefs, val41 V0 (Proc.devRef .tc r) = V0 (Proc.devRef .tc r) :=
  result_keep_list (op41 (F := F)) (val40 V0) V0 argRefs main_v33 rfl (by decide) (val40_args V0)
theorem val42_args (V0 : Valuation τ sig (Elt F)) : ∀ r ∈ argRefs, val42 V0 (Proc.devRef .tc r) = V0 (Proc.devRef .tc r) :=
  result_keep_list (op42 (F := F)) (val41 V0) V0 argRefs main_v34 rfl (by decide) (val41_args V0)
theorem val43_args (V0 : Valuation τ sig (Elt F)) : ∀ r ∈ argRefs, val43 V0 (Proc.devRef .tc r) = V0 (Proc.devRef .tc r) :=
  result_keep_list (op43 (F := F)) (val42 V0) V0 argRefs main_v35 rfl (by decide) (val42_args V0)
theorem val44_args (V0 : Valuation τ sig (Elt F)) : ∀ r ∈ argRefs, val44 V0 (Proc.devRef .tc r) = V0 (Proc.devRef .tc r) :=
  result_keep_list (op44 (F := F)) (val43 V0) V0 argRefs main_cst_5 rfl (by decide) (val43_args V0)
theorem val45_args (V0 : Valuation τ sig (Elt F)) : ∀ r ∈ argRefs, val45 V0 (Proc.devRef .tc r) = V0 (Proc.devRef .tc r) :=
  result_keep_list (op45 (F := F)) (val44 V0) V0 argRefs main_v36 rfl (by decide) (val44_args V0)
theorem val46_args (V0 : Valuation τ sig (Elt F)) : ∀ r ∈ argRefs, val46 V0 (Proc.devRef .tc r) = V0 (Proc.devRef .tc r) :=
  result_keep_list (op46 (F := F)) (val45 V0) V0 argRefs main_v37 rfl (by decide) (val45_args V0)
theorem val47_args (V0 : Valuation τ sig (Elt F)) : ∀ r ∈ argRefs, val47 V0 (Proc.devRef .tc r) = V0 (Proc.devRef .tc r) :=
  result_keep_list (op47 (F := F)) (val46 V0) V0 argRefs main_v38 rfl (by decide) (val46_args V0)
theorem val48_args (V0 : Valuation τ sig (Elt F)) : ∀ r ∈ argRefs, val48 V0 (Proc.devRef .tc r) = V0 (Proc.devRef .tc r) :=
  result_keep_list (op48 (F := F)) (val47 V0) V0 argRefs main_v39 rfl (by decide) (val47_args V0)
theorem val49_args (V0 : Valuation τ sig (Elt F)) : ∀ r ∈ argRefs, val49 V0 (Proc.devRef .tc r) = V0 (Proc.devRef .tc r) :=
  result_keep_list (op49 (F := F)) (val48 V0) V0 argRefs main_v40 rfl (by decide) (val48_args V0)
theorem val50_args (V0 : Valuation τ sig (Elt F)) : ∀ r ∈ argRefs, val50 V0 (Proc.devRef .tc r) = V0 (Proc.devRef .tc r) :=
  result_keep_list (op50 (F := F)) (val49 V0) V0 argRefs main_v41 rfl (by decide) (val49_args V0)
theorem val51_args (V0 : Valuation τ sig (Elt F)) : ∀ r ∈ argRefs, val51 V0 (Proc.devRef .tc r) = V0 (Proc.devRef .tc r) :=
  result_keep_list (op51 (F := F)) (val50 V0) V0 argRefs main_v42 rfl (by decide) (val50_args V0)
theorem val52_args (V0 : Valuation τ sig (Elt F)) : ∀ r ∈ argRefs, val52 V0 (Proc.devRef .tc r) = V0 (Proc.devRef .tc r) :=
  result_keep_list (op52 (F := F)) (val51 V0) V0 argRefs main_v43 rfl (by decide) (val51_args V0)
theorem val53_args (V0 : Valuation τ sig (Elt F)) : ∀ r ∈ argRefs, val53 V0 (Proc.devRef .tc r) = V0 (Proc.devRef .tc r) :=
  result_keep_list (op53 (F := F)) (val52 V0) V0 argRefs main_v44 rfl (by decide) (val52_args V0)
theorem val54_args (V0 : Valuation τ sig (Elt F)) : ∀ r ∈ argRefs, val54 V0 (Proc.devRef .tc r) = V0 (Proc.devRef .tc r) :=
  result_keep_list (op54 (F := F)) (val53 V0) V0 argRefs main_v45 rfl (by decide) (val53_args V0)
theorem val55_args (V0 : Valuation τ sig (Elt F)) : ∀ r ∈ argRefs, val55 V0 (Proc.devRef .tc r) = V0 (Proc.devRef .tc r) :=
  result_keep_list (op55 (F := F)) (val54 V0) V0 argRefs main_v46 rfl (by decide) (val54_args V0)
theorem val56_args (V0 : Valuation τ sig (Elt F)) : ∀ r ∈ argRefs, val56 V0 (Proc.devRef .tc r) = V0 (Proc.devRef .tc r) :=
  result_keep_list (op56 (F := F)) (val55 V0) V0 argRefs main_v47 rfl (by decide) (val55_args V0)
theorem val57_args (V0 : Valuation τ sig (Elt F)) : ∀ r ∈ argRefs, val57 V0 (Proc.devRef .tc r) = V0 (Proc.devRef .tc r) :=
  result_keep_list (op57 (F := F)) (val56 V0) V0 argRefs main_v48 rfl (by decide) (val56_args V0)
theorem val58_args (V0 : Valuation τ sig (Elt F)) : ∀ r ∈ argRefs, val58 V0 (Proc.devRef .tc r) = V0 (Proc.devRef .tc r) :=
  result_keep_list (op58 (F := F)) (val57 V0) V0 argRefs main_v49 rfl (by decide) (val57_args V0)
theorem val59_args (V0 : Valuation τ sig (Elt F)) : ∀ r ∈ argRefs, val59 V0 (Proc.devRef .tc r) = V0 (Proc.devRef .tc r) :=
  result_keep_list (op59 (F := F)) (val58 V0) V0 argRefs main_v50 rfl (by decide) (val58_args V0)
theorem val60_args (V0 : Valuation τ sig (Elt F)) : ∀ r ∈ argRefs, val60 V0 (Proc.devRef .tc r) = V0 (Proc.devRef .tc r) :=
  result_keep_list (op60 (F := F)) (val59 V0) V0 argRefs main_v51 rfl (by decide) (val59_args V0)
theorem val61_args (V0 : Valuation τ sig (Elt F)) : ∀ r ∈ argRefs, val61 V0 (Proc.devRef .tc r) = V0 (Proc.devRef .tc r) :=
  result_keep_list (op61 (F := F)) (val60 V0) V0 argRefs main_v52 rfl (by decide) (val60_args V0)
theorem val62_args (V0 : Valuation τ sig (Elt F)) : ∀ r ∈ argRefs, val62 V0 (Proc.devRef .tc r) = V0 (Proc.devRef .tc r) :=
  result_keep_list (op62 (F := F)) (val61 V0) V0 argRefs main_v53 rfl (by decide) (val61_args V0)
theorem val63_args (V0 : Valuation τ sig (Elt F)) : ∀ r ∈ argRefs, val63 V0 (Proc.devRef .tc r) = V0 (Proc.devRef .tc r) :=
  result_keep_list (op63 (F := F)) (val62 V0) V0 argRefs main_v54 rfl (by decide) (val62_args V0)
theorem val64_args (V0 : Valuation τ sig (Elt F)) : ∀ r ∈ argRefs, val64 V0 (Proc.devRef .tc r) = V0 (Proc.devRef .tc r) :=
  result_keep_list (op64 (F := F)) (val63 V0) V0 argRefs main_v55 rfl (by decide) (val63_args V0)
theorem val65_args (V0 : Valuation τ sig (Elt F)) : ∀ r ∈ argRefs, val65 V0 (Proc.devRef .tc r) = V0 (Proc.devRef .tc r) :=
  result_keep_list (op65 (F := F)) (val64 V0) V0 argRefs main_v56 rfl (by decide) (val64_args V0)
theorem val66_args (V0 : Valuation τ sig (Elt F)) : ∀ r ∈ argRefs, val66 V0 (Proc.devRef .tc r) = V0 (Proc.devRef .tc r) :=
  result_keep_list (op66 (F := F)) (val65 V0) V0 argRefs main_v57 rfl (by decide) (val65_args V0)
theorem val67_args (V0 : Valuation τ sig (Elt F)) : ∀ r ∈ argRefs, val67 V0 (Proc.devRef .tc r) = V0 (Proc.devRef .tc r) :=
  result_keep_list (op67 (F := F)) (val66 V0) V0 argRefs main_v58 rfl (by decide) (val66_args V0)
theorem val68_args (V0 : Valuation τ sig (Elt F)) : ∀ r ∈ argRefs, val68 V0 (Proc.devRef .tc r) = V0 (Proc.devRef .tc r) :=
  result_keep_list (op68 (F := F)) (val67 V0) V0 argRefs main_v59 rfl (by decide) (val67_args V0)
theorem val69_args (V0 : Valuation τ sig (Elt F)) : ∀ r ∈ argRefs, val69 V0 (Proc.devRef .tc r) = V0 (Proc.devRef .tc r) :=
  result_keep_list (op69 (F := F)) (val68 V0) V0 argRefs main_v60 rfl (by decide) (val68_args V0)
theorem val70_args (V0 : Valuation τ sig (Elt F)) : ∀ r ∈ argRefs, val70 V0 (Proc.devRef .tc r) = V0 (Proc.devRef .tc r) :=
  result_keep_list (op70 (F := F)) (val69 V0) V0 argRefs main_v61 rfl (by decide) (val69_args V0)
theorem val71_args (V0 : Valuation τ sig (Elt F)) : ∀ r ∈ argRefs, val71 V0 (Proc.devRef .tc r) = V0 (Proc.devRef .tc r) :=
  result_keep_list (op71 (F := F)) (val70 V0) V0 argRefs main_v62 rfl (by decide) (val70_args V0)
theorem val72_args (V0 : Valuation τ sig (Elt F)) : ∀ r ∈ argRefs, val72 V0 (Proc.devRef .tc r) = V0 (Proc.devRef .tc r) :=
  result_keep_list (op72 (F := F)) (val71 V0) V0 argRefs main_v63 rfl (by decide) (val71_args V0)
theorem val73_args (V0 : Valuation τ sig (Elt F)) : ∀ r ∈ argRefs, val73 V0 (Proc.devRef .tc r) = V0 (Proc.devRef .tc r) :=
  result_keep_list (op73 (F := F)) (val72 V0) V0 argRefs main_v64 rfl (by decide) (val72_args V0)
theorem val74_args (V0 : Valuation τ sig (Elt F)) : ∀ r ∈ argRefs, val74 V0 (Proc.devRef .tc r) = V0 (Proc.devRef .tc r) :=
  result_keep_list (op74 (F := F)) (val73 V0) V0 argRefs main_v65 rfl (by decide) (val73_args V0)
theorem val75_args (V0 : Valuation τ sig (Elt F)) : ∀ r ∈ argRefs, val75 V0 (Proc.devRef .tc r) = V0 (Proc.devRef .tc r) :=
  result_keep_list (op75 (F := F)) (val74 V0) V0 argRefs main_v66 rfl (by decide) (val74_args V0)
theorem val76_args (V0 : Valuation τ sig (Elt F)) : ∀ r ∈ argRefs, val76 V0 (Proc.devRef .tc r) = V0 (Proc.devRef .tc r) :=
  result_keep_list (op76 (F := F)) (val75 V0) V0 argRefs main_v67 rfl (by decide) (val75_args V0)
theorem val77_args (V0 : Valuation τ sig (Elt F)) : ∀ r ∈ argRefs, val77 V0 (Proc.devRef .tc r) = V0 (Proc.devRef .tc r) :=
  result_keep_list (op77 (F := F)) (val76 V0) V0 argRefs main_v68 rfl (by decide) (val76_args V0)
theorem val78_args (V0 : Valuation τ sig (Elt F)) : ∀ r ∈ argRefs, val78 V0 (Proc.devRef .tc r) = V0 (Proc.devRef .tc r) :=
  result_keep_list (op78 (F := F)) (val77 V0) V0 argRefs main_v69 rfl (by decide) (val77_args V0)
theorem val79_args (V0 : Valuation τ sig (Elt F)) : ∀ r ∈ argRefs, val79 V0 (Proc.devRef .tc r) = V0 (Proc.devRef .tc r) :=
  result_keep_list (op79 (F := F)) (val78 V0) V0 argRefs main_v70 rfl (by decide) (val78_args V0)
theorem val80_args (V0 : Valuation τ sig (Elt F)) : ∀ r ∈ argRefs, val80 V0 (Proc.devRef .tc r) = V0 (Proc.devRef .tc r) :=
  result_keep_list (op80 (F := F)) (val79 V0) V0 argRefs main_v71 rfl (by decide) (val79_args V0)
theorem val81_args (V0 : Valuation τ sig (Elt F)) : ∀ r ∈ argRefs, val81 V0 (Proc.devRef .tc r) = V0 (Proc.devRef .tc r) :=
  result_keep_list (op81 (F := F)) (val80 V0) V0 argRefs main_cst_6 rfl (by decide) (val80_args V0)
theorem val82_args (V0 : Valuation τ sig (Elt F)) : ∀ r ∈ argRefs, val82 V0 (Proc.devRef .tc r) = V0 (Proc.devRef .tc r) :=
  result_keep_list (op82 (F := F)) (val81 V0) V0 argRefs main_v72 rfl (by decide) (val81_args V0)
theorem val83_args (V0 : Valuation τ sig (Elt F)) : ∀ r ∈ argRefs, val83 V0 (Proc.devRef .tc r) = V0 (Proc.devRef .tc r) :=
  result_keep_list (op83 (F := F)) (val82 V0) V0 argRefs main_v73 rfl (by decide) (val82_args V0)
theorem val84_args (V0 : Valuation τ sig (Elt F)) : ∀ r ∈ argRefs, val84 V0 (Proc.devRef .tc r) = V0 (Proc.devRef .tc r) :=
  result_keep_list (op84 (F := F)) (val83 V0) V0 argRefs main_v74 rfl (by decide) (val83_args V0)
theorem val85_args (V0 : Valuation τ sig (Elt F)) : ∀ r ∈ argRefs, val85 V0 (Proc.devRef .tc r) = V0 (Proc.devRef .tc r) :=
  result_keep_list (op85 (F := F)) (val84 V0) V0 argRefs main_v75 rfl (by decide) (val84_args V0)
theorem val86_args (V0 : Valuation τ sig (Elt F)) : ∀ r ∈ argRefs, val86 V0 (Proc.devRef .tc r) = V0 (Proc.devRef .tc r) :=
  result_keep_list (op86 (F := F)) (val85 V0) V0 argRefs main_v76 rfl (by decide) (val85_args V0)
theorem val87_args (V0 : Valuation τ sig (Elt F)) : ∀ r ∈ argRefs, val87 V0 (Proc.devRef .tc r) = V0 (Proc.devRef .tc r) :=
  result_keep_list (op87 (F := F)) (val86 V0) V0 argRefs main_cst_7 rfl (by decide) (val86_args V0)
theorem val88_args (V0 : Valuation τ sig (Elt F)) : ∀ r ∈ argRefs, val88 V0 (Proc.devRef .tc r) = V0 (Proc.devRef .tc r) :=
  result_keep_list (op88 (F := F)) (val87 V0) V0 argRefs main_v77 rfl (by decide) (val87_args V0)
theorem val89_args (V0 : Valuation τ sig (Elt F)) : ∀ r ∈ argRefs, val89 V0 (Proc.devRef .tc r) = V0 (Proc.devRef .tc r) :=
  result_keep_list (op89 (F := F)) (val88 V0) V0 argRefs main_v78 rfl (by decide) (val88_args V0)
theorem val90_args (V0 : Valuation τ sig (Elt F)) : ∀ r ∈ argRefs, val90 V0 (Proc.devRef .tc r) = V0 (Proc.devRef .tc r) :=
  result_keep_list (op90 (F := F)) (val89 V0) V0 argRefs main_cst_8 rfl (by decide) (val89_args V0)
theorem val91_args (V0 : Valuation τ sig (Elt F)) : ∀ r ∈ argRefs, val91 V0 (Proc.devRef .tc r) = V0 (Proc.devRef .tc r) :=
  result_keep_list (op91 (F := F)) (val90 V0) V0 argRefs main_v79 rfl (by decide) (val90_args V0)
theorem val92_args (V0 : Valuation τ sig (Elt F)) : ∀ r ∈ argRefs, val92 V0 (Proc.devRef .tc r) = V0 (Proc.devRef .tc r) :=
  result_keep_list (op92 (F := F)) (val91 V0) V0 argRefs main_v80 rfl (by decide) (val91_args V0)
theorem val93_args (V0 : Valuation τ sig (Elt F)) : ∀ r ∈ argRefs, val93 V0 (Proc.devRef .tc r) = V0 (Proc.devRef .tc r) :=
  result_keep_list (op93 (F := F)) (val92 V0) V0 argRefs main_v81 rfl (by decide) (val92_args V0)
theorem val94_args (V0 : Valuation τ sig (Elt F)) : ∀ r ∈ argRefs, val94 V0 (Proc.devRef .tc r) = V0 (Proc.devRef .tc r) :=
  result_keep_list (op94 (F := F)) (val93 V0) V0 argRefs main_v82 rfl (by decide) (val93_args V0)
theorem val95_args (V0 : Valuation τ sig (Elt F)) : ∀ r ∈ argRefs, val95 V0 (Proc.devRef .tc r) = V0 (Proc.devRef .tc r) :=
  result_keep_list (op95 (F := F)) (val94 V0) V0 argRefs main_v83 rfl (by decide) (val94_args V0)
theorem val96_args (V0 : Valuation τ sig (Elt F)) : ∀ r ∈ argRefs, val96 V0 (Proc.devRef .tc r) = V0 (Proc.devRef .tc r) :=
  result_keep_list (op96 (F := F)) (val95 V0) V0 argRefs main_v84 rfl (by decide) (val95_args V0)
theorem val97_args (V0 : Valuation τ sig (Elt F)) : ∀ r ∈ argRefs, val97 V0 (Proc.devRef .tc r) = V0 (Proc.devRef .tc r) :=
  result_keep_list (op97 (F := F)) (val96 V0) V0 argRefs main_v85 rfl (by decide) (val96_args V0)
theorem val98_args (V0 : Valuation τ sig (Elt F)) : ∀ r ∈ argRefs, val98 V0 (Proc.devRef .tc r) = V0 (Proc.devRef .tc r) :=
  result_keep_list (op98 (F := F)) (val97 V0) V0 argRefs main_v86 rfl (by decide) (val97_args V0)
theorem val99_args (V0 : Valuation τ sig (Elt F)) : ∀ r ∈ argRefs, val99 V0 (Proc.devRef .tc r) = V0 (Proc.devRef .tc r) :=
  result_keep_list (op99 (F := F)) (val98 V0) V0 argRefs main_v87 rfl (by decide) (val98_args V0)
theorem val100_args (V0 : Valuation τ sig (Elt F)) : ∀ r ∈ argRefs, val100 V0 (Proc.devRef .tc r) = V0 (Proc.devRef .tc r) :=
  result_keep_list (op100 (F := F)) (val99 V0) V0 argRefs main_v88 rfl (by decide) (val99_args V0)

/-! ## Every buffer holds its stage from the operation that writes it until its last reader -/

variable (m : (ℓ : Loc nD τ sig) → Buf (Elt F) ℓ) (c : Dev nD)

theorem val1_main_c : val1 (launchContents m c) (Proc.devRef .tc main_c) = res_main_c (argsOf m c) := by
  unfold val1
  rw [nullary_result]
  rfl
theorem val2_main_c_0 : val2 (launchContents m c) (Proc.devRef .tc main_c_0) = res_main_c_0 (argsOf m c) := by
  unfold val2
  rw [nullary_result]
  rfl
theorem val2_main_c : val2 (launchContents m c) (Proc.devRef .tc main_c) = res_main_c (argsOf m c) :=
  (result_keep (op2 (F := F)) _ main_c_0 rfl (by decide)).trans (val1_main_c m c)
theorem val3_main_v0 : val3 (launchContents m c) (Proc.devRef .tc main_v0) = res_main_v0 (argsOf m c) := by
  unfold val3
  rw [unary_result, val2_args _ main_arg0 (by decide)]
  rfl
theorem val3_main_c : val3 (launchContents m c) (Proc.devRef .tc main_c) = res_main_c (argsOf m c) :=
  (result_keep (op3 (F := F)) _ main_v0 rfl (by decide)).trans (val2_main_c m c)
theorem val3_main_c_0 : val3 (launchContents m c) (Proc.devRef .tc main_c_0) = res_main_c_0 (argsOf m c) :=
  (result_keep (op3 (F := F)) _ main_v0 rfl (by decide)).trans (val2_main_c_0 m c)
theorem val4_main_v1 : val4 (launchContents m c) (Proc.devRef .tc main_v1) = res_main_v1 (argsOf m c) := by
  unfold val4
  rw [unary_result, val3_args _ main_arg0 (by decide)]
  rfl
theorem val4_main_c : val4 (launchContents m c) (Proc.devRef .tc main_c) = res_main_c (argsOf m c) :=
  (result_keep (op4 (F := F)) _ main_v1 rfl (by decide)).trans (val3_main_c m c)
theorem val4_main_c_0 : val4 (launchContents m c) (Proc.devRef .tc main_c_0) = res_main_c_0 (argsOf m c) :=
  (result_keep (op4 (F := F)) _ main_v1 rfl (by decide)).trans (val3_main_c_0 m c)
theorem val4_main_v0 : val4 (launchContents m c) (Proc.devRef .tc main_v0) = res_main_v0 (argsOf m c) :=
  (result_keep (op4 (F := F)) _ main_v1 rfl (by decide)).trans (val3_main_v0 m c)
theorem val5_main_v2 : val5 (launchContents m c) (Proc.devRef .tc main_v2) = res_main_v2 (argsOf m c) := by
  unfold val5
  rw [unary_result, val4_main_v0 m c]
  rfl
theorem val5_main_c : val5 (launchContents m c) (Proc.devRef .tc main_c) = res_main_c (argsOf m c) :=
  (result_keep (op5 (F := F)) _ main_v2 rfl (by decide)).trans (val4_main_c m c)
theorem val5_main_c_0 : val5 (launchContents m c) (Proc.devRef .tc main_c_0) = res_main_c_0 (argsOf m c) :=
  (result_keep (op5 (F := F)) _ main_v2 rfl (by decide)).trans (val4_main_c_0 m c)
theorem val5_main_v1 : val5 (launchContents m c) (Proc.devRef .tc main_v1) = res_main_v1 (argsOf m c) :=
  (result_keep (op5 (F := F)) _ main_v2 rfl (by decide)).trans (val4_main_v1 m c)
theorem val6_main_v3 : val6 (launchContents m c) (Proc.devRef .tc main_v3) = res_main_v3 (argsOf m c) := by
  unfold val6
  rw [unary_result, val5_args _ main_arg1 (by decide)]
  rfl
theorem val6_main_c : val6 (launchContents m c) (Proc.devRef .tc main_c) = res_main_c (argsOf m c) :=
  (result_keep (op6 (F := F)) _ main_v3 rfl (by decide)).trans (val5_main_c m c)
theorem val6_main_c_0 : val6 (launchContents m c) (Proc.devRef .tc main_c_0) = res_main_c_0 (argsOf m c) :=
  (result_keep (op6 (F := F)) _ main_v3 rfl (by decide)).trans (val5_main_c_0 m c)
theorem val6_main_v1 : val6 (launchContents m c) (Proc.devRef .tc main_v1) = res_main_v1 (argsOf m c) :=
  (result_keep (op6 (F := F)) _ main_v3 rfl (by decide)).trans (val5_main_v1 m c)
theorem val6_main_v2 : val6 (launchContents m c) (Proc.devRef .tc main_v2) = res_main_v2 (argsOf m c) :=
  (result_keep (op6 (F := F)) _ main_v3 rfl (by decide)).trans (val5_main_v2 m c)
theorem val7_main_v4 : val7 (launchContents m c) (Proc.devRef .tc main_v4) = res_main_v4 (argsOf m c) := by
  unfold val7
  rw [unary_result, val6_args _ main_arg2 (by decide)]
  rfl
theorem val7_main_c : val7 (launchContents m c) (Proc.devRef .tc main_c) = res_main_c (argsOf m c) :=
  (result_keep (op7 (F := F)) _ main_v4 rfl (by decide)).trans (val6_main_c m c)
theorem val7_main_c_0 : val7 (launchContents m c) (Proc.devRef .tc main_c_0) = res_main_c_0 (argsOf m c) :=
  (result_keep (op7 (F := F)) _ main_v4 rfl (by decide)).trans (val6_main_c_0 m c)
theorem val7_main_v1 : val7 (launchContents m c) (Proc.devRef .tc main_v1) = res_main_v1 (argsOf m c) :=
  (result_keep (op7 (F := F)) _ main_v4 rfl (by decide)).trans (val6_main_v1 m c)
theorem val7_main_v2 : val7 (launchContents m c) (Proc.devRef .tc main_v2) = res_main_v2 (argsOf m c) :=
  (result_keep (op7 (F := F)) _ main_v4 rfl (by decide)).trans (val6_main_v2 m c)
theorem val7_main_v3 : val7 (launchContents m c) (Proc.devRef .tc main_v3) = res_main_v3 (argsOf m c) :=
  (result_keep (op7 (F := F)) _ main_v4 rfl (by decide)).trans (val6_main_v3 m c)
theorem val8_main_v5 : val8 (launchContents m c) (Proc.devRef .tc main_v5) = res_main_v5 (argsOf m c) := by
  unfold val8
  rw [unary_result, val7_main_v1 m c]
  rfl
theorem val8_main_c : val8 (launchContents m c) (Proc.devRef .tc main_c) = res_main_c (argsOf m c) :=
  (result_keep (op8 (F := F)) _ main_v5 rfl (by decide)).trans (val7_main_c m c)
theorem val8_main_c_0 : val8 (launchContents m c) (Proc.devRef .tc main_c_0) = res_main_c_0 (argsOf m c) :=
  (result_keep (op8 (F := F)) _ main_v5 rfl (by decide)).trans (val7_main_c_0 m c)
theorem val8_main_v2 : val8 (launchContents m c) (Proc.devRef .tc main_v2) = res_main_v2 (argsOf m c) :=
  (result_keep (op8 (F := F)) _ main_v5 rfl (by decide)).trans (val7_main_v2 m c)
theorem val8_main_v3 : val8 (launchContents m c) (Proc.devRef .tc main_v3) = res_main_v3 (argsOf m c) :=
  (result_keep (op8 (F := F)) _ main_v5 rfl (by decide)).trans (val7_main_v3 m c)
theorem val8_main_v4 : val8 (launchContents m c) (Proc.devRef .tc main_v4) = res_main_v4 (argsOf m c) :=
  (result_keep (op8 (F := F)) _ main_v5 rfl (by decide)).trans (val7_main_v4 m c)
theorem val9_main_v6 : val9 (launchContents m c) (Proc.devRef .tc main_v6) = res_main_v6 (argsOf m c) := by
  unfold val9
  rw [nary4_result, val8_main_v2 m c, val8_main_v3 m c, val8_main_v4 m c, val8_main_v5 m c]
  rfl
theorem val9_main_c : val9 (launchContents m c) (Proc.devRef .tc main_c) = res_main_c (argsOf m c) :=
  (result_keep (op9 (F := F)) _ main_v6 rfl (by decide)).trans (val8_main_c m c)
theorem val9_main_c_0 : val9 (launchContents m c) (Proc.devRef .tc main_c_0) = res_main_c_0 (argsOf m c) :=
  (result_keep (op9 (F := F)) _ main_v6 rfl (by decide)).trans (val8_main_c_0 m c)
theorem val10_main_v7 : val10 (launchContents m c) (Proc.devRef .tc main_v7) = res_main_v7 (argsOf m c) := by
  unfold val10
  rw [binary_result, val9_main_v6 m c, val9_args _ main_arg3 (by decide)]
  rfl
theorem val10_main_c : val10 (launchContents m c) (Proc.devRef .tc main_c) = res_main_c (argsOf m c) :=
  (result_keep (op10 (F := F)) _ main_v7 rfl (by decide)).trans (val9_main_c m c)
theorem val10_main_c_0 : val10 (launchContents m c) (Proc.devRef .tc main_c_0) = res_main_c_0 (argsOf m c) :=
  (result_keep (op10 (F := F)) _ main_v7 rfl (by decide)).trans (val9_main_c_0 m c)
theorem val10_main_v6 : val10 (launchContents m c) (Proc.devRef .tc main_v6) = res_main_v6 (argsOf m c) :=
  (result_keep (op10 (F := F)) _ main_v7 rfl (by decide)).trans (val9_main_v6 m c)
theorem val11_main_c_1 : val11 (launchContents m c) (Proc.devRef .tc main_c_1) = res_main_c_1 (argsOf m c) := by
  unfold val11
  rw [nullary_result]
  rfl
theorem val11_main_c : val11 (launchContents m c) (Proc.devRef .tc main_c) = res_main_c (argsOf m c) :=
  (result_keep (op11 (F := F)) _ main_c_1 rfl (by decide)).trans (val10_main_c m c)
theorem val11_main_c_0 : val11 (launchContents m c) (Proc.devRef .tc main_c_0) = res_main_c_0 (argsOf m c) :=
  (result_keep (op11 (F := F)) _ main_c_1 rfl (by decide)).trans (val10_main_c_0 m c)
theorem val11_main_v6 : val11 (launchContents m c) (Proc.devRef .tc main_v6) = res_main_v6 (argsOf m c) :=
  (result_keep (op11 (F := F)) _ main_c_1 rfl (by decide)).trans (val10_main_v6 m c)
theorem val11_main_v7 : val11 (launchContents m c) (Proc.devRef .tc main_v7) = res_main_v7 (argsOf m c) :=
  (result_keep (op11 (F := F)) _ main_c_1 rfl (by decide)).trans (val10_main_v7 m c)
theorem val12_main_v8 : val12 (launchContents m c) (Proc.devRef .tc main_v8) = res_main_v8 (argsOf m c) := by
  unfold val12
  rw [unary_result, val11_main_c_1 m c]
  rfl
theorem val12_main_c : val12 (launchContents m c) (Proc.devRef .tc main_c) = res_main_c (argsOf m c) :=
  (result_keep (op12 (F := F)) _ main_v8 rfl (by decide)).trans (val11_main_c m c)
theorem val12_main_c_0 : val12 (launchContents m c) (Proc.devRef .tc main_c_0) = res_main_c_0 (argsOf m c) :=
  (result_keep (op12 (F := F)) _ main_v8 rfl (by decide)).trans (val11_main_c_0 m c)
theorem val12_main_v6 : val12 (launchContents m c) (Proc.devRef .tc main_v6) = res_main_v6 (argsOf m c) :=
  (result_keep (op12 (F := F)) _ main_v8 rfl (by decide)).trans (val11_main_v6 m c)
theorem val12_main_v7 : val12 (launchContents m c) (Proc.devRef .tc main_v7) = res_main_v7 (argsOf m c) :=
  (result_keep (op12 (F := F)) _ main_v8 rfl (by decide)).trans (val11_main_v7 m c)
theorem val13_main_v9 : val13 (launchContents m c) (Proc.devRef .tc main_v9) = res_main_v9 (argsOf m c) := by
  unfold val13
  rw [binary_result, val12_main_c m c, val12_main_v8 m c]
  rfl
theorem val13_main_c : val13 (launchContents m c) (Proc.devRef .tc main_c) = res_main_c (argsOf m c) :=
  (result_keep (op13 (F := F)) _ main_v9 rfl (by decide)).trans (val12_main_c m c)
theorem val13_main_c_0 : val13 (launchContents m c) (Proc.devRef .tc main_c_0) = res_main_c_0 (argsOf m c) :=
  (result_keep (op13 (F := F)) _ main_v9 rfl (by decide)).trans (val12_main_c_0 m c)
theorem val13_main_v6 : val13 (launchContents m c) (Proc.devRef .tc main_v6) = res_main_v6 (argsOf m c) :=
  (result_keep (op13 (F := F)) _ main_v9 rfl (by decide)).trans (val12_main_v6 m c)
theorem val13_main_v7 : val13 (launchContents m c) (Proc.devRef .tc main_v7) = res_main_v7 (argsOf m c) :=
  (result_keep (op13 (F := F)) _ main_v9 rfl (by decide)).trans (val12_main_v7 m c)
theorem val14_main_c_2 : val14 (launchContents m c) (Proc.devRef .tc main_c_2) = res_main_c_2 (argsOf m c) := by
  unfold val14
  rw [nullary_result]
  rfl
theorem val14_main_c : val14 (launchContents m c) (Proc.devRef .tc main_c) = res_main_c (argsOf m c) :=
  (result_keep (op14 (F := F)) _ main_c_2 rfl (by decide)).trans (val13_main_c m c)
theorem val14_main_c_0 : val14 (launchContents m c) (Proc.devRef .tc main_c_0) = res_main_c_0 (argsOf m c) :=
  (result_keep (op14 (F := F)) _ main_c_2 rfl (by decide)).trans (val13_main_c_0 m c)
theorem val14_main_v6 : val14 (launchContents m c) (Proc.devRef .tc main_v6) = res_main_v6 (argsOf m c) :=
  (result_keep (op14 (F := F)) _ main_c_2 rfl (by decide)).trans (val13_main_v6 m c)
theorem val14_main_v7 : val14 (launchContents m c) (Proc.devRef .tc main_v7) = res_main_v7 (argsOf m c) :=
  (result_keep (op14 (F := F)) _ main_c_2 rfl (by decide)).trans (val13_main_v7 m c)
theorem val14_main_v9 : val14 (launchContents m c) (Proc.devRef .tc main_v9) = res_main_v9 (argsOf m c) :=
  (result_keep (op14 (F := F)) _ main_c_2 rfl (by decide)).trans (val13_main_v9 m c)
theorem val15_main_v10 : val15 (launchContents m c) (Proc.devRef .tc main_v10) = res_main_v10 (argsOf m c) := by
  unfold val15
  rw [unary_result, val14_main_c_2 m c]
  rfl
theorem val15_main_c : val15 (launchContents m c) (Proc.devRef .tc main_c) = res_main_c (argsOf m c) :=
  (result_keep (op15 (F := F)) _ main_v10 rfl (by decide)).trans (val14_main_c m c)
theorem val15_main_c_0 : val15 (launchContents m c) (Proc.devRef .tc main_c_0) = res_main_c_0 (argsOf m c) :=
  (result_keep (op15 (F := F)) _ main_v10 rfl (by decide)).trans (val14_main_c_0 m c)
theorem val15_main_v6 : val15 (launchContents m c) (Proc.devRef .tc main_v6) = res_main_v6 (argsOf m c) :=
  (result_keep (op15 (F := F)) _ main_v10 rfl (by decide)).trans (val14_main_v6 m c)
theorem val15_main_v7 : val15 (launchContents m c) (Proc.devRef .tc main_v7) = res_main_v7 (argsOf m c) :=
  (result_keep (op15 (F := F)) _ main_v10 rfl (by decide)).trans (val14_main_v7 m c)
theorem val15_main_v9 : val15 (launchContents m c) (Proc.devRef .tc main_v9) = res_main_v9 (argsOf m c) :=
  (result_keep (op15 (F := F)) _ main_v10 rfl (by decide)).trans (val14_main_v9 m c)
theorem val16_main_v11 : val16 (launchContents m c) (Proc.devRef .tc main_v11) = res_main_v11 (argsOf m c) := by
  unfold val16
  rw [binary_result, val15_main_c m c, val15_main_v10 m c]
  rfl
theorem val16_main_c : val16 (launchContents m c) (Proc.devRef .tc main_c) = res_main_c (argsOf m c) :=
  (result_keep (op16 (F := F)) _ main_v11 rfl (by decide)).trans (val15_main_c m c)
theorem val16_main_c_0 : val16 (launchContents m c) (Proc.devRef .tc main_c_0) = res_main_c_0 (argsOf m c) :=
  (result_keep (op16 (F := F)) _ main_v11 rfl (by decide)).trans (val15_main_c_0 m c)
theorem val16_main_v6 : val16 (launchContents m c) (Proc.devRef .tc main_v6) = res_main_v6 (argsOf m c) :=
  (result_keep (op16 (F := F)) _ main_v11 rfl (by decide)).trans (val15_main_v6 m c)
theorem val16_main_v7 : val16 (launchContents m c) (Proc.devRef .tc main_v7) = res_main_v7 (argsOf m c) :=
  (result_keep (op16 (F := F)) _ main_v11 rfl (by decide)).trans (val15_main_v7 m c)
theorem val16_main_v9 : val16 (launchContents m c) (Proc.devRef .tc main_v9) = res_main_v9 (argsOf m c) :=
  (result_keep (op16 (F := F)) _ main_v11 rfl (by decide)).trans (val15_main_v9 m c)
theorem val17_main_v12 : val17 (launchContents m c) (Proc.devRef .tc main_v12) = res_main_v12 (argsOf m c) := by
  unfold val17
  rw [ternary_result, val16_main_v9 m c, val16_main_v11 m c, val16_main_c m c]
  rfl
theorem val17_main_c : val17 (launchContents m c) (Proc.devRef .tc main_c) = res_main_c (argsOf m c) :=
  (result_keep (op17 (F := F)) _ main_v12 rfl (by decide)).trans (val16_main_c m c)
theorem val17_main_c_0 : val17 (launchContents m c) (Proc.devRef .tc main_c_0) = res_main_c_0 (argsOf m c) :=
  (result_keep (op17 (F := F)) _ main_v12 rfl (by decide)).trans (val16_main_c_0 m c)
theorem val17_main_v6 : val17 (launchContents m c) (Proc.devRef .tc main_v6) = res_main_v6 (argsOf m c) :=
  (result_keep (op17 (F := F)) _ main_v12 rfl (by decide)).trans (val16_main_v6 m c)
theorem val17_main_v7 : val17 (launchContents m c) (Proc.devRef .tc main_v7) = res_main_v7 (argsOf m c) :=
  (result_keep (op17 (F := F)) _ main_v12 rfl (by decide)).trans (val16_main_v7 m c)
theorem val18_main_v13 : val18 (launchContents m c) (Proc.devRef .tc main_v13) = res_main_v13 (argsOf m c) := by
  unfold val18
  rw [unary_result, val17_main_v12 m c]
  rfl
theorem val18_main_c : val18 (launchContents m c) (Proc.devRef .tc main_c) = res_main_c (argsOf m c) :=
  (result_keep (op18 (F := F)) _ main_v13 rfl (by decide)).trans (val17_main_c m c)
theorem val18_main_c_0 : val18 (launchContents m c) (Proc.devRef .tc main_c_0) = res_main_c_0 (argsOf m c) :=
  (result_keep (op18 (F := F)) _ main_v13 rfl (by decide)).trans (val17_main_c_0 m c)
theorem val18_main_v6 : val18 (launchContents m c) (Proc.devRef .tc main_v6) = res_main_v6 (argsOf m c) :=
  (result_keep (op18 (F := F)) _ main_v13 rfl (by decide)).trans (val17_main_v6 m c)
theorem val18_main_v7 : val18 (launchContents m c) (Proc.devRef .tc main_v7) = res_main_v7 (argsOf m c) :=
  (result_keep (op18 (F := F)) _ main_v13 rfl (by decide)).trans (val17_main_v7 m c)
theorem val19_main_v14 : val19 (launchContents m c) (Proc.devRef .tc main_v14) = res_main_v14 (argsOf m c) := by
  unfold val19
  rw [binary_result, val18_main_v6 m c, val18_main_v13 m c]
  rfl
theorem val19_main_c : val19 (launchContents m c) (Proc.devRef .tc main_c) = res_main_c (argsOf m c) :=
  (result_keep (op19 (F := F)) _ main_v14 rfl (by decide)).trans (val18_main_c m c)
theorem val19_main_c_0 : val19 (launchContents m c) (Proc.devRef .tc main_c_0) = res_main_c_0 (argsOf m c) :=
  (result_keep (op19 (F := F)) _ main_v14 rfl (by decide)).trans (val18_main_c_0 m c)
theorem val19_main_v7 : val19 (launchContents m c) (Proc.devRef .tc main_v7) = res_main_v7 (argsOf m c) :=
  (result_keep (op19 (F := F)) _ main_v14 rfl (by decide)).trans (val18_main_v7 m c)
theorem val20_main_v15 : val20 (launchContents m c) (Proc.devRef .tc main_v15) = res_main_v15 (argsOf m c) := by
  unfold val20
  rw [binary_result, val19_main_v14 m c, val19_args _ main_arg4 (by decide)]
  rfl
theorem val20_main_c : val20 (launchContents m c) (Proc.devRef .tc main_c) = res_main_c (argsOf m c) :=
  (result_keep (op20 (F := F)) _ main_v15 rfl (by decide)).trans (val19_main_c m c)
theorem val20_main_c_0 : val20 (launchContents m c) (Proc.devRef .tc main_c_0) = res_main_c_0 (argsOf m c) :=
  (result_keep (op20 (F := F)) _ main_v15 rfl (by decide)).trans (val19_main_c_0 m c)
theorem val20_main_v7 : val20 (launchContents m c) (Proc.devRef .tc main_v7) = res_main_v7 (argsOf m c) :=
  (result_keep (op20 (F := F)) _ main_v15 rfl (by decide)).trans (val19_main_v7 m c)
theorem val21_main_v16 : val21 (launchContents m c) (Proc.devRef .tc main_v16) = res_main_v16 (argsOf m c) := by
  unfold val21
  rw [unary_result, val20_args _ main_arg5 (by decide)]
  rfl
theorem val21_main_c : val21 (launchContents m c) (Proc.devRef .tc main_c) = res_main_c (argsOf m c) :=
  (result_keep (op21 (F := F)) _ main_v16 rfl (by decide)).trans (val20_main_c m c)
theorem val21_main_c_0 : val21 (launchContents m c) (Proc.devRef .tc main_c_0) = res_main_c_0 (argsOf m c) :=
  (result_keep (op21 (F := F)) _ main_v16 rfl (by decide)).trans (val20_main_c_0 m c)
theorem val21_main_v7 : val21 (launchContents m c) (Proc.devRef .tc main_v7) = res_main_v7 (argsOf m c) :=
  (result_keep (op21 (F := F)) _ main_v16 rfl (by decide)).trans (val20_main_v7 m c)
theorem val21_main_v15 : val21 (launchContents m c) (Proc.devRef .tc main_v15) = res_main_v15 (argsOf m c) :=
  (result_keep (op21 (F := F)) _ main_v16 rfl (by decide)).trans (val20_main_v15 m c)
theorem val22_main_v17 : val22 (launchContents m c) (Proc.devRef .tc main_v17) = res_main_v17 (argsOf m c) := by
  unfold val22
  rw [binary_result, val21_main_v15 m c, val21_main_v16 m c]
  rfl
theorem val22_main_c : val22 (launchContents m c) (Proc.devRef .tc main_c) = res_main_c (argsOf m c) :=
  (result_keep (op22 (F := F)) _ main_v17 rfl (by decide)).trans (val21_main_c m c)
theorem val22_main_c_0 : val22 (launchContents m c) (Proc.devRef .tc main_c_0) = res_main_c_0 (argsOf m c) :=
  (result_keep (op22 (F := F)) _ main_v17 rfl (by decide)).trans (val21_main_c_0 m c)
theorem val22_main_v7 : val22 (launchContents m c) (Proc.devRef .tc main_v7) = res_main_v7 (argsOf m c) :=
  (result_keep (op22 (F := F)) _ main_v17 rfl (by decide)).trans (val21_main_v7 m c)
theorem val23_main_cst : val23 (launchContents m c) (Proc.devRef .tc main_cst) = res_main_cst (argsOf m c) := by
  unfold val23
  rw [nullary_result]
  rfl
theorem val23_main_c : val23 (launchContents m c) (Proc.devRef .tc main_c) = res_main_c (argsOf m c) :=
  (result_keep (op23 (F := F)) _ main_cst rfl (by decide)).trans (val22_main_c m c)
theorem val23_main_c_0 : val23 (launchContents m c) (Proc.devRef .tc main_c_0) = res_main_c_0 (argsOf m c) :=
  (result_keep (op23 (F := F)) _ main_cst rfl (by decide)).trans (val22_main_c_0 m c)
theorem val23_main_v7 : val23 (launchContents m c) (Proc.devRef .tc main_v7) = res_main_v7 (argsOf m c) :=
  (result_keep (op23 (F := F)) _ main_cst rfl (by decide)).trans (val22_main_v7 m c)
theorem val23_main_v17 : val23 (launchContents m c) (Proc.devRef .tc main_v17) = res_main_v17 (argsOf m c) :=
  (result_keep (op23 (F := F)) _ main_cst rfl (by decide)).trans (val22_main_v17 m c)
theorem val24_main_v18 : val24 (launchContents m c) (Proc.devRef .tc main_v18) = res_main_v18 (argsOf m c) := by
  unfold val24
  rw [unary_result, val23_main_cst m c]
  rfl
theorem val24_main_c : val24 (launchContents m c) (Proc.devRef .tc main_c) = res_main_c (argsOf m c) :=
  (result_keep (op24 (F := F)) _ main_v18 rfl (by decide)).trans (val23_main_c m c)
theorem val24_main_c_0 : val24 (launchContents m c) (Proc.devRef .tc main_c_0) = res_main_c_0 (argsOf m c) :=
  (result_keep (op24 (F := F)) _ main_v18 rfl (by decide)).trans (val23_main_c_0 m c)
theorem val24_main_v7 : val24 (launchContents m c) (Proc.devRef .tc main_v7) = res_main_v7 (argsOf m c) :=
  (result_keep (op24 (F := F)) _ main_v18 rfl (by decide)).trans (val23_main_v7 m c)
theorem val24_main_v17 : val24 (launchContents m c) (Proc.devRef .tc main_v17) = res_main_v17 (argsOf m c) :=
  (result_keep (op24 (F := F)) _ main_v18 rfl (by decide)).trans (val23_main_v17 m c)
theorem val25_main_v19 : val25 (launchContents m c) (Proc.devRef .tc main_v19) = res_main_v19 (argsOf m c) := by
  unfold val25
  rw [unary_result, val24_main_c_0 m c]
  rfl
theorem val25_main_c : val25 (launchContents m c) (Proc.devRef .tc main_c) = res_main_c (argsOf m c) :=
  (result_keep (op25 (F := F)) _ main_v19 rfl (by decide)).trans (val24_main_c m c)
theorem val25_main_c_0 : val25 (launchContents m c) (Proc.devRef .tc main_c_0) = res_main_c_0 (argsOf m c) :=
  (result_keep (op25 (F := F)) _ main_v19 rfl (by decide)).trans (val24_main_c_0 m c)
theorem val25_main_v7 : val25 (launchContents m c) (Proc.devRef .tc main_v7) = res_main_v7 (argsOf m c) :=
  (result_keep (op25 (F := F)) _ main_v19 rfl (by decide)).trans (val24_main_v7 m c)
theorem val25_main_v17 : val25 (launchContents m c) (Proc.devRef .tc main_v17) = res_main_v17 (argsOf m c) :=
  (result_keep (op25 (F := F)) _ main_v19 rfl (by decide)).trans (val24_main_v17 m c)
theorem val25_main_v18 : val25 (launchContents m c) (Proc.devRef .tc main_v18) = res_main_v18 (argsOf m c) :=
  (result_keep (op25 (F := F)) _ main_v19 rfl (by decide)).trans (val24_main_v18 m c)
theorem val26_main_v20 : val26 (launchContents m c) (Proc.devRef .tc main_v20) = res_main_v20 (argsOf m c) := by
  unfold val26
  rw [ternary_result, val25_main_v18 m c, val25_main_v19 m c, val25_main_v17 m c]
  rfl
theorem val26_main_c : val26 (launchContents m c) (Proc.devRef .tc main_c) = res_main_c (argsOf m c) :=
  (result_keep (op26 (F := F)) _ main_v20 rfl (by decide)).trans (val25_main_c m c)
theorem val26_main_c_0 : val26 (launchContents m c) (Proc.devRef .tc main_c_0) = res_main_c_0 (argsOf m c) :=
  (result_keep (op26 (F := F)) _ main_v20 rfl (by decide)).trans (val25_main_c_0 m c)
theorem val26_main_v7 : val26 (launchContents m c) (Proc.devRef .tc main_v7) = res_main_v7 (argsOf m c) :=
  (result_keep (op26 (F := F)) _ main_v20 rfl (by decide)).trans (val25_main_v7 m c)
theorem val27_main_v21 : val27 (launchContents m c) (Proc.devRef .tc main_v21) = res_main_v21 (argsOf m c) := by
  unfold val27
  rw [unary_result, val26_args _ main_arg6 (by decide)]
  rfl
theorem val27_main_c : val27 (launchContents m c) (Proc.devRef .tc main_c) = res_main_c (argsOf m c) :=
  (result_keep (op27 (F := F)) _ main_v21 rfl (by decide)).trans (val26_main_c m c)
theorem val27_main_c_0 : val27 (launchContents m c) (Proc.devRef .tc main_c_0) = res_main_c_0 (argsOf m c) :=
  (result_keep (op27 (F := F)) _ main_v21 rfl (by decide)).trans (val26_main_c_0 m c)
theorem val27_main_v7 : val27 (launchContents m c) (Proc.devRef .tc main_v7) = res_main_v7 (argsOf m c) :=
  (result_keep (op27 (F := F)) _ main_v21 rfl (by decide)).trans (val26_main_v7 m c)
theorem val27_main_v20 : val27 (launchContents m c) (Proc.devRef .tc main_v20) = res_main_v20 (argsOf m c) :=
  (result_keep (op27 (F := F)) _ main_v21 rfl (by decide)).trans (val26_main_v20 m c)
theorem val28_main_v22 : val28 (launchContents m c) (Proc.devRef .tc main_v22) = res_main_v22 (argsOf m c) := by
  unfold val28
  rw [binary_result, val27_main_v20 m c, val27_main_v21 m c]
  rfl
theorem val28_main_c : val28 (launchContents m c) (Proc.devRef .tc main_c) = res_main_c (argsOf m c) :=
  (result_keep (op28 (F := F)) _ main_v22 rfl (by decide)).trans (val27_main_c m c)
theorem val28_main_c_0 : val28 (launchContents m c) (Proc.devRef .tc main_c_0) = res_main_c_0 (argsOf m c) :=
  (result_keep (op28 (F := F)) _ main_v22 rfl (by decide)).trans (val27_main_c_0 m c)
theorem val28_main_v7 : val28 (launchContents m c) (Proc.devRef .tc main_v7) = res_main_v7 (argsOf m c) :=
  (result_keep (op28 (F := F)) _ main_v22 rfl (by decide)).trans (val27_main_v7 m c)
theorem val29_main_v23 : val29 (launchContents m c) (Proc.devRef .tc main_v23) = res_main_v23 (argsOf m c) := by
  unfold val29
  rw [binary_result, val28_main_v22 m c, val28_main_v7 m c]
  rfl
theorem val29_main_c : val29 (launchContents m c) (Proc.devRef .tc main_c) = res_main_c (argsOf m c) :=
  (result_keep (op29 (F := F)) _ main_v23 rfl (by decide)).trans (val28_main_c m c)
theorem val29_main_c_0 : val29 (launchContents m c) (Proc.devRef .tc main_c_0) = res_main_c_0 (argsOf m c) :=
  (result_keep (op29 (F := F)) _ main_v23 rfl (by decide)).trans (val28_main_c_0 m c)
theorem val30_main_v24 : val30 (launchContents m c) (Proc.devRef .tc main_v24) = res_main_v24 (argsOf m c) := by
  unfold val30
  rw [unary_result, val29_main_v23 m c]
  rfl
theorem val30_main_c : val30 (launchContents m c) (Proc.devRef .tc main_c) = res_main_c (argsOf m c) :=
  (result_keep (op30 (F := F)) _ main_v24 rfl (by decide)).trans (val29_main_c m c)
theorem val30_main_c_0 : val30 (launchContents m c) (Proc.devRef .tc main_c_0) = res_main_c_0 (argsOf m c) :=
  (result_keep (op30 (F := F)) _ main_v24 rfl (by decide)).trans (val29_main_c_0 m c)
theorem val31_main_v25 : val31 (launchContents m c) (Proc.devRef .tc main_v25) = res_main_v25 (argsOf m c) := by
  unfold val31
  rw [binary_result, val30_main_v24 m c, val30_args _ main_arg7 (by decide)]
  rfl
theorem val31_main_c : val31 (launchContents m c) (Proc.devRef .tc main_c) = res_main_c (argsOf m c) :=
  (result_keep (op31 (F := F)) _ main_v25 rfl (by decide)).trans (val30_main_c m c)
theorem val31_main_c_0 : val31 (launchContents m c) (Proc.devRef .tc main_c_0) = res_main_c_0 (argsOf m c) :=
  (result_keep (op31 (F := F)) _ main_v25 rfl (by decide)).trans (val30_main_c_0 m c)
theorem val31_main_v24 : val31 (launchContents m c) (Proc.devRef .tc main_v24) = res_main_v24 (argsOf m c) :=
  (result_keep (op31 (F := F)) _ main_v25 rfl (by decide)).trans (val30_main_v24 m c)
theorem val32_main_c_3 : val32 (launchContents m c) (Proc.devRef .tc main_c_3) = res_main_c_3 (argsOf m c) := by
  unfold val32
  rw [nullary_result]
  rfl
theorem val32_main_c : val32 (launchContents m c) (Proc.devRef .tc main_c) = res_main_c (argsOf m c) :=
  (result_keep (op32 (F := F)) _ main_c_3 rfl (by decide)).trans (val31_main_c m c)
theorem val32_main_c_0 : val32 (launchContents m c) (Proc.devRef .tc main_c_0) = res_main_c_0 (argsOf m c) :=
  (result_keep (op32 (F := F)) _ main_c_3 rfl (by decide)).trans (val31_main_c_0 m c)
theorem val32_main_v24 : val32 (launchContents m c) (Proc.devRef .tc main_v24) = res_main_v24 (argsOf m c) :=
  (result_keep (op32 (F := F)) _ main_c_3 rfl (by decide)).trans (val31_main_v24 m c)
theorem val32_main_v25 : val32 (launchContents m c) (Proc.devRef .tc main_v25) = res_main_v25 (argsOf m c) :=
  (result_keep (op32 (F := F)) _ main_c_3 rfl (by decide)).trans (val31_main_v25 m c)
theorem val33_main_v26 : val33 (launchContents m c) (Proc.devRef .tc main_v26) = res_main_v26 (argsOf m c) := by
  unfold val33
  rw [unary_result, val32_main_c_3 m c]
  rfl
theorem val33_main_c : val33 (launchContents m c) (Proc.devRef .tc main_c) = res_main_c (argsOf m c) :=
  (result_keep (op33 (F := F)) _ main_v26 rfl (by decide)).trans (val32_main_c m c)
theorem val33_main_c_0 : val33 (launchContents m c) (Proc.devRef .tc main_c_0) = res_main_c_0 (argsOf m c) :=
  (result_keep (op33 (F := F)) _ main_v26 rfl (by decide)).trans (val32_main_c_0 m c)
theorem val33_main_v24 : val33 (launchContents m c) (Proc.devRef .tc main_v24) = res_main_v24 (argsOf m c) :=
  (result_keep (op33 (F := F)) _ main_v26 rfl (by decide)).trans (val32_main_v24 m c)
theorem val33_main_v25 : val33 (launchContents m c) (Proc.devRef .tc main_v25) = res_main_v25 (argsOf m c) :=
  (result_keep (op33 (F := F)) _ main_v26 rfl (by decide)).trans (val32_main_v25 m c)
theorem val34_main_v27 : val34 (launchContents m c) (Proc.devRef .tc main_v27) = res_main_v27 (argsOf m c) := by
  unfold val34
  rw [binary_result, val33_main_c m c, val33_main_v26 m c]
  rfl
theorem val34_main_c : val34 (launchContents m c) (Proc.devRef .tc main_c) = res_main_c (argsOf m c) :=
  (result_keep (op34 (F := F)) _ main_v27 rfl (by decide)).trans (val33_main_c m c)
theorem val34_main_c_0 : val34 (launchContents m c) (Proc.devRef .tc main_c_0) = res_main_c_0 (argsOf m c) :=
  (result_keep (op34 (F := F)) _ main_v27 rfl (by decide)).trans (val33_main_c_0 m c)
theorem val34_main_v24 : val34 (launchContents m c) (Proc.devRef .tc main_v24) = res_main_v24 (argsOf m c) :=
  (result_keep (op34 (F := F)) _ main_v27 rfl (by decide)).trans (val33_main_v24 m c)
theorem val34_main_v25 : val34 (launchContents m c) (Proc.devRef .tc main_v25) = res_main_v25 (argsOf m c) :=
  (result_keep (op34 (F := F)) _ main_v27 rfl (by decide)).trans (val33_main_v25 m c)
theorem val35_main_c_4 : val35 (launchContents m c) (Proc.devRef .tc main_c_4) = res_main_c_4 (argsOf m c) := by
  unfold val35
  rw [nullary_result]
  rfl
theorem val35_main_c : val35 (launchContents m c) (Proc.devRef .tc main_c) = res_main_c (argsOf m c) :=
  (result_keep (op35 (F := F)) _ main_c_4 rfl (by decide)).trans (val34_main_c m c)
theorem val35_main_c_0 : val35 (launchContents m c) (Proc.devRef .tc main_c_0) = res_main_c_0 (argsOf m c) :=
  (result_keep (op35 (F := F)) _ main_c_4 rfl (by decide)).trans (val34_main_c_0 m c)
theorem val35_main_v24 : val35 (launchContents m c) (Proc.devRef .tc main_v24) = res_main_v24 (argsOf m c) :=
  (result_keep (op35 (F := F)) _ main_c_4 rfl (by decide)).trans (val34_main_v24 m c)
theorem val35_main_v25 : val35 (launchContents m c) (Proc.devRef .tc main_v25) = res_main_v25 (argsOf m c) :=
  (result_keep (op35 (F := F)) _ main_c_4 rfl (by decide)).trans (val34_main_v25 m c)
theorem val35_main_v27 : val35 (launchContents m c) (Proc.devRef .tc main_v27) = res_main_v27 (argsOf m c) :=
  (result_keep (op35 (F := F)) _ main_c_4 rfl (by decide)).trans (val34_main_v27 m c)
theorem val36_main_v28 : val36 (launchContents m c) (Proc.devRef .tc main_v28) = res_main_v28 (argsOf m c) := by
  unfold val36
  rw [unary_result, val35_main_c_4 m c]
  rfl
theorem val36_main_c : val36 (launchContents m c) (Proc.devRef .tc main_c) = res_main_c (argsOf m c) :=
  (result_keep (op36 (F := F)) _ main_v28 rfl (by decide)).trans (val35_main_c m c)
theorem val36_main_c_0 : val36 (launchContents m c) (Proc.devRef .tc main_c_0) = res_main_c_0 (argsOf m c) :=
  (result_keep (op36 (F := F)) _ main_v28 rfl (by decide)).trans (val35_main_c_0 m c)
theorem val36_main_v24 : val36 (launchContents m c) (Proc.devRef .tc main_v24) = res_main_v24 (argsOf m c) :=
  (result_keep (op36 (F := F)) _ main_v28 rfl (by decide)).trans (val35_main_v24 m c)
theorem val36_main_v25 : val36 (launchContents m c) (Proc.devRef .tc main_v25) = res_main_v25 (argsOf m c) :=
  (result_keep (op36 (F := F)) _ main_v28 rfl (by decide)).trans (val35_main_v25 m c)
theorem val36_main_v27 : val36 (launchContents m c) (Proc.devRef .tc main_v27) = res_main_v27 (argsOf m c) :=
  (result_keep (op36 (F := F)) _ main_v28 rfl (by decide)).trans (val35_main_v27 m c)
theorem val37_main_v29 : val37 (launchContents m c) (Proc.devRef .tc main_v29) = res_main_v29 (argsOf m c) := by
  unfold val37
  rw [binary_result, val36_main_c m c, val36_main_v28 m c]
  rfl
theorem val37_main_c : val37 (launchContents m c) (Proc.devRef .tc main_c) = res_main_c (argsOf m c) :=
  (result_keep (op37 (F := F)) _ main_v29 rfl (by decide)).trans (val36_main_c m c)
theorem val37_main_c_0 : val37 (launchContents m c) (Proc.devRef .tc main_c_0) = res_main_c_0 (argsOf m c) :=
  (result_keep (op37 (F := F)) _ main_v29 rfl (by decide)).trans (val36_main_c_0 m c)
theorem val37_main_v24 : val37 (launchContents m c) (Proc.devRef .tc main_v24) = res_main_v24 (argsOf m c) :=
  (result_keep (op37 (F := F)) _ main_v29 rfl (by decide)).trans (val36_main_v24 m c)
theorem val37_main_v25 : val37 (launchContents m c) (Proc.devRef .tc main_v25) = res_main_v25 (argsOf m c) :=
  (result_keep (op37 (F := F)) _ main_v29 rfl (by decide)).trans (val36_main_v25 m c)
theorem val37_main_v27 : val37 (launchContents m c) (Proc.devRef .tc main_v27) = res_main_v27 (argsOf m c) :=
  (result_keep (op37 (F := F)) _ main_v29 rfl (by decide)).trans (val36_main_v27 m c)
theorem val38_main_v30 : val38 (launchContents m c) (Proc.devRef .tc main_v30) = res_main_v30 (argsOf m c) := by
  unfold val38
  rw [ternary_result, val37_main_v27 m c, val37_main_v29 m c, val37_main_c m c]
  rfl
theorem val38_main_c_0 : val38 (launchContents m c) (Proc.devRef .tc main_c_0) = res_main_c_0 (argsOf m c) :=
  (result_keep (op38 (F := F)) _ main_v30 rfl (by decide)).trans (val37_main_c_0 m c)
theorem val38_main_v24 : val38 (launchContents m c) (Proc.devRef .tc main_v24) = res_main_v24 (argsOf m c) :=
  (result_keep (op38 (F := F)) _ main_v30 rfl (by decide)).trans (val37_main_v24 m c)
theorem val38_main_v25 : val38 (launchContents m c) (Proc.devRef .tc main_v25) = res_main_v25 (argsOf m c) :=
  (result_keep (op38 (F := F)) _ main_v30 rfl (by decide)).trans (val37_main_v25 m c)
theorem val39_main_v31 : val39 (launchContents m c) (Proc.devRef .tc main_v31) = res_main_v31 (argsOf m c) := by
  unfold val39
  rw [unary_result, val38_main_v30 m c]
  rfl
theorem val39_main_c_0 : val39 (launchContents m c) (Proc.devRef .tc main_c_0) = res_main_c_0 (argsOf m c) :=
  (result_keep (op39 (F := F)) _ main_v31 rfl (by decide)).trans (val38_main_c_0 m c)
theorem val39_main_v24 : val39 (launchContents m c) (Proc.devRef .tc main_v24) = res_main_v24 (argsOf m c) :=
  (result_keep (op39 (F := F)) _ main_v31 rfl (by decide)).trans (val38_main_v24 m c)
theorem val39_main_v25 : val39 (launchContents m c) (Proc.devRef .tc main_v25) = res_main_v25 (argsOf m c) :=
  (result_keep (op39 (F := F)) _ main_v31 rfl (by decide)).trans (val38_main_v25 m c)
theorem val40_main_v32 : val40 (launchContents m c) (Proc.devRef .tc main_v32) = res_main_v32 (argsOf m c) := by
  unfold val40
  rw [binary_result, val39_main_v24 m c, val39_main_v31 m c]
  rfl
theorem val40_main_c_0 : val40 (launchContents m c) (Proc.devRef .tc main_c_0) = res_main_c_0 (argsOf m c) :=
  (result_keep (op40 (F := F)) _ main_v32 rfl (by decide)).trans (val39_main_c_0 m c)
theorem val40_main_v25 : val40 (launchContents m c) (Proc.devRef .tc main_v25) = res_main_v25 (argsOf m c) :=
  (result_keep (op40 (F := F)) _ main_v32 rfl (by decide)).trans (val39_main_v25 m c)
theorem val41_main_v33 : val41 (launchContents m c) (Proc.devRef .tc main_v33) = res_main_v33 (argsOf m c) := by
  unfold val41
  rw [binary_result, val40_main_v32 m c, val40_args _ main_arg8 (by decide)]
  rfl
theorem val41_main_c_0 : val41 (launchContents m c) (Proc.devRef .tc main_c_0) = res_main_c_0 (argsOf m c) :=
  (result_keep (op41 (F := F)) _ main_v33 rfl (by decide)).trans (val40_main_c_0 m c)
theorem val41_main_v25 : val41 (launchContents m c) (Proc.devRef .tc main_v25) = res_main_v25 (argsOf m c) :=
  (result_keep (op41 (F := F)) _ main_v33 rfl (by decide)).trans (val40_main_v25 m c)
theorem val42_main_v34 : val42 (launchContents m c) (Proc.devRef .tc main_v34) = res_main_v34 (argsOf m c) := by
  unfold val42
  rw [unary_result, val41_args _ main_arg9 (by decide)]
  rfl
theorem val42_main_c_0 : val42 (launchContents m c) (Proc.devRef .tc main_c_0) = res_main_c_0 (argsOf m c) :=
  (result_keep (op42 (F := F)) _ main_v34 rfl (by decide)).trans (val41_main_c_0 m c)
theorem val42_main_v25 : val42 (launchContents m c) (Proc.devRef .tc main_v25) = res_main_v25 (argsOf m c) :=
  (result_keep (op42 (F := F)) _ main_v34 rfl (by decide)).trans (val41_main_v25 m c)
theorem val42_main_v33 : val42 (launchContents m c) (Proc.devRef .tc main_v33) = res_main_v33 (argsOf m c) :=
  (result_keep (op42 (F := F)) _ main_v34 rfl (by decide)).trans (val41_main_v33 m c)
theorem val43_main_v35 : val43 (launchContents m c) (Proc.devRef .tc main_v35) = res_main_v35 (argsOf m c) := by
  unfold val43
  rw [binary_result, val42_main_v33 m c, val42_main_v34 m c]
  rfl
theorem val43_main_c_0 : val43 (launchContents m c) (Proc.devRef .tc main_c_0) = res_main_c_0 (argsOf m c) :=
  (result_keep (op43 (F := F)) _ main_v35 rfl (by decide)).trans (val42_main_c_0 m c)
theorem val43_main_v25 : val43 (launchContents m c) (Proc.devRef .tc main_v25) = res_main_v25 (argsOf m c) :=
  (result_keep (op43 (F := F)) _ main_v35 rfl (by decide)).trans (val42_main_v25 m c)
theorem val44_main_cst_5 : val44 (launchContents m c) (Proc.devRef .tc main_cst_5) = res_main_cst_5 (argsOf m c) := by
  unfold val44
  rw [nullary_result]
  rfl
theorem val44_main_c_0 : val44 (launchContents m c) (Proc.devRef .tc main_c_0) = res_main_c_0 (argsOf m c) :=
  (result_keep (op44 (F := F)) _ main_cst_5 rfl (by decide)).trans (val43_main_c_0 m c)
theorem val44_main_v25 : val44 (launchContents m c) (Proc.devRef .tc main_v25) = res_main_v25 (argsOf m c) :=
  (result_keep (op44 (F := F)) _ main_cst_5 rfl (by decide)).trans (val43_main_v25 m c)
theorem val44_main_v35 : val44 (launchContents m c) (Proc.devRef .tc main_v35) = res_main_v35 (argsOf m c) :=
  (result_keep (op44 (F := F)) _ main_cst_5 rfl (by decide)).trans (val43_main_v35 m c)
theorem val45_main_v36 : val45 (launchContents m c) (Proc.devRef .tc main_v36) = res_main_v36 (argsOf m c) := by
  unfold val45
  rw [unary_result, val44_main_cst_5 m c]
  rfl
theorem val45_main_c_0 : val45 (launchContents m c) (Proc.devRef .tc main_c_0) = res_main_c_0 (argsOf m c) :=
  (result_keep (op45 (F := F)) _ main_v36 rfl (by decide)).trans (val44_main_c_0 m c)
theorem val45_main_v25 : val45 (launchContents m c) (Proc.devRef .tc main_v25) = res_main_v25 (argsOf m c) :=
  (result_keep (op45 (F := F)) _ main_v36 rfl (by decide)).trans (val44_main_v25 m c)
theorem val45_main_v35 : val45 (launchContents m c) (Proc.devRef .tc main_v35) = res_main_v35 (argsOf m c) :=
  (result_keep (op45 (F := F)) _ main_v36 rfl (by decide)).trans (val44_main_v35 m c)
theorem val46_main_v37 : val46 (launchContents m c) (Proc.devRef .tc main_v37) = res_main_v37 (argsOf m c) := by
  unfold val46
  rw [unary_result, val45_main_c_0 m c]
  rfl
theorem val46_main_v25 : val46 (launchContents m c) (Proc.devRef .tc main_v25) = res_main_v25 (argsOf m c) :=
  (result_keep (op46 (F := F)) _ main_v37 rfl (by decide)).trans (val45_main_v25 m c)
theorem val46_main_v35 : val46 (launchContents m c) (Proc.devRef .tc main_v35) = res_main_v35 (argsOf m c) :=
  (result_keep (op46 (F := F)) _ main_v37 rfl (by decide)).trans (val45_main_v35 m c)
theorem val46_main_v36 : val46 (launchContents m c) (Proc.devRef .tc main_v36) = res_main_v36 (argsOf m c) :=
  (result_keep (op46 (F := F)) _ main_v37 rfl (by decide)).trans (val45_main_v36 m c)
theorem val47_main_v38 : val47 (launchContents m c) (Proc.devRef .tc main_v38) = res_main_v38 (argsOf m c) := by
  unfold val47
  rw [ternary_result, val46_main_v36 m c, val46_main_v37 m c, val46_main_v35 m c]
  rfl
theorem val47_main_v25 : val47 (launchContents m c) (Proc.devRef .tc main_v25) = res_main_v25 (argsOf m c) :=
  (result_keep (op47 (F := F)) _ main_v38 rfl (by decide)).trans (val46_main_v25 m c)
theorem val48_main_v39 : val48 (launchContents m c) (Proc.devRef .tc main_v39) = res_main_v39 (argsOf m c) := by
  unfold val48
  rw [unary_result, val47_args _ main_arg10 (by decide)]
  rfl
theorem val48_main_v25 : val48 (launchContents m c) (Proc.devRef .tc main_v25) = res_main_v25 (argsOf m c) :=
  (result_keep (op48 (F := F)) _ main_v39 rfl (by decide)).trans (val47_main_v25 m c)
theorem val48_main_v38 : val48 (launchContents m c) (Proc.devRef .tc main_v38) = res_main_v38 (argsOf m c) :=
  (result_keep (op48 (F := F)) _ main_v39 rfl (by decide)).trans (val47_main_v38 m c)
theorem val49_main_v40 : val49 (launchContents m c) (Proc.devRef .tc main_v40) = res_main_v40 (argsOf m c) := by
  unfold val49
  rw [binary_result, val48_main_v38 m c, val48_main_v39 m c]
  rfl
theorem val49_main_v25 : val49 (launchContents m c) (Proc.devRef .tc main_v25) = res_main_v25 (argsOf m c) :=
  (result_keep (op49 (F := F)) _ main_v40 rfl (by decide)).trans (val48_main_v25 m c)
theorem val50_main_v41 : val50 (launchContents m c) (Proc.devRef .tc main_v41) = res_main_v41 (argsOf m c) := by
  unfold val50
  rw [binary_result, val49_main_v40 m c, val49_main_v25 m c]
  rfl
theorem val51_main_v42 : val51 (launchContents m c) (Proc.devRef .tc main_v42) = res_main_v42 (argsOf m c) := by
  unfold val51
  rw [reshape_result, val50_main_v41 m c]
  rfl
theorem val52_main_v43 : val52 (launchContents m c) (Proc.devRef .tc main_v43) = res_main_v43 (argsOf m c) := by
  unfold val52
  rw [unary_result, val51_main_v42 m c]
  rfl
theorem val53_main_v44 : val53 (launchContents m c) (Proc.devRef .tc main_v44) = res_main_v44 (argsOf m c) := by
  unfold val53
  rw [unary_result, val52_main_v43 m c]
  rfl
theorem val54_main_v45 : val54 (launchContents m c) (Proc.devRef .tc main_v45) = res_main_v45 (argsOf m c) := by
  unfold val54
  rw [binary_result, val53_main_v44 m c, val53_args _ main_arg11 (by decide)]
  rfl
theorem val55_main_v46 : val55 (launchContents m c) (Proc.devRef .tc main_v46) = res_main_v46 (argsOf m c) := by
  unfold val55
  rw [unary_result, val54_args _ main_arg12 (by decide)]
  rfl
theorem val55_main_v45 : val55 (launchContents m c) (Proc.devRef .tc main_v45) = res_main_v45 (argsOf m c) :=
  (result_keep (op55 (F := F)) _ main_v46 rfl (by decide)).trans (val54_main_v45 m c)
theorem val56_main_v47 : val56 (launchContents m c) (Proc.devRef .tc main_v47) = res_main_v47 (argsOf m c) := by
  unfold val56
  rw [unary_result, val55_main_v46 m c]
  rfl
theorem val56_main_v45 : val56 (launchContents m c) (Proc.devRef .tc main_v45) = res_main_v45 (argsOf m c) :=
  (result_keep (op56 (F := F)) _ main_v47 rfl (by decide)).trans (val55_main_v45 m c)
theorem val57_main_v48 : val57 (launchContents m c) (Proc.devRef .tc main_v48) = res_main_v48 (argsOf m c) := by
  unfold val57
  rw [binary_result, val56_main_v45 m c, val56_main_v47 m c]
  rfl
theorem val58_main_v49 : val58 (launchContents m c) (Proc.devRef .tc main_v49) = res_main_v49 (argsOf m c) := by
  unfold val58
  rw [unary_result, val57_main_v48 m c]
  rfl
theorem val59_main_v50 : val59 (launchContents m c) (Proc.devRef .tc main_v50) = res_main_v50 (argsOf m c) := by
  unfold val59
  rw [unary_result, val58_args _ main_arg0 (by decide)]
  rfl
theorem val59_main_v49 : val59 (launchContents m c) (Proc.devRef .tc main_v49) = res_main_v49 (argsOf m c) :=
  (result_keep (op59 (F := F)) _ main_v50 rfl (by decide)).trans (val58_main_v49 m c)
theorem val60_main_v51 : val60 (launchContents m c) (Proc.devRef .tc main_v51) = res_main_v51 (argsOf m c) := by
  unfold val60
  rw [binary_result, val59_main_v49 m c, val59_main_v50 m c]
  rfl
theorem val61_main_v52 : val61 (launchContents m c) (Proc.devRef .tc main_v52) = res_main_v52 (argsOf m c) := by
  unfold val61
  rw [binary_result, val60_main_v51 m c, val60_args _ main_arg13 (by decide)]
  rfl
theorem val62_main_v53 : val62 (launchContents m c) (Proc.devRef .tc main_v53) = res_main_v53 (argsOf m c) := by
  unfold val62
  rw [unary_result, val61_args _ main_arg14 (by decide)]
  rfl
theorem val62_main_v52 : val62 (launchContents m c) (Proc.devRef .tc main_v52) = res_main_v52 (argsOf m c) :=
  (result_keep (op62 (F := F)) _ main_v53 rfl (by decide)).trans (val61_main_v52 m c)
theorem val63_main_v54 : val63 (launchContents m c) (Proc.devRef .tc main_v54) = res_main_v54 (argsOf m c) := by
  unfold val63
  rw [unary_result, val62_main_v53 m c]
  rfl
theorem val63_main_v52 : val63 (launchContents m c) (Proc.devRef .tc main_v52) = res_main_v52 (argsOf m c) :=
  (result_keep (op63 (F := F)) _ main_v54 rfl (by decide)).trans (val62_main_v52 m c)
theorem val64_main_v55 : val64 (launchContents m c) (Proc.devRef .tc main_v55) = res_main_v55 (argsOf m c) := by
  unfold val64
  rw [binary_result, val63_main_v52 m c, val63_main_v54 m c]
  rfl
theorem val65_main_v56 : val65 (launchContents m c) (Proc.devRef .tc main_v56) = res_main_v56 (argsOf m c) := by
  unfold val65
  rw [unary_result, val64_main_v55 m c]
  rfl
theorem val66_main_v57 : val66 (launchContents m c) (Proc.devRef .tc main_v57) = res_main_v57 (argsOf m c) := by
  unfold val66
  rw [binary_result, val65_main_v56 m c, val65_args _ main_arg15 (by decide)]
  rfl
theorem val66_main_v56 : val66 (launchContents m c) (Proc.devRef .tc main_v56) = res_main_v56 (argsOf m c) :=
  (result_keep (op66 (F := F)) _ main_v57 rfl (by decide)).trans (val65_main_v56 m c)
theorem val67_main_v58 : val67 (launchContents m c) (Proc.devRef .tc main_v58) = res_main_v58 (argsOf m c) := by
  unfold val67
  rw [unary_result, val66_args _ main_arg16 (by decide)]
  rfl
theorem val67_main_v56 : val67 (launchContents m c) (Proc.devRef .tc main_v56) = res_main_v56 (argsOf m c) :=
  (result_keep (op67 (F := F)) _ main_v58 rfl (by decide)).trans (val66_main_v56 m c)
theorem val67_main_v57 : val67 (launchContents m c) (Proc.devRef .tc main_v57) = res_main_v57 (argsOf m c) :=
  (result_keep (op67 (F := F)) _ main_v58 rfl (by decide)).trans (val66_main_v57 m c)
theorem val68_main_v59 : val68 (launchContents m c) (Proc.devRef .tc main_v59) = res_main_v59 (argsOf m c) := by
  unfold val68
  rw [unary_result, val67_main_v58 m c]
  rfl
theorem val68_main_v56 : val68 (launchContents m c) (Proc.devRef .tc main_v56) = res_main_v56 (argsOf m c) :=
  (result_keep (op68 (F := F)) _ main_v59 rfl (by decide)).trans (val67_main_v56 m c)
theorem val68_main_v57 : val68 (launchContents m c) (Proc.devRef .tc main_v57) = res_main_v57 (argsOf m c) :=
  (result_keep (op68 (F := F)) _ main_v59 rfl (by decide)).trans (val67_main_v57 m c)
theorem val69_main_v60 : val69 (launchContents m c) (Proc.devRef .tc main_v60) = res_main_v60 (argsOf m c) := by
  unfold val69
  rw [binary_result, val68_main_v57 m c, val68_main_v59 m c]
  rfl
theorem val69_main_v56 : val69 (launchContents m c) (Proc.devRef .tc main_v56) = res_main_v56 (argsOf m c) :=
  (result_keep (op69 (F := F)) _ main_v60 rfl (by decide)).trans (val68_main_v56 m c)
theorem val70_main_v61 : val70 (launchContents m c) (Proc.devRef .tc main_v61) = res_main_v61 (argsOf m c) := by
  unfold val70
  rw [unary_result, val69_main_v60 m c]
  rfl
theorem val70_main_v56 : val70 (launchContents m c) (Proc.devRef .tc main_v56) = res_main_v56 (argsOf m c) :=
  (result_keep (op70 (F := F)) _ main_v61 rfl (by decide)).trans (val69_main_v56 m c)
theorem val71_main_v62 : val71 (launchContents m c) (Proc.devRef .tc main_v62) = res_main_v62 (argsOf m c) := by
  unfold val71
  rw [binary_result, val70_main_v61 m c, val70_args _ main_arg17 (by decide)]
  rfl
theorem val71_main_v56 : val71 (launchContents m c) (Proc.devRef .tc main_v56) = res_main_v56 (argsOf m c) :=
  (result_keep (op71 (F := F)) _ main_v62 rfl (by decide)).trans (val70_main_v56 m c)
theorem val72_main_v63 : val72 (launchContents m c) (Proc.devRef .tc main_v63) = res_main_v63 (argsOf m c) := by
  unfold val72
  rw [unary_result, val71_args _ main_arg18 (by decide)]
  rfl
theorem val72_main_v56 : val72 (launchContents m c) (Proc.devRef .tc main_v56) = res_main_v56 (argsOf m c) :=
  (result_keep (op72 (F := F)) _ main_v63 rfl (by decide)).trans (val71_main_v56 m c)
theorem val72_main_v62 : val72 (launchContents m c) (Proc.devRef .tc main_v62) = res_main_v62 (argsOf m c) :=
  (result_keep (op72 (F := F)) _ main_v63 rfl (by decide)).trans (val71_main_v62 m c)
theorem val73_main_v64 : val73 (launchContents m c) (Proc.devRef .tc main_v64) = res_main_v64 (argsOf m c) := by
  unfold val73
  rw [unary_result, val72_main_v63 m c]
  rfl
theorem val73_main_v56 : val73 (launchContents m c) (Proc.devRef .tc main_v56) = res_main_v56 (argsOf m c) :=
  (result_keep (op73 (F := F)) _ main_v64 rfl (by decide)).trans (val72_main_v56 m c)
theorem val73_main_v62 : val73 (launchContents m c) (Proc.devRef .tc main_v62) = res_main_v62 (argsOf m c) :=
  (result_keep (op73 (F := F)) _ main_v64 rfl (by decide)).trans (val72_main_v62 m c)
theorem val74_main_v65 : val74 (launchContents m c) (Proc.devRef .tc main_v65) = res_main_v65 (argsOf m c) := by
  unfold val74
  rw [binary_result, val73_main_v62 m c, val73_main_v64 m c]
  rfl
theorem val74_main_v56 : val74 (launchContents m c) (Proc.devRef .tc main_v56) = res_main_v56 (argsOf m c) :=
  (result_keep (op74 (F := F)) _ main_v65 rfl (by decide)).trans (val73_main_v56 m c)
theorem val75_main_v66 : val75 (launchContents m c) (Proc.devRef .tc main_v66) = res_main_v66 (argsOf m c) := by
  unfold val75
  rw [unary_result, val74_args _ main_arg19 (by decide)]
  rfl
theorem val75_main_v56 : val75 (launchContents m c) (Proc.devRef .tc main_v56) = res_main_v56 (argsOf m c) :=
  (result_keep (op75 (F := F)) _ main_v66 rfl (by decide)).trans (val74_main_v56 m c)
theorem val75_main_v65 : val75 (launchContents m c) (Proc.devRef .tc main_v65) = res_main_v65 (argsOf m c) :=
  (result_keep (op75 (F := F)) _ main_v66 rfl (by decide)).trans (val74_main_v65 m c)
theorem val76_main_v67 : val76 (launchContents m c) (Proc.devRef .tc main_v67) = res_main_v67 (argsOf m c) := by
  unfold val76
  rw [binary_result, val75_main_v65 m c]
  rfl
theorem val76_main_v56 : val76 (launchContents m c) (Proc.devRef .tc main_v56) = res_main_v56 (argsOf m c) :=
  (result_keep (op76 (F := F)) _ main_v67 rfl (by decide)).trans (val75_main_v56 m c)
theorem val76_main_v65 : val76 (launchContents m c) (Proc.devRef .tc main_v65) = res_main_v65 (argsOf m c) :=
  (result_keep (op76 (F := F)) _ main_v67 rfl (by decide)).trans (val75_main_v65 m c)
theorem val76_main_v66 : val76 (launchContents m c) (Proc.devRef .tc main_v66) = res_main_v66 (argsOf m c) :=
  (result_keep (op76 (F := F)) _ main_v67 rfl (by decide)).trans (val75_main_v66 m c)
theorem val77_main_v68 : val77 (launchContents m c) (Proc.devRef .tc main_v68) = res_main_v68 (argsOf m c) := by
  unfold val77
  rw [unary_result, val76_main_v66 m c]
  rfl
theorem val77_main_v56 : val77 (launchContents m c) (Proc.devRef .tc main_v56) = res_main_v56 (argsOf m c) :=
  (result_keep (op77 (F := F)) _ main_v68 rfl (by decide)).trans (val76_main_v56 m c)
theorem val77_main_v65 : val77 (launchContents m c) (Proc.devRef .tc main_v65) = res_main_v65 (argsOf m c) :=
  (result_keep (op77 (F := F)) _ main_v68 rfl (by decide)).trans (val76_main_v65 m c)
theorem val77_main_v67 : val77 (launchContents m c) (Proc.devRef .tc main_v67) = res_main_v67 (argsOf m c) :=
  (result_keep (op77 (F := F)) _ main_v68 rfl (by decide)).trans (val76_main_v67 m c)
theorem val78_main_v69 : val78 (launchContents m c) (Proc.devRef .tc main_v69) = res_main_v69 (argsOf m c) := by
  unfold val78
  rw [unary_result, val77_main_v68 m c]
  rfl
theorem val78_main_v56 : val78 (launchContents m c) (Proc.devRef .tc main_v56) = res_main_v56 (argsOf m c) :=
  (result_keep (op78 (F := F)) _ main_v69 rfl (by decide)).trans (val77_main_v56 m c)
theorem val78_main_v65 : val78 (launchContents m c) (Proc.devRef .tc main_v65) = res_main_v65 (argsOf m c) :=
  (result_keep (op78 (F := F)) _ main_v69 rfl (by decide)).trans (val77_main_v65 m c)
theorem val78_main_v67 : val78 (launchContents m c) (Proc.devRef .tc main_v67) = res_main_v67 (argsOf m c) :=
  (result_keep (op78 (F := F)) _ main_v69 rfl (by decide)).trans (val77_main_v67 m c)
theorem val79_main_v70 : val79 (launchContents m c) (Proc.devRef .tc main_v70) = res_main_v70 (argsOf m c) := by
  unfold val79
  rw [binary_result, val78_main_v67 m c, val78_main_v69 m c]
  rfl
theorem val79_main_v56 : val79 (launchContents m c) (Proc.devRef .tc main_v56) = res_main_v56 (argsOf m c) :=
  (result_keep (op79 (F := F)) _ main_v70 rfl (by decide)).trans (val78_main_v56 m c)
theorem val79_main_v65 : val79 (launchContents m c) (Proc.devRef .tc main_v65) = res_main_v65 (argsOf m c) :=
  (result_keep (op79 (F := F)) _ main_v70 rfl (by decide)).trans (val78_main_v65 m c)
theorem val80_main_v71 : val80 (launchContents m c) (Proc.devRef .tc main_v71) = res_main_v71 (argsOf m c) := by
  unfold val80
  rw [binary_result, val79_main_v70 m c]
  rfl
theorem val80_main_v56 : val80 (launchContents m c) (Proc.devRef .tc main_v56) = res_main_v56 (argsOf m c) :=
  (result_keep (op80 (F := F)) _ main_v71 rfl (by decide)).trans (val79_main_v56 m c)
theorem val80_main_v65 : val80 (launchContents m c) (Proc.devRef .tc main_v65) = res_main_v65 (argsOf m c) :=
  (result_keep (op80 (F := F)) _ main_v71 rfl (by decide)).trans (val79_main_v65 m c)
theorem val81_main_cst_6 : val81 (launchContents m c) (Proc.devRef .tc main_cst_6) = res_main_cst_6 (argsOf m c) := by
  unfold val81
  rw [nullary_result]
  rfl
theorem val81_main_v56 : val81 (launchContents m c) (Proc.devRef .tc main_v56) = res_main_v56 (argsOf m c) :=
  (result_keep (op81 (F := F)) _ main_cst_6 rfl (by decide)).trans (val80_main_v56 m c)
theorem val81_main_v65 : val81 (launchContents m c) (Proc.devRef .tc main_v65) = res_main_v65 (argsOf m c) :=
  (result_keep (op81 (F := F)) _ main_cst_6 rfl (by decide)).trans (val80_main_v65 m c)
theorem val81_main_v71 : val81 (launchContents m c) (Proc.devRef .tc main_v71) = res_main_v71 (argsOf m c) :=
  (result_keep (op81 (F := F)) _ main_cst_6 rfl (by decide)).trans (val80_main_v71 m c)
theorem val82_main_v72 : val82 (launchContents m c) (Proc.devRef .tc main_v72) = res_main_v72 (argsOf m c) := by
  unfold val82
  rw [unary_result, val81_main_cst_6 m c]
  rfl
theorem val82_main_v56 : val82 (launchContents m c) (Proc.devRef .tc main_v56) = res_main_v56 (argsOf m c) :=
  (result_keep (op82 (F := F)) _ main_v72 rfl (by decide)).trans (val81_main_v56 m c)
theorem val82_main_v65 : val82 (launchContents m c) (Proc.devRef .tc main_v65) = res_main_v65 (argsOf m c) :=
  (result_keep (op82 (F := F)) _ main_v72 rfl (by decide)).trans (val81_main_v65 m c)
theorem val82_main_v71 : val82 (launchContents m c) (Proc.devRef .tc main_v71) = res_main_v71 (argsOf m c) :=
  (result_keep (op82 (F := F)) _ main_v72 rfl (by decide)).trans (val81_main_v71 m c)
theorem val83_main_v73 : val83 (launchContents m c) (Proc.devRef .tc main_v73) = res_main_v73 (argsOf m c) := by
  unfold val83
  rw [binary_result, val82_main_v72 m c, val82_main_v71 m c]
  rfl
theorem val83_main_v56 : val83 (launchContents m c) (Proc.devRef .tc main_v56) = res_main_v56 (argsOf m c) :=
  (result_keep (op83 (F := F)) _ main_v73 rfl (by decide)).trans (val82_main_v56 m c)
theorem val83_main_v65 : val83 (launchContents m c) (Proc.devRef .tc main_v65) = res_main_v65 (argsOf m c) :=
  (result_keep (op83 (F := F)) _ main_v73 rfl (by decide)).trans (val82_main_v65 m c)
theorem val84_main_v74 : val84 (launchContents m c) (Proc.devRef .tc main_v74) = res_main_v74 (argsOf m c) := by
  unfold val84
  rw [unary_result, val83_args _ main_arg19 (by decide)]
  rfl
theorem val84_main_v56 : val84 (launchContents m c) (Proc.devRef .tc main_v56) = res_main_v56 (argsOf m c) :=
  (result_keep (op84 (F := F)) _ main_v74 rfl (by decide)).trans (val83_main_v56 m c)
theorem val84_main_v65 : val84 (launchContents m c) (Proc.devRef .tc main_v65) = res_main_v65 (argsOf m c) :=
  (result_keep (op84 (F := F)) _ main_v74 rfl (by decide)).trans (val83_main_v65 m c)
theorem val84_main_v73 : val84 (launchContents m c) (Proc.devRef .tc main_v73) = res_main_v73 (argsOf m c) :=
  (result_keep (op84 (F := F)) _ main_v74 rfl (by decide)).trans (val83_main_v73 m c)
theorem val85_main_v75 : val85 (launchContents m c) (Proc.devRef .tc main_v75) = res_main_v75 (argsOf m c) := by
  unfold val85
  rw [unary_result, val84_main_v74 m c]
  rfl
theorem val85_main_v56 : val85 (launchContents m c) (Proc.devRef .tc main_v56) = res_main_v56 (argsOf m c) :=
  (result_keep (op85 (F := F)) _ main_v75 rfl (by decide)).trans (val84_main_v56 m c)
theorem val85_main_v65 : val85 (launchContents m c) (Proc.devRef .tc main_v65) = res_main_v65 (argsOf m c) :=
  (result_keep (op85 (F := F)) _ main_v75 rfl (by decide)).trans (val84_main_v65 m c)
theorem val85_main_v73 : val85 (launchContents m c) (Proc.devRef .tc main_v73) = res_main_v73 (argsOf m c) :=
  (result_keep (op85 (F := F)) _ main_v75 rfl (by decide)).trans (val84_main_v73 m c)
theorem val86_main_v76 : val86 (launchContents m c) (Proc.devRef .tc main_v76) = res_main_v76 (argsOf m c) := by
  unfold val86
  rw [binary_result, val85_main_v73 m c, val85_main_v75 m c]
  rfl
theorem val86_main_v56 : val86 (launchContents m c) (Proc.devRef .tc main_v56) = res_main_v56 (argsOf m c) :=
  (result_keep (op86 (F := F)) _ main_v76 rfl (by decide)).trans (val85_main_v56 m c)
theorem val86_main_v65 : val86 (launchContents m c) (Proc.devRef .tc main_v65) = res_main_v65 (argsOf m c) :=
  (result_keep (op86 (F := F)) _ main_v76 rfl (by decide)).trans (val85_main_v65 m c)
theorem val87_main_cst_7 : val87 (launchContents m c) (Proc.devRef .tc main_cst_7) = res_main_cst_7 (argsOf m c) := by
  unfold val87
  rw [nullary_result]
  rfl
theorem val87_main_v56 : val87 (launchContents m c) (Proc.devRef .tc main_v56) = res_main_v56 (argsOf m c) :=
  (result_keep (op87 (F := F)) _ main_cst_7 rfl (by decide)).trans (val86_main_v56 m c)
theorem val87_main_v65 : val87 (launchContents m c) (Proc.devRef .tc main_v65) = res_main_v65 (argsOf m c) :=
  (result_keep (op87 (F := F)) _ main_cst_7 rfl (by decide)).trans (val86_main_v65 m c)
theorem val87_main_v76 : val87 (launchContents m c) (Proc.devRef .tc main_v76) = res_main_v76 (argsOf m c) :=
  (result_keep (op87 (F := F)) _ main_cst_7 rfl (by decide)).trans (val86_main_v76 m c)
theorem val88_main_v77 : val88 (launchContents m c) (Proc.devRef .tc main_v77) = res_main_v77 (argsOf m c) := by
  unfold val88
  rw [unary_result, val87_main_cst_7 m c]
  rfl
theorem val88_main_v56 : val88 (launchContents m c) (Proc.devRef .tc main_v56) = res_main_v56 (argsOf m c) :=
  (result_keep (op88 (F := F)) _ main_v77 rfl (by decide)).trans (val87_main_v56 m c)
theorem val88_main_v65 : val88 (launchContents m c) (Proc.devRef .tc main_v65) = res_main_v65 (argsOf m c) :=
  (result_keep (op88 (F := F)) _ main_v77 rfl (by decide)).trans (val87_main_v65 m c)
theorem val88_main_v76 : val88 (launchContents m c) (Proc.devRef .tc main_v76) = res_main_v76 (argsOf m c) :=
  (result_keep (op88 (F := F)) _ main_v77 rfl (by decide)).trans (val87_main_v76 m c)
theorem val89_main_v78 : val89 (launchContents m c) (Proc.devRef .tc main_v78) = res_main_v78 (argsOf m c) := by
  unfold val89
  rw [binary_result, val88_main_v76 m c, val88_main_v77 m c]
  rfl
theorem val89_main_v56 : val89 (launchContents m c) (Proc.devRef .tc main_v56) = res_main_v56 (argsOf m c) :=
  (result_keep (op89 (F := F)) _ main_v78 rfl (by decide)).trans (val88_main_v56 m c)
theorem val89_main_v65 : val89 (launchContents m c) (Proc.devRef .tc main_v65) = res_main_v65 (argsOf m c) :=
  (result_keep (op89 (F := F)) _ main_v78 rfl (by decide)).trans (val88_main_v65 m c)
theorem val90_main_cst_8 : val90 (launchContents m c) (Proc.devRef .tc main_cst_8) = res_main_cst_8 (argsOf m c) := by
  unfold val90
  rw [nullary_result]
  rfl
theorem val90_main_v56 : val90 (launchContents m c) (Proc.devRef .tc main_v56) = res_main_v56 (argsOf m c) :=
  (result_keep (op90 (F := F)) _ main_cst_8 rfl (by decide)).trans (val89_main_v56 m c)
theorem val90_main_v65 : val90 (launchContents m c) (Proc.devRef .tc main_v65) = res_main_v65 (argsOf m c) :=
  (result_keep (op90 (F := F)) _ main_cst_8 rfl (by decide)).trans (val89_main_v65 m c)
theorem val90_main_v78 : val90 (launchContents m c) (Proc.devRef .tc main_v78) = res_main_v78 (argsOf m c) :=
  (result_keep (op90 (F := F)) _ main_cst_8 rfl (by decide)).trans (val89_main_v78 m c)
theorem val91_main_v79 : val91 (launchContents m c) (Proc.devRef .tc main_v79) = res_main_v79 (argsOf m c) := by
  unfold val91
  rw [binary_result, val90_main_v78 m c, val90_main_cst_8 m c]
  rfl
theorem val91_main_v56 : val91 (launchContents m c) (Proc.devRef .tc main_v56) = res_main_v56 (argsOf m c) :=
  (result_keep (op91 (F := F)) _ main_v79 rfl (by decide)).trans (val90_main_v56 m c)
theorem val91_main_v65 : val91 (launchContents m c) (Proc.devRef .tc main_v65) = res_main_v65 (argsOf m c) :=
  (result_keep (op91 (F := F)) _ main_v79 rfl (by decide)).trans (val90_main_v65 m c)
theorem val92_main_v80 : val92 (launchContents m c) (Proc.devRef .tc main_v80) = res_main_v80 (argsOf m c) := by
  unfold val92
  rw [binary_result, val91_main_v56 m c, val91_args _ main_arg20 (by decide)]
  rfl
theorem val92_main_v65 : val92 (launchContents m c) (Proc.devRef .tc main_v65) = res_main_v65 (argsOf m c) :=
  (result_keep (op92 (F := F)) _ main_v80 rfl (by decide)).trans (val91_main_v65 m c)
theorem val92_main_v79 : val92 (launchContents m c) (Proc.devRef .tc main_v79) = res_main_v79 (argsOf m c) :=
  (result_keep (op92 (F := F)) _ main_v80 rfl (by decide)).trans (val91_main_v79 m c)
theorem val93_main_v81 : val93 (launchContents m c) (Proc.devRef .tc main_v81) = res_main_v81 (argsOf m c) := by
  unfold val93
  rw [unary_result, val92_args _ main_arg21 (by decide)]
  rfl
theorem val93_main_v65 : val93 (launchContents m c) (Proc.devRef .tc main_v65) = res_main_v65 (argsOf m c) :=
  (result_keep (op93 (F := F)) _ main_v81 rfl (by decide)).trans (val92_main_v65 m c)
theorem val93_main_v79 : val93 (launchContents m c) (Proc.devRef .tc main_v79) = res_main_v79 (argsOf m c) :=
  (result_keep (op93 (F := F)) _ main_v81 rfl (by decide)).trans (val92_main_v79 m c)
theorem val93_main_v80 : val93 (launchContents m c) (Proc.devRef .tc main_v80) = res_main_v80 (argsOf m c) :=
  (result_keep (op93 (F := F)) _ main_v81 rfl (by decide)).trans (val92_main_v80 m c)
theorem val94_main_v82 : val94 (launchContents m c) (Proc.devRef .tc main_v82) = res_main_v82 (argsOf m c) := by
  unfold val94
  rw [unary_result, val93_main_v81 m c]
  rfl
theorem val94_main_v65 : val94 (launchContents m c) (Proc.devRef .tc main_v65) = res_main_v65 (argsOf m c) :=
  (result_keep (op94 (F := F)) _ main_v82 rfl (by decide)).trans (val93_main_v65 m c)
theorem val94_main_v79 : val94 (launchContents m c) (Proc.devRef .tc main_v79) = res_main_v79 (argsOf m c) :=
  (result_keep (op94 (F := F)) _ main_v82 rfl (by decide)).trans (val93_main_v79 m c)
theorem val94_main_v80 : val94 (launchContents m c) (Proc.devRef .tc main_v80) = res_main_v80 (argsOf m c) :=
  (result_keep (op94 (F := F)) _ main_v82 rfl (by decide)).trans (val93_main_v80 m c)
theorem val95_main_v83 : val95 (launchContents m c) (Proc.devRef .tc main_v83) = res_main_v83 (argsOf m c) := by
  unfold val95
  rw [binary_result, val94_main_v80 m c, val94_main_v82 m c]
  rfl
theorem val95_main_v65 : val95 (launchContents m c) (Proc.devRef .tc main_v65) = res_main_v65 (argsOf m c) :=
  (result_keep (op95 (F := F)) _ main_v83 rfl (by decide)).trans (val94_main_v65 m c)
theorem val95_main_v79 : val95 (launchContents m c) (Proc.devRef .tc main_v79) = res_main_v79 (argsOf m c) :=
  (result_keep (op95 (F := F)) _ main_v83 rfl (by decide)).trans (val94_main_v79 m c)
theorem val96_main_v84 : val96 (launchContents m c) (Proc.devRef .tc main_v84) = res_main_v84 (argsOf m c) := by
  unfold val96
  rw [unary_result, val95_main_v83 m c]
  rfl
theorem val96_main_v65 : val96 (launchContents m c) (Proc.devRef .tc main_v65) = res_main_v65 (argsOf m c) :=
  (result_keep (op96 (F := F)) _ main_v84 rfl (by decide)).trans (val95_main_v65 m c)
theorem val96_main_v79 : val96 (launchContents m c) (Proc.devRef .tc main_v79) = res_main_v79 (argsOf m c) :=
  (result_keep (op96 (F := F)) _ main_v84 rfl (by decide)).trans (val95_main_v79 m c)
theorem val97_main_v85 : val97 (launchContents m c) (Proc.devRef .tc main_v85) = res_main_v85 (argsOf m c) := by
  unfold val97
  rw [binary_result, val96_main_v84 m c, val96_args _ main_arg22 (by decide)]
  rfl
theorem val97_main_v65 : val97 (launchContents m c) (Proc.devRef .tc main_v65) = res_main_v65 (argsOf m c) :=
  (result_keep (op97 (F := F)) _ main_v85 rfl (by decide)).trans (val96_main_v65 m c)
theorem val97_main_v79 : val97 (launchContents m c) (Proc.devRef .tc main_v79) = res_main_v79 (argsOf m c) :=
  (result_keep (op97 (F := F)) _ main_v85 rfl (by decide)).trans (val96_main_v79 m c)
theorem val98_main_v86 : val98 (launchContents m c) (Proc.devRef .tc main_v86) = res_main_v86 (argsOf m c) := by
  unfold val98
  rw [unary_result, val97_args _ main_arg23 (by decide)]
  rfl
theorem val98_main_v65 : val98 (launchContents m c) (Proc.devRef .tc main_v65) = res_main_v65 (argsOf m c) :=
  (result_keep (op98 (F := F)) _ main_v86 rfl (by decide)).trans (val97_main_v65 m c)
theorem val98_main_v79 : val98 (launchContents m c) (Proc.devRef .tc main_v79) = res_main_v79 (argsOf m c) :=
  (result_keep (op98 (F := F)) _ main_v86 rfl (by decide)).trans (val97_main_v79 m c)
theorem val98_main_v85 : val98 (launchContents m c) (Proc.devRef .tc main_v85) = res_main_v85 (argsOf m c) :=
  (result_keep (op98 (F := F)) _ main_v86 rfl (by decide)).trans (val97_main_v85 m c)
theorem val99_main_v87 : val99 (launchContents m c) (Proc.devRef .tc main_v87) = res_main_v87 (argsOf m c) := by
  unfold val99
  rw [unary_result, val98_main_v86 m c]
  rfl
theorem val99_main_v65 : val99 (launchContents m c) (Proc.devRef .tc main_v65) = res_main_v65 (argsOf m c) :=
  (result_keep (op99 (F := F)) _ main_v87 rfl (by decide)).trans (val98_main_v65 m c)
theorem val99_main_v79 : val99 (launchContents m c) (Proc.devRef .tc main_v79) = res_main_v79 (argsOf m c) :=
  (result_keep (op99 (F := F)) _ main_v87 rfl (by decide)).trans (val98_main_v79 m c)
theorem val99_main_v85 : val99 (launchContents m c) (Proc.devRef .tc main_v85) = res_main_v85 (argsOf m c) :=
  (result_keep (op99 (F := F)) _ main_v87 rfl (by decide)).trans (val98_main_v85 m c)
theorem val100_main_v88 : val100 (launchContents m c) (Proc.devRef .tc main_v88) = res_main_v88 (argsOf m c) := by
  unfold val100
  rw [binary_result, val99_main_v85 m c, val99_main_v87 m c]
  rfl
theorem val100_main_v65 : val100 (launchContents m c) (Proc.devRef .tc main_v65) = res_main_v65 (argsOf m c) :=
  (result_keep (op100 (F := F)) _ main_v88 rfl (by decide)).trans (val99_main_v65 m c)
theorem val100_main_v79 : val100 (launchContents m c) (Proc.devRef .tc main_v79) = res_main_v79 (argsOf m c) :=
  (result_keep (op100 (F := F)) _ main_v88 rfl (by decide)).trans (val99_main_v79 m c)

/-! ## @main is the line, and the line touches TensorCore buffers only -/

set_option maxRecDepth 8192 in
theorem main_part0_eq (c : Dev nD) : main_part0 (F := F) c = seq ops0 := rfl
set_option maxRecDepth 8192 in
theorem main_part1_eq (c : Dev nD) : main_part1 (F := F) c = seq ops1 := rfl
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops0_sub : (ops0 : List (HloOp τ sig (Elt F))).Forall fun op => op.bufs ⊆ tcRefs τ sig :=
  ⟨nullary_bufs_sub .., nullary_bufs_sub .., unary_bufs_sub .., unary_bufs_sub .., unary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., unary_bufs_sub .., ternary_bufs_sub .., unary_bufs_sub .., binary_bufs_sub .., binary_bufs_sub .., reshape_bufs_sub .., unary_bufs_sub .., unary_bufs_sub .., binary_bufs_sub .., unary_bufs_sub .., unary_bufs_sub .., binary_bufs_sub .., unary_bufs_sub .., unary_bufs_sub .., binary_bufs_sub ..⟩
set_option maxRecDepth 8192 in
theorem ops1_sub : (ops1 : List (HloOp τ sig (Elt F))).Forall fun op => op.bufs ⊆ tcRefs τ sig :=
  ⟨binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., binary_bufs_sub .., binary_bufs_sub .., unary_bufs_sub .., unary_bufs_sub .., binary_bufs_sub .., unary_bufs_sub .., binary_bufs_sub .., unary_bufs_sub .., unary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]
set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_fresh : ∀ op ∈ (ops : List (HloOp τ sig (Elt F))), op.fresh = ∅ := fun op h => by
  simp only [ops, List.mem_append] at h
  rcases h with h | h
  exacts [List.forall_iff_forall_mem.mp ops0_fresh op h, List.forall_iff_forall_mem.mp ops1_fresh op h]

/-! ## The line read as a whole -/

set_option maxRecDepth 8192 in
theorem after_ops0 (V0 : Valuation τ sig (Elt F)) : after ops0 V0 = val60 V0 := rfl
set_option maxRecDepth 8192 in
theorem after_ops1 (V0 : Valuation τ sig (Elt F)) : after ops1 (val60 V0) = val100 V0 := rfl
theorem after_ops (V0 : Valuation τ sig (Elt F)) : after ops V0 = val100 V0 := by
  rw [show (ops : List (HloOp τ sig (Elt F))) = ops0 ++ ops1 from rfl, after_app, after_ops0, after_ops1]

/-! ## The run -/

/-- On every device, for any float values, from any memory with zero counters: every weakly fair execution of
    @main terminates with each of the three results at its stage of the arguments' launch contents, and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v65) = res_main_v65 (argsOf m c)
      ∧ r.2.mem ((c.tc : Thread nD τ).loc main_v88) = res_main_v88 (argsOf m c)
      ∧ r.2.mem ((c.tc : Thread nD τ).loc main_v79) = res_main_v79 (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c => ⟨(h c main_v65).trans ((congrFun (after_ops (launchContents m c)) _).trans (val100_main_v65 m c)),
      (h c main_v88).trans ((congrFun (after_ops (launchContents m c)) _).trans (val100_main_v88 m c)),
      (h c main_v79).trans ((congrFun (after_ops (launchContents m c)) _).trans (val100_main_v79 m c)),
      (h c main_arg0).trans ((congrFun (after_ops (launchContents m c)) _).trans (val100_args (launchContents m c) main_arg0 (by decide))),
      (h c main_arg1).trans ((congrFun (after_ops (launchContents m c)) _).trans (val100_args (launchContents m c) main_arg1 (by decide))),
      (h c main_arg2).trans ((congrFun (after_ops (launchContents m c)) _).trans (val100_args (launchContents m c) main_arg2 (by decide))),
      (h c main_arg3).trans ((congrFun (after_ops (launchContents m c)) _).trans (val100_args (launchContents m c) main_arg3 (by decide))),
      (h c main_arg4).trans ((congrFun (after_ops (launchContents m c)) _).trans (val100_args (launchContents m c) main_arg4 (by decide))),
      (h c main_arg5).trans ((congrFun (after_ops (launchContents m c)) _).trans (val100_args (launchContents m c) main_arg5 (by decide))),
      (h c main_arg6).trans ((congrFun (after_ops (launchContents m c)) _).trans (val100_args (launchContents m c) main_arg6 (by decide))),
      (h c main_arg7).trans ((congrFun (after_ops (launchContents m c)) _).trans (val100_args (launchContents m c) main_arg7 (by decide))),
      (h c main_arg8).trans ((congrFun (after_ops (launchContents m c)) _).trans (val100_args (launchContents m c) main_arg8 (by decide))),
      (h c main_arg9).trans ((congrFun (after_ops (launchContents m c)) _).trans (val100_args (launchContents m c) main_arg9 (by decide))),
      (h c main_arg10).trans ((congrFun (after_ops (launchContents m c)) _).trans (val100_args (launchContents m c) main_arg10 (by decide))),
      (h c main_arg11).trans ((congrFun (after_ops (launchContents m c)) _).trans (val100_args (launchContents m c) main_arg11 (by decide))),
      (h c main_arg12).trans ((congrFun (after_ops (launchContents m c)) _).trans (val100_args (launchContents m c) main_arg12 (by decide))),
      (h c main_arg13).trans ((congrFun (after_ops (launchContents m c)) _).trans (val100_args (launchContents m c) main_arg13 (by decide))),
      (h c main_arg14).trans ((congrFun (after_ops (launchContents m c)) _).trans (val100_args (launchContents m c) main_arg14 (by decide))),
      (h c main_arg15).trans ((congrFun (after_ops (launchContents m c)) _).trans (val100_args (launchContents m c) main_arg15 (by decide))),
      (h c main_arg16).trans ((congrFun (after_ops (launchContents m c)) _).trans (val100_args (launchContents m c) main_arg16 (by decide))),
      (h c main_arg17).trans ((congrFun (after_ops (launchContents m c)) _).trans (val100_args (launchContents m c) main_arg17 (by decide))),
      (h c main_arg18).trans ((congrFun (after_ops (launchContents m c)) _).trans (val100_args (launchContents m c) main_arg18 (by decide))),
      (h c main_arg19).trans ((congrFun (after_ops (launchContents m c)) _).trans (val100_args (launchContents m c) main_arg19 (by decide))),
      (h c main_arg20).trans ((congrFun (after_ops (launchContents m c)) _).trans (val100_args (launchContents m c) main_arg20 (by decide))),
      (h c main_arg21).trans ((congrFun (after_ops (launchContents m c)) _).trans (val100_args (launchContents m c) main_arg21 (by decide))),
      (h c main_arg22).trans ((congrFun (after_ops (launchContents m c)) _).trans (val100_args (launchContents m c) main_arg22 (by decide))),
      (h c main_arg23).trans ((congrFun (after_ops (launchContents m c)) _).trans (val100_args (launchContents m c) main_arg23 (by decide)))⟩)
    (run_seq scopedRefs_eq scopedSems_eq defs main (fun _ => ops) main_eq (fun _ => ops_sub) m ρ (fun _ => ops_fresh))

end Cert.ReferenceIdeal.RefRun

end
-- ==== Proof.LibGatherRows.lean ====
/-
  WHOLE-ROW GATHERS READ AT AN INDEX.

  What `x[idx]` of a table `x : [N, C]` (or `[N, A, B]`) at an integer vector `idx : [E]` lowers to:
  the index words are first normalised (a negative word has `N` added), the normalised vector is broadcast to
  a column `[E, 1]`, and `stablehlo.gather` reads whole rows: offset_dims the trailing axes, collapsed_slice_dims
  `[0]`, start_index_map `[0]`, index_vector_dim `1`, slice_sizes one row. The gather reads its start index as a
  signed integer and clamps it so that the slice fits, here into `[0, N − 1]`. This file names the row that is
  read for an index word (`rowOf`) and reads the printed normalisation, the broadcast column and the gather
  at an index.
-/
import Idealize.ShloMosaic.PureOps
import Idealize.ShloMosaic.Lib.ValueIdx

namespace Idealize.GatherRows

open Idealize.ShloMosaic Idealize.ShloMosaic.ValueIdx

/-! ## The row read for an index word -/

/-- The normalised index word: the word plus `n` when the word is negative as a signed integer, else the word
    (`i < 0 ? i + n : i`, the addition the machine's, on 32 bits). -/
def normWord (n i : BitVec 32) : BitVec 32 := if i.slt 0#32 then i + n else i

/-- The row of an `N`-row table read for the index word `i`: the normalised word (`N` added to a negative word)
    read as a signed integer and clamped into `[0, N − 1]`. -/
def rowOf (N : Nat) (hN : 0 < N) (i : BitVec 32) : Fin N :=
  ⟨min (normWord (BitVec.ofNat 32 N) i).toInt.toNat (N - 1), by omega⟩

theorem rowOf_val (N : Nat) (hN : 0 < N) (i : BitVec 32) :
    (rowOf N hN i).val = min (normWord (BitVec.ofNat 32 N) i).toInt.toNat (N - 1) := rfl

/-! ## The printed normalisation and the index column, read at a position -/

/-- THE NORMALISATION READ AT A POSITION: `select (idx < 0) (idx + n) idx` with the two constants broadcast from
    scalars is, at every position, the normalised word of the index there. -/
theorem normalise_apply {s : Shape} (idx : IVec s 32) (n : BitVec 32)
    (hz hn : (⟨0, ![]⟩ : Shape).BroadcastsInDim s (![] : Fin 0 → Fin s.rank)) (j : s.Idx) :
    select (cmpi .slt idx (broadcastInDim s ![] hz (constantI ⟨0, ![]⟩ 32 0#32)))
        (addi idx (broadcastInDim s ![] hn (constantI ⟨0, ![]⟩ 32 n))) idx j
      = normWord n (idx j) := by
  show Scalar.select (IntOp.cmpi .slt (idx j) 0#32) (IntOp.addi (idx j) n) (idx j) = normWord n (idx j)
  unfold normWord Scalar.select IntOp.cmpi IntOp.addi
  cases h : (idx j).slt 0#32
  · simp
  · simp

/-- THE INDEX COLUMN READ AT A POSITION: a vector `[E]` broadcast to a column `[E, 1]` reads, at `(e, 0)`, the
    vector at `e`. -/
theorem column_apply {α : Type} {E : Nat} (h : (⟨1, ![E]⟩ : Shape).BroadcastsInDim ⟨2, ![E, 1]⟩ (![0] : Fin 1 → Fin 2))
    (v : (⟨1, ![E]⟩ : Shape).Idx → α) (e : Fin E) (z : Fin 1) :
    broadcastInDim (⟨2, ![E, 1]⟩ : Shape) ![0] h v (ix2 e z) = v (ix1 e) := by
  unfold broadcastInDim
  refine congrArg v (funext fun a => ?_)
  obtain rfl : a = 0 := Subsingleton.elim _ _
  refine Fin.ext ?_
  by_cases h1 : (⟨1, ![E]⟩ : Shape).size 0 = 1
  · rw [dif_pos h1]
    have : E = 1 := h1
    have := e.isLt
    show 0 = e.val
    omega
  · rw [dif_neg h1]; rfl

/-! ## The whole-row gather of a rank-2 table -/

section Rows
variable {α : Type}

/-- The dimension numbers of a whole-row gather: operand `[N, C]`, start indices a column `[E, 1]`, result `[E, C]`;
    their conditions `wf` are decided on a program's literal shapes. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE GATHER READ AT `(e, c)`: column `c` of the operand's row at the start index `col[e, 0]`, read signed and
    clamped into `[0, N − 1]`. -/
theorem gather_rowDims_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (col : IVec ⟨2, ![E, 1]⟩ w) (e : Fin E) (c : Fin C) :
    Host.gather (rowDims N E C wf) x col (ix2 e c)
      = x (ix2 (⟨min (col (ix2 e 0)).toInt.toNat (N - 1), by omega⟩ : Fin N) c) := by
  unfold Host.gather
  congr 1
  funext a
  refine Fin.ext ?_
  show (rowDims N E C wf).start (ix2 e c) col a + (rowDims N E C wf).batchCoord (ix2 e c) a
      + (rowDims N E C wf).offCoord (ix2 e c) a = _
  rw [GatherDims.batchCoord_eq_zero _ _ _ List.not_mem_nil, Nat.add_zero]
  have h0 : (rowDims N E C wf).start (ix2 e c) col 0 + (rowDims N E C wf).offCoord (ix2 e c) 0
      = min (col (ix2 e 0)).toInt.toNat (N - 1) := by
    rw [GatherDims.offCoord_eq_zero _ _ _ (fun h => ((GatherDims.mem_sKept _ _).mp h).1 (List.mem_singleton.mpr rfl)),
      Nat.add_zero]
    unfold GatherDims.start
    rw [dif_pos (show (0 : Fin 2) ∈ (rowDims N E C wf).startIndexMap from List.mem_singleton.mpr rfl)]
    have hsi : (rowDims N E C wf).siIdx (ix2 e c) ⟨List.idxOf (0 : Fin 2) (rowDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  have h1 : (rowDims N E C wf).start (ix2 e c) col 1 + (rowDims N E C wf).offCoord (ix2 e c) 1 = c.val := by
    unfold GatherDims.start
    rw [dif_neg (fun h : (1 : Fin 2) ∈ (rowDims N E C wf).startIndexMap =>
      Nat.one_ne_zero (congrArg Fin.val (List.mem_singleton.mp h))), Nat.zero_add]
    rfl
  match a with
  | ⟨0, _⟩ => exact h0
  | ⟨1, _⟩ => exact h1

/-- Dimension numbers with the whole-row fields are `rowDims` (whatever proof of their conditions they carry). -/
theorem eq_rowDims {N E C : Nat} (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) : ∃ wf, d = rowDims N E C wf := by
  obtain ⟨od, cd, ob, sb, sm, iv, ss, wf⟩ := d
  dsimp only at h1 h2 h3 h4 h5 h6 h7
  subst h1 h2 h3 h4 h5 h6 h7
  exact ⟨wf, rfl⟩

/-- THE WHOLE-ROW GATHER AT ANY INDEX COLUMN, for any dimension numbers with the whole-row fields: result `(e, c)` is
    column `c` of the operand's row at the start index `col[e, 0]`, read signed and clamped into `[0, N − 1]`. -/
theorem gather_rows_read {N E C w : Nat} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (col : IVec ⟨2, ![E, 1]⟩ w) (e : Fin E) (c : Fin C) :
    Host.gather d x col (ix2 e c)
      = x (ix2 (⟨min (col (ix2 e 0)).toInt.toNat (N - 1), by omega⟩ : Fin N) c) := by
  obtain ⟨wf, rfl⟩ := eq_rowDims d h1 h2 h3 h4 h5 h6 h7
  exact gather_rowDims_apply hN wf x col e c

/-- THE ROW GATHER OF A PROGRAM, READ AT `(e, c)`: with the index vector normalised as printed (`N` added to a negative
    word) and broadcast to a column, result `(e, c)` is column `c` of row `rowOf N (idx e)` of the operand. -/
theorem gather_rows_apply {N E C : Nat} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨1, ![E]⟩ 32)
    (hz hn : (⟨0, ![]⟩ : Shape).BroadcastsInDim ⟨1, ![E]⟩ (![] : Fin 0 → Fin 1))
    (hb : (⟨1, ![E]⟩ : Shape).BroadcastsInDim ⟨2, ![E, 1]⟩ (![0] : Fin 1 → Fin 2)) (e : Fin E) (c : Fin C) :
    Host.gather d x
        (broadcastInDim (⟨2, ![E, 1]⟩ : Shape) ![0] hb
          (select (cmpi .slt idx (broadcastInDim (⟨1, ![E]⟩ : Shape) ![] hz (constantI ⟨0, ![]⟩ 32 0#32)))
            (addi idx (broadcastInDim (⟨1, ![E]⟩ : Shape) ![] hn (constantI ⟨0, ![]⟩ 32 (BitVec.ofNat 32 N)))) idx))
        (ix2 e c)
      = x (ix2 (rowOf N hN (idx (ix1 e))) c) := by
  rw [gather_rows_read hN d h1 h2 h3 h4 h5 h6 h7]
  refine congrArg x (congrArg (fun r => ix2 r c) (Fin.ext ?_))
  change min _ (N - 1) = min _ (N - 1)
  rw [column_apply, normalise_apply]

end Rows

/-! ## The whole-row gather of a rank-3 table -/

section Rows3
variable {α : Type}

/-- The dimension numbers of a whole-row gather of a rank-3 table: operand `[N, A, B]`, start indices a column `[E, 1]`,
    result `[E, A, B]`. -/
abbrev rowDims3 (N E A B : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- THE RANK-3 GATHER READ AT `(e, a, b)`: element `(a, b)` of the operand's slab at the start index `col[e, 0]`, read
    signed and clamped into `[0, N − 1]`. -/
theorem gather_rowDims3_apply {N E A B w : Nat} (hN : 0 < N)
    (wf : GatherDims.WF ⟨3, ![N, A, B]⟩ ⟨2, ![E, 1]⟩ ⟨3, ![E, A, B]⟩ [1, 2] [0] [] [0] [] 1 ![1, A, B])
    (x : (⟨3, ![N, A, B]⟩ : Shape).Idx → α) (col : IVec ⟨2, ![E, 1]⟩ w) (e : Fin E) (a : Fin A) (b : Fin B) :
    Host.gather (rowDims3 N E A B wf) x col (ix3 e a b)
      = x (ix3 (⟨min (col (ix2 e 0)).toInt.toNat (N - 1), by omega⟩ : Fin N) a b) := by
  unfold Host.gather
  congr 1
  funext k
  refine Fin.ext ?_
  show (rowDims3 N E A B wf).start (ix3 e a b) col k + (rowDims3 N E A B wf).batchCoord (ix3 e a b) k
      + (rowDims3 N E A B wf).offCoord (ix3 e a b) k = _
  rw [GatherDims.batchCoord_eq_zero _ _ _ List.not_mem_nil, Nat.add_zero]
  have h0 : (rowDims3 N E A B wf).start (ix3 e a b) col 0 + (rowDims3 N E A B wf).offCoord (ix3 e a b) 0
      = min (col (ix2 e 0)).toInt.toNat (N - 1) := by
    rw [GatherDims.offCoord_eq_zero _ _ _ (fun h => ((GatherDims.mem_sKept _ _).mp h).1 (List.mem_singleton.mpr rfl)),
      Nat.add_zero]
    unfold GatherDims.start
    rw [dif_pos (show (0 : Fin 3) ∈ (rowDims3 N E A B wf).startIndexMap from List.mem_singleton.mpr rfl)]
    have hsi : (rowDims3 N E A B wf).siIdx (ix3 e a b) ⟨List.idxOf (0 : Fin 3) (rowDims3 N E A B wf).startIndexMap,
        List.idxOf_lt_length_iff.2 (List.mem_singleton.mpr rfl)⟩ = ix2 e 0 := by
      funext b'; refine Fin.ext ?_
      match b' with
      | ⟨0, _⟩ => rfl
      | ⟨1, _⟩ => rfl
    rw [hsi]
    rfl
  have h1 : (rowDims3 N E A B wf).start (ix3 e a b) col 1 + (rowDims3 N E A B wf).offCoord (ix3 e a b) 1 = a.val := by
    unfold GatherDims.start
    rw [dif_neg (fun h : (1 : Fin 3) ∈ (rowDims3 N E A B wf).startIndexMap =>
      Nat.one_ne_zero (congrArg Fin.val (List.mem_singleton.mp h))), Nat.zero_add]
    rfl
  have h2 : (rowDims3 N E A B wf).start (ix3 e a b) col 2 + (rowDims3 N E A B wf).offCoord (ix3 e a b) 2 = b.val := by
    unfold GatherDims.start
    rw [dif_neg (fun h : (2 : Fin 3) ∈ (rowDims3 N E A B wf).startIndexMap =>
      (by decide : (2 : Nat) ≠ 0) (congrArg Fin.val (List.mem_singleton.mp h))), Nat.zero_add]
    rfl
  match k with
  | ⟨0, _⟩ => exact h0
  | ⟨1, _⟩ => exact h1
  | ⟨2, _⟩ => exact h2

/-- Dimension numbers with the rank-3 whole-row fields are `rowDims3`. -/
theorem eq_rowDims3 {N E A B : Nat} (d : GatherDims ⟨3, ![N, A, B]⟩ ⟨2, ![E, 1]⟩ ⟨3, ![E, A, B]⟩)
    (h1 : d.offsetDims = [1, 2]) (h2 : d.collapsedSliceDims = [0]) (h3 : d.operandBatchingDims = [])
    (h4 : d.startIndicesBatchingDims = []) (h5 : d.startIndexMap = [0]) (h6 : d.indexVectorDim = 1)
    (h7 : d.sliceSizes = ![1, A, B]) : ∃ wf, d = rowDims3 N E A B wf := by
  obtain ⟨od, cd, ob, sb, sm, iv, ss, wf⟩ := d
  dsimp only at h1 h2 h3 h4 h5 h6 h7
  subst h1 h2 h3 h4 h5 h6 h7
  exact ⟨wf, rfl⟩

/-- THE RANK-3 WHOLE-ROW GATHER AT ANY INDEX COLUMN, for any dimension numbers with those fields. -/
theorem gather_rows3_read {N E A B w : Nat} (hN : 0 < N) (d : GatherDims ⟨3, ![N, A, B]⟩ ⟨2, ![E, 1]⟩ ⟨3, ![E, A, B]⟩)
    (h1 : d.offsetDims = [1, 2]) (h2 : d.collapsedSliceDims = [0]) (h3 : d.operandBatchingDims = [])
    (h4 : d.startIndicesBatchingDims = []) (h5 : d.startIndexMap = [0]) (h6 : d.indexVectorDim = 1)
    (h7 : d.sliceSizes = ![1, A, B])
    (x : (⟨3, ![N, A, B]⟩ : Shape).Idx → α) (col : IVec ⟨2, ![E, 1]⟩ w) (e : Fin E) (a : Fin A) (b : Fin B) :
    Host.gather d x col (ix3 e a b)
      = x (ix3 (⟨min (col (ix2 e 0)).toInt.toNat (N - 1), by omega⟩ : Fin N) a b) := by
  obtain ⟨wf, rfl⟩ := eq_rowDims3 d h1 h2 h3 h4 h5 h6 h7
  exact gather_rowDims3_apply hN wf x col e a b

/-- THE RANK-3 ROW GATHER OF A PROGRAM, READ AT `(e, a, b)`: with the index vector normalised as printed and broadcast
    to a column, result `(e, a, b)` is element `(a, b)` of slab `rowOf N (idx e)` of the operand. -/
theorem gather_rows3_apply {N E A B : Nat} (hN : 0 < N) (d : GatherDims ⟨3, ![N, A, B]⟩ ⟨2, ![E, 1]⟩ ⟨3, ![E, A, B]⟩)
    (h1 : d.offsetDims = [1, 2]) (h2 : d.collapsedSliceDims = [0]) (h3 : d.operandBatchingDims = [])
    (h4 : d.startIndicesBatchingDims = []) (h5 : d.startIndexMap = [0]) (h6 : d.indexVectorDim = 1)
    (h7 : d.sliceSizes = ![1, A, B])
    (x : (⟨3, ![N, A, B]⟩ : Shape).Idx → α) (idx : IVec ⟨1, ![E]⟩ 32)
    (hz hn : (⟨0, ![]⟩ : Shape).BroadcastsInDim ⟨1, ![E]⟩ (![] : Fin 0 → Fin 1))
    (hb : (⟨1, ![E]⟩ : Shape).BroadcastsInDim ⟨2, ![E, 1]⟩ (![0] : Fin 1 → Fin 2))
    (e : Fin E) (a : Fin A) (b : Fin B) :
    Host.gather d x
        (broadcastInDim (⟨2, ![E, 1]⟩ : Shape) ![0] hb
          (select (cmpi .slt idx (broadcastInDim (⟨1, ![E]⟩ : Shape) ![] hz (constantI ⟨0, ![]⟩ 32 0#32)))
            (addi idx (broadcastInDim (⟨1, ![E]⟩ : Shape) ![] hn (constantI ⟨0, ![]⟩ 32 (BitVec.ofNat 32 N)))) idx))
        (ix3 e a b)
      = x (ix3 (rowOf N hN (idx (ix1 e))) a b) := by
  rw [gather_rows3_read hN d h1 h2 h3 h4 h5 h6 h7]
  refine congrArg x (congrArg (fun r => ix3 r a b) (Fin.ext ?_))
  change min _ (N - 1) = min _ (N - 1)
  rw [column_apply, normalise_apply]

end Rows3

end Idealize.GatherRows
-- ==== Proof.LibScatterRows3.lean ====
/-
  RANK-3 ROW SCATTER-ADDS READ AT AN INDEX.

  A segment sum of per-edge slabs u : [E, A, C] into the N slabs of a table [N, A, C], at a row vector broadcast to
  a column [E, 1], lowers to stablehlo.scatter with an add body: update window axes [1, 2], inserted window axes [0],
  scatter-dims-to-operand-dims [0], index vector axis 1. The scatter reads its start index as a signed integer and
  does not clamp it: update (e, a, c) lands at (row[e], a, c) when 0 ≤ row[e] < N and is dropped otherwise. On the
  extended reals the result at (n, a, c) is therefore the operand there plus the sum, over the edges e whose index
  word read signed is n, of u (e, a, c).
-/
import Idealize.ShloMosaic.PureOps
import Idealize.ShloMosaic.PureOps.Ideal
import Idealize.ShloMosaic.Lib.ValueIdx

namespace Idealize.ScatterRows3

open Idealize.ShloMosaic Idealize.ShloMosaic.ValueIdx

/-- The dimension numbers of a rank-3 row scatter: operand [N, A, C], scatter indices a column [E, 1], updates
    [E, A, C]; their conditions wf are decided on a program's literal shapes. -/
abbrev rowScatter3 (N E A C : Nat)
    (wf : ScatterDims.WF ⟨3, ![N, A, C]⟩ ⟨2, ![E, 1]⟩ ⟨3, ![E, A, C]⟩ [1, 2] [0] [0] 1) :
    ScatterDims ⟨3, ![N, A, C]⟩ ⟨2, ![E, 1]⟩ ⟨3, ![E, A, C]⟩ where
  updateWindowDims := [1, 2]
  insertedWindowDims := [0]
  scatterDimsToOperandDims := [0]
  indexVectorDim := 1
  wf := wf

section
variable {N E A C w : Nat}
  (wf : ScatterDims.WF ⟨3, ![N, A, C]⟩ ⟨2, ![E, 1]⟩ ⟨3, ![E, A, C]⟩ [1, 2] [0] [0] 1)
  (idx : IVec ⟨2, ![E, 1]⟩ w)

/-- On the slab axis the window of update j starts at the index word idx[j 0, 0] read as a signed integer. -/
theorem start_zero (j : (⟨3, ![E, A, C]⟩ : Shape).Idx) :
    (rowScatter3 N E A C wf).start j idx 0 = (idx (ix2 (j 0) 0)).toInt := by
  unfold ScatterDims.start
  rw [dif_pos (show (0 : Fin 3) ∈ (rowScatter3 N E A C wf).scatterDimsToOperandDims from List.mem_singleton.mpr rfl)]
  have hsi : (rowScatter3 N E A C wf).siIdx j ⟨List.idxOf (0 : Fin 3) (rowScatter3 N E A C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  exact congrArg (fun i => (idx i).toInt) hsi

/-- On the other two axes the window starts at 0: the start index names the slab axis only. -/
theorem start_one (j : (⟨3, ![E, A, C]⟩ : Shape).Idx) : (rowScatter3 N E A C wf).start j idx 1 = 0 := by
  unfold ScatterDims.start
  rw [dif_neg (fun h : (1 : Fin 3) ∈ (rowScatter3 N E A C wf).scatterDimsToOperandDims =>
    Nat.one_ne_zero (congrArg Fin.val (List.mem_singleton.mp h)))]

theorem start_two (j : (⟨3, ![E, A, C]⟩ : Shape).Idx) : (rowScatter3 N E A C wf).start j idx 2 = 0 := by
  unfold ScatterDims.start
  rw [dif_neg (fun h : (2 : Fin 3) ∈ (rowScatter3 N E A C wf).scatterDimsToOperandDims =>
    (by decide : (2 : Nat) ≠ 0) (congrArg Fin.val (List.mem_singleton.mp h)))]

/-- The slab axis is an inserted window axis: the window coordinate there is 0. -/
theorem window_zero (j : (⟨3, ![E, A, C]⟩ : Shape).Idx) : (rowScatter3 N E A C wf).window j 0 = 0 := by
  unfold ScatterDims.window
  rw [dif_neg (fun h : (0 : Fin 3) ∈ (rowScatter3 N E A C wf).sKept =>
    (of_decide_eq_true (List.mem_filter.mp h).2) (List.mem_singleton.mpr rfl))]

/-- On the two window axes the window coordinate of update j is j's own coordinate. -/
theorem window_one (j : (⟨3, ![E, A, C]⟩ : Shape).Idx) : (rowScatter3 N E A C wf).window j 1 = (j 1).val := by
  unfold ScatterDims.window
  rw [dif_pos (show (1 : Fin 3) ∈ (rowScatter3 N E A C wf).sKept from
    List.mem_filter.mpr ⟨List.mem_finRange _, decide_eq_true (fun h : (1 : Fin 3) ∈ ([0] : List (Fin 3)) =>
      Nat.one_ne_zero (congrArg Fin.val (List.mem_singleton.mp h)))⟩)]
  rfl

theorem window_two (j : (⟨3, ![E, A, C]⟩ : Shape).Idx) : (rowScatter3 N E A C wf).window j 2 = (j 2).val := by
  unfold ScatterDims.window
  rw [dif_pos (show (2 : Fin 3) ∈ (rowScatter3 N E A C wf).sKept from
    List.mem_filter.mpr ⟨List.mem_finRange _, decide_eq_true (fun h : (2 : Fin 3) ∈ ([0] : List (Fin 3)) =>
      (by decide : (2 : Nat) ≠ 0) (congrArg Fin.val (List.mem_singleton.mp h)))⟩)]
  rfl

/-- WHERE AN UPDATE LANDS: update j lands at (n, a, c) exactly when its index word, read signed, is n and its
    window coordinates are (a, c). -/
theorem lands_iff (j : (⟨3, ![E, A, C]⟩ : Shape).Idx) (n : Fin N) (a : Fin A) (c : Fin C) :
    (rowScatter3 N E A C wf).resultIdx? j idx = some (ix3 n a c)
      ↔ (idx (ix2 (j 0) 0)).toInt = (n.val : Int) ∧ j 1 = a ∧ j 2 = c := by
  have ha : (j 1).val < A := (j 1).isLt
  have hc : (j 2).val < C := (j 2).isLt
  have hn : n.val < N := n.isLt
  unfold ScatterDims.resultIdx?
  constructor
  · intro h
    split at h
    · rename_i hin
      have hi := Option.some.inj h
      have h0 : ((rowScatter3 N E A C wf).start j idx 0 + ((rowScatter3 N E A C wf).window j 0 : Nat)).toNat = n.val :=
        congrArg Fin.val (congrFun hi 0)
      have h1 : ((rowScatter3 N E A C wf).start j idx 1 + ((rowScatter3 N E A C wf).window j 1 : Nat)).toNat = a.val :=
        congrArg Fin.val (congrFun hi 1)
      have h2 : ((rowScatter3 N E A C wf).start j idx 2 + ((rowScatter3 N E A C wf).window j 2 : Nat)).toNat = c.val :=
        congrArg Fin.val (congrFun hi 2)
      have hb0 := (hin 0).1
      rw [start_zero, window_zero] at h0 hb0
      rw [start_one, window_one] at h1
      rw [start_two, window_two] at h2
      exact ⟨by omega, Fin.ext (by omega), Fin.ext (by omega)⟩
    · exact absurd h (by simp)
  · rintro ⟨h0, h1, h2⟩
    have hin0 : 0 ≤ (rowScatter3 N E A C wf).start j idx 0 + ((rowScatter3 N E A C wf).window j 0 : Nat)
        ∧ (rowScatter3 N E A C wf).start j idx 0 + ((rowScatter3 N E A C wf).window j 0 : Nat) < (N : Nat) := by
      rw [start_zero, window_zero, h0]; exact ⟨by omega, by omega⟩
    have hin1 : 0 ≤ (rowScatter3 N E A C wf).start j idx 1 + ((rowScatter3 N E A C wf).window j 1 : Nat)
        ∧ (rowScatter3 N E A C wf).start j idx 1 + ((rowScatter3 N E A C wf).window j 1 : Nat) < (A : Nat) := by
      rw [start_one, window_one]; exact ⟨by omega, by omega⟩
    have hin2 : 0 ≤ (rowScatter3 N E A C wf).start j idx 2 + ((rowScatter3 N E A C wf).window j 2 : Nat)
        ∧ (rowScatter3 N E A C wf).start j idx 2 + ((rowScatter3 N E A C wf).window j 2 : Nat) < (C : Nat) := by
      rw [start_two, window_two]; exact ⟨by omega, by omega⟩
    have hin : ∀ k : Fin 3, 0 ≤ (rowScatter3 N E A C wf).start j idx k + ((rowScatter3 N E A C wf).window j k : Nat)
        ∧ (rowScatter3 N E A C wf).start j idx k + ((rowScatter3 N E A C wf).window j k : Nat)
          < ((⟨3, ![N, A, C]⟩ : Shape).size k : Nat) := by
      intro k
      match k with
      | ⟨0, _⟩ => exact hin0
      | ⟨1, _⟩ => exact hin1
      | ⟨2, _⟩ => exact hin2
    rw [dif_pos hin]
    refine congrArg some (funext fun k => Fin.ext ?_)
    match k with
    | ⟨0, _⟩ => show ((rowScatter3 N E A C wf).start j idx 0 + ((rowScatter3 N E A C wf).window j 0 : Nat)).toNat = n.val
                rw [start_zero, window_zero, h0]; omega
    | ⟨1, _⟩ => show ((rowScatter3 N E A C wf).start j idx 1 + ((rowScatter3 N E A C wf).window j 1 : Nat)).toNat = a.val
                rw [start_one, window_one, h1]; omega
    | ⟨2, _⟩ => show ((rowScatter3 N E A C wf).start j idx 2 + ((rowScatter3 N E A C wf).window j 2 : Nat)).toNat = c.val
                rw [start_two, window_two, h2]; omega

/-- THE ROW SCATTER-ADD READ AT (n, a, c), on the extended reals: the operand there plus the sum over the edges whose
    index word read signed is n of the update at (e, a, c). -/
theorem scatterAdd_rowScatter3_apply (x : (⟨3, ![N, A, C]⟩ : Shape).Idx → EReal)
    (upd : (⟨3, ![E, A, C]⟩ : Shape).Idx → EReal) (n : Fin N) (a : Fin A) (c : Fin C) :
    Ideal.hostScatterAdd (rowScatter3 N E A C wf) x idx upd (ix3 n a c)
      = x (ix3 n a c) + ∑ e : Fin E, if (idx (ix2 e 0)).toInt = (n.val : Int) then upd (ix3 e a c) else 0 := by
  unfold Ideal.hostScatterAdd
  refine congrArg (x (ix3 n a c) + ·) ?_
  rw [← Finset.sum_filter]
  refine Finset.sum_nbij' (fun j => j 0) (fun e => ix3 e a c) ?_ ?_ ?_ ?_ ?_
  · intro j hj
    have := ((lands_iff wf idx j n a c).mp (Finset.mem_filter.mp hj).2).1
    exact Finset.mem_filter.mpr ⟨Finset.mem_univ _, this⟩
  · intro e he
    exact Finset.mem_filter.mpr ⟨Finset.mem_univ _,
      (lands_iff wf idx (ix3 e a c) n a c).mpr ⟨(Finset.mem_filter.mp he).2, rfl, rfl⟩⟩
  · intro j hj
    obtain ⟨-, h1, h2⟩ := (lands_iff wf idx j n a c).mp (Finset.mem_filter.mp hj).2
    rw [← h1, ← h2]; exact (eq_ix3 j).symm
  · intro e _; rfl
  · intro j hj
    obtain ⟨-, h1, h2⟩ := (lands_iff wf idx j n a c).mp (Finset.mem_filter.mp hj).2
    rw [← h1, ← h2]; exact congrArg upd (eq_ix3 j)

end

/-- Dimension numbers with the rank-3 row-scatter fields are rowScatter3 (whatever proof of their conditions they carry). -/
theorem eq_rowScatter3 {N E A C : Nat} (d : ScatterDims ⟨3, ![N, A, C]⟩ ⟨2, ![E, 1]⟩ ⟨3, ![E, A, C]⟩)
    (h1 : d.updateWindowDims = [1, 2]) (h2 : d.insertedWindowDims = [0]) (h3 : d.scatterDimsToOperandDims = [0])
    (h4 : d.indexVectorDim = 1) : ∃ wf, d = rowScatter3 N E A C wf := by
  obtain ⟨uw, iw, sd, iv, wf⟩ := d
  dsimp only at h1 h2 h3 h4
  subst h1 h2 h3 h4
  exact ⟨wf, rfl⟩

/-- THE ROW SCATTER-ADD OF A PROGRAM READ AT (n, a, c), for any dimension numbers with the rank-3 row-scatter fields. -/
theorem scatterAdd_rows3_apply {N E A C w : Nat} (d : ScatterDims ⟨3, ![N, A, C]⟩ ⟨2, ![E, 1]⟩ ⟨3, ![E, A, C]⟩)
    (h1 : d.updateWindowDims = [1, 2]) (h2 : d.insertedWindowDims = [0]) (h3 : d.scatterDimsToOperandDims = [0])
    (h4 : d.indexVectorDim = 1) (x : FVec Ideal ⟨3, ![N, A, C]⟩ .f32) (idx : IVec ⟨2, ![E, 1]⟩ w)
    (upd : FVec Ideal ⟨3, ![E, A, C]⟩ .f32) (n : Fin N) (a : Fin A) (c : Fin C) :
    Host.scatterAdd d x idx upd (ix3 n a c)
      = x (ix3 n a c) + ∑ e : Fin E, if (idx (ix2 e 0)).toInt = (n.val : Int) then upd (ix3 e a c) else 0 := by
  obtain ⟨wf, rfl⟩ := eq_rowScatter3 d h1 h2 h3 h4
  exact scatterAdd_rowScatter3_apply wf idx x upd n a c

end Idealize.ScatterRows3
-- ==== Proof.LibBatchDot.lean ====
/-
  A BATCHED MATRIX PRODUCT READ AT AN INDEX.

  A product of G matrices M × K by G matrices K × N, matrix by matrix (both operands' axis 0 a batch axis, the left
  operand contracted on its last axis, the right one on its middle axis), has one contraction axis of extent K. At the
  exact instance the host's dot_general is, at the output index (g, p, q), the plain sum over k of the left operand at
  (g, p, k) times the right operand at (g, k, q).
-/
import Idealize.ShloMosaic.PureOps
import Idealize.ShloMosaic.PureOps.Ideal.Laws
import Idealize.ShloMosaic.Lib.ValueIdx

namespace Idealize.BatchDot

open Idealize.ShloMosaic Idealize.ShloMosaic.ValueIdx

/-- The dimension numbers of a batched product; their conditions wf are decided on a program's literal shapes. -/
abbrev batchDims (G M K N : Nat)
    (wf : DotDims.WF ⟨3, ![G, M, K]⟩ ⟨3, ![G, K, N]⟩ ⟨3, ![G, M, N]⟩ [2] [1] [1] [2] [0] [0]) :
    DotDims ⟨3, ![G, M, K]⟩ ⟨3, ![G, K, N]⟩ ⟨3, ![G, M, N]⟩ where
  lhsContracting := [2]
  rhsContracting := [1]
  lhsNonContracting := [1]
  rhsNonContracting := [2]
  lhsBatch := [0]
  rhsBatch := [0]
  wf := wf

/-- Dimension numbers with the batched fields are batchDims (whatever proof of their conditions they carry). -/
theorem eq_batchDims {G M K N : Nat} (d : DotDims ⟨3, ![G, M, K]⟩ ⟨3, ![G, K, N]⟩ ⟨3, ![G, M, N]⟩)
    (h1 : d.lhsContracting = [2]) (h2 : d.rhsContracting = [1]) (h3 : d.lhsNonContracting = [1])
    (h4 : d.rhsNonContracting = [2]) (h5 : d.lhsBatch = [0]) (h6 : d.rhsBatch = [0]) :
    ∃ wf, d = batchDims G M K N wf := by
  obtain ⟨lc, rc, ln, rn, lb, rb, wf⟩ := d
  dsimp only at h1 h2 h3 h4 h5 h6
  subst h1 h2 h3 h4 h5 h6
  exact ⟨wf, rfl⟩

/-- THE CONTRACTION AS A PLAIN SUM: at output (g, p, q), the sum over the one contraction axis of the products of the
    operands at the dot's operand indices is the sum over k : Fin K of l (g, p, k) * r (g, k, q). -/
theorem batch_sum {G M K N : Nat}
    (wf : DotDims.WF ⟨3, ![G, M, K]⟩ ⟨3, ![G, K, N]⟩ ⟨3, ![G, M, N]⟩ [2] [1] [1] [2] [0] [0])
    (l : (⟨3, ![G, M, K]⟩ : Shape).Idx → EReal) (r : (⟨3, ![G, K, N]⟩ : Shape).Idx → EReal)
    (g : Fin G) (p : Fin M) (q : Fin N) :
    ∑ k : (batchDims G M K N wf).contr.Idx,
        l ((batchDims G M K N wf).lhsIdx (ix3 g p q) k) * r ((batchDims G M K N wf).rhsIdx (ix3 g p q) k)
      = ∑ k : Fin K, l (ix3 g p k) * r (ix3 g k q) := by
  rw [← Equiv.sum_comp (contrEquiv1 (batchDims G M K N wf) K rfl rfl).symm]
  refine Finset.sum_congr rfl fun k _ => ?_
  have hk := contrEquiv1_symm_val (batchDims G M K N wf) K rfl rfl k
  have el : (batchDims G M K N wf).lhsIdx (ix3 g p q) ((contrEquiv1 (batchDims G M K N wf) K rfl rfl).symm k) = ix3 g p k :=
    funext fun a => Fin.ext (by
      match a with
      | ⟨0, _⟩ => rfl
      | ⟨1, _⟩ => rfl
      | ⟨2, _⟩ => exact ((batchDims G M K N wf).lhsIdx_val_of_single rfl (ix3 g p q) _).trans hk)
  have er : (batchDims G M K N wf).rhsIdx (ix3 g p q) ((contrEquiv1 (batchDims G M K N wf) K rfl rfl).symm k) = ix3 g k q :=
    funext fun a => Fin.ext (by
      match a with
      | ⟨0, _⟩ => rfl
      | ⟨1, _⟩ => exact ((batchDims G M K N wf).rhsIdx_val_of_single rfl (ix3 g p q) _).trans hk
      | ⟨2, _⟩ => rfl)
  rw [el, er]

/-- THE HOST'S BATCHED dot_general, read at (g, p, q). -/
theorem dotGeneral_apply {G M K N : Nat} {φ₁ φ₂ : FTy} (d : DotDims ⟨3, ![G, M, K]⟩ ⟨3, ![G, K, N]⟩ ⟨3, ![G, M, N]⟩)
    (h1 : d.lhsContracting = [2]) (h2 : d.rhsContracting = [1]) (h3 : d.lhsNonContracting = [1])
    (h4 : d.rhsNonContracting = [2]) (h5 : d.lhsBatch = [0]) (h6 : d.rhsBatch = [0])
    (prec : Option ContractPrecision)
    (l : FVec Ideal ⟨3, ![G, M, K]⟩ φ₁) (r : FVec Ideal ⟨3, ![G, K, N]⟩ φ₂) (g : Fin G) (p : Fin M) (q : Fin N) :
    Host.dotGeneral d prec l r (ix3 g p q) = ∑ k : Fin K, l (ix3 g p k) * r (ix3 g k q) := by
  obtain ⟨wf, rfl⟩ := eq_batchDims d h1 h2 h3 h4 h5 h6
  simp only [Host.dotGeneral]
  rw [Ideal.dotGeneral_apply]
  exact batch_sum wf l r g p q

end Idealize.BatchDot
-- ==== Proof.RefRead1.lean ====
/-
  THE REFERENCE READ AT AN INDEX, PART 1: the node features and the first message-passing layer.

  Each stage of the reference is read at an index from the stages of its operands, down to the argument arrays:
  the stacked node features [4, B, 2]; the self-loop products; the per-edge messages (a gather of the source
  node's features by the constant table src, a batched product, a bias); their segment sum by the constant table
  dst (a scatter-add into zeros); the biases; tanh. The result is the specification's x1.
-/
import proofs.«131937_j13331578487072_2_alg».proof.Proof.RefStages
import proofs.«131937_j13331578487072_2_alg».proof.Proof.Spec
import proofs.«131937_j13331578487072_2_alg».proof.Proof.LibGatherRows
import proofs.«131937_j13331578487072_2_alg».proof.Proof.LibScatterRows3
import proofs.«131937_j13331578487072_2_alg».proof.Proof.LibBatchDot
import Idealize.ShloMosaic.Lib.Pipeline.Value
import Idealize.ShloMosaic.Lib.ValueLayout
import Idealize.ShloMosaic.Lib.ValueIdx
import Idealize.ShloMosaic.PureOps.Ideal.Laws

noncomputable section

namespace Cert.ReferenceIdeal.RefRead

open Cert.ReferenceIdeal Cert.ReferenceIdeal.Gen Cert.ReferenceIdeal.RefRun Idealize.ShloMosaic Idealize.ShloMosaic.ValueIdx
open Cert.Spec

variable (X : Cert.Spec.Args Ideal)

/-! ## The host's elementwise functions at an index -/

theorem hostTanh_apply {s : Shape} (x : FVec Ideal s .f32) (i : s.Idx) : Host.tanh x i = Ideal.tanh (x i) := rfl
theorem hostExp_apply {s : Shape} (x : FVec Ideal s .f32) (i : s.Idx) : Host.exp x i = Ideal.exp (x i) := rfl
theorem hostDivf_apply {s : Shape} (a b : FVec Ideal s .f32) (i : s.Idx) : Host.divf a b i = Ideal.div (a i) (b i) := rfl

/-! ## The constant tables -/

/-- The position of a rank-1 index in row-major order is its one coordinate. -/
theorem rowMajor_ix1 (e : Fin 6) : S6.rowMajor (ix1 e) = e := Fin.ext (Shape.rowMajor_val_one _)

/-- The gather reads, for edge e, the row of node src e. -/
theorem rowOf_lit0 (e : Fin 6) : Idealize.GatherRows.rowOf 4 (by decide) (lit0 e) = src e := by
  fin_cases e <;> rfl

/-- The scatter's index word of edge e, read signed, is node dst e. -/
theorem toInt_lit1 (e : Fin 6) : (lit1 e).toInt = ((dst e).val : Int) := by
  fin_cases e <;> rfl

theorem toInt_lit1_iff (e : Fin 6) (n : Fin 4) : (lit1 e).toInt = (n.val : Int) ↔ dst e = n := by
  rw [toInt_lit1]
  constructor
  · intro h; exact Fin.ext (by exact_mod_cast h)
  · rintro rfl; rfl

/-! ## The node features -/

theorem v0_apply (b : Fin 1048576) (i : Fin 2) :
    res_main_v0 X (ix2 b i) = X.obs (ix2 b (⟨6 + i.val, by omega⟩ : Fin 8)) := by
  unfold res_main_v0
  exact slice2_axis1_apply 6 X.obs _ b i _ rfl

theorem v1_apply (b : Fin 1048576) (i : Fin 2) :
    res_main_v1 X (ix2 b i) = X.obs (ix2 b (⟨i.val, by omega⟩ : Fin 8)) := by
  unfold res_main_v1
  exact slice2_axis1_apply 0 X.obs _ b i _ (Nat.zero_add _).symm

/-- A [B, 2] matrix given a leading unit axis reads, at (0, b, i), the matrix at (b, i). -/
theorem lead_apply (x : FVec Ideal S1048576x2 .f32) (z : Fin 1) (b : Fin 1048576) (i : Fin 2) :
    broadcastInDim S1x1048576x2 ![1, 2] bcast_S1048576x2_S1x1048576x2_1_2 x (ix3 z b i) = x (ix2 b i) :=
  broadcastInDim_apply _ _ x _ _ fun a => by
    match a with
    | ⟨0, _⟩ => rfl
    | ⟨1, _⟩ => rfl

/-- The stacked node features: node n of row b. -/
theorem v6_apply (n : Fin 4) (b : Fin 1048576) (i : Fin 2) :
    res_main_v6 X (ix3 n b i) = node (rowU X b) (rowP X b) (rowQ X b) n i := by
  have hi : ∀ (n : Fin 4) (b' : Fin 3), b'.cast (rfl : S1x1048576x2.rank = S4x1048576x2.rank) ≠ (0 : Fin 3) →
      ((ix3 (0 : Fin 1) b i : S1x1048576x2.Idx) b').val = ((ix3 n b i : S4x1048576x2.Idx) (b'.cast rfl)).val := by
    intro n b' hb'
    match b' with
    | ⟨0, _⟩ => exact absurd rfl hb'
    | ⟨1, _⟩ => rfl
    | ⟨2, _⟩ => rfl
  unfold res_main_v6
  match n with
  | ⟨0, hn⟩ =>
    refine (concatenate_apply_piece 0 [⟨S1x1048576x2, res_main_v2 X⟩, ⟨S1x1048576x2, res_main_v3 X⟩, ⟨S1x1048576x2, res_main_v4 X⟩, ⟨S1x1048576x2, res_main_v5 X⟩] concatenates_S1x1048576x2_S1x1048576x2_S1x1048576x2_S1x1048576x2_S4x1048576x2_d0 (ix3 (⟨0, hn⟩ : Fin 4) b i) 0 (by simp) S1x1048576x2 (res_main_v2 X) rfl rfl 0 rfl
      (ix3 0 b i) (hi _) rfl).trans ?_
    unfold res_main_v2
    rw [lead_apply, v0_apply]; rfl
  | ⟨1, hn⟩ =>
    refine (concatenate_apply_piece 0 [⟨S1x1048576x2, res_main_v2 X⟩, ⟨S1x1048576x2, res_main_v3 X⟩, ⟨S1x1048576x2, res_main_v4 X⟩, ⟨S1x1048576x2, res_main_v5 X⟩] concatenates_S1x1048576x2_S1x1048576x2_S1x1048576x2_S1x1048576x2_S4x1048576x2_d0 (ix3 (⟨1, hn⟩ : Fin 4) b i) 1 (by simp) S1x1048576x2 (res_main_v3 X) rfl rfl 1 rfl
      (ix3 0 b i) (hi _) rfl).trans ?_
    unfold res_main_v3
    rw [lead_apply]; rfl
  | ⟨2, hn⟩ =>
    refine (concatenate_apply_piece 0 [⟨S1x1048576x2, res_main_v2 X⟩, ⟨S1x1048576x2, res_main_v3 X⟩, ⟨S1x1048576x2, res_main_v4 X⟩, ⟨S1x1048576x2, res_main_v5 X⟩] concatenates_S1x1048576x2_S1x1048576x2_S1x1048576x2_S1x1048576x2_S4x1048576x2_d0 (ix3 (⟨2, hn⟩ : Fin 4) b i) 2 (by simp) S1x1048576x2 (res_main_v4 X) rfl rfl 2 rfl
      (ix3 0 b i) (hi _) rfl).trans ?_
    unfold res_main_v4
    rw [lead_apply]; rfl
  | ⟨3, hn⟩ =>
    refine (concatenate_apply_piece 0 [⟨S1x1048576x2, res_main_v2 X⟩, ⟨S1x1048576x2, res_main_v3 X⟩, ⟨S1x1048576x2, res_main_v4 X⟩, ⟨S1x1048576x2, res_main_v5 X⟩] concatenates_S1x1048576x2_S1x1048576x2_S1x1048576x2_S1x1048576x2_S4x1048576x2_d0 (ix3 (⟨3, hn⟩ : Fin 4) b i) 3 (by simp) S1x1048576x2 (res_main_v5 X) rfl rfl 3 rfl
      (ix3 0 b i) (hi _) rfl).trans ?_
    unfold res_main_v5
    rw [lead_apply, v1_apply]; rfl

/-! ## Layer 1 -/

theorem v7_apply (n : Fin 4) (b : Fin 1048576) (c : Fin 4) :
    res_main_v7 X (ix3 n b c) = loop1 X.W (rowU X b) (rowP X b) (rowQ X b) n c := by
  unfold res_main_v7 loop1
  rw [Idealize.BatchDot.dotGeneral_apply _ rfl rfl rfl rfl rfl rfl]
  exact Finset.sum_congr rfl fun i _ => by rw [v6_apply]

/-- The gathered source features of edge e. -/
theorem v14_apply (e : Fin 6) (b : Fin 1048576) (i : Fin 2) :
    res_main_v14 X (ix3 e b i) = node (rowU X b) (rowP X b) (rowQ X b) (src e) i := by
  unfold res_main_v14 res_main_v13 res_main_v12 res_main_v11 res_main_v10 res_main_v9 res_main_v8 res_main_c_1 res_main_c_2
  rw [Idealize.GatherRows.gather_rows3_apply (by decide : 0 < 4) _ rfl rfl rfl rfl rfl rfl rfl]
  rw [← v6_apply]
  refine congrArg (fun r => res_main_v6 X (ix3 r b i)) ?_
  unfold res_main_c
  rw [rowMajor_ix1]
  exact rowOf_lit0 e

theorem v15_apply (e : Fin 6) (b : Fin 1048576) (c : Fin 4) :
    res_main_v15 X (ix3 e b c) = ∑ i : Fin 2, node (rowU X b) (rowP X b) (rowQ X b) (src e) i * X.W.W1 (ix3 e i c) := by
  unfold res_main_v15
  rw [Idealize.BatchDot.dotGeneral_apply _ rfl rfl rfl rfl rfl rfl]
  exact Finset.sum_congr rfl fun i _ => by rw [v14_apply]

theorem v16_apply (e : Fin 6) (b : Fin 1048576) (c : Fin 4) :
    res_main_v16 X (ix3 e b c) = X.W.m_bias1 (ix3 e 0 c) := by
  unfold res_main_v16
  exact broadcastInDim_apply _ _ _ _ _ fun a => by
    match a with
    | ⟨0, _⟩ => rfl
    | ⟨1, _⟩ => rfl
    | ⟨2, _⟩ => rfl

theorem v17_apply (e : Fin 6) (b : Fin 1048576) (c : Fin 4) :
    res_main_v17 X (ix3 e b c) = msg1 X.W (rowU X b) (rowP X b) (rowQ X b) e c := by
  unfold res_main_v17 msg1
  rw [addf_apply, v15_apply, v16_apply]

theorem v18_apply (j : S4x1048576x4.Idx) : res_main_v18 X j = 0 := by
  unfold res_main_v18 res_main_cst
  exact Ideal.ofBits_zero_f32

/-- The scatter's index column at edge e is the table dst at e. -/
theorem v19_apply (e : Fin 6) : res_main_v19 X (ix2 e 0) = lit1 e := by
  unfold res_main_v19
  rw [Idealize.GatherRows.column_apply]
  unfold res_main_c_0
  rw [rowMajor_ix1]

theorem v20_apply (n : Fin 4) (b : Fin 1048576) (c : Fin 4) :
    res_main_v20 X (ix3 n b c) = agg1 X.W (rowU X b) (rowP X b) (rowQ X b) n c := by
  unfold res_main_v20 agg1
  rw [Idealize.ScatterRows3.scatterAdd_rows3_apply _ rfl rfl rfl rfl, v18_apply, zero_add]
  refine Finset.sum_congr rfl fun e _ => ?_
  rw [v19_apply, v17_apply]
  exact if_congr (toInt_lit1_iff e n) rfl rfl

theorem v21_apply (n : Fin 4) (b : Fin 1048576) (c : Fin 4) :
    res_main_v21 X (ix3 n b c) = X.W.h_bias1 (ix3 n 0 c) := by
  unfold res_main_v21
  exact broadcastInDim_apply _ _ _ _ _ fun a => by
    match a with
    | ⟨0, _⟩ => rfl
    | ⟨1, _⟩ => rfl
    | ⟨2, _⟩ => rfl

/-- Layer 1 after tanh is the specification's x1. -/
theorem v24_apply (n : Fin 4) (b : Fin 1048576) (c : Fin 4) :
    res_main_v24 X (ix3 n b c) = x1 X.W (rowU X b) (rowP X b) (rowQ X b) n c := by
  unfold res_main_v24 res_main_v23 res_main_v22 x1
  rw [hostTanh_apply, addf_apply, addf_apply, v20_apply, v21_apply, v7_apply]

end Cert.ReferenceIdeal.RefRead

end
-- ==== Proof.RefRead2.lean ====
/-
  THE REFERENCE READ AT AN INDEX, PART 2: the second message-passing layer, the graph latent, the eight features
  and the shared layer.
-/
import proofs.«131937_j13331578487072_2_alg».proof.Proof.RefRead1
import proofs.«131937_j13331578487072_2_alg».proof.Proof.LibPlainDot

noncomputable section

namespace Cert.ReferenceIdeal.RefRead

open Cert.ReferenceIdeal Cert.ReferenceIdeal.Gen Cert.ReferenceIdeal.RefRun Idealize.ShloMosaic Idealize.ShloMosaic.ValueIdx
open Cert.Spec

variable (X : Cert.Spec.Args Ideal)

/-! ## Layer 2 -/

theorem v25_apply (n : Fin 4) (b : Fin 1048576) (z : Fin 1) :
    res_main_v25 X (ix3 n b z) = loop2 X.W (rowU X b) (rowP X b) (rowQ X b) n := by
  obtain rfl : z = 0 := Subsingleton.elim _ _
  unfold res_main_v25 loop2
  rw [Idealize.BatchDot.dotGeneral_apply _ rfl rfl rfl rfl rfl rfl]
  exact Finset.sum_congr rfl fun k _ => by rw [v24_apply]

theorem v32_apply (e : Fin 6) (b : Fin 1048576) (k : Fin 4) :
    res_main_v32 X (ix3 e b k) = x1 X.W (rowU X b) (rowP X b) (rowQ X b) (src e) k := by
  unfold res_main_v32 res_main_v31 res_main_v30 res_main_v29 res_main_v28 res_main_v27 res_main_v26 res_main_c_3 res_main_c_4
  rw [Idealize.GatherRows.gather_rows3_apply (by decide : 0 < 4) _ rfl rfl rfl rfl rfl rfl rfl]
  rw [← v24_apply]
  refine congrArg (fun r => res_main_v24 X (ix3 r b k)) ?_
  unfold res_main_c
  rw [rowMajor_ix1]
  exact rowOf_lit0 e

theorem v35_apply (e : Fin 6) (b : Fin 1048576) (z : Fin 1) :
    res_main_v35 X (ix3 e b z) = msg2 X.W (rowU X b) (rowP X b) (rowQ X b) e := by
  obtain rfl : z = 0 := Subsingleton.elim _ _
  unfold res_main_v35 res_main_v33 res_main_v34 msg2
  rw [addf_apply, Idealize.BatchDot.dotGeneral_apply _ rfl rfl rfl rfl rfl rfl]
  refine congrArg₂ (· + ·) (Finset.sum_congr rfl fun k _ => by rw [v32_apply]) ?_
  exact broadcastInDim_apply _ _ _ _ _ fun a => by
    match a with
    | ⟨0, _⟩ => rfl
    | ⟨1, _⟩ => rfl
    | ⟨2, _⟩ => rfl

theorem v36_apply (j : S4x1048576x1.Idx) : res_main_v36 X j = 0 := by
  unfold res_main_v36 res_main_cst_5
  exact Ideal.ofBits_zero_f32

theorem v37_apply (e : Fin 6) : res_main_v37 X (ix2 e 0) = lit1 e := by
  unfold res_main_v37
  rw [Idealize.GatherRows.column_apply]
  unfold res_main_c_0
  rw [rowMajor_ix1]

theorem v38_apply (n : Fin 4) (b : Fin 1048576) (z : Fin 1) :
    res_main_v38 X (ix3 n b z) = agg2 X.W (rowU X b) (rowP X b) (rowQ X b) n := by
  unfold res_main_v38 agg2
  rw [Idealize.ScatterRows3.scatterAdd_rows3_apply _ rfl rfl rfl rfl, v36_apply, zero_add]
  refine Finset.sum_congr rfl fun e _ => ?_
  rw [v37_apply, v35_apply]
  exact if_congr (toInt_lit1_iff e n) rfl rfl

/-- Layer 2 before tanh, with its unit axis. -/
theorem v41_apply (n : Fin 4) (b : Fin 1048576) (z : Fin 1) :
    res_main_v41 X (ix3 n b z)
      = (agg2 X.W (rowU X b) (rowP X b) (rowQ X b) n + X.W.h_bias2 (ix3 n 0 0)) + loop2 X.W (rowU X b) (rowP X b) (rowQ X b) n := by
  unfold res_main_v41 res_main_v40 res_main_v39
  rw [addf_apply, addf_apply, v38_apply, v25_apply]
  refine congrArg (fun t => (_ + t) + _) ?_
  obtain rfl : z = 0 := Subsingleton.elim _ _
  exact broadcastInDim_apply _ _ _ _ _ fun a => by
    match a with
    | ⟨0, _⟩ => rfl
    | ⟨1, _⟩ => rfl
    | ⟨2, _⟩ => rfl

/-- The graph output, transposed to [B, 4]: node n of row b. -/
theorem v44_apply (b : Fin 1048576) (n : Fin 4) :
    res_main_v44 X (ix2 b n) = gout X.W (rowU X b) (rowP X b) (rowQ X b) n := by
  unfold res_main_v44
  rw [transpose_ix2_apply]
  unfold res_main_v43 res_main_v42 gout
  rw [hostTanh_apply, shapeCast_apply (res_main_v41 X) _ (ix2 n b) (ix3 n b 0)
    (by rw [Shape.rowMajor_val_three, Shape.rowMajor_val_two]; simp), v41_apply]

/-! ## The graph latent, the features, the shared layer -/

/-- A vector [C] broadcast to a row [1, C] and then to [B, C] reads, at (b, j), the vector at j. -/
theorem v47_apply (b : Fin 1048576) (j : Fin 4) : res_main_v47 X (ix2 b j) = X.W.fe_b (ix1 j) := by
  unfold res_main_v47 res_main_v46
  rw [broadcastInDim_apply _ _ _ _ (ix2 0 j) (fun a => by
    match a with
    | ⟨0, _⟩ => rfl
    | ⟨1, _⟩ => rfl)]
  exact broadcastInDim_apply _ _ _ _ _ fun a => by
    match a with
    | ⟨0, _⟩ => rfl

theorem v49_apply (b : Fin 1048576) (j : Fin 4) :
    res_main_v49 X (ix2 b j) = glat X.W (rowU X b) (rowP X b) (rowQ X b) j := by
  unfold res_main_v49 res_main_v48 res_main_v45 glat
  have hd : dot_S1048576x4_S4x4_S1048576x4_1_0_0_1_n_n = DotDims.plain 1048576 4 4 :=
    Idealize.PlainDot.eq_plain _ rfl rfl rfl rfl rfl rfl
  rw [hostTanh_apply, addf_apply, v47_apply]
  refine congrArg (fun t => Ideal.tanh (t + X.W.fe_b (ix1 j))) ?_
  refine (Idealize.PlainDot.dotGeneral_apply _ hd none _ _ _ _).trans ?_
  exact Finset.sum_congr rfl fun k _ => by rw [v44_apply]

theorem v50_apply (b : Fin 1048576) (k : Fin 4) :
    res_main_v50 X (ix2 b k) = X.obs (ix2 b (⟨2 + k.val, by omega⟩ : Fin 8)) := by
  unfold res_main_v50
  exact slice2_axis1_apply 2 X.obs _ b k _ rfl

/-- The eight features of row b. -/
theorem v51_apply (b : Fin 1048576) (k : Fin 8) :
    res_main_v51 X (ix2 b k) = feat X.W (rowU X b) (rowP X b) (rowQ X b) k := by
  unfold res_main_v51 feat
  by_cases h : k.val < 4
  · rw [dif_pos h]
    refine (concatenate_pair_apply_left (s₁ := S1048576x4) (s₂ := S1048576x4) 1 _ _ _ (ix2 b k) rfl (ix2 b (⟨k.val, h⟩ : Fin 4)) (fun a => by
      match a with
      | ⟨0, _⟩ => rfl
      | ⟨1, _⟩ => rfl)).trans ?_
    exact v49_apply X b _
  · rw [dif_neg h]
    refine (concatenate_pair_apply_right (s₁ := S1048576x4) (s₂ := S1048576x4) 1 _ _ _ (ix2 b k) rfl rfl (ix2 b (⟨k.val - 4, by omega⟩ : Fin 4)) (fun a ha => by
      match a with
      | ⟨0, _⟩ => rfl
      | ⟨1, _⟩ => exact absurd rfl ha) (by show k.val - 4 + 4 = k.val; omega)).trans ?_
    rw [v50_apply]
    unfold rowU
    exact congrArg (fun t => X.obs (ix2 b t)) (Fin.ext (by show 2 + (k.val - 4) = k.val - 4 + 2; omega))

theorem v54_apply (b : Fin 1048576) (j : Fin 64) : res_main_v54 X (ix2 b j) = X.W.common_b (ix1 j) := by
  unfold res_main_v54 res_main_v53
  rw [broadcastInDim_apply _ _ _ _ (ix2 0 j) (fun a => by
    match a with
    | ⟨0, _⟩ => rfl
    | ⟨1, _⟩ => rfl)]
  exact broadcastInDim_apply _ _ _ _ _ fun a => by
    match a with
    | ⟨0, _⟩ => rfl

/-- The shared layer. -/
theorem v56_apply (b : Fin 1048576) (j : Fin 64) :
    res_main_v56 X (ix2 b j) = shared X.W (rowU X b) (rowP X b) (rowQ X b) j := by
  unfold res_main_v56 res_main_v55 res_main_v52 shared
  have hd : dot_S1048576x8_S8x64_S1048576x64_1_0_0_1_n_n = DotDims.plain 1048576 8 64 :=
    Idealize.PlainDot.eq_plain _ rfl rfl rfl rfl rfl rfl
  rw [hostTanh_apply, addf_apply, v54_apply]
  refine congrArg (fun t => Ideal.tanh (t + X.W.common_b (ix1 j))) ?_
  refine (Idealize.PlainDot.dotGeneral_apply _ hd none _ _ _ _).trans ?_
  exact Finset.sum_congr rfl fun k _ => by rw [v51_apply]

end Cert.ReferenceIdeal.RefRead

end
-- ==== Proof.RefRead3.lean ====
/-
  THE REFERENCE READ AT AN INDEX, PART 3: the policy head (the mean action), the value head, and the
  log-probability, whose deviation the reference computes as the mean action minus itself.
-/
import proofs.«131937_j13331578487072_2_alg».proof.Proof.RefRead2

noncomputable section

namespace Cert.ReferenceIdeal.RefRead

open Cert.ReferenceIdeal Cert.ReferenceIdeal.Gen Cert.ReferenceIdeal.RefRun Idealize.ShloMosaic Idealize.ShloMosaic.ValueIdx
open Cert.Spec

variable (X : Cert.Spec.Args Ideal)

/-- A vector [C] broadcast to a row [1, C] and then to [B, C] reads, at (b, j), the vector at j. -/
theorem row64_apply (v : FVec Ideal S64 .f32) (b : Fin 1048576) (j : Fin 64) :
    broadcastInDim S1048576x64 ![0, 1] bcast_S1x64_S1048576x64_0_1 (broadcastInDim S1x64 ![1] bcast_S64_S1x64_1 v) (ix2 b j)
      = v (ix1 j) := by
  rw [broadcastInDim_apply _ _ _ _ (ix2 0 j) (fun a => by
    match a with
    | ⟨0, _⟩ => rfl
    | ⟨1, _⟩ => rfl)]
  exact broadcastInDim_apply _ _ _ _ _ fun a => by
    match a with
    | ⟨0, _⟩ => rfl

theorem row2_apply (v : FVec Ideal S2 .f32) (b : Fin 1048576) (j : Fin 2) :
    broadcastInDim S1048576x2 ![0, 1] bcast_S1x2_S1048576x2_0_1 (broadcastInDim S1x2 ![1] bcast_S2_S1x2_1 v) (ix2 b j)
      = v (ix1 j) := by
  rw [broadcastInDim_apply _ _ _ _ (ix2 0 j) (fun a => by
    match a with
    | ⟨0, _⟩ => rfl
    | ⟨1, _⟩ => rfl)]
  exact broadcastInDim_apply _ _ _ _ _ fun a => by
    match a with
    | ⟨0, _⟩ => rfl

theorem row1_apply (v : FVec Ideal S1 .f32) (b : Fin 1048576) (j : Fin 1) :
    broadcastInDim S1048576x1 ![0, 1] bcast_S1x1_S1048576x1_0_1 (broadcastInDim S1x1 ![1] bcast_S1_S1x1_1 v) (ix2 b j)
      = v (ix1 j) := by
  obtain rfl : j = 0 := Subsingleton.elim _ _
  rw [broadcastInDim_apply _ _ _ _ (ix2 0 0) (fun a => by
    match a with
    | ⟨0, _⟩ => rfl
    | ⟨1, _⟩ => rfl)]
  exact broadcastInDim_apply _ _ _ _ _ fun a => by
    match a with
    | ⟨0, _⟩ => rfl

/-- A scalar constant broadcast to [B, 2] reads the constant's value everywhere. -/
theorem splat2_apply (w : BitVec 32) (j : S1048576x2.Idx) :
    broadcastInDim S1048576x2 ![] bcast_S_S1048576x2 (constant (F := Ideal) S_ .f32 w) j = Ideal.ofBits .f32 w := rfl

/-! ## The policy head -/

theorem v61_apply (b : Fin 1048576) (j : Fin 64) :
    res_main_v61 X (ix2 b j) = lpi X.W (rowU X b) (rowP X b) (rowQ X b) j := by
  unfold res_main_v61 res_main_v60 res_main_v59 res_main_v58 res_main_v57 lpi
  have hd : dot_S1048576x64_S64x64_S1048576x64_1_0_0_1_n_n = DotDims.plain 1048576 64 64 :=
    Idealize.PlainDot.eq_plain _ rfl rfl rfl rfl rfl rfl
  rw [hostTanh_apply, addf_apply, row64_apply]
  refine congrArg (fun t => Ideal.tanh (t + X.W.actor_b (ix1 j))) ?_
  refine (Idealize.PlainDot.dotGeneral_apply _ hd none _ _ _ _).trans ?_
  exact Finset.sum_congr rfl fun k _ => by rw [v56_apply]

/-- THE FIRST RESULT: the mean action. -/
theorem v65_apply (b : Fin 1048576) (j : Fin 2) :
    res_main_v65 X (ix2 b j) = mean X.W (rowU X b) (rowP X b) (rowQ X b) j := by
  unfold res_main_v65 res_main_v64 res_main_v63 res_main_v62 mean
  have hd : dot_S1048576x64_S64x2_S1048576x2_1_0_0_1_n_n = DotDims.plain 1048576 64 2 :=
    Idealize.PlainDot.eq_plain _ rfl rfl rfl rfl rfl rfl
  rw [addf_apply, row2_apply]
  refine congrArg (fun t => t + X.W.action_b (ix1 j)) ?_
  refine (Idealize.PlainDot.dotGeneral_apply _ hd none _ _ _ _).trans ?_
  exact Finset.sum_congr rfl fun k _ => by rw [v61_apply]

/-! ## The value head -/

theorem v84_apply (b : Fin 1048576) (j : Fin 64) :
    res_main_v84 X (ix2 b j) = lvf X.W (rowU X b) (rowP X b) (rowQ X b) j := by
  unfold res_main_v84 res_main_v83 res_main_v82 res_main_v81 res_main_v80 lvf
  have hd : dot_S1048576x64_S64x64_S1048576x64_1_0_0_1_n_n = DotDims.plain 1048576 64 64 :=
    Idealize.PlainDot.eq_plain _ rfl rfl rfl rfl rfl rfl
  rw [hostTanh_apply, addf_apply, row64_apply]
  refine congrArg (fun t => Ideal.tanh (t + X.W.critic_b (ix1 j))) ?_
  refine (Idealize.PlainDot.dotGeneral_apply _ hd none _ _ _ _).trans ?_
  exact Finset.sum_congr rfl fun k _ => by rw [v56_apply]

/-- THE SECOND RESULT: the value. -/
theorem v88_apply (b : Fin 1048576) (z : Fin 1) :
    res_main_v88 X (ix2 b z) = value X.W (rowU X b) (rowP X b) (rowQ X b) := by
  obtain rfl : z = 0 := Subsingleton.elim _ _
  unfold res_main_v88 res_main_v87 res_main_v86 res_main_v85 value
  have hd : dot_S1048576x64_S64x1_S1048576x1_1_0_0_1_n_n = DotDims.plain 1048576 64 1 :=
    Idealize.PlainDot.eq_plain _ rfl rfl rfl rfl rfl rfl
  rw [addf_apply, row1_apply]
  refine congrArg (fun t => t + X.W.value_b (ix1 0)) ?_
  refine (Idealize.PlainDot.dotGeneral_apply _ hd none _ _ _ _).trans ?_
  exact Finset.sum_congr rfl fun k _ => by rw [v84_apply]

/-! ## The log-probability -/

/-- One action dimension's term, with the deviation the reference computes: the mean action minus itself. -/
theorem v78_apply (b : Fin 1048576) (j : Fin 2) :
    res_main_v78 X (ix2 b j)
      = perdimOf X.W (mean X.W (rowU X b) (rowP X b) (rowQ X b) j - mean X.W (rowU X b) (rowP X b) (rowQ X b) j) j := by
  unfold res_main_v78 res_main_v77 res_main_cst_7 res_main_v76 res_main_v75 res_main_v74 res_main_v73 res_main_v72
    res_main_cst_6 res_main_v71 res_main_v70 res_main_v69 res_main_v68 res_main_v67 res_main_v66 perdimOf
  rw [subf_apply, subf_apply, mulf_apply, mulf_apply, hostDivf_apply, subf_apply, v65_apply, row2_apply, hostExp_apply,
    row2_apply, splat2_apply, splat2_apply]

/-- THE THIRD RESULT: the sum of the two action dimensions' terms. -/
theorem v79_apply (b : Fin 1048576) :
    res_main_v79 X (ix1 b)
      = ∑ j : Fin 2, perdimOf X.W (mean X.W (rowU X b) (rowP X b) (rowQ X b) j - mean X.W (rowU X b) (rowP X b) (rowQ X b) j) j := by
  unfold res_main_v79 res_main_cst_8
  simp only [Host.reduceAdd, Ideal.hostReduceAdd_def]
  rw [Ideal.hostReduceAdd_single reducesTo_S1048576x2_S1048576_d1 (by decide)]
  rw [constant_apply, Ideal.ofBits_zero_f32, zero_add]
  refine Finset.sum_congr rfl fun k _ => ?_
  exact (congrArg (res_main_v78 X)
    (funext fun a => Fin.ext (by match a with | ⟨0, _⟩ => rfl | ⟨1, _⟩ => rfl))).trans (v78_apply X b k)

end Cert.ReferenceIdeal.RefRead

end
-- ==== Proof.Finite.lean ====
/-
  FINITENESS.

  The mean action of a row is (∑ k, lpi k * action_w (k, j)) + action_b j, where lpi k is a hyperbolic tangent.
  On the extended reals the hyperbolic tangent takes only real values (-1 at -∞, 1 at +∞), so when the entries of
  action_w and action_b are real numbers the mean is a real number, and then mean - mean = 0.
  The second half reads, from the precondition "every |x| < +∞", that the entries of these two arrays are real.
-/
import proofs.«131937_j13331578487072_2_alg».proof.Defs
import proofs.«131937_j13331578487072_2_alg».proof.Proof.Gen.Pre_finite_inputs
import proofs.«131937_j13331578487072_2_alg».proof.Proof.Spec
import Idealize.ShloMosaic.Lib.ReduceAll

noncomputable section

namespace Cert.Finite

open Idealize.ShloMosaic Idealize.ShloMosaic.ValueIdx

/-- The hyperbolic tangent of an extended real is a real number. -/
theorem tanh_real (x : EReal) : ∃ r : ℝ, Ideal.tanh x = (r : EReal) := by
  induction x using EReal.rec with
  | bot => exact ⟨-1, by rw [Ideal.tanh_bot]; rfl⟩
  | coe r => exact ⟨Real.tanh r, rfl⟩
  | top => exact ⟨1, by rw [Ideal.tanh_top]; rfl⟩

/-- A finite sum of real numbers is a real number. -/
theorem sum_real {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := hf a (Finset.mem_insert_self a s)
    obtain ⟨t, ht⟩ := ih (fun i hi => hf i (Finset.mem_insert_of_mem hi))
    exact ⟨r + t, by rw [Finset.sum_insert ha, hr, ht, EReal.coe_add]⟩

/-- The mean action is a real number when the last layer's weights and bias are. -/
theorem mean_real (A : Cert.Spec.Weights Ideal) (u : Fin 8 → EReal) (p q : Fin 2 → EReal)
    (hw : ∀ i, ∃ r : ℝ, A.action_w i = (r : EReal)) (hb : ∀ i, ∃ r : ℝ, A.action_b i = (r : EReal))
    (j : Fin 2) : ∃ r : ℝ, Cert.Spec.mean A u p q j = (r : EReal) := by
  obtain ⟨s, hs⟩ := sum_real Finset.univ (fun k : Fin 64 => Cert.Spec.lpi A u p q k * A.action_w (ix2 k j))
    (fun k _ => by
      obtain ⟨a, ha⟩ := tanh_real ((∑ k' : Fin 64, Cert.Spec.shared A u p q k' * A.actor_w (ix2 k' k)) + A.actor_b (ix1 k))
      obtain ⟨w, hw'⟩ := hw (ix2 k j)
      exact ⟨a * w, by
        show Cert.Spec.lpi A u p q k * A.action_w (ix2 k j) = _
        unfold Cert.Spec.lpi
        rw [ha, hw', EReal.coe_mul]⟩)
  obtain ⟨b, hb'⟩ := hb (ix1 j)
  exact ⟨s + b, by unfold Cert.Spec.mean; rw [hs, hb', EReal.coe_add]⟩

/-- The deviation of the mean action from itself is zero. -/
theorem mean_sub_self (A : Cert.Spec.Weights Ideal) (u : Fin 8 → EReal) (p q : Fin 2 → EReal)
    (hw : ∀ i, ∃ r : ℝ, A.action_w i = (r : EReal)) (hb : ∀ i, ∃ r : ℝ, A.action_b i = (r : EReal))
    (j : Fin 2) : Cert.Spec.mean A u p q j - Cert.Spec.mean A u p q j = 0 := by
  obtain ⟨r, hr⟩ := mean_real A u p q hw hb j
  rw [hr, ← EReal.coe_sub, sub_self, EReal.coe_zero]

/-! ## From the precondition -/

instance : Subsingleton Cert.Pre_finite_inputs.S_.Idx := ⟨fun a b => funext fun d => d.elim0⟩

/-- The f32 word 0x7F800000 is +∞. -/
theorem inf_word : Ideal.ofBits .f32 0x7F800000#32 = (⊤ : EReal) := by
  simp [Ideal.ofBits, Ideal.ieee]

/-- An extended real whose absolute value is below +∞ is a real number. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have h' : BitVec.ofBool (decide (max x (-x) < Ideal.ofBits .f32 0x7F800000#32)) = 1#1 := h
  rw [inf_word] at h'
  induction x using EReal.rec with
  | bot => simp at h'
  | coe r => exact ⟨r, rfl⟩
  | top => simp at h'

/-- One conjunct of the precondition, "all (|x| < +∞)" over an array, says every entry is a real number. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi (cmpf .olt (Host.absf x) (broadcastInDim s ![] hb (constant Cert.Pre_finite_inputs.S_ .f32 0x7F800000#32))) init hr hu ix0 = 1#1)
    (i : s.Idx) : ∃ r : ℝ, x i = (r : EReal) :=
  real_of_abs_lt (x i) (Host.reduce_andi_all _ init hr hu ix0 e i)

/-- The precondition over any twenty-four arrays: its eighteenth and nineteenth conjuncts say that the entries of the
    [64, 2] array and of the first [2] array are real numbers. -/
theorem pre_real [Cert.Pre_finite_inputs.Facts] (a0 : FVec Ideal Cert.Pre_finite_inputs.S1048576x8 .f32) (a1 : FVec Ideal Cert.Pre_finite_inputs.S1048576x2 .f32) (a2 : FVec Ideal Cert.Pre_finite_inputs.S1048576x2 .f32) (a3 : FVec Ideal Cert.Pre_finite_inputs.S4x2x4 .f32) (a4 : FVec Ideal Cert.Pre_finite_inputs.S6x2x4 .f32) (a5 : FVec Ideal Cert.Pre_finite_inputs.S6x1x4 .f32) (a6 : FVec Ideal Cert.Pre_finite_inputs.S4x1x4 .f32) (a7 : FVec Ideal Cert.Pre_finite_inputs.S4x4x1 .f32) (a8 : FVec Ideal Cert.Pre_finite_inputs.S6x4x1 .f32) (a9 : FVec Ideal Cert.Pre_finite_inputs.S6x1x1 .f32) (a10 : FVec Ideal Cert.Pre_finite_inputs.S4x1x1 .f32) (a11 : FVec Ideal Cert.Pre_finite_inputs.S4x4 .f32) (a12 : FVec Ideal Cert.Pre_finite_inputs.S4 .f32) (a13 : FVec Ideal Cert.Pre_finite_inputs.S8x64 .f32) (a14 : FVec Ideal Cert.Pre_finite_inputs.S64 .f32) (a15 : FVec Ideal Cert.Pre_finite_inputs.S64x64 .f32) (a16 : FVec Ideal Cert.Pre_finite_inputs.S64 .f32) (a17 : FVec Ideal Cert.Pre_finite_inputs.S64x2 .f32) (a18 : FVec Ideal Cert.Pre_finite_inputs.S2 .f32) (a19 : FVec Ideal Cert.Pre_finite_inputs.S2 .f32) (a20 : FVec Ideal Cert.Pre_finite_inputs.S64x64 .f32) (a21 : FVec Ideal Cert.Pre_finite_inputs.S64 .f32) (a22 : FVec Ideal Cert.Pre_finite_inputs.S64x1 .f32) (a23 : FVec Ideal Cert.Pre_finite_inputs.S1 .f32)
    (e : Cert.Pre_finite_inputs.fn (F := Ideal) a0 a1 a2 a3 a4 a5 a6 a7 a8 a9 a10 a11 a12 a13 a14 a15 a16 a17 a18 a19 a20 a21 a22 a23 = (fun _ => 1#1)) :
    (∀ i, ∃ r : ℝ, a17 i = (r : EReal)) ∧ (∀ i, ∃ r : ℝ, a18 i = (r : EReal)) := by
  have e0 := congrFun e ix0
  unfold Cert.Pre_finite_inputs.fn Cert.Pre_finite_inputs.fn_part1 Cert.Pre_finite_inputs.fn_part2
    Cert.Pre_finite_inputs.fn_part3 Cert.Pre_finite_inputs.fn_part4 Cert.Pre_finite_inputs.fn_part5
    Cert.Pre_finite_inputs.fn_part6 at e0
  dsimp only at e0
  simp only [andi, IntOp.andi_eq_one] at e0
  exact ⟨all_real a17 _ _ _ _ e0.1.1.1.1.1.1.2, all_real a18 _ _ _ _ e0.1.1.1.1.1.2⟩

/-- The entries of action_w, the kernel's argument 17, are real numbers. -/
theorem action_w_real
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) (i : Cert.KernelIdeal.S64x2.Idx) :
    ∃ r : ℝ, m ((c.tc : Thread Cert.KernelIdeal.nD Cert.KernelIdeal.τ).loc Cert.KernelIdeal.main_arg17) i = (r : EReal) :=
  (@pre_real Cert.Pre_finite_inputs.Gen.facts _ _ _ _ _ _ _ _ _ _ _ _ _ _ _ _ _ _ _ _ _ _ _ _ (h c)).1 i

/-- The entries of action_b, the kernel's argument 18, are real numbers. -/
theorem action_b_real
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) (i : Cert.KernelIdeal.S2.Idx) :
    ∃ r : ℝ, m ((c.tc : Thread Cert.KernelIdeal.nD Cert.KernelIdeal.τ).loc Cert.KernelIdeal.main_arg18) i = (r : EReal) :=
  (@pre_real Cert.Pre_finite_inputs.Gen.facts _ _ _ _ _ _ _ _ _ _ _ _ _ _ _ _ _ _ _ _ _ _ _ _ (h c)).2 i

end Cert.Finite

end
-- ==== Proof.RefEq.lean ====
/-
  THE REFERENCE'S THREE RESULTS ARE THE SPECIFICATION'S ARRAYS.

  The mean actions and the values are the specification's functions at every index. The log-probability is the
  specification's once the deviation, which the reference computes as the mean action minus itself, is zero: it is
  when the mean action is a real number, and it is whenever the last policy layer's weights and biases are real.
-/
import proofs.«131937_j13331578487072_2_alg».proof.Proof.RefRead3
import proofs.«131937_j13331578487072_2_alg».proof.Proof.Finite

noncomputable section

namespace Cert.ReferenceIdeal.RefRead

open Cert.ReferenceIdeal Cert.ReferenceIdeal.RefRun Idealize.ShloMosaic Idealize.ShloMosaic.ValueIdx
open Cert.Spec

variable (X : Cert.Spec.Args Ideal)

theorem ref_act : res_main_v65 X = Gact X := funext fun i => by
  rw [eq_ix2 i]; exact v65_apply X _ _

theorem ref_val : res_main_v88 X = Gval X := funext fun i => by
  rw [eq_ix2 i]; exact v88_apply X _ _

theorem ref_logp (hw : ∀ i, ∃ r : ℝ, X.W.action_w i = (r : EReal)) (hb : ∀ i, ∃ r : ℝ, X.W.action_b i = (r : EReal)) :
    res_main_v79 X = Glogp X := funext fun i => by
  have hi : i = ix1 (i 0 : Fin 1048576) := eq_ix1 (n := 1048576) i
  refine (congrArg (res_main_v79 X) hi).trans ((v79_apply X (i 0)).trans ?_)
  show _ = ∑ j : Fin 2, perdimOf X.W 0 j
  exact Finset.sum_congr rfl fun j _ => by rw [Cert.Finite.mean_sub_self X.W _ _ _ hw hb j]

end Cert.ReferenceIdeal.RefRead

end
-- ==== Proof.lean ====
/-
  The claim: the kernel and its reference compute, on the extended reals, the same three arrays.

  Per batch row both programs run a four-node, six-edge message-passing network of two layers on the row's node
  features, then small dense layers: a policy head (the mean action), a value head, and the log-probability of the
  mean action under a diagonal Gaussian. The kernel does this block by block (256 blocks of 4096 rows), edge by
  edge and node by node; the reference does it for the whole batch with a gather by the edges' source table, batched
  products, and a scatter-add by the edges' target table. Both are the specification's row-wise functions
  (Proof/Spec.lean): the kernel's blocks are restrictions of the specification's arrays and cover them; the
  reference's stages read at an index are the specification's terms, the edge sums agreeing because addition on the
  extended reals is commutative and associative. The one place the precondition is used: the reference computes the
  Gaussian's deviation as the mean action minus itself, which is zero because the mean action is a real number when
  the last policy layer's parameters are finite.
  The frames of the two kernel programs are the generated ones; the reference's frame is its run with the results
  dropped; the idealization rewrote nothing.
-/
import proofs.«131937_j13331578487072_2_alg».proof.Defs
import proofs.«131937_j13331578487072_2_alg».proof.Proof.Gen.Kernel
import proofs.«131937_j13331578487072_2_alg».proof.Proof.Gen.Kernel.Frame
import proofs.«131937_j13331578487072_2_alg».proof.Proof.Gen.KernelIdeal
import proofs.«131937_j13331578487072_2_alg».proof.Proof.Gen.KernelIdeal.Frame
import proofs.«131937_j13331578487072_2_alg».proof.Proof.Gen.KernelIdeal.Value
import proofs.«131937_j13331578487072_2_alg».proof.Proof.Gen.ReferenceIdeal
import proofs.«131937_j13331578487072_2_alg».proof.Proof.Gen.Pre_finite_inputs
import proofs.«131937_j13331578487072_2_alg».proof.Proof.KernelFinal
import proofs.«131937_j13331578487072_2_alg».proof.Proof.RefRun
import proofs.«131937_j13331578487072_2_alg».proof.Proof.RefEq
import proofs.«131937_j13331578487072_2_alg».proof.Proof.Finite

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the three results dropped. -/
theorem frame_ri : Cert.frame_ReferenceIdeal := fun m ρ _ =>
  (θ_run Cert.ReferenceIdeal.defs _ _).mono (fun _ h c => (h c).2.2.2) (Cert.ReferenceIdeal.RefRun.run m ρ)

theorem preserves : Cert.preserves_Kernel_KernelIdeal := trivial

/-- Two parameter structures with equal fields are equal. -/
theorem weights_ext {F : FTy → Type} (a b : Cert.Spec.Weights F)
    (e3 : a.loop_w1 = b.loop_w1) (e4 : a.W1 = b.W1) (e5 : a.m_bias1 = b.m_bias1) (e6 : a.h_bias1 = b.h_bias1) (e7 : a.loop_w2 = b.loop_w2) (e8 : a.W2 = b.W2) (e9 : a.m_bias2 = b.m_bias2) (e10 : a.h_bias2 = b.h_bias2) (e11 : a.fe_w = b.fe_w) (e12 : a.fe_b = b.fe_b) (e13 : a.common_w = b.common_w) (e14 : a.common_b = b.common_b) (e15 : a.actor_w = b.actor_w) (e16 : a.actor_b = b.actor_b) (e17 : a.action_w = b.action_w) (e18 : a.action_b = b.action_b) (e19 : a.log_std = b.log_std) (e20 : a.critic_w = b.critic_w) (e21 : a.critic_b = b.critic_b) (e22 : a.value_w = b.value_w) (e23 : a.value_b = b.value_b) : a = b := by
  cases a; cases b
  simp only [Cert.Spec.Weights.mk.injEq]
  exact ⟨e3, e4, e5, e6, e7, e8, e9, e10, e11, e12, e13, e14, e15, e16, e17, e18, e19, e20, e21, e22, e23⟩

/-- Two argument structures with equal fields are equal. -/
theorem args_ext {F : FTy → Type} (a b : Cert.Spec.Args F) (e0 : a.obs = b.obs) (e1 : a.t1 = b.t1) (e2 : a.t2 = b.t2)
    (eW : a.W = b.W) : a = b := by
  cases a; cases b
  simp only [Cert.Spec.Args.mk.injEq]
  exact ⟨e0, e1, e2, eW⟩

/-- Memories that agree on the arguments give the two programs the same twenty-four arrays. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) :
    Cert.ReferenceIdeal.RefRun.argsOf m' c = Cert.KernelIdeal.Arrays.kargs m c := by
  obtain ⟨h0, h1, h2, h3, h4, h5, h6, h7, h8, h9, h10, h11, h12, h13, h14, h15, h16, h17, h18, h19, h20, h21, h22, h23⟩ := hagree
  exact args_ext _ _ h0 h1 h2 (weights_ext _ _ h3 h4 h5 h6 h7 h8 h9 h10 h11 h12 h13 h14 h15 h16 h17 h18 h19 h20 h21 h22 h23)

theorem algebraic : Cert.algebraic_KernelIdeal_ReferenceIdeal := by
  intro m ρ m' ρ' hpre hagree
  refine ⟨fun c => Cert.Spec.Gact (Cert.KernelIdeal.Arrays.kargs m c), fun c => Cert.Spec.Gval (Cert.KernelIdeal.Arrays.kargs m c),
    fun c => Cert.Spec.Glogp (Cert.KernelIdeal.Arrays.kargs m c), Cert.KernelIdeal.Arrays.run m ρ, ?_⟩
  refine (θ_run Cert.ReferenceIdeal.defs _ _).mono (fun _ h c => ?_) (Cert.ReferenceIdeal.RefRun.run m' ρ')
  have hX := args_agree m m' c (hagree c)
  refine ⟨(h c).1.trans ?_, (h c).2.1.trans ?_, (h c).2.2.1.trans ?_, (h c).2.2.2⟩
  · rw [hX]; exact Cert.ReferenceIdeal.RefRead.ref_act _
  · rw [hX]; exact Cert.ReferenceIdeal.RefRead.ref_val _
  · rw [hX]
    exact Cert.ReferenceIdeal.RefRead.ref_logp _ (Cert.Finite.action_w_real m hpre c) (Cert.Finite.action_b_real m hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
